-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x30 : Shape := ⟨2, ![524288, 30]⟩
abbrev S2x2097152 : Shape := ⟨2, ![2, 2097152]⟩
abbrev S524288 : Shape := ⟨1, ![524288]⟩
abbrev S16384x979 : Shape := ⟨2, ![16384, 979]⟩
abbrev S16384x881 : Shape := ⟨2, ![16384, 881]⟩
abbrev S30x64 : Shape := ⟨2, ![30, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S979x128 : Shape := ⟨2, ![979, 128]⟩
abbrev S1137x512 : Shape := ⟨2, ![1137, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S524288x30 : S_.BroadcastsInDim S524288x30 (![] : Fin 0 → Fin S524288x30.rank)
  reducesTo_S524288x30_S_d0_1 : S524288x30.ReducesTo [0, 1] S_
  h_S_ : 0 < S_.numel
  bcast_S_S16384x979 : S_.BroadcastsInDim S16384x979 (![] : Fin 0 → Fin S16384x979.rank)
  reducesTo_S16384x979_S_d0_1 : S16384x979.ReducesTo [0, 1] S_
  bcast_S_S16384x881 : S_.BroadcastsInDim S16384x881 (![] : Fin 0 → Fin S16384x881.rank)
  reducesTo_S16384x881_S_d0_1 : S16384x881.ReducesTo [0, 1] S_
  bcast_S_S30x64 : S_.BroadcastsInDim S30x64 (![] : Fin 0 → Fin S30x64.rank)
  reducesTo_S30x64_S_d0_1 : S30x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S979x128 : S_.BroadcastsInDim S979x128 (![] : Fin 0 → Fin S979x128.rank)
  reducesTo_S979x128_S_d0_1 : S979x128.ReducesTo [0, 1] S_
  bcast_S_S1137x512 : S_.BroadcastsInDim S1137x512 (![] : Fin 0 → Fin S1137x512.rank)
  reducesTo_S1137x512_S_d0_1 : S1137x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg20 : FVec F S1 .f32) (main_v83 : IVec S_ 1) (main_v84 : FVec F S256x1 .f32) (main_cst_32 : FVec F S_ .f32) : IVec S_ 1 :=
  let main_v85 : FVec F S256x1 .f32 := broadcastInDim S256x1 ![] bcast_S_S256x1 main_cst_32
  let main_v86 : IVec S256x1 1 := cmpf .olt main_v84 main_v85
  let main_c_33 : IVec S_ 1 := constantI S_ 1 1#1
  let main_v87 : IVec S_ 1 := (fun x v => Host.reduce IntOp.andi x v reducesTo_S256x1_S_d0_1 h_S_) main_v86 main_c_33
  let main_v88 : IVec S_ 1 := andi main_v83 main_v87
  let main_v89 : FVec F S1 .f32 := Host.absf main_arg20
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  main_v93

def fn_part4 {F : FTy → Type} [FloatOps F] (main_arg16 : FVec F S512 .f32) (main_arg17 : FVec F S512x256 .f32) (main_arg18 : FVec F S256 .f32) (main_arg19 : FVec F S256x1 .f32) (main_arg20 : FVec F S1 .f32) (main_v63 : IVec S_ 1) (main_v67 : IVec S_ 1) : IVec S_ 1 :=
  let main_v68 : IVec S_ 1 := andi main_v63 main_v67
  let main_v69 : FVec F S512 .f32 := Host.absf main_arg16
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512x256 .f32 := Host.absf main_arg17
  let main_cst_28 : FVec F S_ .f32 := constant S_ .f32 0x7F800000#32
  let main_v75 : FVec F S512x256 .f32 := broadcastInDim S512x256 ![] bcast_S_S512x256 main_cst_28
  let main_v76 : IVec S512x256 1 := cmpf .olt main_v74 main_v75
  let main_c_29 : IVec S_ 1 := constantI S_ 1 1#1
  let main_v77 : IVec S_ 1 := (fun x v => Host.reduce IntOp.andi x v reducesTo_S512x256_S_d0_1 h_S_) main_v76 main_c_29
  let main_v78 : IVec S_ 1 := andi main_v73 main_v77
  let main_v79 : FVec F S256 .f32 := Host.absf main_arg18
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x1 .f32 := Host.absf main_arg19
  let main_cst_32 : FVec F S_ .f32 := constant S_ .f32 0x7F800000#32
  fn_part5 (F := F) main_arg20 main_v83 main_v84 main_cst_32

def fn_part3 {F : FTy → Type} [FloatOps F] (main_arg13 : FVec F S979x128 .f32) (main_arg14 : FVec F S128 .f32) (main_arg15 : FVec F S1137x512 .f32) (main_arg16 : FVec F S512 .f32) (main_arg17 : FVec F S512x256 .f32) (main_arg18 : FVec F S256 .f32) (main_arg19 : FVec F S256x1 .f32) (main_arg20 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S979x128 .f32 := Host.absf main_arg13
  let main_cst_20 : FVec F S_ .f32 := constant S_ .f32 0x7F800000#32
  let main_v55 : FVec F S979x128 .f32 := broadcastInDim S979x128 ![] bcast_S_S979x128 main_cst_20
  let main_v56 : IVec S979x128 1 := cmpf .olt main_v54 main_v55
  let main_c_21 : IVec S_ 1 := constantI S_ 1 1#1
  let main_v57 : IVec S_ 1 := (fun x v => Host.reduce IntOp.andi x v reducesTo_S979x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S1137x512 .f32 := Host.absf main_arg15
  let main_cst_24 : FVec F S_ .f32 := constant S_ .f32 0x7F800000#32
  let main_v65 : FVec F S1137x512 .f32 := broadcastInDim S1137x512 ![] bcast_S_S1137x512 main_cst_24
  let main_v66 : IVec S1137x512 1 := cmpf .olt main_v64 main_v65
  let main_c_25 : IVec S_ 1 := constantI S_ 1 1#1
  let main_v67 : IVec S_ 1 := (fun x v => Host.reduce IntOp.andi x v reducesTo_S1137x512_S_d0_1 h_S_) main_v66 main_c_25
  fn_part4 (F := F) main_arg16 main_arg17 main_arg18 main_arg19 main_arg20 main_v63 main_v67

def fn_part2 {F : FTy → Type} [FloatOps F] (main_arg9 : FVec F S64x64 .f32) (main_arg10 : FVec F S64 .f32) (main_arg11 : FVec F S64x128 .f32) (main_arg12 : FVec F S128 .f32) (main_arg13 : FVec F S979x128 .f32) (main_arg14 : FVec F S128 .f32) (main_arg15 : FVec F S1137x512 .f32) (main_arg16 : FVec F S512 .f32) (main_arg17 : FVec F S512x256 .f32) (main_arg18 : FVec F S256 .f32) (main_arg19 : FVec F S256x1 .f32) (main_arg20 : FVec F S1 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x128 .f32 := Host.absf main_arg11
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_v48 main_v49 main_v50

def fn_part1 {F : FTy → Type} [FloatOps F] (main_arg6 : FVec F S64 .f32) (main_arg7 : FVec F S64x64 .f32) (main_arg8 : FVec F S64 .f32) (main_arg9 : FVec F S64x64 .f32) (main_arg10 : FVec F S64 .f32) (main_arg11 : FVec F S64x128 .f32) (main_arg12 : FVec F S128 .f32) (main_arg13 : FVec F S979x128 .f32) (main_arg14 : FVec F S128 .f32) (main_arg15 : FVec F S1137x512 .f32) (main_arg16 : FVec F S512 .f32) (main_arg17 : FVec F S512x256 .f32) (main_arg18 : FVec F S256 .f32) (main_arg19 : FVec F S256x1 .f32) (main_arg20 : FVec F S1 .f32) (main_v13 : IVec S_ 1) (main_v16 : IVec S30x64 1) : IVec S_ 1 :=
  let main_c_5 : IVec S_ 1 := constantI S_ 1 1#1
  let main_v17 : IVec S_ 1 := (fun x v => Host.reduce IntOp.andi x v reducesTo_S30x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_v33

def fn {F : FTy → Type} [FloatOps F] (main_arg0 : FVec F S524288x30 .f32) (main_arg1 : IVec S2x2097152 32) (main_arg2 : IVec S524288 32) (main_arg3 : FVec F S16384x979 .f32) (main_arg4 : FVec F S16384x881 .f32) (main_arg5 : FVec F S30x64 .f32) (main_arg6 : FVec F S64 .f32) (main_arg7 : FVec F S64x64 .f32) (main_arg8 : FVec F S64 .f32) (main_arg9 : FVec F S64x64 .f32) (main_arg10 : FVec F S64 .f32) (main_arg11 : FVec F S64x128 .f32) (main_arg12 : FVec F S128 .f32) (main_arg13 : FVec F S979x128 .f32) (main_arg14 : FVec F S128 .f32) (main_arg15 : FVec F S1137x512 .f32) (main_arg16 : FVec F S512 .f32) (main_arg17 : FVec F S512x256 .f32) (main_arg18 : FVec F S256 .f32) (main_arg19 : FVec F S256x1 .f32) (main_arg20 : FVec F S1 .f32) : IVec S_ 1 :=
  let main_v0 : FVec F S524288x30 .f32 := Host.absf main_arg0
  let main_cst : FVec F S_ .f32 := constant S_ .f32 0x7F800000#32
  let main_v1 : FVec F S524288x30 .f32 := broadcastInDim S524288x30 ![] bcast_S_S524288x30 main_cst
  let main_v2 : IVec S524288x30 1 := cmpf .olt main_v0 main_v1
  let main_c : IVec S_ 1 := constantI S_ 1 1#1
  let main_v3 : IVec S_ 1 := (fun x v => Host.reduce IntOp.andi x v reducesTo_S524288x30_S_d0_1 h_S_) main_v2 main_c
  let main_v4 : FVec F S16384x979 .f32 := Host.absf main_arg3
  let main_cst_0 : FVec F S_ .f32 := constant S_ .f32 0x7F800000#32
  let main_v5 : FVec F S16384x979 .f32 := broadcastInDim S16384x979 ![] bcast_S_S16384x979 main_cst_0
  let main_v6 : IVec S16384x979 1 := cmpf .olt main_v4 main_v5
  let main_c_1 : IVec S_ 1 := constantI S_ 1 1#1
  let main_v7 : IVec S_ 1 := (fun x v => Host.reduce IntOp.andi x v reducesTo_S16384x979_S_d0_1 h_S_) main_v6 main_c_1
  let main_v8 : IVec S_ 1 := andi main_v3 main_v7
  let main_v9 : FVec F S16384x881 .f32 := Host.absf main_arg4
  let main_cst_2 : FVec F S_ .f32 := constant S_ .f32 0x7F800000#32
  let main_v10 : FVec F S16384x881 .f32 := broadcastInDim S16384x881 ![] bcast_S_S16384x881 main_cst_2
  let main_v11 : IVec S16384x881 1 := cmpf .olt main_v9 main_v10
  let main_c_3 : IVec S_ 1 := constantI S_ 1 1#1
  let main_v12 : IVec S_ 1 := (fun x v => Host.reduce IntOp.andi x v reducesTo_S16384x881_S_d0_1 h_S_) main_v11 main_c_3
  let main_v13 : IVec S_ 1 := andi main_v8 main_v12
  let main_v14 : FVec F S30x64 .f32 := Host.absf main_arg5
  let main_cst_4 : FVec F S_ .f32 := constant S_ .f32 0x7F800000#32
  let main_v15 : FVec F S30x64 .f32 := broadcastInDim S30x64 ![] bcast_S_S30x64 main_cst_4
  let main_v16 : IVec S30x64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_v13 main_v16
-- ==== Kernel.lean ====
abbrev S524288x30 : Shape := ⟨2, ![524288, 30]⟩
abbrev S2x2097152 : Shape := ⟨2, ![2, 2097152]⟩
abbrev S524288 : Shape := ⟨1, ![524288]⟩
abbrev S16384x979 : Shape := ⟨2, ![16384, 979]⟩
abbrev S16384x881 : Shape := ⟨2, ![16384, 881]⟩
abbrev S30x64 : Shape := ⟨2, ![30, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S979x128 : Shape := ⟨2, ![979, 128]⟩
abbrev S1137x512 : Shape := ⟨2, ![1137, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S1x2097152 : Shape := ⟨2, ![1, 2097152]⟩
abbrev S2097152 : Shape := ⟨1, ![2097152]⟩
abbrev S2621440 : Shape := ⟨1, ![2621440]⟩
abbrev S_ : Shape := ⟨0, ![]⟩
abbrev S2621440x1 : Shape := ⟨2, ![2621440, 1]⟩
abbrev S524288x1 : Shape := ⟨2, ![524288, 1]⟩
abbrev S524288x64 : Shape := ⟨2, ![524288, 64]⟩
abbrev S4096x30 : Shape := ⟨2, ![4096, 30]⟩
abbrev S4096x1 : Shape := ⟨2, ![4096, 1]⟩
abbrev S4096x64 : Shape := ⟨2, ![4096, 64]⟩
abbrev S2621440x64 : Shape := ⟨2, ![2621440, 64]⟩
abbrev S1x64 : Shape := ⟨2, ![1, 64]⟩
abbrev S16384x64 : Shape := ⟨2, ![16384, 64]⟩
abbrev S16384 : Shape := ⟨1, ![16384]⟩
abbrev S16384x1 : Shape := ⟨2, ![16384, 1]⟩
abbrev S128x512 : Shape := ⟨2, ![128, 512]⟩
abbrev S881x512 : Shape := ⟨2, ![881, 512]⟩
abbrev S512x64 : Shape := ⟨2, ![512, 64]⟩
abbrev S512x979 : Shape := ⟨2, ![512, 979]⟩
abbrev S512x881 : Shape := ⟨2, ![512, 881]⟩
abbrev S512x1 : Shape := ⟨2, ![512, 1]⟩
abbrev S512x128 : Shape := ⟨2, ![512, 128]⟩
abbrev S1x128 : Shape := ⟨2, ![1, 128]⟩
abbrev S512x512 : Shape := ⟨2, ![512, 512]⟩
abbrev S1x512 : Shape := ⟨2, ![1, 512]⟩
abbrev S1x256 : Shape := ⟨2, ![1, 256]⟩
abbrev S1x1 : Shape := ⟨2, ![1, 1]⟩

abbrev nBuf : Space → Nat
  | .hbm => 112
  | .vmem => 50
  | .smem => 0
  | _ => 0

abbrev bufTy : (tb : Table) → Fin (tcTables nBuf tb) → BufTy
  | .hbm, ⟨0, _⟩ => ⟨S524288x30, .f32⟩
  | .hbm, ⟨1, _⟩ => ⟨S2x2097152, .i32⟩
  | .hbm, ⟨2, _⟩ => ⟨S524288, .i32⟩
  | .hbm, ⟨3, _⟩ => ⟨S16384x979, .f32⟩
  | .hbm, ⟨4, _⟩ => ⟨S16384x881, .f32⟩
  | .hbm, ⟨5, _⟩ => ⟨S30x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x128, .f32⟩
  | .hbm, ⟨12, _⟩ => ⟨S128, .f32⟩
  | .hbm, ⟨13, _⟩ => ⟨S979x128, .f32⟩
  | .hbm, ⟨14, _⟩ => ⟨S128, .f32⟩
  | .hbm, ⟨15, _⟩ => ⟨S1137x512, .f32⟩
  | .hbm, ⟨16, _⟩ => ⟨S512, .f32⟩
  | .hbm, ⟨17, _⟩ => ⟨S512x256, .f32⟩
  | .hbm, ⟨18, _⟩ => ⟨S256, .f32⟩
  | .hbm, ⟨19, _⟩ => ⟨S256x1, .f32⟩
  | .hbm, ⟨20, _⟩ => ⟨S1, .f32⟩
  | .hbm, ⟨21, _⟩ => ⟨S524288, .i32⟩
  | .hbm, ⟨22, _⟩ => ⟨S1x2097152, .i32⟩
  | .hbm, ⟨23, _⟩ => ⟨S2097152, .i32⟩
  | .hbm, ⟨24, _⟩ => ⟨S2621440, .i32⟩
  | .hbm, ⟨25, _⟩ => ⟨S1x2097152, .i32⟩
  | .hbm, ⟨26, _⟩ => ⟨S2097152, .i32⟩
  | .hbm, ⟨27, _⟩ => ⟨S2621440, .i32⟩
  | .hbm, ⟨28, _⟩ => ⟨S_, .f32⟩
  | .hbm, ⟨29, _⟩ => ⟨S2621440, .f32⟩
  | .hbm, ⟨30, _⟩ => ⟨S_, .f32⟩
  | .hbm, ⟨31, _⟩ => ⟨S524288, .f32⟩
  | .hbm, ⟨32, _⟩ => ⟨S2621440x1, .i32⟩
  | .hbm, ⟨33, _⟩ => ⟨S524288, .f32⟩
  | .hbm, ⟨34, _⟩ => ⟨S_, .f32⟩
  | .hbm, ⟨35, _⟩ => ⟨S524288, .f32⟩
  | .hbm, ⟨36, _⟩ => ⟨S524288, .i1⟩
  | .hbm, ⟨37, _⟩ => ⟨S_, .f32⟩
  | .hbm, ⟨38, _⟩ => ⟨S524288, .f32⟩
  | .hbm, ⟨39, _⟩ => ⟨S524288, .f32⟩
  | .hbm, ⟨40, _⟩ => ⟨S524288, .f32⟩
  | .hbm, ⟨41, _⟩ => ⟨S_, .f32⟩
  | .hbm, ⟨42, _⟩ => ⟨S_, .f32⟩
  | .hbm, ⟨43, _⟩ => ⟨S524288, .f32⟩
  | .hbm, ⟨44, _⟩ => ⟨S524288, .f32⟩
  | .hbm, ⟨45, _⟩ => ⟨S524288x1, .f32⟩
  | .hbm, ⟨46, _⟩ => ⟨S524288x64, .bf16⟩
  | .hbm, ⟨47, _⟩ => ⟨S_, .i32⟩
  | .hbm, ⟨48, _⟩ => ⟨S2621440, .i32⟩
  | .hbm, ⟨49, _⟩ => ⟨S2621440, .i1⟩
  | .hbm, ⟨50, _⟩ => ⟨S_, .i32⟩
  | .hbm, ⟨51, _⟩ => ⟨S2621440, .i32⟩
  | .hbm, ⟨52, _⟩ => ⟨S2621440, .i32⟩
  | .hbm, ⟨53, _⟩ => ⟨S2621440, .i32⟩
  | .hbm, ⟨54, _⟩ => ⟨S2621440x1, .i32⟩
  | .hbm, ⟨55, _⟩ => ⟨S2621440x64, .bf16⟩
  | .hbm, ⟨56, _⟩ => ⟨S2621440x64, .f32⟩
  | .hbm, ⟨57, _⟩ => ⟨S_, .f32⟩
  | .hbm, ⟨58, _⟩ => ⟨S524288x64, .f32⟩
  | .hbm, ⟨59, _⟩ => ⟨S2621440x1, .i32⟩
  | .hbm, ⟨60, _⟩ => ⟨S524288x64, .f32⟩
  | .hbm, ⟨61, _⟩ => ⟨S524288x64, .bf16⟩
  | .hbm, ⟨62, _⟩ => ⟨S_, .i32⟩
  | .hbm, ⟨63, _⟩ => ⟨S2621440, .i32⟩
  | .hbm, ⟨64, _⟩ => ⟨S2621440, .i1⟩
  | .hbm, ⟨65, _⟩ => ⟨S_, .i32⟩
  | .hbm, ⟨66, _⟩ => ⟨S2621440, .i32⟩
  | .hbm, ⟨67, _⟩ => ⟨S2621440, .i32⟩
  | .hbm, ⟨68, _⟩ => ⟨S2621440, .i32⟩
  | .hbm, ⟨69, _⟩ => ⟨S2621440x1, .i32⟩
  | .hbm, ⟨70, _⟩ => ⟨S2621440x64, .bf16⟩
  | .hbm, ⟨71, _⟩ => ⟨S2621440x64, .f32⟩
  | .hbm, ⟨72, _⟩ => ⟨S_, .f32⟩
  | .hbm, ⟨73, _⟩ => ⟨S524288x64, .f32⟩
  | .hbm, ⟨74, _⟩ => ⟨S2621440x1, .i32⟩
  | .hbm, ⟨75, _⟩ => ⟨S524288x64, .f32⟩
  | .hbm, ⟨76, _⟩ => ⟨S524288x64, .bf16⟩
  | .hbm, ⟨77, _⟩ => ⟨S_, .i32⟩
  | .hbm, ⟨78, _⟩ => ⟨S2621440, .i32⟩
  | .hbm, ⟨79, _⟩ => ⟨S2621440, .i1⟩
  | .hbm, ⟨80, _⟩ => ⟨S_, .i32⟩
  | .hbm, ⟨81, _⟩ => ⟨S2621440, .i32⟩
  | .hbm, ⟨82, _⟩ => ⟨S2621440, .i32⟩
  | .hbm, ⟨83, _⟩ => ⟨S2621440, .i32⟩
  | .hbm, ⟨84, _⟩ => ⟨S2621440x1, .i32⟩
  | .hbm, ⟨85, _⟩ => ⟨S2621440x64, .bf16⟩
  | .hbm, ⟨86, _⟩ => ⟨S2621440x64, .f32⟩
  | .hbm, ⟨87, _⟩ => ⟨S_, .f32⟩
  | .hbm, ⟨88, _⟩ => ⟨S524288x64, .f32⟩
  | .hbm, ⟨89, _⟩ => ⟨S2621440x1, .i32⟩
  | .hbm, ⟨90, _⟩ => ⟨S524288x64, .f32⟩
  | .hbm, ⟨91, _⟩ => ⟨S524288x64, .f32⟩
  | .hbm, ⟨92, _⟩ => ⟨S_, .f32⟩
  | .hbm, ⟨93, _⟩ => ⟨S16384x64, .f32⟩
  | .hbm, ⟨94, _⟩ => ⟨S524288x1, .i32⟩
  | .hbm, ⟨95, _⟩ => ⟨S16384x64, .f32⟩
  | .hbm, ⟨96, _⟩ => ⟨S_, .f32⟩
  | .hbm, ⟨97, _⟩ => ⟨S524288, .f32⟩
  | .hbm, ⟨98, _⟩ => ⟨S_, .f32⟩
  | .hbm, ⟨99, _⟩ => ⟨S16384, .f32⟩
  | .hbm, ⟨100, _⟩ => ⟨S524288x1, .i32⟩
  | .hbm, ⟨101, _⟩ => ⟨S16384, .f32⟩
  | .hbm, ⟨102, _⟩ => ⟨S_, .f32⟩
  | .hbm, ⟨103, _⟩ => ⟨S16384, .f32⟩
  | .hbm, ⟨104, _⟩ => ⟨S16384, .f32⟩
  | .hbm, ⟨105, _⟩ => ⟨S16384x1, .f32⟩
  | .hbm, ⟨106, _⟩ => ⟨S16384x64, .f32⟩
  | .hbm, ⟨107, _⟩ => ⟨S16384x64, .f32⟩
  | .hbm, ⟨108, _⟩ => ⟨S128x512, .f32⟩
  | .hbm, ⟨109, _⟩ => ⟨S128x512, .f32⟩
  | .hbm, ⟨110, _⟩ => ⟨S881x512, .f32⟩
  | .hbm, ⟨111, _⟩ => ⟨S16384x1, .f32⟩
  | .local _ .vmem, ⟨0, _⟩ => ⟨S4096x30, .f32⟩
  | .local _ .vmem, ⟨1, _⟩ => ⟨S4096x30, .f32⟩
  | .local _ .vmem, ⟨2, _⟩ => ⟨S30x64, .f32⟩
  | .local _ .vmem, ⟨3, _⟩ => ⟨S4096x1, .f32⟩
  | .local _ .vmem, ⟨4, _⟩ => ⟨S4096x1, .f32⟩
  | .local _ .vmem, ⟨5, _⟩ => ⟨S4096x64, .bf16⟩
  | .local _ .vmem, ⟨6, _⟩ => ⟨S4096x64, .bf16⟩
  | .local _ .vmem, ⟨7, _⟩ => ⟨S4096x64, .f32⟩
  | .local _ .vmem, ⟨8, _⟩ => ⟨S4096x64, .f32⟩
  | .local _ .vmem, ⟨9, _⟩ => ⟨S4096x1, .f32⟩
  | .local _ .vmem, ⟨10, _⟩ => ⟨S4096x1, .f32⟩
  | .local _ .vmem, ⟨11, _⟩ => ⟨S64, .f32⟩
  | .local _ .vmem, ⟨12, _⟩ => ⟨S64x64, .f32⟩
  | .local _ .vmem, ⟨13, _⟩ => ⟨S4096x64, .bf16⟩
  | .local _ .vmem, ⟨14, _⟩ => ⟨S4096x64, .bf16⟩
  | .local _ .vmem, ⟨15, _⟩ => ⟨S4096x64, .f32⟩
  | .local _ .vmem, ⟨16, _⟩ => ⟨S4096x64, .f32⟩
  | .local _ .vmem, ⟨17, _⟩ => ⟨S4096x1, .f32⟩
  | .local _ .vmem, ⟨18, _⟩ => ⟨S4096x1, .f32⟩
  | .local _ .vmem, ⟨19, _⟩ => ⟨S64, .f32⟩
  | .local _ .vmem, ⟨20, _⟩ => ⟨S64x64, .f32⟩
  | .local _ .vmem, ⟨21, _⟩ => ⟨S4096x64, .bf16⟩
  | .local _ .vmem, ⟨22, _⟩ => ⟨S4096x64, .bf16⟩
  | .local _ .vmem, ⟨23, _⟩ => ⟨S4096x64, .f32⟩
  | .local _ .vmem, ⟨24, _⟩ => ⟨S4096x64, .f32⟩
  | .local _ .vmem, ⟨25, _⟩ => ⟨S4096x1, .f32⟩
  | .local _ .vmem, ⟨26, _⟩ => ⟨S4096x1, .f32⟩
  | .local _ .vmem, ⟨27, _⟩ => ⟨S64, .f32⟩
  | .local _ .vmem, ⟨28, _⟩ => ⟨S4096x64, .f32⟩
  | .local _ .vmem, ⟨29, _⟩ => ⟨S4096x64, .f32⟩
  | .local _ .vmem, ⟨30, _⟩ => ⟨S512x64, .f32⟩
  | .local _ .vmem, ⟨31, _⟩ => ⟨S512x64, .f32⟩
  | .local _ .vmem, ⟨32, _⟩ => ⟨S512x979, .f32⟩
  | .local _ .vmem, ⟨33, _⟩ => ⟨S512x979, .f32⟩
  | .local _ .vmem, ⟨34, _⟩ => ⟨S512x881, .f32⟩
  | .local _ .vmem, ⟨35, _⟩ => ⟨S512x881, .f32⟩
  | .local _ .vmem, ⟨36, _⟩ => ⟨S64x128, .f32⟩
  | .local _ .vmem, ⟨37, _⟩ => ⟨S128, .f32⟩
  | .local _ .vmem, ⟨38, _⟩ => ⟨S979x128, .f32⟩
  | .local _ .vmem, ⟨39, _⟩ => ⟨S128, .f32⟩
  | .local _ .vmem, ⟨40, _⟩ => ⟨S128x512, .f32⟩
  | .local _ .vmem, ⟨41, _⟩ => ⟨S128x512, .f32⟩
  | .local _ .vmem, ⟨42, _⟩ => ⟨S881x512, .f32⟩
  | .local _ .vmem, ⟨43, _⟩ => ⟨S512, .f32⟩
  | .local _ .vmem, ⟨44, _⟩ => ⟨S512x256, .f32⟩
  | .local _ .vmem, ⟨45, _⟩ => ⟨S256, .f32⟩
  | .local _ .vmem, ⟨46, _⟩ => ⟨S256x1, .f32⟩
  | .local _ .vmem, ⟨47, _⟩ => ⟨S1, .f32⟩
  | .local _ .vmem, ⟨48, _⟩ => ⟨S512x1, .f32⟩
  | .local _ .vmem, ⟨49, _⟩ => ⟨S512x1, .f32⟩
  | _, _ => ⟨S524288x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_cst_0 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_1 : Ref sig .tc := ⟨.hbm, 34, rfl⟩
abbrev main_v11 : Ref sig .tc := ⟨.hbm, 35, rfl⟩
abbrev main_v12 : Ref sig .tc := ⟨.hbm, 36, rfl⟩
abbrev main_cst_2 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_3 : Ref sig .tc := ⟨.hbm, 41, rfl⟩
abbrev main_call0_v0 : Ref sig .tc := ⟨.hbm, 42, rfl⟩
abbrev main_call0_v1 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_c : Ref sig .tc := ⟨.hbm, 47, rfl⟩
abbrev main_v19 : Ref sig .tc := ⟨.hbm, 48, rfl⟩
abbrev main_v20 : Ref sig .tc := ⟨.hbm, 49, rfl⟩
abbrev main_c_4 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_cst_5 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_c_6 : Ref sig .tc := ⟨.hbm, 62, rfl⟩
abbrev main_v31 : Ref sig .tc := ⟨.hbm, 63, rfl⟩
abbrev main_v32 : Ref sig .tc := ⟨.hbm, 64, rfl⟩
abbrev main_c_7 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_8 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_c_9 : Ref sig .tc := ⟨.hbm, 77, rfl⟩
abbrev main_v43 : Ref sig .tc := ⟨.hbm, 78, rfl⟩
abbrev main_v44 : Ref sig .tc := ⟨.hbm, 79, rfl⟩
abbrev main_c_10 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_11 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_12 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_13 : Ref sig .tc := ⟨.hbm, 96, rfl⟩
abbrev main_v58 : Ref sig .tc := ⟨.hbm, 97, rfl⟩
abbrev main_cst_14 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_cst_15 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg5_0 : Ref sig .tc := ⟨.vmem, 38, rfl⟩
abbrev cc4_stg6_0 : Ref sig .tc := ⟨.vmem, 39, rfl⟩
abbrev cc4_stg7_0 : Ref sig .tc := ⟨.vmem, 40, rfl⟩
abbrev cc4_stg8_0 : Ref sig .tc := ⟨.vmem, 41, rfl⟩
abbrev cc4_stg9_0 : Ref sig .tc := ⟨.vmem, 42, rfl⟩
abbrev cc4_stg10_0 : Ref sig .tc := ⟨.vmem, 43, rfl⟩
abbrev cc4_stg11_0 : Ref sig .tc := ⟨.vmem, 44, rfl⟩
abbrev cc4_stg12_0 : Ref sig .tc := ⟨.vmem, 45, rfl⟩
abbrev cc4_stg13_0 : Ref sig .tc := ⟨.vmem, 46, rfl⟩
abbrev cc4_stg14_0 : Ref sig .tc := ⟨.vmem, 47, rfl⟩
abbrev cc4_stg15_0 : Ref sig .tc := ⟨.vmem, 48, rfl⟩
abbrev cc4_stg15_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35
abbrev cc4_sem3_0 : DmaSem sig := 36
abbrev cc4_sem4_0 : DmaSem sig := 37
abbrev cc4_sem5_0 : DmaSem sig := 38
abbrev cc4_sem6_0 : DmaSem sig := 39
abbrev cc4_sem7_0 : DmaSem sig := 40
abbrev cc4_sem8_0 : DmaSem sig := 41
abbrev cc4_sem9_0 : DmaSem sig := 42
abbrev cc4_sem10_0 : DmaSem sig := 43
abbrev cc4_sem11_0 : DmaSem sig := 44
abbrev cc4_sem12_0 : DmaSem sig := 45
abbrev cc4_sem13_0 : DmaSem sig := 46
abbrev cc4_sem14_0 : DmaSem sig := 47
abbrev cc4_sem15_0 : DmaSem sig := 48
abbrev cc4_sem15_1 : DmaSem sig := 49

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S30x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4096x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4096x64 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![128], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4096x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_13 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_14 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_15 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S512x979 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S512x881 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S979x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128x512 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S128x512 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S881x512 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S512 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S512x256 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S256 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 1 → Memref sig .tc .vmem S256x1 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false]

abbrev stage4_14 : Fin 1 → Memref sig .tc .vmem S1 .f32 := fun | 0 => Memref.whole cc4_stg14_0 | ⟨_ + 1, h⟩ => absurd h (Nat.not_lt.2 (Nat.le_add_left _ _))
abbrev sem4_14 : Fin 1 → DmaSem sig := fun | 0 => cc4_sem14_0 | ⟨_ + 1, h⟩ => absurd h (Nat.not_lt.2 (Nat.le_add_left _ _))
abbrev reads4_14 : Fin grid4.rank → Bool := ![false]

abbrev stage4_15 : Fin 2 → Memref sig .tc .vmem S512x1 .f32 := fun | 0 => Memref.whole cc4_stg15_0 | 1 => Memref.whole cc4_stg15_1 | ⟨_ + 2, h⟩ => absurd h (Nat.not_lt.2 (Nat.le_add_left _ _))
abbrev sem4_15 : Fin 2 → DmaSem sig := fun | 0 => cc4_sem15_0 | 1 => cc4_sem15_1 | ⟨_ + 2, h⟩ => absurd h (Nat.not_lt.2 (Nat.le_add_left _ _))
abbrev reads4_15 : Fin grid4.rank → Bool := ![true]

class Facts₀ : Prop where
  slices_S2x2097152_S1x2097152_0_0 : S2x2097152.Slices ![0, 0] S1x2097152
  shapeCasts_S1x2097152_S2097152 : S1x2097152.ShapeCasts S2097152
  concatenates_S2097152_S524288_S2621440_d0 : Shape.Concatenates [S2097152, S524288] S2621440 0
  slices_S2x2097152_S1x2097152_1_0 : S2x2097152.Slices ![1, 0] S1x2097152
  bcast_S_S2621440 : S_.BroadcastsInDim S2621440 (![] : Fin 0 → Fin S2621440.rank)
  bcast_S_S524288 : S_.BroadcastsInDim S524288 (![] : Fin 0 → Fin S524288.rank)
  bcast_S2621440_S2621440x1_0 : S2621440.BroadcastsInDim S2621440x1 (![0] : Fin 1 → Fin S2621440x1.rank)
  shapeCasts_S524288_S524288x1 : S524288.ShapeCasts S524288x1
  inb_S4096x30_S4096x30_0_0 : ∀ a, (![0, 0] : Fin 2 → Nat) a + S4096x30.size a ≤ S4096x30.size a
  h_S4096x30 : 0 < S4096x30.numel
  bitsLt_bf16_f32 : FTy.bits .bf16 < FTy.bits .f32
  inb_S30x64_S30x64_0_0 : ∀ a, (![0, 0] : Fin 2 → Nat) a + S30x64.size a ≤ S30x64.size a
  h_S30x64 : 0 < S30x64.numel
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x64 : S4096x1.Broadcasts S4096x64
  inb_S4096x64_S4096x64_0_0 : ∀ a, (![0, 0] : Fin 2 → Nat) a + S4096x64.size a ≤ S4096x64.size a
  h_S4096x64 : 0 < S4096x64.numel
  packedbf16_S4096x64_S4096x64_0_0 : (Rect.unit (s := S4096x64) ![0, 0] S4096x64.size inb_S4096x64_S4096x64_0_0).PackedRows (EltTy.packing .bf16)
  bcast_S_S524288x64 : S_.BroadcastsInDim S524288x64 (![] : Fin 0 → Fin S524288x64.rank)
  shapeCasts_S4096x64_S4096x64 : S4096x64.ShapeCasts S4096x64
  inb_S64_S64_0 : ∀ a, (![0] : Fin 1 → Nat) a + S64.size a ≤ S64.size a
  h_S64 : 0 < S64.numel
  shapeCasts_S64_S1x64 : S64.ShapeCasts S1x64
  broadcasts_S1x64_S4096x64 : S1x64.Broadcasts S4096x64
  inb_S64x64_S64x64_0_0 : ∀ a, (![0, 0] : Fin 2 → Nat) a + S64x64.size a ≤ S64x64.size a
  h_S64x64 : 0 < S64x64.numel
  bcast_S_S16384x64 : S_.BroadcastsInDim S16384x64 (![] : Fin 0 → Fin S16384x64.rank)
  bcast_S524288_S524288x1_0 : S524288.BroadcastsInDim S524288x1 (![0] : Fin 1 → Fin S524288x1.rank)
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  slices_S1137x512_S128x512_0_0 : S1137x512.Slices ![0, 0] S128x512
  slices_S1137x512_S128x512_128_0 : S1137x512.Slices ![128, 0] S128x512
  slices_S1137x512_S881x512_256_0 : S1137x512.Slices ![256, 0] S881x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512x979_S512x979_0_0 : ∀ a, (![0, 0] : Fin 2 → Nat) a + S512x979.size a ≤ S512x979.size a
  h_S512x979 : 0 < S512x979.numel
  inb_S512x881_S512x881_0_0 : ∀ a, (![0, 0] : Fin 2 → Nat) a + S512x881.size a ≤ S512x881.size a
  h_S512x881 : 0 < S512x881.numel
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  inb_S979x128_S979x128_0_0 : ∀ a, (![0, 0] : Fin 2 → Nat) a + S979x128.size a ≤ S979x128.size a
  h_S979x128 : 0 < S979x128.numel
  reduces_S512x128_S512 : S512x128.Reduces [1] S512
  shapeCasts_S512_S512x1 : S512.ShapeCasts S512x1
  reduces_S512x881_S512 : S512x881.Reduces [1] S512
  broadcasts_S512x1_S512x128 : S512x1.Broadcasts S512x128
  broadcasts_S512x1_S512x881 : S512x1.Broadcasts S512x881
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S881x512_S881x512_0_0 : ∀ a, (![0, 0] : Fin 2 → Nat) a + S881x512.size a ≤ S881x512.size a
  h_S881x512 : 0 < S881x512.numel
  shapeCasts_S881x512_S881x512 : S881x512.ShapeCasts S881x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  inb_S256x1_S256x1_0_0 : ∀ a, (![0, 0] : Fin 2 → Nat) a + S256x1.size a ≤ S256x1.size a
  h_S256x1 : 0 < S256x1.numel
  inb_S1_S1_0 : ∀ a, (![0] : Fin 1 → Nat) a + S1.size a ≤ S1.size a
  h_S1 : 0 < S1.numel
  shapeCasts_S1_S1x1 : S1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  scatter_S524288_S2621440x1_S2621440_n_0_0_1_wf : ScatterDims.WF S524288 S2621440x1 S2621440 [] [0] [0] 1
  dot_S4096x30_S30x64_S4096x64_1_0_0_1_n_n_wf : DotDims.WF S4096x30 S30x64 S4096x64 [1] [0] [0] [1] [] []
  gather_S524288x64_S2621440x1_S2621440x64_1_0_n_n_0_1_164_wf : GatherDims.WF S524288x64 S2621440x1 S2621440x64 [1] [0] [] [0] [] 1 ![1, 64]
  scatter_S524288x64_S2621440x1_S2621440x64_1_0_0_1_wf : ScatterDims.WF S524288x64 S2621440x1 S2621440x64 [1] [0] [0] 1
  dot_S4096x64_S64x64_S4096x64_1_0_0_1_n_n_wf : DotDims.WF S4096x64 S64x64 S4096x64 [1] [0] [0] [1] [] []
  scatter_S16384x64_S524288x1_S524288x64_1_0_0_1_wf : ScatterDims.WF S16384x64 S524288x1 S524288x64 [1] [0] [0] 1
  scatter_S16384_S524288x1_S524288_n_0_0_1_wf : ScatterDims.WF S16384 S524288x1 S524288 [] [0] [0] 1
  dot_S512x64_S64x128_S512x128_1_0_0_1_n_n_wf : DotDims.WF S512x64 S64x128 S512x128 [1] [0] [0] [1] [] []
  dot_S512x979_S979x128_S512x128_1_0_0_1_n_n_wf : DotDims.WF S512x979 S979x128 S512x128 [1] [0] [0] [1] [] []
  dot_S512x128_S128x512_S512x512_1_0_0_1_n_n_wf : DotDims.WF S512x128 S128x512 S512x512 [1] [0] [0] [1] [] []
  dot_S512x881_S881x512_S512x512_1_0_0_1_n_n_wf : DotDims.WF S512x881 S881x512 S512x512 [1] [0] [0] [1] [] []
  dot_S512x512_S512x256_S512x256_1_0_0_1_n_n_wf : DotDims.WF S512x512 S512x256 S512x256 [1] [0] [0] [1] [] []
  dot_S512x256_S256x1_S512x1_1_0_0_1_n_n_wf : DotDims.WF S512x256 S256x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x30.size a ≤ S524288x30.size a
  hwx0_0 : ∀ i : grid0.Coords, EltTy.bits .f32 = 32 ∨ (Rect.block (s := S524288x30) S4096x30.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S30x64.size a ≤ S30x64.size a
  hwx0_1 : ∀ i : grid0.Coords, EltTy.bits .f32 = 32 ∨ (Rect.block (s := S30x64) S30x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S524288x1.size a
  hwx0_2 : ∀ i : grid0.Coords, EltTy.bits .f32 = 32 ∨ (Rect.block (s := S524288x1) S4096x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S524288x64.size a
  hwx0_3 : ∀ i : grid0.Coords, EltTy.bits .bf16 = 32 ∨ (Rect.block (s := S524288x64) S4096x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x64.size a ≤ S524288x64.size a
  hwx1_0 : ∀ i : grid1.Coords, EltTy.bits .f32 = 32 ∨ (Rect.block (s := S524288x64) S4096x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S524288x1.size a
  hwx1_1 : ∀ i : grid1.Coords, EltTy.bits .f32 = 32 ∨ (Rect.block (s := S524288x1) S4096x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4096x64.size a ≤ S524288x64.size a
  hwx1_4 : ∀ i : grid1.Coords, EltTy.bits .bf16 = 32 ∨ (Rect.block (s := S524288x64) S4096x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x64.size a ≤ S524288x64.size a
  hwx2_0 : ∀ i : grid2.Coords, EltTy.bits .f32 = 32 ∨ (Rect.block (s := S524288x64) S4096x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x1.size a ≤ S524288x1.size a
  hwx2_1 : ∀ i : grid2.Coords, EltTy.bits .f32 = 32 ∨ (Rect.block (s := S524288x1) S4096x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4096x64.size a ≤ S524288x64.size a
  hwx2_4 : ∀ i : grid2.Coords, EltTy.bits .bf16 = 32 ∨ (Rect.block (s := S524288x64) S4096x64.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x64.size a ≤ S524288x64.size a
  hwx3_0 : ∀ i : grid3.Coords, EltTy.bits .f32 = 32 ∨ (Rect.block (s := S524288x64) S4096x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x1.size a ≤ S524288x1.size a
  hwx3_1 : ∀ i : grid3.Coords, EltTy.bits .f32 = 32 ∨ (Rect.block (s := S524288x1) S4096x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4096x64.size a ≤ S524288x64.size a
  hwx3_3 : ∀ i : grid3.Coords, EltTy.bits .f32 = 32 ∨ (Rect.block (s := S524288x64) S4096x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x64.size a ≤ S16384x64.size a
  hwx4_0 : ∀ i : grid4.Coords, EltTy.bits .f32 = 32 ∨ (Rect.block (s := S16384x64) S512x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x979.size a ≤ S16384x979.size a
  hwx4_1 : ∀ i : grid4.Coords, EltTy.bits .f32 = 32 ∨ (Rect.block (s := S16384x979) S512x979.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x881.size a ≤ S16384x881.size a
  hwx4_2 : ∀ i : grid4.Coords, EltTy.bits .f32 = 32 ∨ (Rect.block (s := S16384x881) S512x881.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x128.size a ≤ S64x128.size a
  hwx4_3 : ∀ i : grid4.Coords, EltTy.bits .f32 = 32 ∨ (Rect.block (s := S64x128) S64x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S979x128.size a ≤ S979x128.size a
  hwx4_5 : ∀ i : grid4.Coords, EltTy.bits .f32 = 32 ∨ (Rect.block (s := S979x128) S979x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128.size a ≤ S128.size a
  hwx4_6 : ∀ i : grid4.Coords, EltTy.bits .f32 = 32 ∨ (Rect.block (s := S128) S128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128x512.size a ≤ S128x512.size a
  hwx4_7 : ∀ i : grid4.Coords, EltTy.bits .f32 = 32 ∨ (Rect.block (s := S128x512) S128x512.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S128x512.size a ≤ S128x512.size a
  hwx4_8 : ∀ i : grid4.Coords, EltTy.bits .f32 = 32 ∨ (Rect.block (s := S128x512) S128x512.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S881x512.size a ≤ S881x512.size a
  hwx4_9 : ∀ i : grid4.Coords, EltTy.bits .f32 = 32 ∨ (Rect.block (s := S881x512) S881x512.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S512.size a ≤ S512.size a
  hwx4_10 : ∀ i : grid4.Coords, EltTy.bits .f32 = 32 ∨ (Rect.block (s := S512) S512.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S512x256.size a ≤ S512x256.size a
  hwx4_11 : ∀ i : grid4.Coords, EltTy.bits .f32 = 32 ∨ (Rect.block (s := S512x256) S512x256.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S256.size a ≤ S256.size a
  hwx4_12 : ∀ i : grid4.Coords, EltTy.bits .f32 = 32 ∨ (Rect.block (s := S256) S256.size (cc4_transform_12 i) (hinb4_12 i)).WholeWords (EltTy.packing .f32)
  hstage4_13 : ∀ j, (stage4_13 j).IsWhole
  nbuf4_13 : grid4.bufCount reads4_13 true = 1
  hreads4_13 : ∀ i i' : grid4.Coords, (∀ a, reads4_13 a = true → i a = i' a) → cc4_transform_13 i = cc4_transform_13 i'
  hinb4_13 : ∀ (i : grid4.Coords) a, (cc4_transform_13 i a + 1) * S256x1.size a ≤ S256x1.size a
  hwx4_13 : ∀ i : grid4.Coords, EltTy.bits .f32 = 32 ∨ (Rect.block (s := S256x1) S256x1.size (cc4_transform_13 i) (hinb4_13 i)).WholeWords (EltTy.packing .f32)
  hstage4_14 : ∀ j, (stage4_14 j).IsWhole
  nbuf4_14 : grid4.bufCount reads4_14 true = 1
  hreads4_14 : ∀ i i' : grid4.Coords, (∀ a, reads4_14 a = true → i a = i' a) → cc4_transform_14 i = cc4_transform_14 i'
  hinb4_14 : ∀ (i : grid4.Coords) a, (cc4_transform_14 i a + 1) * S1.size a ≤ S1.size a
  hwx4_14 : ∀ i : grid4.Coords, EltTy.bits .f32 = 32 ∨ (Rect.block (s := S1) S1.size (cc4_transform_14 i) (hinb4_14 i)).WholeWords (EltTy.packing .f32)
  hstage4_15 : ∀ j, (stage4_15 j).IsWhole
  nbuf4_15 : grid4.bufCount reads4_15 false = 2
  hreads4_15 : ∀ i i' : grid4.Coords, (∀ a, reads4_15 a = true → i a = i' a) → cc4_transform_15 i = cc4_transform_15 i'
  hinb4_15 : ∀ (i : grid4.Coords) a, (cc4_transform_15 i a + 1) * S512x1.size a ≤ S16384x1.size a
  hwx4_15 : ∀ i : grid4.Coords, EltTy.bits .f32 = 32 ∨ (Rect.block (s := S16384x1) S512x1.size (cc4_transform_15 i) (hinb4_15 i)).WholeWords (EltTy.packing .f32)

variable [Facts₀]

def scatter_S524288_S2621440x1_S2621440_n_0_0_1 : ScatterDims S524288 S2621440x1 S2621440 where
  updateWindowDims := []
  insertedWindowDims := [0]
  scatterDimsToOperandDims := [0]
  indexVectorDim := 1
  wf := scatter_S524288_S2621440x1_S2621440_n_0_0_1_wf
def dot_S4096x30_S30x64_S4096x64_1_0_0_1_n_n : DotDims S4096x30 S30x64 S4096x64 where
  lhsContracting := [1]
  rhsContracting := [0]
  lhsNonContracting := [0]
  rhsNonContracting := [1]
  lhsBatch := []
  rhsBatch := []
  wf := dot_S4096x30_S30x64_S4096x64_1_0_0_1_n_n_wf
def gather_S524288x64_S2621440x1_S2621440x64_1_0_n_n_0_1_164 : GatherDims S524288x64 S2621440x1 S2621440x64 where
  offsetDims := [1]
  collapsedSliceDims := [0]
  operandBatchingDims := []
  startIndicesBatchingDims := []
  startIndexMap := [0]
  indexVectorDim := 1
  sliceSizes := ![1, 64]
  wf := gather_S524288x64_S2621440x1_S2621440x64_1_0_n_n_0_1_164_wf
def scatter_S524288x64_S2621440x1_S2621440x64_1_0_0_1 : ScatterDims S524288x64 S2621440x1 S2621440x64 where
  updateWindowDims := [1]
  insertedWindowDims := [0]
  scatterDimsToOperandDims := [0]
  indexVectorDim := 1
  wf := scatter_S524288x64_S2621440x1_S2621440x64_1_0_0_1_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def scatter_S16384x64_S524288x1_S524288x64_1_0_0_1 : ScatterDims S16384x64 S524288x1 S524288x64 where
  updateWindowDims := [1]
  insertedWindowDims := [0]
  scatterDimsToOperandDims := [0]
  indexVectorDim := 1
  wf := scatter_S16384x64_S524288x1_S524288x64_1_0_0_1_wf
def scatter_S16384_S524288x1_S524288_n_0_0_1 : ScatterDims S16384 S524288x1 S524288 where
  updateWindowDims := []
  insertedWindowDims := [0]
  scatterDimsToOperandDims := [0]
  indexVectorDim := 1
  wf := scatter_S16384_S524288x1_S524288_n_0_0_1_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf
def dot_S512x979_S979x128_S512x128_1_0_0_1_n_n : DotDims S512x979 S979x128 S512x128 where
  lhsContracting := [1]
  rhsContracting := [0]
  lhsNonContracting := [0]
  rhsNonContracting := [1]
  lhsBatch := []
  rhsBatch := []
  wf := dot_S512x979_S979x128_S512x128_1_0_0_1_n_n_wf
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S512x881_S881x512_S512x512_1_0_0_1_n_n : DotDims S512x881 S881x512 S512x512 where
  lhsContracting := [1]
  rhsContracting := [0]
  lhsNonContracting := [0]
  rhsNonContracting := [1]
  lhsBatch := []
  rhsBatch := []
  wf := dot_S512x881_S881x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf

abbrev win0_0 : Pipeline.Window sig grid0 :=
  Pipeline.Window.ofSpec (Memref.whole main_arg0) S4096x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S30x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S4096x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S4096x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S4096x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v41) S4096x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S4096x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S4096x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v53) S4096x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S4096x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v54) S4096x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v66) S512x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg3) S512x979.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg4) S512x881.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg11) S64x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg12) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg13) S979x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg14) S128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v67) S128x512.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v68) S128x512.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v69) S881x512.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_arg16) S512.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_arg17) S512x256.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_arg18) S256.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_arg19) S256x1.size cc4_transform_13 reads4_13 false true 1 stage4_13 sem4_13
    hrank4 hreads4_13 hinb4_13 nbuf4_13 (Memref.isWhole_whole _) hwx4_13 hstage4_13

abbrev win4_14 : Pipeline.Window sig grid4 :=
  Pipeline.Window.ofSpec (Memref.whole main_arg20) S1.size cc4_transform_14 reads4_14 false true 1 stage4_14 sem4_14
    hrank4 hreads4_14 hinb4_14 nbuf4_14 (Memref.isWhole_whole _) hwx4_14 hstage4_14

abbrev win4_15 : Pipeline.Window sig grid4 :=
  Pipeline.Window.ofSpec (Memref.whole main_v70) S512x1.size cc4_transform_15 reads4_15 true false 2 stage4_15 sem4_15
    hrank4 hreads4_15 hinb4_15 nbuf4_15 (Memref.isWhole_whole _) hwx4_15 hstage4_15

abbrev win4 : Fin 16 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | 14 => win4_14 | 15 => win4_15 | ⟨_ + 16, h⟩ => absurd h (Nat.not_lt.2 (Nat.le_add_left _ _))
abbrev spec4 : Fin 16 → Pipeline.WinSpec sig grid4.rank := fun w => (win4 w).toWinSpec

class Facts : Prop extends Facts₀ where

variable [Facts]
-- ==== ReferenceIdeal.lean ====
abbrev S524288x30 : Shape := ⟨2, ![524288, 30]⟩
abbrev S2x2097152 : Shape := ⟨2, ![2, 2097152]⟩
abbrev S524288 : Shape := ⟨1, ![524288]⟩
abbrev S16384x979 : Shape := ⟨2, ![16384, 979]⟩
abbrev S16384x881 : Shape := ⟨2, ![16384, 881]⟩
abbrev S30x64 : Shape := ⟨2, ![30, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S979x128 : Shape := ⟨2, ![979, 128]⟩
abbrev S1137x512 : Shape := ⟨2, ![1137, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S1x2097152 : Shape := ⟨2, ![1, 2097152]⟩
abbrev S2097152 : Shape := ⟨1, ![2097152]⟩
abbrev S2621440 : Shape := ⟨1, ![2621440]⟩
abbrev S_ : Shape := ⟨0, ![]⟩
abbrev S2621440x1 : Shape := ⟨2, ![2621440, 1]⟩
abbrev S524288x64 : Shape := ⟨2, ![524288, 64]⟩
abbrev S2621440x64 : Shape := ⟨2, ![2621440, 64]⟩
abbrev S1x64 : Shape := ⟨2, ![1, 64]⟩
abbrev S16384x64 : Shape := ⟨2, ![16384, 64]⟩
abbrev S524288x1 : Shape := ⟨2, ![524288, 1]⟩
abbrev S16384 : Shape := ⟨1, ![16384]⟩
abbrev S16384x1 : Shape := ⟨2, ![16384, 1]⟩
abbrev S16384x128 : Shape := ⟨2, ![16384, 128]⟩
abbrev S1x128 : Shape := ⟨2, ![1, 128]⟩
abbrev S16384x1137 : Shape := ⟨2, ![16384, 1137]⟩
abbrev S16384x512 : Shape := ⟨2, ![16384, 512]⟩
abbrev S1x512 : Shape := ⟨2, ![1, 512]⟩
abbrev S16384x256 : Shape := ⟨2, ![16384, 256]⟩
abbrev S1x256 : Shape := ⟨2, ![1, 256]⟩
abbrev S1x1 : Shape := ⟨2, ![1, 1]⟩

abbrev nBuf : Space → Nat
  | .hbm => 243
  | .vmem => 0
  | .smem => 0
  | _ => 0

abbrev hbmTy0_0 (i : Nat) : BufTy := match i % 128 with
  | 0 => ⟨S524288x30, .f32⟩
  | 1 => ⟨S2x2097152, .i32⟩
  | 2 => ⟨S524288, .i32⟩
  | 3 => ⟨S16384x979, .f32⟩
  | 4 => ⟨S16384x881, .f32⟩
  | 5 => ⟨S30x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x128, .f32⟩
  | 12 => ⟨S128, .f32⟩
  | 13 => ⟨S979x128, .f32⟩
  | 14 => ⟨S128, .f32⟩
  | 15 => ⟨S1137x512, .f32⟩
  | 16 => ⟨S512, .f32⟩
  | 17 => ⟨S512x256, .f32⟩
  | 18 => ⟨S256, .f32⟩
  | 19 => ⟨S256x1, .f32⟩
  | 20 => ⟨S1, .f32⟩
  | 21 => ⟨S524288, .i32⟩
  | 22 => ⟨S1x2097152, .i32⟩
  | 23 => ⟨S2097152, .i32⟩
  | 24 => ⟨S2621440, .i32⟩
  | 25 => ⟨S1x2097152, .i32⟩
  | 26 => ⟨S2097152, .i32⟩
  | 27 => ⟨S2621440, .i32⟩
  | 28 => ⟨S_, .f32⟩
  | 29 => ⟨S2621440, .f32⟩
  | 30 => ⟨S_, .f32⟩
  | 31 => ⟨S524288, .f32⟩
  | 32 => ⟨S2621440x1, .i32⟩
  | 33 => ⟨S524288, .f32⟩
  | 34 => ⟨S_, .f32⟩
  | 35 => ⟨S524288, .f32⟩
  | 36 => ⟨S524288, .i1⟩
  | 37 => ⟨S_, .f32⟩
  | 38 => ⟨S524288, .f32⟩
  | 39 => ⟨S524288, .f32⟩
  | 40 => ⟨S524288, .f32⟩
  | 41 => ⟨S_, .f32⟩
  | 42 => ⟨S_, .f32⟩
  | 43 => ⟨S524288, .f32⟩
  | 44 => ⟨S524288, .f32⟩
  | 45 => ⟨S524288x64, .f32⟩
  | 46 => ⟨S_, .i32⟩
  | 47 => ⟨S2621440, .i32⟩
  | 48 => ⟨S2621440, .i1⟩
  | 49 => ⟨S_, .i32⟩
  | 50 => ⟨S2621440, .i32⟩
  | 51 => ⟨S2621440, .i32⟩
  | 52 => ⟨S2621440, .i32⟩
  | 53 => ⟨S2621440x1, .i32⟩
  | 54 => ⟨S2621440, .f32⟩
  | 55 => ⟨S_, .i32⟩
  | 56 => ⟨S2621440, .i32⟩
  | 57 => ⟨S2621440, .i1⟩
  | 58 => ⟨S_, .i32⟩
  | 59 => ⟨S2621440, .i32⟩
  | 60 => ⟨S2621440, .i32⟩
  | 61 => ⟨S2621440, .i32⟩
  | 62 => ⟨S2621440x1, .i32⟩
  | 63 => ⟨S2621440, .f32⟩
  | 64 => ⟨S2621440, .f32⟩
  | 65 => ⟨S_, .i32⟩
  | 66 => ⟨S2621440, .i32⟩
  | 67 => ⟨S2621440, .i1⟩
  | 68 => ⟨S_, .i32⟩
  | 69 => ⟨S2621440, .i32⟩
  | 70 => ⟨S2621440, .i32⟩
  | 71 => ⟨S2621440, .i32⟩
  | 72 => ⟨S2621440x1, .i32⟩
  | 73 => ⟨S2621440x64, .f32⟩
  | 74 => ⟨S2621440x1, .f32⟩
  | 75 => ⟨S2621440x64, .f32⟩
  | 76 => ⟨S2621440x64, .f32⟩
  | 77 => ⟨S_, .f32⟩
  | 78 => ⟨S524288x64, .f32⟩
  | 79 => ⟨S2621440x1, .i32⟩
  | 80 => ⟨S524288x64, .f32⟩
  | 81 => ⟨S1x64, .f32⟩
  | 82 => ⟨S524288x64, .f32⟩
  | 83 => ⟨S524288x64, .f32⟩
  | 84 => ⟨S_, .f32⟩
  | 85 => ⟨S524288x64, .f32⟩
  | 86 => ⟨S524288x64, .f32⟩
  | 87 => ⟨S524288x64, .f32⟩
  | 88 => ⟨S_, .i32⟩
  | 89 => ⟨S2621440, .i32⟩
  | 90 => ⟨S2621440, .i1⟩
  | 91 => ⟨S_, .i32⟩
  | 92 => ⟨S2621440, .i32⟩
  | 93 => ⟨S2621440, .i32⟩
  | 94 => ⟨S2621440, .i32⟩
  | 95 => ⟨S2621440x1, .i32⟩
  | 96 => ⟨S2621440, .f32⟩
  | 97 => ⟨S_, .i32⟩
  | 98 => ⟨S2621440, .i32⟩
  | 99 => ⟨S2621440, .i1⟩
  | 100 => ⟨S_, .i32⟩
  | 101 => ⟨S2621440, .i32⟩
  | 102 => ⟨S2621440, .i32⟩
  | 103 => ⟨S2621440, .i32⟩
  | 104 => ⟨S2621440x1, .i32⟩
  | 105 => ⟨S2621440, .f32⟩
  | 106 => ⟨S2621440, .f32⟩
  | 107 => ⟨S_, .i32⟩
  | 108 => ⟨S2621440, .i32⟩
  | 109 => ⟨S2621440, .i1⟩
  | 110 => ⟨S_, .i32⟩
  | 111 => ⟨S2621440, .i32⟩
  | 112 => ⟨S2621440, .i32⟩
  | 113 => ⟨S2621440, .i32⟩
  | 114 => ⟨S2621440x1, .i32⟩
  | 115 => ⟨S2621440x64, .f32⟩
  | 116 => ⟨S2621440x1, .f32⟩
  | 117 => ⟨S2621440x64, .f32⟩
  | 118 => ⟨S2621440x64, .f32⟩
  | 119 => ⟨S_, .f32⟩
  | 120 => ⟨S524288x64, .f32⟩
  | 121 => ⟨S2621440x1, .i32⟩
  | 122 => ⟨S524288x64, .f32⟩
  | 123 => ⟨S1x64, .f32⟩
  | 124 => ⟨S524288x64, .f32⟩
  | 125 => ⟨S524288x64, .f32⟩
  | 126 => ⟨S_, .f32⟩
  | 127 => ⟨S524288x64, .f32⟩
  | _ => ⟨S524288x30, .f32⟩

abbrev hbmTy0_1 (i : Nat) : BufTy := match i % 128 with
  | 0 => ⟨S524288x64, .f32⟩
  | 1 => ⟨S524288x64, .f32⟩
  | 2 => ⟨S_, .i32⟩
  | 3 => ⟨S2621440, .i32⟩
  | 4 => ⟨S2621440, .i1⟩
  | 5 => ⟨S_, .i32⟩
  | 6 => ⟨S2621440, .i32⟩
  | 7 => ⟨S2621440, .i32⟩
  | 8 => ⟨S2621440, .i32⟩
  | 9 => ⟨S2621440x1, .i32⟩
  | 10 => ⟨S2621440, .f32⟩
  | 11 => ⟨S_, .i32⟩
  | 12 => ⟨S2621440, .i32⟩
  | 13 => ⟨S2621440, .i1⟩
  | 14 => ⟨S_, .i32⟩
  | 15 => ⟨S2621440, .i32⟩
  | 16 => ⟨S2621440, .i32⟩
  | 17 => ⟨S2621440, .i32⟩
  | 18 => ⟨S2621440x1, .i32⟩
  | 19 => ⟨S2621440, .f32⟩
  | 20 => ⟨S2621440, .f32⟩
  | 21 => ⟨S_, .i32⟩
  | 22 => ⟨S2621440, .i32⟩
  | 23 => ⟨S2621440, .i1⟩
  | 24 => ⟨S_, .i32⟩
  | 25 => ⟨S2621440, .i32⟩
  | 26 => ⟨S2621440, .i32⟩
  | 27 => ⟨S2621440, .i32⟩
  | 28 => ⟨S2621440x1, .i32⟩
  | 29 => ⟨S2621440x64, .f32⟩
  | 30 => ⟨S2621440x1, .f32⟩
  | 31 => ⟨S2621440x64, .f32⟩
  | 32 => ⟨S2621440x64, .f32⟩
  | 33 => ⟨S_, .f32⟩
  | 34 => ⟨S524288x64, .f32⟩
  | 35 => ⟨S2621440x1, .i32⟩
  | 36 => ⟨S524288x64, .f32⟩
  | 37 => ⟨S1x64, .f32⟩
  | 38 => ⟨S524288x64, .f32⟩
  | 39 => ⟨S524288x64, .f32⟩
  | 40 => ⟨S_, .f32⟩
  | 41 => ⟨S524288x64, .f32⟩
  | 42 => ⟨S524288x64, .f32⟩
  | 43 => ⟨S_, .f32⟩
  | 44 => ⟨S16384x64, .f32⟩
  | 45 => ⟨S524288x1, .i32⟩
  | 46 => ⟨S16384x64, .f32⟩
  | 47 => ⟨S_, .f32⟩
  | 48 => ⟨S524288, .f32⟩
  | 49 => ⟨S_, .f32⟩
  | 50 => ⟨S16384, .f32⟩
  | 51 => ⟨S524288x1, .i32⟩
  | 52 => ⟨S16384, .f32⟩
  | 53 => ⟨S_, .f32⟩
  | 54 => ⟨S16384, .f32⟩
  | 55 => ⟨S16384, .f32⟩
  | 56 => ⟨S16384x1, .f32⟩
  | 57 => ⟨S16384x64, .f32⟩
  | 58 => ⟨S16384x64, .f32⟩
  | 59 => ⟨S16384x128, .f32⟩
  | 60 => ⟨S1x128, .f32⟩
  | 61 => ⟨S16384x128, .f32⟩
  | 62 => ⟨S16384x128, .f32⟩
  | 63 => ⟨S_, .f32⟩
  | 64 => ⟨S16384x128, .f32⟩
  | 65 => ⟨S16384x128, .f32⟩
  | 66 => ⟨S16384x128, .f32⟩
  | 67 => ⟨S1x128, .f32⟩
  | 68 => ⟨S16384x128, .f32⟩
  | 69 => ⟨S16384x128, .f32⟩
  | 70 => ⟨S_, .f32⟩
  | 71 => ⟨S16384x128, .f32⟩
  | 72 => ⟨S16384x128, .f32⟩
  | 73 => ⟨S16384x1137, .f32⟩
  | 74 => ⟨S_, .f32⟩
  | 75 => ⟨S16384, .f32⟩
  | 76 => ⟨S16384x1, .f32⟩
  | 77 => ⟨S_, .f32⟩
  | 78 => ⟨S16384x1, .f32⟩
  | 79 => ⟨S16384x1, .f32⟩
  | 80 => ⟨S16384x1137, .f32⟩
  | 81 => ⟨S16384x1137, .f32⟩
  | 82 => ⟨S16384x1137, .f32⟩
  | 83 => ⟨S_, .f32⟩
  | 84 => ⟨S16384, .f32⟩
  | 85 => ⟨S16384x1, .f32⟩
  | 86 => ⟨S_, .f32⟩
  | 87 => ⟨S16384x1, .f32⟩
  | 88 => ⟨S16384x1, .f32⟩
  | 89 => ⟨S16384x1137, .f32⟩
  | 90 => ⟨S16384x1137, .f32⟩
  | 91 => ⟨S_, .f32⟩
  | 92 => ⟨S16384x1, .f32⟩
  | 93 => ⟨S16384x1, .f32⟩
  | 94 => ⟨S16384x1, .f32⟩
  | 95 => ⟨S16384x1137, .f32⟩
  | 96 => ⟨S16384x1137, .f32⟩
  | 97 => ⟨S16384x512, .f32⟩
  | 98 => ⟨S1x512, .f32⟩
  | 99 => ⟨S16384x512, .f32⟩
  | 100 => ⟨S16384x512, .f32⟩
  | 101 => ⟨S_, .f32⟩
  | 102 => ⟨S16384x512, .f32⟩
  | 103 => ⟨S16384x512, .f32⟩
  | 104 => ⟨S16384x256, .f32⟩
  | 105 => ⟨S1x256, .f32⟩
  | 106 => ⟨S16384x256, .f32⟩
  | 107 => ⟨S16384x256, .f32⟩
  | 108 => ⟨S_, .f32⟩
  | 109 => ⟨S16384x256, .f32⟩
  | 110 => ⟨S16384x256, .f32⟩
  | 111 => ⟨S16384x1, .f32⟩
  | 112 => ⟨S1x1, .f32⟩
  | 113 => ⟨S16384x1, .f32⟩
  | 114 => ⟨S16384x1, .f32⟩
  | _ => ⟨S524288x30, .f32⟩

abbrev hbmTy (i : Nat) : BufTy := match i / 128 with
  | 0 => hbmTy0_0 i
  | 1 => hbmTy0_1 i
  | _ => ⟨S524288x30, .f32⟩

abbrev bufTy : (tb : Table) → Fin (tcTables nBuf tb) → BufTy
  | .hbm, ⟨i, _⟩ => hbmTy i
  | _, _ => ⟨S524288x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_cst_0 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_1 : Ref sig .tc := ⟨.hbm, 34, rfl⟩
abbrev main_v11 : Ref sig .tc := ⟨.hbm, 35, rfl⟩
abbrev main_v12 : Ref sig .tc := ⟨.hbm, 36, rfl⟩
abbrev main_cst_2 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_3 : Ref sig .tc := ⟨.hbm, 41, rfl⟩
abbrev main_call0_v0 : Ref sig .tc := ⟨.hbm, 42, rfl⟩
abbrev main_call0_v1 : Ref sig .tc := ⟨.hbm, 43, rfl⟩
abbrev main_v16 : Ref sig .tc := ⟨.hbm, 44, rfl⟩
abbrev main_v17 : Ref sig .tc := ⟨.hbm, 45, rfl⟩
abbrev main_c : Ref sig .tc := ⟨.hbm, 46, rfl⟩
abbrev main_v18 : Ref sig .tc := ⟨.hbm, 47, rfl⟩
abbrev main_v19 : Ref sig .tc := ⟨.hbm, 48, rfl⟩
abbrev main_c_4 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_c_5 : Ref sig .tc := ⟨.hbm, 55, rfl⟩
abbrev main_v25 : Ref sig .tc := ⟨.hbm, 56, rfl⟩
abbrev main_v26 : Ref sig .tc := ⟨.hbm, 57, rfl⟩
abbrev main_c_6 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_c_7 : Ref sig .tc := ⟨.hbm, 65, rfl⟩
abbrev main_v33 : Ref sig .tc := ⟨.hbm, 66, rfl⟩
abbrev main_v34 : Ref sig .tc := ⟨.hbm, 67, rfl⟩
abbrev main_c_8 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_cst_9 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_call1_cst : Ref sig .tc := ⟨.hbm, 84, rfl⟩
abbrev main_call1_v0 : Ref sig .tc := ⟨.hbm, 85, rfl⟩
abbrev main_v49 : Ref sig .tc := ⟨.hbm, 86, rfl⟩
abbrev main_v50 : Ref sig .tc := ⟨.hbm, 87, rfl⟩
abbrev main_c_10 : Ref sig .tc := ⟨.hbm, 88, rfl⟩
abbrev main_v51 : Ref sig .tc := ⟨.hbm, 89, rfl⟩
abbrev main_v52 : Ref sig .tc := ⟨.hbm, 90, rfl⟩
abbrev main_c_11 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_c_12 : Ref sig .tc := ⟨.hbm, 97, rfl⟩
abbrev main_v58 : Ref sig .tc := ⟨.hbm, 98, rfl⟩
abbrev main_v59 : Ref sig .tc := ⟨.hbm, 99, rfl⟩
abbrev main_c_13 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_c_14 : Ref sig .tc := ⟨.hbm, 107, rfl⟩
abbrev main_v66 : Ref sig .tc := ⟨.hbm, 108, rfl⟩
abbrev main_v67 : Ref sig .tc := ⟨.hbm, 109, rfl⟩
abbrev main_c_15 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_cst_16 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_call2_cst : Ref sig .tc := ⟨.hbm, 126, rfl⟩
abbrev main_call2_v0 : Ref sig .tc := ⟨.hbm, 127, rfl⟩
abbrev main_v82 : Ref sig .tc := ⟨.hbm, 128, rfl⟩
abbrev main_v83 : Ref sig .tc := ⟨.hbm, 129, rfl⟩
abbrev main_c_17 : Ref sig .tc := ⟨.hbm, 130, rfl⟩
abbrev main_v84 : Ref sig .tc := ⟨.hbm, 131, rfl⟩
abbrev main_v85 : Ref sig .tc := ⟨.hbm, 132, rfl⟩
abbrev main_c_18 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_c_19 : Ref sig .tc := ⟨.hbm, 139, rfl⟩
abbrev main_v91 : Ref sig .tc := ⟨.hbm, 140, rfl⟩
abbrev main_v92 : Ref sig .tc := ⟨.hbm, 141, rfl⟩
abbrev main_c_20 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_c_21 : Ref sig .tc := ⟨.hbm, 149, rfl⟩
abbrev main_v99 : Ref sig .tc := ⟨.hbm, 150, rfl⟩
abbrev main_v100 : Ref sig .tc := ⟨.hbm, 151, rfl⟩
abbrev main_c_22 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_cst_23 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_call3_cst : Ref sig .tc := ⟨.hbm, 168, rfl⟩
abbrev main_call3_v0 : Ref sig .tc := ⟨.hbm, 169, rfl⟩
abbrev main_v115 : Ref sig .tc := ⟨.hbm, 170, rfl⟩
abbrev main_cst_24 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_cst_25 : Ref sig .tc := ⟨.hbm, 175, rfl⟩
abbrev main_v119 : Ref sig .tc := ⟨.hbm, 176, rfl⟩
abbrev main_cst_26 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_cst_27 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_call4_cst : Ref sig .tc := ⟨.hbm, 191, rfl⟩
abbrev main_call4_v0 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_call5_cst : Ref sig .tc := ⟨.hbm, 198, rfl⟩
abbrev main_call5_v0 : Ref sig .tc := ⟨.hbm, 199, rfl⟩
abbrev main_v137 : Ref sig .tc := ⟨.hbm, 200, rfl⟩
abbrev main_v138 : Ref sig .tc := ⟨.hbm, 201, rfl⟩
abbrev main_cst_28 : Ref sig .tc := ⟨.hbm, 202, rfl⟩
abbrev main_v139 : Ref sig .tc := ⟨.hbm, 203, rfl⟩
abbrev main_v140 : Ref sig .tc := ⟨.hbm, 204, rfl⟩
abbrev main_cst_29 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_cst_30 : Ref sig .tc := ⟨.hbm, 211, rfl⟩
abbrev main_v146 : Ref sig .tc := ⟨.hbm, 212, rfl⟩
abbrev main_v147 : Ref sig .tc := ⟨.hbm, 213, rfl⟩
abbrev main_cst_31 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_cst_32 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_call6_cst : Ref sig .tc := ⟨.hbm, 229, rfl⟩
abbrev main_call6_v0 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_call7_cst : Ref sig .tc := ⟨.hbm, 236, rfl⟩
abbrev main_call7_v0 : Ref sig .tc := ⟨.hbm, 237, rfl⟩
abbrev main_v166 : Ref sig .tc := ⟨.hbm, 238, rfl⟩
abbrev main_v167 : Ref sig .tc := ⟨.hbm, 239, rfl⟩
abbrev main_v168 : Ref sig .tc := ⟨.hbm, 240, rfl⟩
abbrev main_v169 : Ref sig .tc := ⟨.hbm, 241, rfl⟩
abbrev main_v170 : Ref sig .tc := ⟨.hbm, 242, rfl⟩

abbrev nD : Nat := 1
abbrev τ : Topo := Topo.v7x

variable {F : FTy → Type} [FloatOps F]

class Facts₀ : Prop where
  slices_S2x2097152_S1x2097152_0_0 : S2x2097152.Slices ![0, 0] S1x2097152
  shapeCasts_S1x2097152_S2097152 : S1x2097152.ShapeCasts S2097152
  concatenates_S2097152_S524288_S2621440_d0 : Shape.Concatenates [S2097152, S524288] S2621440 0
  slices_S2x2097152_S1x2097152_1_0 : S2x2097152.Slices ![1, 0] S1x2097152
  bcast_S_S2621440 : S_.BroadcastsInDim S2621440 (![] : Fin 0 → Fin S2621440.rank)
  bcast_S_S524288 : S_.BroadcastsInDim S524288 (![] : Fin 0 → Fin S524288.rank)
  bcast_S2621440_S2621440x1_0 : S2621440.BroadcastsInDim S2621440x1 (![0] : Fin 1 → Fin S2621440x1.rank)
  bcast_S2621440x1_S2621440x64_0_1 : S2621440x1.BroadcastsInDim S2621440x64 (![0, 1] : Fin 2 → Fin S2621440x64.rank)
  bcast_S_S524288x64 : S_.BroadcastsInDim S524288x64 (![] : Fin 0 → Fin S524288x64.rank)
  bcast_S64_S1x64_1 : S64.BroadcastsInDim S1x64 (![1] : Fin 1 → Fin S1x64.rank)
  bcast_S1x64_S524288x64_0_1 : S1x64.BroadcastsInDim S524288x64 (![0, 1] : Fin 2 → Fin S524288x64.rank)
  bcast_S_S16384x64 : S_.BroadcastsInDim S16384x64 (![] : Fin 0 → Fin S16384x64.rank)
  bcast_S524288_S524288x1_0 : S524288.BroadcastsInDim S524288x1 (![0] : Fin 1 → Fin S524288x1.rank)
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  concatenates_S16384x128_S16384x128_S16384x881_S16384x1137_d1 : Shape.Concatenates [S16384x128, S16384x128, S16384x881] S16384x1137 1
  reducesTo_S16384x1137_S16384_d1 : S16384x1137.ReducesTo [1] S16384
  h_S_ : 0 < S_.numel
  bcast_S_S16384x1 : S_.BroadcastsInDim S16384x1 (![] : Fin 0 → Fin S16384x1.rank)
  bcast_S16384x1_S16384x1137_0_1 : S16384x1.BroadcastsInDim S16384x1137 (![0, 1] : Fin 2 → Fin S16384x1137.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  scatter_S524288_S2621440x1_S2621440_n_0_0_1_wf : ScatterDims.WF S524288 S2621440x1 S2621440 [] [0] [0] 1
  dot_S524288x30_S30x64_S524288x64_1_0_0_1_n_n_wf : DotDims.WF S524288x30 S30x64 S524288x64 [1] [0] [0] [1] [] []
  gather_S524288_S2621440x1_S2621440_n_0_n_n_0_1_1_wf : GatherDims.WF S524288 S2621440x1 S2621440 [] [0] [] [0] [] 1 ![1]
  gather_S524288x64_S2621440x1_S2621440x64_1_0_n_n_0_1_164_wf : GatherDims.WF S524288x64 S2621440x1 S2621440x64 [1] [0] [] [0] [] 1 ![1, 64]
  scatter_S524288x64_S2621440x1_S2621440x64_1_0_0_1_wf : ScatterDims.WF S524288x64 S2621440x1 S2621440x64 [1] [0] [0] 1
  dot_S524288x64_S64x64_S524288x64_1_0_0_1_n_n_wf : DotDims.WF S524288x64 S64x64 S524288x64 [1] [0] [0] [1] [] []
  scatter_S16384x64_S524288x1_S524288x64_1_0_0_1_wf : ScatterDims.WF S16384x64 S524288x1 S524288x64 [1] [0] [0] 1
  scatter_S16384_S524288x1_S524288_n_0_0_1_wf : ScatterDims.WF S16384 S524288x1 S524288 [] [0] [0] 1
  dot_S16384x64_S64x128_S16384x128_1_0_0_1_n_n_wf : DotDims.WF S16384x64 S64x128 S16384x128 [1] [0] [0] [1] [] []
  dot_S16384x979_S979x128_S16384x128_1_0_0_1_n_n_wf : DotDims.WF S16384x979 S979x128 S16384x128 [1] [0] [0] [1] [] []
  dot_S16384x1137_S1137x512_S16384x512_1_0_0_1_n_n_wf : DotDims.WF S16384x1137 S1137x512 S16384x512 [1] [0] [0] [1] [] []
  dot_S16384x512_S512x256_S16384x256_1_0_0_1_n_n_wf : DotDims.WF S16384x512 S512x256 S16384x256 [1] [0] [0] [1] [] []
  dot_S16384x256_S256x1_S16384x1_1_0_0_1_n_n_wf : DotDims.WF S16384x256 S256x1 S16384x1 [1] [0] [0] [1] [] []

variable [Facts₀]

def scatter_S524288_S2621440x1_S2621440_n_0_0_1 : ScatterDims S524288 S2621440x1 S2621440 where
  updateWindowDims := []
  insertedWindowDims := [0]
  scatterDimsToOperandDims := [0]
  indexVectorDim := 1
  wf := scatter_S524288_S2621440x1_S2621440_n_0_0_1_wf
def dot_S524288x30_S30x64_S524288x64_1_0_0_1_n_n : DotDims S524288x30 S30x64 S524288x64 where
  lhsContracting := [1]
  rhsContracting := [0]
  lhsNonContracting := [0]
  rhsNonContracting := [1]
  lhsBatch := []
  rhsBatch := []
  wf := dot_S524288x30_S30x64_S524288x64_1_0_0_1_n_n_wf
def gather_S524288_S2621440x1_S2621440_n_0_n_n_0_1_1 : GatherDims S524288 S2621440x1 S2621440 where
  offsetDims := []
  collapsedSliceDims := [0]
  operandBatchingDims := []
  startIndicesBatchingDims := []
  startIndexMap := [0]
  indexVectorDim := 1
  sliceSizes := ![1]
  wf := gather_S524288_S2621440x1_S2621440_n_0_n_n_0_1_1_wf
def gather_S524288x64_S2621440x1_S2621440x64_1_0_n_n_0_1_164 : GatherDims S524288x64 S2621440x1 S2621440x64 where
  offsetDims := [1]
  collapsedSliceDims := [0]
  operandBatchingDims := []
  startIndicesBatchingDims := []
  startIndexMap := [0]
  indexVectorDim := 1
  sliceSizes := ![1, 64]
  wf := gather_S524288x64_S2621440x1_S2621440x64_1_0_n_n_0_1_164_wf
def scatter_S524288x64_S2621440x1_S2621440x64_1_0_0_1 : ScatterDims S524288x64 S2621440x1 S2621440x64 where
  updateWindowDims := [1]
  insertedWindowDims := [0]
  scatterDimsToOperandDims := [0]
  indexVectorDim := 1
  wf := scatter_S524288x64_S2621440x1_S2621440x64_1_0_0_1_wf
def dot_S524288x64_S64x64_S524288x64_1_0_0_1_n_n : DotDims S524288x64 S64x64 S524288x64 where
  lhsContracting := [1]
  rhsContracting := [0]
  lhsNonContracting := [0]
  rhsNonContracting := [1]
  lhsBatch := []
  rhsBatch := []
  wf := dot_S524288x64_S64x64_S524288x64_1_0_0_1_n_n_wf
def scatter_S16384x64_S524288x1_S524288x64_1_0_0_1 : ScatterDims S16384x64 S524288x1 S524288x64 where
  updateWindowDims := [1]
  insertedWindowDims := [0]
  scatterDimsToOperandDims := [0]
  indexVectorDim := 1
  wf := scatter_S16384x64_S524288x1_S524288x64_1_0_0_1_wf
def scatter_S16384_S524288x1_S524288_n_0_0_1 : ScatterDims S16384 S524288x1 S524288 where
  updateWindowDims := []
  insertedWindowDims := [0]
  scatterDimsToOperandDims := [0]
  indexVectorDim := 1
  wf := scatter_S16384_S524288x1_S524288_n_0_0_1_wf
def dot_S16384x64_S64x128_S16384x128_1_0_0_1_n_n : DotDims S16384x64 S64x128 S16384x128 where
  lhsContracting := [1]
  rhsContracting := [0]
  lhsNonContracting := [0]
  rhsNonContracting := [1]
  lhsBatch := []
  rhsBatch := []
  wf := dot_S16384x64_S64x128_S16384x128_1_0_0_1_n_n_wf
def dot_S16384x979_S979x128_S16384x128_1_0_0_1_n_n : DotDims S16384x979 S979x128 S16384x128 where
  lhsContracting := [1]
  rhsContracting := [0]
  lhsNonContracting := [0]
  rhsNonContracting := [1]
  lhsBatch := []
  rhsBatch := []
  wf := dot_S16384x979_S979x128_S16384x128_1_0_0_1_n_n_wf
def dot_S16384x1137_S1137x512_S16384x512_1_0_0_1_n_n : DotDims S16384x1137 S1137x512 S16384x512 where
  lhsContracting := [1]
  rhsContracting := [0]
  lhsNonContracting := [0]
  rhsNonContracting := [1]
  lhsBatch := []
  rhsBatch := []
  wf := dot_S16384x1137_S1137x512_S16384x512_1_0_0_1_n_n_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S16384x256_S256x1_S16384x1_1_0_0_1_n_n : DotDims S16384x256 S256x1 S16384x1 where
  lhsContracting := [1]
  rhsContracting := [0]
  lhsNonContracting := [0]
  rhsNonContracting := [1]
  lhsBatch := []
  rhsBatch := []
  wf := dot_S16384x256_S256x1_S16384x1_1_0_0_1_n_n_wf

class Facts : Prop extends Facts₀ where

variable [Facts]
-- ==== Proof.KRun.lean ====
/-
  The idealized kernel's run with its result named: every weakly fair execution of @main terminates, nothing
  faulting, the argument arrays unchanged, and the result buffer holds what the last segment boundary's contents
  give it — the fold of the host stretches and of the five regions' write-backs from the launch memory.
-/
import proofs.«171162_j59115929862199_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result buffer ends at the last boundary's contents, the arguments as launched. -/
theorem run_value : θ_run defs (onTc (τ := τ) (main (F := F))) ⟨m, fun _ => 0, ρ⟩ (fun r => ∀ c : Dev nD,
      r.2.mem ((c.tc : Thread nD τ).loc main_v70) = W12 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v70 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c),
       (h c _ (mem_uc main_arg19 (by decide))).trans (W12_main_arg19 m ρ c),
       (h c _ (mem_uc main_arg20 (by decide))).trans (W12_main_arg20 m ρ c)⟩)

end Cert.KernelIdeal.KRun

end
-- ==== Proof.LibHostFold.lean ====
/-
  A line of single-assignment host operations, read at one operation.

  A line of host operations runs in order from buffer contents `V` and ends with contents `after ops V`. When the line
  is `pre ++ op :: post`, the operation `op` writes the one buffer `y` and reads `a`, `b`, …, and the operations of
  `post` write none of `y`, `a`, `b`, … (every buffer is written once, and never after it has been read), then `op`'s
  defining equation holds of the FINAL contents `W = after ops V`:

      W y = f (W a) (W b) .

  For: `post` leaves `y`, `a`, `b` alone, so `W` there is what `op` left; `op` left `f` of what `pre` left at `a`, `b`
  in `y`, and (`a ≠ y`, `b ≠ y`) left `a`, `b` alone.

  "The operations of `post` do not write `r`" is stated through a LIST `Wl` of references that holds everything `post`
  writes (`WritesIn post Wl`) and `r ∉ Wl`: membership in a list of references is decided by computation. When `Wl` is
  the list of `post`'s result references in order, `WritesIn post Wl` is one `rfl` per operation
  (`WritesIn.cons_head`; the tactic `writes_in`). For a whole stretch of the program this is stated once (`Outs`), and an
  operation is then addressed by its position in the stretch (`binary_at` and its companions).
-/
import Idealize.ShloMosaic.Lib.StableHlo.Run
import Idealize.ShloMosaic.Lib.Pipeline.Frame

noncomputable section

namespace Cert.HostFold

open Idealize.ShloMosaic Idealize.ShloMosaic.StableHlo

variable {τ : Topo} {sig : RefSig} {Val : EltTy → Type}

/-! ## What a line writes -/

/-- Every buffer the line `ops` writes is the buffer of a reference in the list `Wl`. -/
def WritesIn (ops : List (HloOp τ sig Val)) (Wl : List (Ref sig .tc)) : Prop :=
  ∀ op ∈ ops, op.writes ⊆ (Wl.map (Proc.devRef (τ := τ) .tc)).toFinset

/-- The same as a `List.Forall`, the form the fold's own lemma takes. -/
theorem writesIn_iff_forall {ops : List (HloOp τ sig Val)} {Wl : List (Ref sig .tc)} :
    WritesIn ops Wl ↔ ops.Forall fun op => op.writes ⊆ (Wl.map (Proc.devRef (τ := τ) .tc)).toFinset :=
  List.forall_iff_forall_mem.symm

/-- The empty line writes nothing. -/
theorem WritesIn.nil {Wl : List (Ref sig .tc)} : WritesIn ([] : List (HloOp τ sig Val)) Wl :=
  fun _ h => absurd h List.not_mem_nil

/-- One more operation in front, its writes in the list. -/
theorem WritesIn.cons {op : HloOp τ sig Val} {ops : List (HloOp τ sig Val)} {Wl : List (Ref sig .tc)}
    (h : op.writes ⊆ (Wl.map (Proc.devRef (τ := τ) .tc)).toFinset) (hr : WritesIn ops Wl) : WritesIn (op :: ops) Wl :=
  fun o ho => by
    rcases List.mem_cons.mp ho with rfl | ho
    · exact h
    · exact hr o ho

/-- A longer list of references still holds the line's writes. -/
theorem WritesIn.mono {ops : List (HloOp τ sig Val)} {Wl Wl' : List (Ref sig .tc)} (h : WritesIn ops Wl)
    (hsub : Wl ⊆ Wl') : WritesIn ops Wl' :=
  fun o ho => (h o ho).trans fun _ hd => by
    obtain ⟨r, hr, he⟩ := List.mem_map.mp (List.mem_toFinset.mp hd)
    exact List.mem_toFinset.mpr (List.mem_map.mpr ⟨r, hsub hr, he⟩)

/-- One more operation in front that writes the one buffer `y`, `y` a member of the list. -/
theorem WritesIn.cons_of_mem {op : HloOp τ sig Val} {ops : List (HloOp τ sig Val)} {Wl : List (Ref sig .tc)}
    {y : Ref sig .tc} (h : op.writes = {Proc.devRef .tc y}) (hy : y ∈ Wl) (hr : WritesIn ops Wl) :
    WritesIn (op :: ops) Wl :=
  WritesIn.cons (by
    rw [h, Finset.singleton_subset_iff, List.mem_toFinset]
    exact List.mem_map_of_mem hy) hr

/-- One more operation in front that writes the one buffer `y`, and `y` put in front of the list: the list of the
    line's result references IN ORDER holds its writes, by one `rfl` per operation and no search. -/
theorem WritesIn.cons_head {op : HloOp τ sig Val} {ops : List (HloOp τ sig Val)} {Wl : List (Ref sig .tc)}
    {y : Ref sig .tc} (h : op.writes = {Proc.devRef .tc y}) (hr : WritesIn ops Wl) :
    WritesIn (op :: ops) (y :: Wl) :=
  WritesIn.cons_of_mem h List.mem_cons_self (hr.mono (List.subset_cons_self y Wl))

/-- Two lines in a row write what the two lists hold together. -/
theorem WritesIn.append {l₁ l₂ : List (HloOp τ sig Val)} {W₁ W₂ : List (Ref sig .tc)} (h₁ : WritesIn l₁ W₁)
    (h₂ : WritesIn l₂ W₂) : WritesIn (l₁ ++ l₂) (W₁ ++ W₂) :=
  fun o ho => by
    rcases List.mem_append.mp ho with ho | ho
    · exact (h₁.mono (List.subset_append_left W₁ W₂)) o ho
    · exact (h₂.mono (List.subset_append_right W₁ W₂)) o ho

/-- A reference in neither of two lists is not in their concatenation. -/
theorem not_mem_append {r : Ref sig .tc} {W₁ W₂ : List (Ref sig .tc)} (h₁ : r ∉ W₁) (h₂ : r ∉ W₂) : r ∉ W₁ ++ W₂ :=
  fun h => (List.mem_append.mp h).elim h₁ h₂

/-- Proves `WritesIn ops Wl` for a written-out line `ops` of operations that each write one buffer and the list `Wl`
    of their result references in the same order. -/
macro "writes_in" : tactic =>
  `(tactic| repeat (first | exact WritesIn.nil | refine WritesIn.cons_head rfl ?_))

/-- A REFERENCE THE LINE DOES NOT WRITE KEEPS ITS CONTENTS. -/
theorem after_keep {ops : List (HloOp τ sig Val)} {Wl : List (Ref sig .tc)} (hW : WritesIn ops Wl) {r : Ref sig .tc}
    (hr : r ∉ Wl) (V : Valuation τ sig Val) : after ops V (Proc.devRef .tc r) = V (Proc.devRef .tc r) :=
  after_of_writes_sub ops V (writesIn_iff_forall.mp hW) hr

/-! ## The fold at a split -/

/-- The fold of `pre ++ op :: post`: run `pre`, then `op`, then `post`. -/
theorem after_split (pre post : List (HloOp τ sig Val)) (op : HloOp τ sig Val) (V : Valuation τ sig Val) :
    after (pre ++ op :: post) V = after post (op.result (after pre V)) := by
  rw [StableHlo.after_append, after_cons]

/-- At a reference `post` does not write, the final contents are what `op` left. -/
theorem after_split_keep (pre post : List (HloOp τ sig Val)) (op : HloOp τ sig Val) (V : Valuation τ sig Val)
    {Wl : List (Ref sig .tc)} (hW : WritesIn post Wl) {r : Ref sig .tc} (hr : r ∉ Wl) :
    after (pre ++ op :: post) V (Proc.devRef .tc r) = op.result (after pre V) (Proc.devRef .tc r) := by
  rw [after_split, after_keep hW hr]

/-- At a reference neither `op` nor `post` writes, the final contents are what `pre` left. -/
theorem after_split_read (pre post : List (HloOp τ sig Val)) (op : HloOp τ sig Val) (V : Valuation τ sig Val)
    {Wl : List (Ref sig .tc)} (hW : WritesIn post Wl) {r : Ref sig .tc} (hr : r ∉ Wl)
    (hop : Proc.devRef .tc r ∉ op.writes) :
    after (pre ++ op :: post) V (Proc.devRef .tc r) = after pre V (Proc.devRef .tc r) := by
  rw [after_split_keep pre post op V hW hr, op.result_of_not_mem _ hop]

/-- A line split as `pre ++ op :: post`, followed by a later line, is split as `pre ++ op :: (post ++ later)`. -/
theorem split_append {ops pre post : List (HloOp τ sig Val)} {op : HloOp τ sig Val} (hops : ops = pre ++ op :: post)
    (later : List (HloOp τ sig Val)) : ops ++ later = pre ++ op :: (post ++ later) := by
  rw [hops, List.append_assoc, List.cons_append]

/-! ## An operation's defining equation on the final contents -/

section Final

variable {ops pre post : List (HloOp τ sig Val)} {Wl : List (Ref sig .tc)} (V : Valuation τ sig Val)

/-- NULLARY: `W y = v`. -/
theorem nullary_final {y : Ref sig .tc} {v : y.ty.Contents Val} {hy}
    (hops : ops = pre ++ nullary (τ := τ) y v hy :: post) (hW : WritesIn post Wl) (hyW : y ∉ Wl) :
    after ops V (Proc.devRef .tc y) = v := by
  subst hops
  rw [after_split_keep pre post _ V hW hyW, nullary_result]

/-- UNARY: `W y = f (W x)`. -/
theorem unary_final {x y : Ref sig .tc} {f : x.ty.Contents Val → y.ty.Contents Val} {hx hy}
    (hops : ops = pre ++ unary (τ := τ) x y f hx hy :: post) (hW : WritesIn post Wl)
    (hyW : y ∉ Wl) (hxW : x ∉ Wl) (hxy : x ≠ y) :
    after ops V (Proc.devRef .tc y) = f (after ops V (Proc.devRef .tc x)) := by
  subst hops
  rw [after_split_keep pre post _ V hW hyW, after_split_keep pre post _ V hW hxW, unary_result,
    unary_result_ne x y f hx hy _ hxy]

/-- BINARY: `W y = f (W a) (W b)`. -/
theorem binary_final {a b y : Ref sig .tc} {f : a.ty.Contents Val → b.ty.Contents Val → y.ty.Contents Val} {ha hb hy}
    (hops : ops = pre ++ binary (τ := τ) a b y f ha hb hy :: post) (hW : WritesIn post Wl)
    (hyW : y ∉ Wl) (haW : a ∉ Wl) (hbW : b ∉ Wl) (hay : a ≠ y) (hby : b ≠ y) :
    after ops V (Proc.devRef .tc y) = f (after ops V (Proc.devRef .tc a)) (after ops V (Proc.devRef .tc b)) := by
  subst hops
  rw [after_split_keep pre post _ V hW hyW, after_split_keep pre post _ V hW haW,
    after_split_keep pre post _ V hW hbW, binary_result, binary_result_ne a b y f ha hb hy _ hay,
    binary_result_ne a b y f ha hb hy _ hby]

/-- TERNARY: `W y = f (W c) (W a) (W b)`. -/
theorem ternary_final {c a b y : Ref sig .tc}
    {f : c.ty.Contents Val → a.ty.Contents Val → b.ty.Contents Val → y.ty.Contents Val} {hc ha hb hy}
    (hops : ops = pre ++ ternary (τ := τ) c a b y f hc ha hb hy :: post) (hW : WritesIn post Wl)
    (hyW : y ∉ Wl) (hcW : c ∉ Wl) (haW : a ∉ Wl) (hbW : b ∉ Wl) (hcy : c ≠ y) (hay : a ≠ y) (hby : b ≠ y) :
    after ops V (Proc.devRef .tc y)
      = f (after ops V (Proc.devRef .tc c)) (after ops V (Proc.devRef .tc a)) (after ops V (Proc.devRef .tc b)) := by
  subst hops
  rw [after_split_keep pre post _ V hW hyW, after_split_keep pre post _ V hW hcW,
    after_split_keep pre post _ V hW haW, after_split_keep pre post _ V hW hbW, ternary_result,
    ternary_result_ne a b c y f hc ha hb hy _ hcy, ternary_result_ne a b c y f hc ha hb hy _ hay,
    ternary_result_ne a b c y f hc ha hb hy _ hby]

/-- QUATERNARY: `W y = f (W a) (W b) (W c) (W e)`. -/
theorem quaternary_final {a b c e y : Ref sig .tc}
    {f : a.ty.Contents Val → b.ty.Contents Val → c.ty.Contents Val → e.ty.Contents Val → y.ty.Contents Val}
    {ha hb hc he hy}
    (hops : ops = pre ++ quaternary (τ := τ) a b c e y f ha hb hc he hy :: post) (hW : WritesIn post Wl)
    (hyW : y ∉ Wl) (haW : a ∉ Wl) (hbW : b ∉ Wl) (hcW : c ∉ Wl) (heW : e ∉ Wl)
    (hay : a ≠ y) (hby : b ≠ y) (hcy : c ≠ y) (hey : e ≠ y) :
    after ops V (Proc.devRef .tc y)
      = f (after ops V (Proc.devRef .tc a)) (after ops V (Proc.devRef .tc b)) (after ops V (Proc.devRef .tc c))
          (after ops V (Proc.devRef .tc e)) := by
  subst hops
  rw [after_split_keep pre post _ V hW hyW, after_split_keep pre post _ V hW haW,
    after_split_keep pre post _ V hW hbW, after_split_keep pre post _ V hW hcW,
    after_split_keep pre post _ V hW heW, quaternary_result,
    quaternary_result_ne a b c e y f ha hb hc he hy _ hay, quaternary_result_ne a b c e y f ha hb hc he hy _ hby,
    quaternary_result_ne a b c e y f ha hb hc he hy _ hcy, quaternary_result_ne a b c e y f ha hb hc he hy _ hey]

/-- RESHAPE: `W y` is `W x` recast to `y`'s shape. -/
theorem reshape_final {x y : Ref sig .tc} {he : x.ty.elt = y.ty.elt} {hn : x.ty.shape.ShapeCasts y.ty.shape} {hx hy}
    (hops : ops = pre ++ reshape (τ := τ) (Val := Val) x y he hn hx hy :: post) (hW : WritesIn post Wl)
    (hyW : y ∉ Wl) (hxW : x ∉ Wl) (hxy : x ≠ y) :
    after ops V (Proc.devRef .tc y)
      = fun i => he ▸ shapeCast y.ty.shape (after ops V (Proc.devRef .tc x)) hn i := by
  subst hops
  rw [after_split_keep pre post _ V hW hyW, after_split_keep pre post _ V hW hxW, reshape_result,
    reshape_result_ne x y he hn hx hy _ hxy]

end Final

/-! ## A stretch with its result references in order

For a stretch of the program state ONCE that its operations write, one each and in order, the buffers of the references
`Wl` (`Outs ops Wl`: one `rfl` per operation, the tactic `outs_in_order`). Then what follows position `p` writes
only `Wl.drop (p + 1)`, with no further pass over the operations, and an operation is addressed by its position. -/

/-- The operations of the line write one buffer each: the buffers of the references `Wl`, in order. -/
def Outs (ops : List (HloOp τ sig Val)) (Wl : List (Ref sig .tc)) : Prop :=
  List.Forall₂ (fun op y => op.writes = {Proc.devRef (τ := τ) .tc y}) ops Wl

/-- The empty line, the empty list. -/
theorem Outs.nil : Outs ([] : List (HloOp τ sig Val)) [] := List.Forall₂.nil

/-- One more operation in front, its result reference in front. -/
theorem Outs.cons {op : HloOp τ sig Val} {ops : List (HloOp τ sig Val)} {Wl : List (Ref sig .tc)} {y : Ref sig .tc}
    (h : op.writes = {Proc.devRef .tc y}) (hr : Outs ops Wl) : Outs (op :: ops) (y :: Wl) :=
  List.Forall₂.cons h hr

/-- The list of result references holds the line's writes. -/
theorem Outs.writesIn {ops : List (HloOp τ sig Val)} {Wl : List (Ref sig .tc)} (h : Outs ops Wl) : WritesIn ops Wl := by
  induction h with
  | nil => exact WritesIn.nil
  | cons h _ ih => exact WritesIn.cons_head h ih

/-- What follows position `k` writes the references that follow position `k`. -/
theorem Outs.drop {ops : List (HloOp τ sig Val)} {Wl : List (Ref sig .tc)} (h : Outs ops Wl) (k : Nat) :
    Outs (ops.drop k) (Wl.drop k) :=
  List.forall₂_drop k h

/-- The first `k` operations write the first `k` references. -/
theorem Outs.take {ops : List (HloOp τ sig Val)} {Wl : List (Ref sig .tc)} (h : Outs ops Wl) (k : Nat) :
    Outs (ops.take k) (Wl.take k) :=
  List.forall₂_take k h

/-- Two stretches in a row. -/
theorem Outs.append {l₁ l₂ : List (HloOp τ sig Val)} {W₁ W₂ : List (Ref sig .tc)} (h₁ : Outs l₁ W₁) (h₂ : Outs l₂ W₂) :
    Outs (l₁ ++ l₂) (W₁ ++ W₂) := by
  induction h₁ with
  | nil => exact h₂
  | cons h _ ih => exact Outs.cons h ih

/-- Proves `Outs ops Wl` for a written-out line `ops` of operations that each write one buffer and the list `Wl` of
    their result references in the same order. -/
macro "outs_in_order" : tactic =>
  `(tactic| repeat (first | exact Outs.nil | refine Outs.cons rfl ?_))

/-- A line split at the operation in position `p`. -/
theorem split_at {ops : List (HloOp τ sig Val)} {p : Nat} {op : HloOp τ sig Val} (hp : ops[p]? = some op) :
    ops = ops.take p ++ op :: ops.drop (p + 1) := by
  obtain ⟨h, rfl⟩ := List.getElem?_eq_some_iff.mp hp
  rw [← List.drop_eq_getElem_cons h, List.take_append_drop]

/-- In a list of references without repetition, the one at position `p` does not occur after position `p`: a stretch
    that writes every buffer once never writes an operation's result again. -/
theorem not_mem_drop_succ_of_nodup {Wl : List (Ref sig .tc)} (hn : Wl.Nodup) {p : Nat} {y : Ref sig .tc}
    (hy : Wl[p]? = some y) : y ∉ Wl.drop (p + 1) := by
  obtain ⟨h, rfl⟩ := List.getElem?_eq_some_iff.mp hy
  have hd : (Wl.drop p).Nodup := List.Nodup.sublist (List.drop_sublist p Wl) hn
  rw [List.drop_eq_getElem_cons h] at hd
  exact (List.nodup_cons.mp hd).1

section At

variable {ops : List (HloOp τ sig Val)} {Wl : List (Ref sig .tc)} (V : Valuation τ sig Val)

/-- NULLARY at position `p` of a stretch: `W y = v`. -/
theorem nullary_at (hO : Outs ops Wl) (p : Nat) {y : Ref sig .tc} {v : y.ty.Contents Val} {hy}
    (hp : ops[p]? = some (nullary (τ := τ) y v hy)) (hyW : y ∉ Wl.drop (p + 1)) :
    after ops V (Proc.devRef .tc y) = v :=
  nullary_final V (split_at hp) (hO.drop (p + 1)).writesIn hyW

/-- UNARY at position `p` of a stretch: `W y = f (W x)`. -/
theorem unary_at (hO : Outs ops Wl) (p : Nat) {x y : Ref sig .tc} {f : x.ty.Contents Val → y.ty.Contents Val} {hx hy}
    (hp : ops[p]? = some (unary (τ := τ) x y f hx hy)) (hyW : y ∉ Wl.drop (p + 1)) (hxW : x ∉ Wl.drop (p + 1))
    (hxy : x ≠ y) :
    after ops V (Proc.devRef .tc y) = f (after ops V (Proc.devRef .tc x)) :=
  unary_final V (split_at hp) (hO.drop (p + 1)).writesIn hyW hxW hxy

/-- BINARY at position `p` of a stretch: `W y = f (W a) (W b)`. -/
theorem binary_at (hO : Outs ops Wl) (p : Nat) {a b y : Ref sig .tc} {f : a.ty.Contents Val → b.ty.Contents Val → y.ty.Contents Val} {ha hb hy}
    (hp : ops[p]? = some (binary (τ := τ) a b y f ha hb hy)) (hyW : y ∉ Wl.drop (p + 1)) (haW : a ∉ Wl.drop (p + 1))
    (hbW : b ∉ Wl.drop (p + 1)) (hay : a ≠ y) (hby : b ≠ y) :
    after ops V (Proc.devRef .tc y) = f (after ops V (Proc.devRef .tc a)) (after ops V (Proc.devRef .tc b)) :=
  binary_final V (split_at hp) (hO.drop (p + 1)).writesIn hyW haW hbW hay hby

/-- TERNARY at position `p` of a stretch: `W y = f (W c) (W a) (W b)`. -/
theorem ternary_at (hO : Outs ops Wl) (p : Nat) {c a b y : Ref sig .tc}
    {f : c.ty.Contents Val → a.ty.Contents Val → b.ty.Contents Val → y.ty.Contents Val} {hc ha hb hy}
    (hp : ops[p]? = some (ternary (τ := τ) c a b y f hc ha hb hy)) (hyW : y ∉ Wl.drop (p + 1))
    (hcW : c ∉ Wl.drop (p + 1)) (haW : a ∉ Wl.drop (p + 1)) (hbW : b ∉ Wl.drop (p + 1))
    (hcy : c ≠ y) (hay : a ≠ y) (hby : b ≠ y) :
    after ops V (Proc.devRef .tc y)
      = f (after ops V (Proc.devRef .tc c)) (after ops V (Proc.devRef .tc a)) (after ops V (Proc.devRef .tc b)) :=
  ternary_final V (split_at hp) (hO.drop (p + 1)).writesIn hyW hcW haW hbW hcy hay hby

/-- RESHAPE at position `p` of a stretch. -/
theorem reshape_at (hO : Outs ops Wl) (p : Nat) {x y : Ref sig .tc} {he : x.ty.elt = y.ty.elt} {hn : x.ty.shape.ShapeCasts y.ty.shape} {hx hy}
    (hp : ops[p]? = some (reshape (τ := τ) (Val := Val) x y he hn hx hy)) (hyW : y ∉ Wl.drop (p + 1))
    (hxW : x ∉ Wl.drop (p + 1)) (hxy : x ≠ y) :
    after ops V (Proc.devRef .tc y)
      = fun i => he ▸ shapeCast y.ty.shape (after ops V (Proc.devRef .tc x)) hn i :=
  reshape_final V (split_at hp) (hO.drop (p + 1)).writesIn hyW hxW hxy

end At

/-! ## Through later lines

An equation between the contents at some references survives any later line that writes none of them: with
`W' = after later W`, `W' r = W r` at each. So an operation's equation proved for its own stretch of the program holds
for the stretch followed by the later stretches. Either restate the split with `split_append`, `WritesIn.append` and
`not_mem_append` and use the lemmas above at the whole line, or carry the equation over with the lemmas below. -/

section Later

variable {later : List (HloOp τ sig Val)} {Wl : List (Ref sig .tc)} {W : Valuation τ sig Val}

/-- NULLARY through a later line. -/
theorem nullary_later {y : Ref sig .tc} {v : y.ty.Contents Val} (h : W (Proc.devRef .tc y) = v)
    (hL : WritesIn later Wl) (hyW : y ∉ Wl) : after later W (Proc.devRef .tc y) = v := by
  rw [after_keep hL hyW, h]

/-- UNARY through a later line. -/
theorem unary_later {x y : Ref sig .tc} {f : x.ty.Contents Val → y.ty.Contents Val}
    (h : W (Proc.devRef .tc y) = f (W (Proc.devRef .tc x))) (hL : WritesIn later Wl) (hyW : y ∉ Wl) (hxW : x ∉ Wl) :
    after later W (Proc.devRef .tc y) = f (after later W (Proc.devRef .tc x)) := by
  rw [after_keep hL hyW, after_keep hL hxW, h]

/-- BINARY through a later line. -/
theorem binary_later {a b y : Ref sig .tc} {f : a.ty.Contents Val → b.ty.Contents Val → y.ty.Contents Val}
    (h : W (Proc.devRef .tc y) = f (W (Proc.devRef .tc a)) (W (Proc.devRef .tc b))) (hL : WritesIn later Wl)
    (hyW : y ∉ Wl) (haW : a ∉ Wl) (hbW : b ∉ Wl) :
    after later W (Proc.devRef .tc y)
      = f (after later W (Proc.devRef .tc a)) (after later W (Proc.devRef .tc b)) := by
  rw [after_keep hL hyW, after_keep hL haW, after_keep hL hbW, h]

/-- TERNARY through a later line. -/
theorem ternary_later {c a b y : Ref sig .tc}
    {f : c.ty.Contents Val → a.ty.Contents Val → b.ty.Contents Val → y.ty.Contents Val}
    (h : W (Proc.devRef .tc y) = f (W (Proc.devRef .tc c)) (W (Proc.devRef .tc a)) (W (Proc.devRef .tc b)))
    (hL : WritesIn later Wl) (hyW : y ∉ Wl) (hcW : c ∉ Wl) (haW : a ∉ Wl) (hbW : b ∉ Wl) :
    after later W (Proc.devRef .tc y)
      = f (after later W (Proc.devRef .tc c)) (after later W (Proc.devRef .tc a))
          (after later W (Proc.devRef .tc b)) := by
  rw [after_keep hL hyW, after_keep hL hcW, after_keep hL haW, after_keep hL hbW, h]

/-- The fold of a stretch followed by a later line is the later line's fold of the stretch's. -/
theorem after_stretch (ops later : List (HloOp τ sig Val)) (V : Valuation τ sig Val) :
    after (ops ++ later) V = after later (after ops V) :=
  StableHlo.after_append ops later V

/-- BINARY, for a stretch followed by a later line that writes none of `y`, `a`, `b`: the equation on the final
    contents of the whole. -/
theorem binary_final_append {ops pre post later : List (HloOp τ sig Val)} {Wl' : List (Ref sig .tc)}
    (V : Valuation τ sig Val) {a b y : Ref sig .tc}
    {f : a.ty.Contents Val → b.ty.Contents Val → y.ty.Contents Val} {ha hb hy}
    (hops : ops = pre ++ binary (τ := τ) a b y f ha hb hy :: post) (hW : WritesIn post Wl') (hL : WritesIn later Wl)
    (hyW : y ∉ Wl') (haW : a ∉ Wl') (hbW : b ∉ Wl') (hyL : y ∉ Wl) (haL : a ∉ Wl) (hbL : b ∉ Wl)
    (hay : a ≠ y) (hby : b ≠ y) :
    after (ops ++ later) V (Proc.devRef .tc y)
      = f (after (ops ++ later) V (Proc.devRef .tc a)) (after (ops ++ later) V (Proc.devRef .tc b)) := by
  rw [after_stretch]
  exact binary_later (binary_final V hops hW hyW haW hbW hay hby) hL hyL haL hbL

end Later

end Cert.HostFold
-- ==== Proof.KKeep.lean ====
/-
  What each segment of the idealized kernel's @main leaves alone.

  A host stretch changes only the buffers its operations write: every other buffer holds after it what it held
  before. A region changes only its output arrays: its input arrays end as they were entered, and a buffer that is
  none of its arrays is not touched. So a buffer that no operation writes and no region outputs holds its launch
  contents at every segment boundary.
-/
import proofs.«171162_j59115929862199_2_alg».proof.Proof.Gen.KernelIdeal.Frame
import proofs.«171162_j59115929862199_2_alg».proof.Proof.LibHostFold

set_option maxRecDepth 16384

noncomputable section

namespace Cert.KernelIdeal.KKeep

open Idealize.ShloMosaic Idealize.ShloMosaic.TcCoe Idealize.SL.Sem
open Cert.KernelIdeal Cert.KernelIdeal.Gen Cert.HostFold

variable {F : FTy → Type} [FloatOps F]
variable (m : (ℓ : Loc nD τ sig) → Buf (Elt F) ℓ) (ρ : Dev nD → PrngReg)

/-! ## The host stretches -/

/-- The buffers `hostOps0` writes, in order. -/
def outs_h0 : List (Ref sig .tc) := [main_v0, main_v1, main_v2, main_v3, main_v4, main_v5, main_v6, main_cst, main_v7, main_cst_0, main_v8, main_v9, main_v10, main_cst_1, main_v11, main_v12, main_cst_2, main_v13, main_v14, main_v15, main_cst_3]
theorem writes_h0 : WritesIn (τ := τ) (hostOps0 : List (HloOp τ sig (Elt F))) outs_h0 := by
  unfold outs_h0; writes_in
/-- A buffer `hostOps0` does not write is as before. -/
theorem keep_h0 (c : Dev nD) (b : Ref sig .tc) (hb : b ∉ outs_h0) :
    W1 m ρ c (Proc.devRef .tc b) = W0 m ρ c (Proc.devRef .tc b) :=
  after_keep (writes_h0 (F := F)) hb _

/-- The buffers `hostOps0_1` writes, in order. -/
def outs_h0a : List (Ref sig .tc) := [main_call0_v0, main_call0_v1, main_v16]
theorem writes_h0a : WritesIn (τ := τ) (hostOps0_1 : List (HloOp τ sig (Elt F))) outs_h0a := by
  unfold outs_h0a; writes_in
/-- A buffer `hostOps0_1` does not write is as before. -/
theorem keep_h0a (c : Dev nD) (b : Ref sig .tc) (hb : b ∉ outs_h0a) :
    W2 m ρ c (Proc.devRef .tc b) = W1 m ρ c (Proc.devRef .tc b) :=
  after_keep (writes_h0a (F := F)) hb _

/-- The buffers `hostOps0_2` writes, in order. -/
def outs_h0b : List (Ref sig .tc) := [main_v17]
theorem writes_h0b : WritesIn (τ := τ) (hostOps0_2 : List (HloOp τ sig (Elt F))) outs_h0b := by
  unfold outs_h0b; writes_in
/-- A buffer `hostOps0_2` does not write is as before. -/
theorem keep_h0b (c : Dev nD) (b : Ref sig .tc) (hb : b ∉ outs_h0b) :
    W3 m ρ c (Proc.devRef .tc b) = W2 m ρ c (Proc.devRef .tc b) :=
  after_keep (writes_h0b (F := F)) hb _

/-- The buffers `hostOps1` writes, in order. -/
def outs_h1 : List (Ref sig .tc) := [main_c, main_v19, main_v20, main_c_4, main_v21, main_v22, main_v23, main_v24, main_v25, main_v26, main_cst_5, main_v27, main_v28, main_v29]
theorem writes_h1 : WritesIn (τ := τ) (hostOps1 : List (HloOp τ sig (Elt F))) outs_h1 := by
  unfold outs_h1; writes_in
/-- A buffer `hostOps1` does not write is as before. -/
theorem keep_h1 (c : Dev nD) (b : Ref sig .tc) (hb : b ∉ outs_h1) :
    W5 m ρ c (Proc.devRef .tc b) = W4 m ρ c (Proc.devRef .tc b) :=
  after_keep (writes_h1 (F := F)) hb _

/-- The buffers `hostOps2` writes, in order. -/
def outs_h2 : List (Ref sig .tc) := [main_c_6, main_v31, main_v32, main_c_7, main_v33, main_v34, main_v35, main_v36, main_v37, main_v38, main_cst_8, main_v39, main_v40, main_v41]
theorem writes_h2 : WritesIn (τ := τ) (hostOps2 : List (HloOp τ sig (Elt F))) outs_h2 := by
  unfold outs_h2; writes_in
/-- A buffer `hostOps2` does not write is as before. -/
theorem keep_h2 (c : Dev nD) (b : Ref sig .tc) (hb : b ∉ outs_h2) :
    W7 m ρ c (Proc.devRef .tc b) = W6 m ρ c (Proc.devRef .tc b) :=
  after_keep (writes_h2 (F := F)) hb _

/-- The buffers `hostOps3` writes, in order. -/
def outs_h3 : List (Ref sig .tc) := [main_c_9, main_v43, main_v44, main_c_10, main_v45, main_v46, main_v47, main_v48, main_v49, main_v50, main_cst_11, main_v51, main_v52, main_v53]
theorem writes_h3 : WritesIn (τ := τ) (hostOps3 : List (HloOp τ sig (Elt F))) outs_h3 := by
  unfold outs_h3; writes_in
/-- A buffer `hostOps3` does not write is as before. -/
theorem keep_h3 (c : Dev nD) (b : Ref sig .tc) (hb : b ∉ outs_h3) :
    W9 m ρ c (Proc.devRef .tc b) = W8 m ρ c (Proc.devRef .tc b) :=
  after_keep (writes_h3 (F := F)) hb _

/-- The buffers `hostOps4` writes, in order. -/
def outs_h4 : List (Ref sig .tc) := [main_cst_12, main_v55, main_v56, main_v57, main_cst_13, main_v58, main_cst_14, main_v59, main_v60, main_v61, main_cst_15, main_v62, main_v63, main_v64, main_v65, main_v66, main_v67, main_v68, main_v69]
theorem writes_h4 : WritesIn (τ := τ) (hostOps4 : List (HloOp τ sig (Elt F))) outs_h4 := by
  unfold outs_h4; writes_in
/-- A buffer `hostOps4` does not write is as before. -/
theorem keep_h4 (c : Dev nD) (b : Ref sig .tc) (hb : b ∉ outs_h4) :
    W11 m ρ c (Proc.devRef .tc b) = W10 m ρ c (Proc.devRef .tc b) :=
  after_keep (writes_h4 (F := F)) hb _

/-! ## The regions -/

/-- Region 0 leaves every buffer but its output array as entered. -/
theorem keep_r0 (c : Dev nD) (b : Ref sig .tc) (hb : b ≠ main_v18) :
    W4 m ρ c (Proc.devRef .tc b) = W3 m ρ c (Proc.devRef .tc b) := by
  by_cases h : ∃ w, Pipeline.arrRef spec0 w = b
  · obtain ⟨w, rfl⟩ := h
    fin_cases w
    · exact (W4_arr m ρ c 0).trans (((dat0 (V3 m ρ) c).arrAt_in 0 rfl _).trans (A_eq0 (V3 m ρ) c 0))
    · exact (W4_arr m ρ c 1).trans (((dat0 (V3 m ρ) c).arrAt_in 1 rfl _).trans (A_eq0 (V3 m ρ) c 1))
    · exact (W4_arr m ρ c 2).trans (((dat0 (V3 m ρ) c).arrAt_in 2 rfl _).trans (A_eq0 (V3 m ρ) c 2))
    · exact absurd rfl hb
  · exact W4_of_ne m ρ c b (fun w e => h ⟨w, e⟩)

/-- Region 1 leaves every buffer but its output array as entered. -/
theorem keep_r1 (c : Dev nD) (b : Ref sig .tc) (hb : b ≠ main_v30) :
    W6 m ρ c (Proc.devRef .tc b) = W5 m ρ c (Proc.devRef .tc b) := by
  by_cases h : ∃ w, Pipeline.arrRef spec1 w = b
  · obtain ⟨w, rfl⟩ := h
    fin_cases w
    · exact (W6_arr m ρ c 0).trans (((dat1 (V5 m ρ) c).arrAt_in 0 rfl _).trans (A_eq1 (V5 m ρ) c 0))
    · exact (W6_arr m ρ c 1).trans (((dat1 (V5 m ρ) c).arrAt_in 1 rfl _).trans (A_eq1 (V5 m ρ) c 1))
    · exact (W6_arr m ρ c 2).trans (((dat1 (V5 m ρ) c).arrAt_in 2 rfl _).trans (A_eq1 (V5 m ρ) c 2))
    · exact (W6_arr m ρ c 3).trans (((dat1 (V5 m ρ) c).arrAt_in 3 rfl _).trans (A_eq1 (V5 m ρ) c 3))
    · exact absurd rfl hb
  · exact W6_of_ne m ρ c b (fun w e => h ⟨w, e⟩)

/-- Region 2 leaves every buffer but its output array as entered. -/
theorem keep_r2 (c : Dev nD) (b : Ref sig .tc) (hb : b ≠ main_v42) :
    W8 m ρ c (Proc.devRef .tc b) = W7 m ρ c (Proc.devRef .tc b) := by
  by_cases h : ∃ w, Pipeline.arrRef spec2 w = b
  · obtain ⟨w, rfl⟩ := h
    fin_cases w
    · exact (W8_arr m ρ c 0).trans (((dat2 (V7 m ρ) c).arrAt_in 0 rfl _).trans (A_eq2 (V7 m ρ) c 0))
    · exact (W8_arr m ρ c 1).trans (((dat2 (V7 m ρ) c).arrAt_in 1 rfl _).trans (A_eq2 (V7 m ρ) c 1))
    · exact (W8_arr m ρ c 2).trans (((dat2 (V7 m ρ) c).arrAt_in 2 rfl _).trans (A_eq2 (V7 m ρ) c 2))
    · exact (W8_arr m ρ c 3).trans (((dat2 (V7 m ρ) c).arrAt_in 3 rfl _).trans (A_eq2 (V7 m ρ) c 3))
    · exact absurd rfl hb
  · exact W8_of_ne m ρ c b (fun w e => h ⟨w, e⟩)

/-- Region 3 leaves every buffer but its output array as entered. -/
theorem keep_r3 (c : Dev nD) (b : Ref sig .tc) (hb : b ≠ main_v54) :
    W10 m ρ c (Proc.devRef .tc b) = W9 m ρ c (Proc.devRef .tc b) := by
  by_cases h : ∃ w, Pipeline.arrRef spec3 w = b
  · obtain ⟨w, rfl⟩ := h
    fin_cases w
    · exact (W10_arr m ρ c 0).trans (((dat3 (V9 m ρ) c).arrAt_in 0 rfl _).trans (A_eq3 (V9 m ρ) c 0))
    · exact (W10_arr m ρ c 1).trans (((dat3 (V9 m ρ) c).arrAt_in 1 rfl _).trans (A_eq3 (V9 m ρ) c 1))
    · exact (W10_arr m ρ c 2).trans (((dat3 (V9 m ρ) c).arrAt_in 2 rfl _).trans (A_eq3 (V9 m ρ) c 2))
    · exact absurd rfl hb
  · exact W10_of_ne m ρ c b (fun w e => h ⟨w, e⟩)

end Cert.KernelIdeal.KKeep

end
-- ==== Proof.LibRowOps.lean ====
/-
  Rows moved by index. Two StableHLO operations read at one element:

  * the gather that takes whole rows of a two-dimensional array, `x[idx]` for `x : [N, W]` and `idx : [E]` (carried as
    `[E, 1]`): element `(e, c)` of the result is `x` at row `idx[e]`, read as a signed integer and clamped into
    `[0, N − 1]`, column `c`;
  * the scatter with an `add` body that accumulates whole rows, `segment_sum(upd, idx, N)` for `upd : [E, W]`: element
    `(r, c)` of the result is the operand's plus the sum of `upd[e, c]` over the `e` whose index `idx[e]`, read as a
    signed integer and NOT clamped, is exactly `r` (an index outside `[0, N − 1]` lands nowhere); and the same for a
    flat operand `[N]` and updates `[E]`.

  Every statement is over abstract extents `N`, `E`, `W`; nothing here enumerates an index set.
-/
import Idealize.ShloMosaic.PureOps.Ideal
import Idealize.ShloMosaic.Lib.ValueIdx

noncomputable section

open scoped BigOperators

namespace Cert.RowOps

open Idealize.ShloMosaic Idealize.ShloMosaic.ValueIdx

/-! ## The row an index word names -/

/-- The row a gather reads for the start index `w`: `w` as a signed integer, clamped into `[0, N − 1]`. -/
def gatherRow (N : Nat) (hN : 0 < N) (w : BitVec 32) : Fin N := ⟨min w.toInt.toNat (N - 1), by omega⟩

/-- The row a scatter writes for the scatter index `w`: `w` as a signed integer when that is a row of the operand,
    none otherwise (the update is dropped; no clamping). -/
def scatterRow (N : Nat) (w : BitVec 32) : Option (Fin N) :=
  if h : 0 ≤ w.toInt ∧ w.toInt < (N : Int) then some ⟨w.toInt.toNat, by omega⟩ else none

/-- `scatterRow` names row `r` exactly when the index, read signed, is `r`. -/
theorem scatterRow_eq_some_iff {N : Nat} (w : BitVec 32) (r : Fin N) :
    scatterRow N w = some r ↔ w.toInt = (r.val : Int) := by
  unfold scatterRow
  constructor
  · intro h
    split at h
    · rename_i hw
      have := congrArg Fin.val (Option.some.inj h)
      simp only at this
      omega
    · exact absurd h (by simp)
  · intro h
    have hr := r.isLt
    rw [dif_pos (by omega)]
    exact congrArg some (Fin.ext (by simp only; omega))

/-! ## The gather of rows -/

section Gather
variable {α : Type}

/-- The dimension numbers of a gather of rows: operand `[N, W]`, start indices `[E, 1]`, result `[E, W]`; the result's
    axis 1 is the offset axis, operand axis 0 is collapsed and is the one the start index names, slices are `1 × W`. -/
abbrev rowGatherDims (N E W : Nat)
    (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

/-- The row coordinate of the operand index that result index `(e, c)` reads: the clamped start index. -/
theorem rowGather_operandIdx_zero {N E W : Nat} (hN : 0 < N)
    (wf : GatherDims.WF ⟨2, ![N, W]⟩ ⟨2, ![E, 1]⟩ ⟨2, ![E, W]⟩ [1] [0] [] [0] [] 1 ![1, W])
    (idx : IVec ⟨2, ![E, 1]⟩ 32) (e : Fin E) (c : Fin W) :
    (rowGatherDims N E W wf).operandIdx (ix2 e c) idx 0 = gatherRow N hN (idx (ix2 e 0)) := by
  refine Fin.ext ?_
  show (rowGatherDims N E W wf).start (ix2 e c) idx 0 + (rowGatherDims N E W wf).batchCoord (ix2 e c) 0
    + (rowGatherDims N E W wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E W wf).startIndexMap from List.mem_singleton.mpr rfl)]
  have hsi : (rowGatherDims N E W wf).siIdx (ix2 e c) ⟨List.idxOf (0 : Fin 2) (rowGatherDims N E W wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The column coordinate of the operand index that result index `(e, c)` reads: `c` itself. -/
theorem rowGather_operandIdx_one {N E W : Nat}
    (wf : GatherDims.WF ⟨2, ![N, W]⟩ ⟨2, ![E, 1]⟩ ⟨2, ![E, W]⟩ [1] [0] [] [0] [] 1 ![1, W])
    (idx : IVec ⟨2, ![E, 1]⟩ 32) (e : Fin E) (c : Fin W) :
    (rowGatherDims N E W wf).operandIdx (ix2 e c) idx 1 = c := by
  refine Fin.ext ?_
  show (rowGatherDims N E W wf).start (ix2 e c) idx 1 + (rowGatherDims N E W wf).batchCoord (ix2 e c) 1
    + (rowGatherDims N E W wf).offCoord (ix2 e c) 1 = _
  rw [GatherDims.batchCoord_eq_zero _ _ _ List.not_mem_nil]
  have hst : (rowGatherDims N E W wf).start (ix2 e c) idx 1 = 0 := by
    unfold GatherDims.start
    rw [dif_neg (show (1 : Fin 2) ∉ ([0] : List (Fin 2)) by decide)]
  rw [hst]
  simp only [Nat.zero_add, Nat.add_zero]
  unfold GatherDims.offCoord
  rw [dif_pos ((GatherDims.mem_sKept _ _).mpr ⟨(show (1 : Fin 2) ∉ ([0] : List (Fin 2)) by decide), List.not_mem_nil⟩)]
  rfl

/-- The gather of rows at `(e, c)`, for the literal dimension numbers `rowGatherDims`. -/
theorem gather_rowDims_apply {N E W : Nat} (hN : 0 < N)
    (wf : GatherDims.WF ⟨2, ![N, W]⟩ ⟨2, ![E, 1]⟩ ⟨2, ![E, W]⟩ [1] [0] [] [0] [] 1 ![1, W])
    (x : (⟨2, ![N, W]⟩ : Shape).Idx → α) (idx : IVec ⟨2, ![E, 1]⟩ 32) (e : Fin E) (c : Fin W) :
    Host.gather (rowGatherDims N E W wf) x idx (ix2 e c) = x (ix2 (gatherRow N hN (idx (ix2 e 0))) c) := by
  unfold Host.gather
  refine congrArg x ((eq_ix2 _).trans ?_)
  rw [rowGather_operandIdx_zero hN wf idx e c, rowGather_operandIdx_one wf idx e c]
  rfl

/-- THE GATHER OF ROWS READ AT `(e, c)`: for any dimension numbers `d` whose fields are those of a gather of rows
    (each hypothesis is `rfl` at a program's record), the result at `(e, c)` is the operand at row
    `gatherRow N _ (idx[e])` — the start index read signed and clamped into `[0, N − 1]` — and column `c`. -/
theorem gather_rows_apply {N E W : Nat} (hN : 0 < N)
    (d : GatherDims ⟨2, ![N, W]⟩ ⟨2, ![E, 1]⟩ ⟨2, ![E, W]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, W])
    (x : (⟨2, ![N, W]⟩ : Shape).Idx → α) (idx : IVec ⟨2, ![E, 1]⟩ 32) (e : Fin E) (c : Fin W) :
    Host.gather d x idx (ix2 e c) = x (ix2 (gatherRow N hN (idx (ix2 e 0))) c) := by
  obtain ⟨od, cd, ob, sb, sm, iv, ss, wf⟩ := d
  simp only at hod hcd hob hsb hsm hiv hss
  subst hod hcd hob hsb hsm hiv hss
  exact gather_rowDims_apply hN wf x idx e c

end Gather

/-! ## The scatter-add of rows -/

section Scatter

/-- An axis of the operand is kept by a scatter exactly when it is not an inserted window axis. -/
theorem mem_scatter_sKept {s si u : Shape} (d : ScatterDims s si u) (a : Fin s.rank) :
    a ∈ d.sKept ↔ a ∉ d.insertedWindowDims := by
  simp [ScatterDims.sKept, Shape.kept, List.mem_filter, List.mem_finRange]

/-- The dimension numbers of a scatter of rows: operand `[N, W]`, scatter indices `[E, 1]`, updates `[E, W]`; the
    updates' axis 1 is the window axis, operand axis 0 is inserted and is the one the scatter index names. -/
abbrev rowScatterDims (N E W : Nat)
    (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

variable {N E W : Nat} (wf : ScatterDims.WF ⟨2, ![N, W]⟩ ⟨2, ![E, 1]⟩ ⟨2, ![E, W]⟩ [1] [0] [0] 1)
  (idx : IVec ⟨2, ![E, 1]⟩ 32) (j : (⟨2, ![E, W]⟩ : Shape).Idx)

/-- On the row axis the window of update `j` starts at its scatter index `idx[j₀]` read signed, and has no extent. -/
theorem rowScatter_pos_zero :
    (rowScatterDims N E W wf).start j idx 0 + ((rowScatterDims N E W wf).window j 0 : Int)
      = (idx (ix2 (j 0) 0)).toInt := by
  have hw : (rowScatterDims N E W wf).window j 0 = 0 := by
    unfold ScatterDims.window
    rw [dif_neg (fun h => ((mem_scatter_sKept _ _).mp h) (List.mem_singleton.mpr rfl))]
  have hs : (rowScatterDims N E W wf).start j idx 0 = (idx (ix2 (j 0) 0)).toInt := by
    unfold ScatterDims.start
    rw [dif_pos (show (0 : Fin 2) ∈ (rowScatterDims N E W wf).scatterDimsToOperandDims from List.mem_singleton.mpr rfl)]
    have hsi : (rowScatterDims N E W wf).siIdx j ⟨List.idxOf (0 : Fin 2) (rowScatterDims N E W wf).scatterDimsToOperandDims,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  rw [hw, hs]; simp

/-- On the column axis the window of update `j` starts at `0` and the update sits at its own column `j₁`. -/
theorem rowScatter_pos_one :
    (rowScatterDims N E W wf).start j idx 1 + ((rowScatterDims N E W wf).window j 1 : Int) = ((j 1).val : Int) := by
  have hs : (rowScatterDims N E W wf).start j idx 1 = 0 := by
    unfold ScatterDims.start
    rw [dif_neg (show (1 : Fin 2) ∉ ([0] : List (Fin 2)) by decide)]
  have hw : (rowScatterDims N E W wf).window j 1 = (j 1).val := by
    unfold ScatterDims.window
    rw [dif_pos ((mem_scatter_sKept _ _).mpr (show (1 : Fin 2) ∉ ([0] : List (Fin 2)) by decide))]
    rfl
  rw [hw, hs]; simp

/-- WHERE AN UPDATE LANDS: update `j = (e, c')` lands on element `(r, c)` exactly when its scatter index names row `r`
    and `c' = c`. -/
theorem rowScatter_resultIdx?_eq_some_iff (r : Fin N) (c : Fin W) :
    (rowScatterDims N E W wf).resultIdx? j idx = some (ix2 r c)
      ↔ scatterRow N (idx (ix2 (j 0) 0)) = some r ∧ j 1 = c := by
  rw [scatterRow_eq_some_iff]
  have h0 := rowScatter_pos_zero wf idx j
  have h1 := rowScatter_pos_one wf idx j
  have hr := r.isLt
  have hj1 : (j 1).val < W := (j 1).isLt
  unfold ScatterDims.resultIdx?
  constructor
  · intro h
    split at h
    · rename_i hall
      have h' := Option.some.inj h
      have e0 := congrArg (fun f : (⟨2, ![N, W]⟩ : Shape).Idx => (f 0).val) h'
      have e1 := congrArg (fun f : (⟨2, ![N, W]⟩ : Shape).Idx => (f 1).val) h'
      have a0 := (hall 0).1
      simp only at e0 e1
      rw [h0] at e0 a0
      rw [h1] at e1
      refine ⟨?_, Fin.ext ?_⟩
      · have : ((ix2 r c : (⟨2, ![N, W]⟩ : Shape).Idx) 0).val = r.val := rfl
        omega
      · have : ((ix2 r c : (⟨2, ![N, W]⟩ : Shape).Idx) 1).val = c.val := rfl
        omega
    · exact absurd h (by simp)
  · rintro ⟨hz, hc⟩
    have hall : ∀ a : Fin (⟨2, ![N, W]⟩ : Shape).rank,
        0 ≤ (rowScatterDims N E W wf).start j idx a + ((rowScatterDims N E W wf).window j a : Int) ∧
        (rowScatterDims N E W wf).start j idx a + ((rowScatterDims N E W wf).window j a : Int)
          < ((⟨2, ![N, W]⟩ : Shape).size a : Int) := by
      refine Fin.forall_fin_two.mpr ⟨?_, ?_⟩
      · rw [h0, hz]
        exact ⟨by omega, by show (r.val : Int) < (N : Int); omega⟩
      · rw [h1]
        exact ⟨by omega, by show ((j 1).val : Int) < (W : Int); omega⟩
    rw [dif_pos hall]
    refine congrArg some ((eq_ix2 _).trans ?_)
    have c0 : (⟨((rowScatterDims N E W wf).start j idx 0 + ((rowScatterDims N E W wf).window j 0 : Int)).toNat,
        by have := hall 0; omega⟩ : Fin N) = r := Fin.ext (by simp only; omega)
    have c1 : (⟨((rowScatterDims N E W wf).start j idx 1 + ((rowScatterDims N E W wf).window j 1 : Int)).toNat,
        by have := hall 1; omega⟩ : Fin W) = c := Fin.ext (by simp only; rw [← hc]; omega)
    exact congrArg₂ ix2 c0 c1

end Scatter

section ScatterSum

/-- The scatter-add of rows at `(r, c)`, for the literal dimension numbers `rowScatterDims`: the updates that land on
    `(r, c)` are the `(e, c)` whose scatter index names row `r`, one for each such `e`. -/
theorem scatterAdd_rowDims_apply {N E W : Nat}
    (wf : ScatterDims.WF ⟨2, ![N, W]⟩ ⟨2, ![E, 1]⟩ ⟨2, ![E, W]⟩ [1] [0] [0] 1)
    (x : FVec Ideal ⟨2, ![N, W]⟩ .f32) (idx : IVec ⟨2, ![E, 1]⟩ 32) (upd : FVec Ideal ⟨2, ![E, W]⟩ .f32)
    (r : Fin N) (c : Fin W) [DecidablePred fun e : Fin E => scatterRow N (idx (ix2 e 0)) = some r] :
    Host.scatterAdd (F := Ideal) (rowScatterDims N E W wf) x idx upd (ix2 r c)
      = x (ix2 r c) + ∑ e ∈ Finset.univ.filter (fun e : Fin E => scatterRow N (idx (ix2 e 0)) = some r),
          upd (ix2 e c) := by
  show Ideal.hostScatterAdd (rowScatterDims N E W wf) x idx upd (ix2 r c) = _
  unfold Ideal.hostScatterAdd
  congr 1
  refine Finset.sum_nbij' (fun j : (⟨2, ![E, W]⟩ : Shape).Idx => (j 0 : Fin E)) (fun e : Fin E => ix2 e c) ?_ ?_ ?_ ?_ ?_
  · intro j hj
    exact Finset.mem_filter.mpr ⟨Finset.mem_univ _,
      ((rowScatter_resultIdx?_eq_some_iff wf idx j r c).mp (Finset.mem_filter.mp hj).2).1⟩
  · intro e he
    exact Finset.mem_filter.mpr ⟨Finset.mem_univ _,
      (rowScatter_resultIdx?_eq_some_iff wf idx (ix2 e c) r c).mpr ⟨(Finset.mem_filter.mp he).2, rfl⟩⟩
  · intro j hj
    have hc := ((rowScatter_resultIdx?_eq_some_iff wf idx j r c).mp (Finset.mem_filter.mp hj).2).2
    show ix2 (j 0) c = j
    rw [← hc]
    exact (eq_ix2 j).symm
  · intro e _
    rfl
  · intro j hj
    have hc := ((rowScatter_resultIdx?_eq_some_iff wf idx j r c).mp (Finset.mem_filter.mp hj).2).2
    show upd j = upd (ix2 (j 0) c)
    rw [← hc]
    exact congrArg upd (eq_ix2 j)

/-- THE SCATTER-ADD OF ROWS READ AT `(r, c)`: for any dimension numbers `d` whose fields are those of a scatter of rows
    (each hypothesis is `rfl` at a program's record), the result at `(r, c)` is the operand's element plus the sum, over
    the `e` whose scatter index `idx[e]` read signed is exactly `r`, of the update's element `(e, c)`. -/
theorem scatterAdd_rows_apply {N E W : Nat} (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hiv : d.indexVectorDim = 1)
    (x : FVec Ideal ⟨2, ![N, W]⟩ .f32) (idx : IVec ⟨2, ![E, 1]⟩ 32) (upd : FVec Ideal ⟨2, ![E, W]⟩ .f32)
    (r : Fin N) (c : Fin W) [DecidablePred fun e : Fin E => scatterRow N (idx (ix2 e 0)) = some r] :
    Host.scatterAdd (F := Ideal) d x idx upd (ix2 r c)
      = x (ix2 r c) + ∑ e ∈ Finset.univ.filter (fun e : Fin E => scatterRow N (idx (ix2 e 0)) = some r),
          upd (ix2 e c) := by
  obtain ⟨uw, iw, sd, iv, wf⟩ := d
  simp only at huw hiw hsd hiv
  subst huw hiw hsd hiv
  exact scatterAdd_rowDims_apply wf x idx upd r c

end ScatterSum

/-! ## The scatter-add into a flat array -/

section ScatterVec

/-- The dimension numbers of a scatter into a flat array: operand `[N]`, scatter indices `[E, 1]`, updates `[E]`; no
    window axis, the operand's one axis is inserted and is the one the scatter index names. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E : Nat} (wf : ScatterDims.WF ⟨1, ![N]⟩ ⟨2, ![E, 1]⟩ ⟨1, ![E]⟩ [] [0] [0] 1)
  (idx : IVec ⟨2, ![E, 1]⟩ 32) (j : (⟨1, ![E]⟩ : Shape).Idx)

/-- On the operand's one axis the window of update `j` starts at its scatter index `idx[j₀]` read signed, and has no
    extent. -/
theorem vecScatter_pos_zero :
    (vecScatterDims N E wf).start j idx 0 + ((vecScatterDims N E wf).window j 0 : Int)
      = (idx (ix2 (j 0) 0)).toInt := by
  have hw : (vecScatterDims N E wf).window j 0 = 0 := by
    unfold ScatterDims.window
    rw [dif_neg (fun h => ((mem_scatter_sKept _ _).mp h) (List.mem_singleton.mpr rfl))]
  have hs : (vecScatterDims N E wf).start j idx 0 = (idx (ix2 (j 0) 0)).toInt := by
    unfold ScatterDims.start
    rw [dif_pos (show (0 : Fin 1) ∈ (vecScatterDims N E wf).scatterDimsToOperandDims from List.mem_singleton.mpr rfl)]
    have hsi : (vecScatterDims N E wf).siIdx j ⟨List.idxOf (0 : Fin 1) (vecScatterDims N E wf).scatterDimsToOperandDims,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  rw [hw, hs]; simp

/-- WHERE AN UPDATE LANDS: update `j = (e)` lands on element `(r)` exactly when its scatter index names `r`. -/
theorem vecScatter_resultIdx?_eq_some_iff (r : Fin N) :
    (vecScatterDims N E wf).resultIdx? j idx = some (ix1 r) ↔ scatterRow N (idx (ix2 (j 0) 0)) = some r := by
  rw [scatterRow_eq_some_iff]
  have h0 := vecScatter_pos_zero wf idx j
  have hr := r.isLt
  unfold ScatterDims.resultIdx?
  constructor
  · intro h
    split at h
    · rename_i hall
      have h' := Option.some.inj h
      have e0 := congrArg (fun f : (⟨1, ![N]⟩ : Shape).Idx => (f 0).val) h'
      have a0 := (hall 0).1
      simp only at e0
      rw [h0] at e0 a0
      have : ((ix1 r : (⟨1, ![N]⟩ : Shape).Idx) 0).val = r.val := rfl
      omega
    · exact absurd h (by simp)
  · intro hz
    have hall : ∀ a : Fin (⟨1, ![N]⟩ : Shape).rank,
        0 ≤ (vecScatterDims N E wf).start j idx a + ((vecScatterDims N E wf).window j a : Int) ∧
        (vecScatterDims N E wf).start j idx a + ((vecScatterDims N E wf).window j a : Int)
          < ((⟨1, ![N]⟩ : Shape).size a : Int) := by
      intro a
      obtain rfl : a = 0 := Subsingleton.elim _ _
      rw [h0, hz]
      exact ⟨by omega, by show (r.val : Int) < (N : Int); omega⟩
    rw [dif_pos hall]
    refine congrArg some ((eq_ix1 _).trans ?_)
    have c0 : (⟨((vecScatterDims N E wf).start j idx 0 + ((vecScatterDims N E wf).window j 0 : Int)).toNat,
        by have := hall 0; omega⟩ : Fin N) = r := Fin.ext (by simp only; omega)
    exact congrArg ix1 c0

/-- The scatter-add into a flat array at `(r)`, for the literal dimension numbers `vecScatterDims`. -/
theorem scatterAdd_vecDims_apply
    (x : FVec Ideal ⟨1, ![N]⟩ .f32) (upd : FVec Ideal ⟨1, ![E]⟩ .f32)
    (r : Fin N) [DecidablePred fun e : Fin E => scatterRow N (idx (ix2 e 0)) = some r] :
    Host.scatterAdd (F := Ideal) (vecScatterDims N E wf) x idx upd (ix1 r)
      = x (ix1 r) + ∑ e ∈ Finset.univ.filter (fun e : Fin E => scatterRow N (idx (ix2 e 0)) = some r),
          upd (ix1 e) := by
  show Ideal.hostScatterAdd (vecScatterDims N E wf) x idx upd (ix1 r) = _
  unfold Ideal.hostScatterAdd
  congr 1
  refine Finset.sum_nbij' (fun j : (⟨1, ![E]⟩ : Shape).Idx => (j 0 : Fin E)) (fun e : Fin E => ix1 e) ?_ ?_ ?_ ?_ ?_
  · intro j hj
    exact Finset.mem_filter.mpr ⟨Finset.mem_univ _,
      (vecScatter_resultIdx?_eq_some_iff wf idx j r).mp (Finset.mem_filter.mp hj).2⟩
  · intro e he
    exact Finset.mem_filter.mpr ⟨Finset.mem_univ _,
      (vecScatter_resultIdx?_eq_some_iff wf idx (ix1 e) r).mpr (Finset.mem_filter.mp he).2⟩
  · intro j _
    exact (eq_ix1 j).symm
  · intro e _
    rfl
  · intro j _
    exact congrArg upd (eq_ix1 j)

/-- THE SCATTER-ADD INTO A FLAT ARRAY READ AT `(r)`: for any dimension numbers `d` whose fields are those of such a
    scatter (each hypothesis is `rfl` at a program's record), the result at `(r)` is the operand's element plus the sum,
    over the `e` whose scatter index `idx[e]` read signed is exactly `r`, of the update's element `(e)`. -/
theorem scatterAdd_vec_apply (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : FVec Ideal ⟨1, ![N]⟩ .f32) (idx : IVec ⟨2, ![E, 1]⟩ 32) (upd : FVec Ideal ⟨1, ![E]⟩ .f32)
    (r : Fin N) [DecidablePred fun e : Fin E => scatterRow N (idx (ix2 e 0)) = some r] :
    Host.scatterAdd (F := Ideal) d x idx upd (ix1 r)
      = x (ix1 r) + ∑ e ∈ Finset.univ.filter (fun e : Fin E => scatterRow N (idx (ix2 e 0)) = some r),
          upd (ix1 e) := by
  obtain ⟨uw, iw, sd, iv, wf⟩ := d
  simp only at huw hiw hsd hiv
  subst huw hiw hsd hiv
  exact scatterAdd_vecDims_apply wf idx x upd r

end ScatterVec

end Cert.RowOps

end
-- ==== Proof.Spec.lean ====
/-
  The two programs as index-level formulas over the extended reals, and the laws that join them.

  A graph on `NN` nodes with `EE` directed edges (self loops included) is given by two opaque index arrays `src`,
  `dst` and a per-node scale `dis` (the inverse square root of the in-degree). A message-passing layer gathers
  rows by the wrapped source index, sums them into the rows their raw destination index names, and scales by the
  symmetric normalisation `dis[src] * dis[dst]`. One program applies the two factors separately — the source's before
  the neighbourhood sum, the destination's after it — the other applies their product to each message.
  The two agree because `dis` is a non-negative real: multiplication by a non-negative real distributes over any
  sum of extended reals.

  The dense head normalises the concatenation of three row pieces; one program sums the pieces separately and adds
  the three results, the other sums over the concatenated axis. The two agree by associativity alone.
-/
import Idealize.ShloMosaic.PureOps.Ideal
import Idealize.ShloMosaic.PureOps.Ideal.Laws
import Idealize.ShloMosaic.Lib.ValueIdx
import proofs.«171162_j59115929862199_2_alg».proof.Proof.LibRowOps

noncomputable section

open scoped BigOperators

namespace Cert.Spec

open Idealize.ShloMosaic Cert.RowOps

abbrev NN : Nat := 524288
abbrev EE : Nat := 2621440
abbrev BB : Nat := 16384

theorem NN_pos : 0 < NN := by decide
theorem BB_pos : 0 < BB := by decide

/-- The literals of both programs, kept as the words they are printed as. -/
def z0 : EReal := Ideal.ofBits .f32 0x00000000#32
def o1 : EReal := Ideal.ofBits .f32 0x3F800000#32
def c1137 : EReal := Ideal.ofBits .f32 0x448E2000#32
def eps : EReal := Ideal.ofBits .f32 0x3727C5AC#32

theorem z0_eq : z0 = 0 := Ideal.ofBits_zero_f32

/-- A matrix product at `(r, c)`. -/
def mm {R K C : Nat} (a : Fin R → Fin K → EReal) (b : Fin K → Fin C → EReal) (r : Fin R) (c : Fin C) : EReal :=
  ∑ k : Fin K, a r k * b k c

/-- jnp's wrap of a negative index: `w + NN` when `w` is negative as a signed word, else `w`. -/
def wrap (w : BitVec 32) : BitVec 32 :=
  Scalar.select (IntOp.cmpi .slt w 0#32) (IntOp.addi w 524288#32) w

/-- The row a gather by the wrapped index `w` reads. -/
def grow (w : BitVec 32) : Fin NN := gatherRow NN NN_pos (wrap w)

/-- A segment sum: row `r` of the result is the zero word plus the updates whose raw index names `r`. -/
def seg {M E' C : Nat} (idx : Fin E' → BitVec 32) (u : Fin E' → Fin C → EReal) (r : Fin M) (c : Fin C) : EReal :=
  z0 + ∑ e ∈ Finset.univ.filter (fun e : Fin E' => scatterRow M (idx e) = some r), u e c

/-- The number of updates a segment receives, as the zero word plus a sum of one words. -/
def cnt {M E' : Nat} (idx : Fin E' → BitVec 32) (r : Fin M) : EReal :=
  z0 + ∑ _e ∈ Finset.univ.filter (fun e : Fin E' => scatterRow M (idx e) = some r), o1

section Graph

variable (src dst : Fin EE → BitVec 32) (dis : Fin NN → EReal)

/-! ## One message-passing layer, two ways -/

/-- The linear map scaled by the node's own factor: `(X W)[n, j] * dis[n]`. -/
def linScale {K : Nat} (X : Fin NN → Fin K → EReal) (W : Fin K → Fin 64 → EReal) (n : Fin NN) (j : Fin 64) : EReal :=
  mm X W n j * dis n

/-- The neighbourhood sum of gathered rows. -/
def agg (hs : Fin NN → Fin 64 → EReal) (d : Fin NN) (j : Fin 64) : EReal :=
  seg dst (fun e j => hs (grow (src e)) j) d j

/-- The layer's epilogue: scale by the destination's factor, add the bias, clamp below at the zero word. -/
def epi (a : Fin NN → Fin 64 → EReal) (b : Fin 64 → EReal) (n : Fin NN) (j : Fin 64) : EReal :=
  max (a n j * dis n + b j) z0

/-- The layer with the two factors applied separately. -/
def layerK {K : Nat} (X : Fin NN → Fin K → EReal) (W : Fin K → Fin 64 → EReal) (b : Fin 64 → EReal) :
    Fin NN → Fin 64 → EReal :=
  epi dis (agg src dst (linScale dis X W)) b

/-- The layer with the product of the two factors applied to each message. -/
def layerR {K : Nat} (X : Fin NN → Fin K → EReal) (W : Fin K → Fin 64 → EReal) (b : Fin 64 → EReal)
    (n : Fin NN) (j : Fin 64) : EReal :=
  max (seg dst (fun e j => mm X W (grow (src e)) j * (dis (grow (src e)) * dis (grow (dst e)))) n j + b j) z0

end Graph

/-! ## The mean pool -/

/-- Per-graph mean of node rows: the segment sum over the batch index divided by the count clamped below at one. -/
def pool (batch : Fin NN → BitVec 32) (h : Fin NN → Fin 64 → EReal) (g : Fin BB) (j : Fin 64) : EReal :=
  Ideal.div (seg batch h g j) (max (cnt batch g) o1)

/-! ## The dense head, two ways -/

section Head

variable (P : Fin BB → Fin 64 → EReal) (px : Fin BB → Fin 979 → EReal) (fp : Fin BB → Fin 881 → EReal)
  (Wd : Fin 64 → Fin 128 → EReal) (bd : Fin 128 → EReal) (Wp : Fin 979 → Fin 128 → EReal) (bp : Fin 128 → EReal)
  (F1 : Fin 1137 → Fin 512 → EReal) (b1 : Fin 512 → EReal) (W2 : Fin 512 → Fin 256 → EReal) (b2 : Fin 256 → EReal)
  (W3 : Fin 256 → Fin 1 → EReal) (b3 : Fin 1 → EReal)

def drug (g : Fin BB) (c : Fin 128) : EReal := max (mm P Wd g c + bd c) z0
def prot (g : Fin BB) (c : Fin 128) : EReal := max (mm px Wp g c + bp c) z0

/-- The three row blocks of the first dense weight. -/
def F1d (k : Fin 128) (c : Fin 512) : EReal := F1 ⟨k.val, by omega⟩ c
def F1p (k : Fin 128) (c : Fin 512) : EReal := F1 ⟨128 + k.val, by omega⟩ c
def F1f (k : Fin 881) (c : Fin 512) : EReal := F1 ⟨256 + k.val, by omega⟩ c

/-- The piecewise head: the mean and variance from three separate sums. -/
def muK (g : Fin BB) : EReal :=
  Ideal.div ((∑ c : Fin 128, drug P Wd bd g c) + (∑ c : Fin 128, prot px Wp bp g c) + (∑ c : Fin 881, fp g c)) c1137

def varK (g : Fin BB) : EReal :=
  Ideal.div
    ((∑ c : Fin 128, (drug P Wd bd g c - muK P px fp Wd bd Wp bp g) * (drug P Wd bd g c - muK P px fp Wd bd Wp bp g))
      + (∑ c : Fin 128, (prot px Wp bp g c - muK P px fp Wd bd Wp bp g) * (prot px Wp bp g c - muK P px fp Wd bd Wp bp g))
      + (∑ c : Fin 881, (fp g c - muK P px fp Wd bd Wp bp g) * (fp g c - muK P px fp Wd bd Wp bp g))) c1137

def invK (g : Fin BB) : EReal := Ideal.rsqrt (varK P px fp Wd bd Wp bp g + eps)

/-- The first dense layer over three separate weight pieces `Fd`, `Fp`, `Ff`. -/
def h1K (Fd Fp : Fin 128 → Fin 512 → EReal) (Ff : Fin 881 → Fin 512 → EReal) (g : Fin BB) (c : Fin 512) : EReal :=
  max ((mm (fun g k => (drug P Wd bd g k - muK P px fp Wd bd Wp bp g) * invK P px fp Wd bd Wp bp g) Fd g c
        + mm (fun g k => (prot px Wp bp g k - muK P px fp Wd bd Wp bp g) * invK P px fp Wd bd Wp bp g) Fp g c
        + mm (fun g k => (fp g k - muK P px fp Wd bd Wp bp g) * invK P px fp Wd bd Wp bp g) Ff g c)
      + b1 c) z0

/-- The concatenation of three row pieces along the column axis. -/
def cat3 (a : Fin 128 → EReal) (b : Fin 128 → EReal) (c : Fin 881 → EReal) (k : Fin 1137) : EReal :=
  if h : k.val < 128 then a ⟨k.val, h⟩
  else if h2 : k.val < 256 then b ⟨k.val - 128, by omega⟩
  else c ⟨k.val - 256, by omega⟩

def comb (g : Fin BB) (k : Fin 1137) : EReal := cat3 (drug P Wd bd g) (prot px Wp bp g) (fp g) k

/-- The concatenated head: the mean and variance from one sum over the concatenated axis. -/
def muR (g : Fin BB) : EReal := Ideal.div (z0 + ∑ k : Fin 1137, comb P px fp Wd bd Wp bp g k) c1137

def varR (g : Fin BB) : EReal :=
  Ideal.div (z0 + ∑ k : Fin 1137,
    (comb P px fp Wd bd Wp bp g k - muR P px fp Wd bd Wp bp g) * (comb P px fp Wd bd Wp bp g k - muR P px fp Wd bd Wp bp g)) c1137

def invR (g : Fin BB) : EReal := Ideal.rsqrt (varR P px fp Wd bd Wp bp g + eps)

def h1R (g : Fin BB) (c : Fin 512) : EReal :=
  max (mm (fun g k => (comb P px fp Wd bd Wp bp g k - muR P px fp Wd bd Wp bp g) * invR P px fp Wd bd Wp bp g) F1 g c + b1 c) z0

/-- The two remaining dense layers, shared by both programs, over the first dense layer's output `h1`. -/
def tail (h1 : Fin BB → Fin 512 → EReal) (g : Fin BB) : EReal :=
  mm (fun g c => max (mm h1 W2 g c + b2 c) z0) W3 g 0 + b3 0

def headK (Fd Fp : Fin 128 → Fin 512 → EReal) (Ff : Fin 881 → Fin 512 → EReal) (g : Fin BB) : EReal :=
  tail W2 b2 W3 b3 (h1K P px fp Wd bd Wp bp b1 Fd Fp Ff) g
def headR (g : Fin BB) : EReal := tail W2 b2 W3 b3 (h1R P px fp Wd bd Wp bp F1 b1) g

end Head

/-! ## Arrays as functions of their coordinates -/

/-- A rank-2 array as a function of its two coordinates. -/
def a2 {α : Type} {A B : Nat} (x : (⟨2, ![A, B]⟩ : Shape).Idx → α) (a : Fin A) (b : Fin B) : α := x (ValueIdx.ix2 a b)
/-- A rank-1 array as a function of its coordinate. -/
def a1 {α : Type} {A : Nat} (x : (⟨1, ![A]⟩ : Shape).Idx → α) (a : Fin A) : α := x (ValueIdx.ix1 a)
/-- A column `[A, 1]` as a function of its row. -/
def col {α : Type} {A : Nat} (x : (⟨2, ![A, 1]⟩ : Shape).Idx → α) (a : Fin A) : α := x (ValueIdx.ix2 a 0)

/-! ## The whole programs -/

section Whole

variable (src dst : Fin EE → BitVec 32) (dis : Fin NN → EReal) (batch : Fin NN → BitVec 32)
  (x : Fin NN → Fin 30 → EReal) (W1 : Fin 30 → Fin 64 → EReal) (c1 : Fin 64 → EReal)
  (W2' : Fin 64 → Fin 64 → EReal) (c2 : Fin 64 → EReal) (W3' : Fin 64 → Fin 64 → EReal) (c3 : Fin 64 → EReal)
  (px : Fin BB → Fin 979 → EReal) (fp : Fin BB → Fin 881 → EReal)
  (Wd : Fin 64 → Fin 128 → EReal) (bd : Fin 128 → EReal) (Wp : Fin 979 → Fin 128 → EReal) (bp : Fin 128 → EReal)
  (F1 : Fin 1137 → Fin 512 → EReal) (b1 : Fin 512 → EReal) (W2 : Fin 512 → Fin 256 → EReal) (b2 : Fin 256 → EReal)
  (W3 : Fin 256 → Fin 1 → EReal) (b3 : Fin 1 → EReal)

/-- Three layers with the factors applied separately. -/
def gcnK : Fin NN → Fin 64 → EReal :=
  layerK src dst dis (layerK src dst dis (layerK src dst dis x W1 c1) W2' c2) W3' c3

/-- Three layers with the product applied per message. -/
def gcnR : Fin NN → Fin 64 → EReal :=
  layerR src dst dis (layerR src dst dis (layerR src dst dis x W1 c1) W2' c2) W3' c3

def outK (g : Fin BB) : EReal :=
  headK (pool batch (gcnK src dst dis x W1 c1 W2' c2 W3' c3)) px fp Wd bd Wp bp b1 W2 b2 W3 b3 (F1d F1) (F1p F1) (F1f F1) g

def outR (g : Fin BB) : EReal :=
  headR (pool batch (gcnR src dst dis x W1 c1 W2' c2 W3' c3)) px fp Wd bd Wp bp F1 b1 W2 b2 W3 b3 g

end Whole

end Cert.Spec

end
-- ==== Proof.HostVals1.lean ====
/-
  The host's work between the regions of the kernel, read at one element.

  After each of the first three regions the host gathers the rows of the region's result by the wrapped source
  index, widens them, and adds each into the row its raw destination index names, starting from the zero word:
  the neighbourhood sum `Spec.agg`. Each statement is over an arbitrary valuation of the buffers: what a stretch
  of host operations leaves in its last buffer is a function of the three buffers it reads.
-/
import proofs.«171162_j59115929862199_2_alg».proof.Proof.Gen.KernelIdeal.Launch
import proofs.«171162_j59115929862199_2_alg».proof.Proof.Spec
import proofs.«171162_j59115929862199_2_alg».proof.Proof.LibRowOps
import Idealize.ShloMosaic.Lib.StableHlo.Run
import Idealize.ShloMosaic.Lib.Pipeline.Value
import Idealize.ShloMosaic.Lib.ValueIdx
import Idealize.ShloMosaic.Lib.ValueLayout

noncomputable section

open scoped BigOperators

namespace Cert.KernelIdeal.HostVals

open Cert.KernelIdeal Cert.KernelIdeal.Gen Idealize.ShloMosaic Idealize.ShloMosaic.ValueIdx Idealize.ShloMosaic.StableHlo

/-! ## The arrays -/

/-- The wrapped source index, as an array: `src + 524288` where `src` is negative, else `src`. -/
def wrapArr (src : (⟨S2621440, .i32⟩ : BufTy).Contents (Elt Ideal)) : (⟨S2621440, .i32⟩ : BufTy).Contents (Elt Ideal) :=
  select (cmpi .slt src (broadcastInDim S2621440 ![] bcast_S_S2621440 (constantI S_ 32 0#32 : (⟨S_, .i32⟩ : BufTy).Contents (Elt Ideal))))
    (addi src (broadcastInDim S2621440 ![] bcast_S_S2621440 (constantI S_ 32 524288#32 : (⟨S_, .i32⟩ : BufTy).Contents (Elt Ideal)))) src

/-- The neighbourhood sum, as an array: the rows of `hs` gathered by the wrapped source index, widened, and added
    into the zero array at the rows the raw destination index names. -/
def aggArr (hs : (⟨S524288x64, .bf16⟩ : BufTy).Contents (Elt Ideal)) (src dst : (⟨S2621440, .i32⟩ : BufTy).Contents (Elt Ideal)) :
    (⟨S524288x64, .f32⟩ : BufTy).Contents (Elt Ideal) :=
  Host.scatterAdd (F := Ideal) scatter_S524288x64_S2621440x1_S2621440x64_1_0_0_1
    (broadcastInDim S524288x64 ![] bcast_S_S524288x64 (constant (F := Ideal) S_ .f32 0x00000000#32 : (⟨S_, .f32⟩ : BufTy).Contents (Elt Ideal)))
    (broadcastInDim S2621440x1 ![0] bcast_S2621440_S2621440x1_0 dst)
    (extf .f32 (Host.gather gather_S524288x64_S2621440x1_S2621440x64_1_0_n_n_0_1_164 hs
      (broadcastInDim S2621440x1 ![0] bcast_S2621440_S2621440x1_0 (wrapArr src))) bitsLt_bf16_f32)

variable (Wv : Valuation τ sig (Elt Ideal))

theorem stretch1_arr :
    after (hostOps1 (F := Ideal)) Wv (Proc.devRef .tc main_v29)
      = aggArr (Wv (Proc.devRef .tc main_v18)) (Wv (Proc.devRef .tc main_v3)) (Wv (Proc.devRef .tc main_v6)) := by
  after_results_simp
  rfl

/-! ## The arrays at an index -/

/-- The wrapped index array at `e` is the wrap of the source index at `e`. -/
theorem wrapArr_apply (src : (⟨S2621440, .i32⟩ : BufTy).Contents (Elt Ideal)) (i : S2621440.Idx) :
    wrapArr src i = Spec.wrap (src i) := rfl

/-- A flat index array carried as a column, read at row `e`. -/
theorem col_bcast_apply (v : (⟨S2621440, .i32⟩ : BufTy).Contents (Elt Ideal)) (e : Fin 2621440) :
    (broadcastInDim S2621440x1 ![0] bcast_S2621440_S2621440x1_0 v : (⟨S2621440x1, .i32⟩ : BufTy).Contents (Elt Ideal)) (ix2 e 0)
      = v (ix1 e) :=
  broadcastInDim_apply _ bcast_S2621440_S2621440x1_0 v (ix2 e 0) (ix1 e) (fun a => match a with
    | ⟨0, _⟩ => by show e.val = if (2621440 : Nat) = 1 then 0 else e.val; rw [if_neg (by decide)])

/-- The zero array at an index is the zero word. -/
theorem zeros_apply (i : S524288x64.Idx) :
    (broadcastInDim S524288x64 ![] bcast_S_S524288x64 (constant (F := Ideal) S_ .f32 0x00000000#32 : (⟨S_, .f32⟩ : BufTy).Contents (Elt Ideal))
      : (⟨S524288x64, .f32⟩ : BufTy).Contents (Elt Ideal)) i = Spec.z0 := rfl

/-- The neighbourhood-sum array at `(d, j)`. -/
theorem aggArr_apply (hs : (⟨S524288x64, .bf16⟩ : BufTy).Contents (Elt Ideal)) (src dst : (⟨S2621440, .i32⟩ : BufTy).Contents (Elt Ideal))
    (d : Fin 524288) (j : Fin 64) :
    Spec.a2 (aggArr hs src dst) d j = Spec.agg (Spec.a1 src) (Spec.a1 dst) (Spec.a2 hs) d j := by
  unfold aggArr Spec.a2 Spec.agg Spec.seg
  refine (Cert.RowOps.scatterAdd_rows_apply scatter_S524288x64_S2621440x1_S2621440x64_1_0_0_1 rfl rfl rfl rfl _ _ _ d j).trans ?_
  refine congrArg₂ (· + ·) (zeros_apply _) (Finset.sum_congr (Finset.filter_congr fun e _ => ?_) fun e _ => ?_)
  · exact iff_of_eq (congrArg (fun w => Cert.RowOps.scatterRow 524288 w = some d) (col_bcast_apply dst e))
  · refine (Cert.RowOps.gather_rows_apply Spec.NN_pos gather_S524288x64_S2621440x1_S2621440x64_1_0_n_n_0_1_164
      rfl rfl rfl rfl rfl rfl rfl hs _ e j).trans ?_
    exact congrArg (fun w => hs (ix2 (Cert.RowOps.gatherRow 524288 Spec.NN_pos w) j)) (col_bcast_apply (wrapArr src) e)

/-- What the first stretch leaves in its last buffer, at `(d, j)`. -/
theorem stretch1 (d : Fin 524288) (j : Fin 64) :
    Spec.a2 (after (hostOps1 (F := Ideal)) Wv (Proc.devRef .tc main_v29)) d j
      = Spec.agg (Spec.a1 (Wv (Proc.devRef .tc main_v3))) (Spec.a1 (Wv (Proc.devRef .tc main_v6)))
          (Spec.a2 (Wv (Proc.devRef .tc main_v18))) d j := by
  rw [stretch1_arr]
  exact aggArr_apply _ _ _ d j

/-! ## The second and third stretches: the same operations on other buffers -/

theorem stretch2_arr :
    after (hostOps2 (F := Ideal)) Wv (Proc.devRef .tc main_v41)
      = aggArr (Wv (Proc.devRef .tc main_v30)) (Wv (Proc.devRef .tc main_v3)) (Wv (Proc.devRef .tc main_v6)) := by
  after_results_simp
  rfl

/-- What the second stretch leaves in its last buffer, at `(d, j)`. -/
theorem stretch2 (d : Fin 524288) (j : Fin 64) :
    Spec.a2 (after (hostOps2 (F := Ideal)) Wv (Proc.devRef .tc main_v41)) d j
      = Spec.agg (Spec.a1 (Wv (Proc.devRef .tc main_v3))) (Spec.a1 (Wv (Proc.devRef .tc main_v6)))
          (Spec.a2 (Wv (Proc.devRef .tc main_v30))) d j := by
  rw [stretch2_arr]
  exact aggArr_apply _ _ _ d j

theorem stretch3_arr :
    after (hostOps3 (F := Ideal)) Wv (Proc.devRef .tc main_v53)
      = aggArr (Wv (Proc.devRef .tc main_v42)) (Wv (Proc.devRef .tc main_v3)) (Wv (Proc.devRef .tc main_v6)) := by
  after_results_simp
  rfl

/-- What the third stretch leaves in its last buffer, at `(d, j)`. -/
theorem stretch3 (d : Fin 524288) (j : Fin 64) :
    Spec.a2 (after (hostOps3 (F := Ideal)) Wv (Proc.devRef .tc main_v53)) d j
      = Spec.agg (Spec.a1 (Wv (Proc.devRef .tc main_v3))) (Spec.a1 (Wv (Proc.devRef .tc main_v6)))
          (Spec.a2 (Wv (Proc.devRef .tc main_v42))) d j := by
  rw [stretch3_arr]
  exact aggArr_apply _ _ _ d j

end Cert.KernelIdeal.HostVals

end
-- ==== Proof.HostVals2.lean ====
/-
  The three row blocks of the first dense weight, as the host cuts them after the fourth region: rows 0..128,
  128..256 and 256..1137 of the weight array, each read at an element.
-/
import proofs.«171162_j59115929862199_2_alg».proof.Proof.Gen.KernelIdeal.Launch
import proofs.«171162_j59115929862199_2_alg».proof.Proof.Spec
import Idealize.ShloMosaic.Lib.StableHlo.Run
import Idealize.ShloMosaic.Lib.Pipeline.Value
import Idealize.ShloMosaic.Lib.ValueIdx

noncomputable section

namespace Cert.KernelIdeal.HostVals

open Cert.KernelIdeal Cert.KernelIdeal.Gen Idealize.ShloMosaic Idealize.ShloMosaic.ValueIdx Idealize.ShloMosaic.StableHlo

variable (Wv : Valuation τ sig (Elt Ideal))

/-! ## The slices as arrays -/

theorem stretch4_w1d_arr :
    after (hostOps4 (F := Ideal)) Wv (Proc.devRef .tc main_v67)
      = (extractStridedSlice S128x512 ![0, 0] (Wv (Proc.devRef .tc main_arg15)) slices_S1137x512_S128x512_0_0
          : (⟨S128x512, .f32⟩ : BufTy).Contents (Elt Ideal)) := by
  after_results_simp

theorem stretch4_w1p_arr :
    after (hostOps4 (F := Ideal)) Wv (Proc.devRef .tc main_v68)
      = (extractStridedSlice S128x512 ![128, 0] (Wv (Proc.devRef .tc main_arg15)) slices_S1137x512_S128x512_128_0
          : (⟨S128x512, .f32⟩ : BufTy).Contents (Elt Ideal)) := by
  after_results_simp

theorem stretch4_w1f_arr :
    after (hostOps4 (F := Ideal)) Wv (Proc.devRef .tc main_v69)
      = (extractStridedSlice S881x512 ![256, 0] (Wv (Proc.devRef .tc main_arg15)) slices_S1137x512_S881x512_256_0
          : (⟨S881x512, .f32⟩ : BufTy).Contents (Elt Ideal)) := by
  after_results_simp

/-! ## The slices at an element -/

/-- Rows 0..128 of the weight. -/
theorem stretch4_w1d :
    Spec.a2 (after (hostOps4 (F := Ideal)) Wv (Proc.devRef .tc main_v67)) = Spec.F1d (Spec.a2 (Wv (Proc.devRef .tc main_arg15))) := by
  rw [stretch4_w1d_arr]
  funext k c
  exact extractStridedSlice_apply ![0, 0] _ slices_S1137x512_S128x512_0_0 (ix2 k c) (ix2 ⟨k.val, by omega⟩ c) (fun a => match a with
    | ⟨0, _⟩ => by show k.val = 0 + k.val; omega
    | ⟨1, _⟩ => by show c.val = 0 + c.val; omega)

/-- Rows 128..256 of the weight. -/
theorem stretch4_w1p :
    Spec.a2 (after (hostOps4 (F := Ideal)) Wv (Proc.devRef .tc main_v68)) = Spec.F1p (Spec.a2 (Wv (Proc.devRef .tc main_arg15))) := by
  rw [stretch4_w1p_arr]
  funext k c
  exact extractStridedSlice_apply ![128, 0] _ slices_S1137x512_S128x512_128_0 (ix2 k c) (ix2 ⟨128 + k.val, by omega⟩ c) (fun a => match a with
    | ⟨0, _⟩ => by show 128 + k.val = 128 + k.val; rfl
    | ⟨1, _⟩ => by show c.val = 0 + c.val; omega)

/-- Rows 256..1137 of the weight. -/
theorem stretch4_w1f :
    Spec.a2 (after (hostOps4 (F := Ideal)) Wv (Proc.devRef .tc main_v69)) = Spec.F1f (Spec.a2 (Wv (Proc.devRef .tc main_arg15))) := by
  rw [stretch4_w1f_arr]
  funext k c
  exact extractStridedSlice_apply ![256, 0] _ slices_S1137x512_S881x512_256_0 (ix2 k c) (ix2 ⟨256 + k.val, by omega⟩ c) (fun a => match a with
    | ⟨0, _⟩ => by show 256 + k.val = 256 + k.val; rfl
    | ⟨1, _⟩ => by show c.val = 0 + c.val; omega)

end Cert.KernelIdeal.HostVals

end
-- ==== Proof.PoolVal.lean ====
/-
  The mean pool the host computes after the fourth region, read at one element.

  The host adds the rows of the node array into the rows their batch index names, counts the nodes of each graph the
  same way (a sum of one words), clamps the count below at one, and divides: `Spec.pool`. The statement is over an
  arbitrary valuation of the buffers: what the stretch leaves in the quotient's buffer is a function of the two
  buffers it reads.
-/
import proofs.«171162_j59115929862199_2_alg».proof.Proof.Gen.KernelIdeal.Launch
import proofs.«171162_j59115929862199_2_alg».proof.Proof.Spec
import proofs.«171162_j59115929862199_2_alg».proof.Proof.LibRowOps
import Idealize.ShloMosaic.Lib.StableHlo.Run
import Idealize.ShloMosaic.Lib.Pipeline.Value
import Idealize.ShloMosaic.Lib.ValueIdx
import Idealize.ShloMosaic.Lib.IdealHost

noncomputable section

open scoped BigOperators

namespace Cert.KernelIdeal.PoolVal

open Cert.KernelIdeal Cert.KernelIdeal.Gen Idealize.ShloMosaic Idealize.ShloMosaic.ValueIdx Idealize.ShloMosaic.StableHlo

/-! ## The arrays -/

/-- The batch index carried as a column. -/
def batchCol (batch : (⟨S524288, .i32⟩ : BufTy).Contents (Elt Ideal)) : (⟨S524288x1, .i32⟩ : BufTy).Contents (Elt Ideal) :=
  broadcastInDim S524288x1 ![0] bcast_S524288_S524288x1_0 batch

/-- The per-graph sum of node rows, as an array. -/
def sumArr (batch : (⟨S524288, .i32⟩ : BufTy).Contents (Elt Ideal)) (h : (⟨S524288x64, .f32⟩ : BufTy).Contents (Elt Ideal)) :
    (⟨S16384x64, .f32⟩ : BufTy).Contents (Elt Ideal) :=
  Host.scatterAdd (F := Ideal) scatter_S16384x64_S524288x1_S524288x64_1_0_0_1
    (broadcastInDim S16384x64 ![] bcast_S_S16384x64 (constant (F := Ideal) S_ .f32 0x00000000#32 : (⟨S_, .f32⟩ : BufTy).Contents (Elt Ideal)))
    (batchCol batch) h

/-- The per-graph node count, as an array: a sum of one words. -/
def cntArr (batch : (⟨S524288, .i32⟩ : BufTy).Contents (Elt Ideal)) : (⟨S16384, .f32⟩ : BufTy).Contents (Elt Ideal) :=
  Host.scatterAdd (F := Ideal) scatter_S16384_S524288x1_S524288_n_0_0_1
    (broadcastInDim S16384 ![] bcast_S_S16384 (constant (F := Ideal) S_ .f32 0x00000000#32 : (⟨S_, .f32⟩ : BufTy).Contents (Elt Ideal)))
    (batchCol batch)
    (broadcastInDim S524288 ![] bcast_S_S524288 (constant (F := Ideal) S_ .f32 0x3F800000#32 : (⟨S_, .f32⟩ : BufTy).Contents (Elt Ideal)))

/-- The count clamped below at one, spread along the rows. -/
def denArr (batch : (⟨S524288, .i32⟩ : BufTy).Contents (Elt Ideal)) : (⟨S16384x64, .f32⟩ : BufTy).Contents (Elt Ideal) :=
  broadcastInDim S16384x64 ![0, 1] bcast_S16384x1_S16384x64_0_1
    (broadcastInDim S16384x1 ![0] bcast_S16384_S16384x1_0
      (maximumf (cntArr batch)
        (broadcastInDim S16384 ![] bcast_S_S16384 (constant (F := Ideal) S_ .f32 0x3F800000#32 : (⟨S_, .f32⟩ : BufTy).Contents (Elt Ideal)))
        : (⟨S16384, .f32⟩ : BufTy).Contents (Elt Ideal))
      : (⟨S16384x1, .f32⟩ : BufTy).Contents (Elt Ideal))

/-- The mean pool, as an array. -/
def poolArr (batch : (⟨S524288, .i32⟩ : BufTy).Contents (Elt Ideal)) (h : (⟨S524288x64, .f32⟩ : BufTy).Contents (Elt Ideal)) :
    (⟨S16384x64, .f32⟩ : BufTy).Contents (Elt Ideal) :=
  Host.divf (F := Ideal) (s := S16384x64) (φ := .f32) (sumArr batch h) (denArr batch)

variable (Wv : Valuation τ sig (Elt Ideal))

theorem stretch4_pool_arr :
    after (hostOps4 (F := Ideal)) Wv (Proc.devRef .tc main_v66)
      = poolArr (Wv (Proc.devRef .tc main_arg2)) (Wv (Proc.devRef .tc main_v54)) := by
  after_results_simp
  rfl

/-! ## The arrays at an index -/

/-- The batch column at row `e`. -/
theorem batchCol_apply (batch : (⟨S524288, .i32⟩ : BufTy).Contents (Elt Ideal)) (e : Fin 524288) :
    batchCol batch (ix2 e 0) = batch (ix1 e) :=
  broadcastInDim_apply _ bcast_S524288_S524288x1_0 batch (ix2 e 0) (ix1 e) (fun a => match a with
    | ⟨0, _⟩ => by show e.val = if (524288 : Nat) = 1 then 0 else e.val; rw [if_neg (by decide)])

/-- The per-graph sum at `(g, j)`. -/
theorem sumArr_apply (batch : (⟨S524288, .i32⟩ : BufTy).Contents (Elt Ideal)) (h : (⟨S524288x64, .f32⟩ : BufTy).Contents (Elt Ideal))
    (g : Fin 16384) (j : Fin 64) :
    sumArr batch h (ix2 g j) = Spec.seg (Spec.a1 batch) (Spec.a2 h) g j := by
  unfold sumArr Spec.seg
  refine (Cert.RowOps.scatterAdd_rows_apply scatter_S16384x64_S524288x1_S524288x64_1_0_0_1 rfl rfl rfl rfl _ _ _ g j).trans ?_
  refine congrArg₂ (· + ·) rfl (Finset.sum_congr (Finset.filter_congr fun e _ => ?_) fun e _ => rfl)
  exact iff_of_eq (congrArg (fun w => Cert.RowOps.scatterRow 16384 w = some g) (batchCol_apply batch e))

/-- The per-graph count at `g`. -/
theorem cntArr_apply (batch : (⟨S524288, .i32⟩ : BufTy).Contents (Elt Ideal)) (g : Fin 16384) :
    cntArr batch (ix1 g) = Spec.cnt (Spec.a1 batch) g := by
  unfold cntArr Spec.cnt
  refine (Cert.RowOps.scatterAdd_vec_apply scatter_S16384_S524288x1_S524288_n_0_0_1 rfl rfl rfl rfl _ _ _ g).trans ?_
  refine congrArg₂ (· + ·) rfl (Finset.sum_congr (Finset.filter_congr fun e _ => ?_) fun e _ => rfl)
  exact iff_of_eq (congrArg (fun w => Cert.RowOps.scatterRow 16384 w = some g) (batchCol_apply batch e))

/-- The clamped count at `(g, j)`. -/
theorem denArr_apply (batch : (⟨S524288, .i32⟩ : BufTy).Contents (Elt Ideal)) (g : Fin 16384) (j : Fin 64) :
    denArr batch (ix2 g j) = max (Spec.cnt (Spec.a1 batch) g) Spec.o1 := by
  unfold denArr
  refine (broadcastInDim_apply _ bcast_S16384x1_S16384x64_0_1 _ (ix2 g j) (ix2 g 0) (fun a => match a with
    | ⟨0, _⟩ => by show g.val = if (16384 : Nat) = 1 then 0 else g.val; rw [if_neg (by decide)]
    | ⟨1, _⟩ => by show 0 = if (1 : Nat) = 1 then 0 else j.val; rw [if_pos rfl])).trans ?_
  refine (broadcastInDim_apply _ bcast_S16384_S16384x1_0 _ (ix2 g 0) (ix1 g) (fun a => match a with
    | ⟨0, _⟩ => by show g.val = if (16384 : Nat) = 1 then 0 else g.val; rw [if_neg (by decide)])).trans ?_
  refine (maximumf_apply _ _ (ix1 g)).trans ?_
  exact congrArg₂ max (cntArr_apply batch g) rfl

/-- The mean-pool array at `(g, j)`. -/
theorem poolArr_apply (batch : (⟨S524288, .i32⟩ : BufTy).Contents (Elt Ideal)) (h : (⟨S524288x64, .f32⟩ : BufTy).Contents (Elt Ideal))
    (g : Fin 16384) (j : Fin 64) :
    Spec.a2 (poolArr batch h) g j = Spec.pool (Spec.a1 batch) (Spec.a2 h) g j := by
  unfold poolArr Spec.a2 Spec.pool
  refine (hostDivf_apply _ _ (ix2 g j)).trans ?_
  exact congrArg₂ Ideal.div (sumArr_apply batch h g j) (denArr_apply batch g j)

/-- What the fourth stretch leaves in the quotient's buffer, at `(g, j)`. -/
theorem stretch4_pool (g : Fin 16384) (j : Fin 64) :
    Spec.a2 (after (hostOps4 (F := Ideal)) Wv (Proc.devRef .tc main_v66)) g j
      = Spec.pool (Spec.a1 (Wv (Proc.devRef .tc main_arg2))) (Spec.a2 (Wv (Proc.devRef .tc main_v54))) g j := by
  rw [stretch4_pool_arr]
  exact poolArr_apply _ _ g j

end Cert.KernelIdeal.PoolVal

end
-- ==== Proof.HostPrefix.lean ====
/-
  The host operations that run before the first region, as functions of the edge list.

  The edge list is a `[2, 2097152]` array of 32-bit words. Its row 0 followed by the node numbers `0 … 524287` is the
  source index of every directed edge, self loops included; its row 1 followed by the same node numbers is the
  destination index. The in-degree of a node is the zero word plus one one-word for every edge whose destination names
  it; the node's scale is the reciprocal square root of the degree clamped below at one where the degree is positive,
  and the zero word elsewhere. Each of these is the composition of the printed operations, in their order.
-/
import proofs.«171162_j59115929862199_2_alg».proof.Proof.Gen.KernelIdeal.Launch
import proofs.«171162_j59115929862199_2_alg».proof.Proof.Spec
import Idealize.ShloMosaic.Lib.StableHlo.Run
import Idealize.ShloMosaic.Lib.Pipeline.Value
import Idealize.ShloMosaic.PureOps.Ideal.Laws

noncomputable section

open scoped BigOperators

namespace Cert.KernelIdeal.HostPrefix

open Cert.KernelIdeal Cert.KernelIdeal.Gen Idealize.ShloMosaic Idealize.ShloMosaic.TcCoe Idealize.SL.Sem
open Idealize.ShloMosaic.StableHlo

/-! ## The three arrays as terms of the edge list -/

/-- The node numbers `0 … 524287`. -/
def nodeIds : (⟨S524288, .i32⟩ : BufTy).Contents (Elt Ideal) :=
  iotaInDim S524288 32 0

/-- Row 0 of the edge list, as a `[1, 2097152]` array. -/
def srcSlice (a1 : (⟨S2x2097152, .i32⟩ : BufTy).Contents (Elt Ideal)) : (⟨S1x2097152, .i32⟩ : BufTy).Contents (Elt Ideal) :=
  extractStridedSlice S1x2097152 ![0, 0] (a1) slices_S2x2097152_S1x2097152_0_0

/-- Row 0 of the edge list, flat. -/
def srcRow (a1 : (⟨S2x2097152, .i32⟩ : BufTy).Contents (Elt Ideal)) : (⟨S2097152, .i32⟩ : BufTy).Contents (Elt Ideal) :=
  shapeCast _ (srcSlice a1) shapeCasts_S1x2097152_S2097152

/-- The source index of every edge: row 0 of the edge list, then one self loop per node. -/
def srcT (a1 : (⟨S2x2097152, .i32⟩ : BufTy).Contents (Elt Ideal)) : (⟨S2621440, .i32⟩ : BufTy).Contents (Elt Ideal) :=
  concatenate S2621440 0 [⟨S2097152, (srcRow a1)⟩, ⟨S524288, nodeIds⟩] concatenates_S2097152_S524288_S2621440_d0

/-- Row 1 of the edge list, as a `[1, 2097152]` array. -/
def dstSlice (a1 : (⟨S2x2097152, .i32⟩ : BufTy).Contents (Elt Ideal)) : (⟨S1x2097152, .i32⟩ : BufTy).Contents (Elt Ideal) :=
  extractStridedSlice S1x2097152 ![1, 0] (a1) slices_S2x2097152_S1x2097152_1_0

/-- Row 1 of the edge list, flat. -/
def dstRow (a1 : (⟨S2x2097152, .i32⟩ : BufTy).Contents (Elt Ideal)) : (⟨S2097152, .i32⟩ : BufTy).Contents (Elt Ideal) :=
  shapeCast _ (dstSlice a1) shapeCasts_S1x2097152_S2097152

/-- The destination index of every edge: row 1 of the edge list, then one self loop per node. -/
def dstT (a1 : (⟨S2x2097152, .i32⟩ : BufTy).Contents (Elt Ideal)) : (⟨S2621440, .i32⟩ : BufTy).Contents (Elt Ideal) :=
  concatenate S2621440 0 [⟨S2097152, (dstRow a1)⟩, ⟨S524288, nodeIds⟩] concatenates_S2097152_S524288_S2621440_d0

/-- The one word, as a scalar. -/
def oneS : (⟨S_, .f32⟩ : BufTy).Contents (Elt Ideal) := constant (F := Ideal) S_ .f32 0x3F800000#32
/-- The zero word, as a scalar. -/
def zeroS : (⟨S_, .f32⟩ : BufTy).Contents (Elt Ideal) := constant (F := Ideal) S_ .f32 0x00000000#32

/-- One one-word per edge. -/
def onesE : (⟨S2621440, .f32⟩ : BufTy).Contents (Elt Ideal) := broadcastInDim S2621440 ![] bcast_S_S2621440 oneS
/-- One zero word per node. -/
def zerosN : (⟨S524288, .f32⟩ : BufTy).Contents (Elt Ideal) := broadcastInDim S524288 ![] bcast_S_S524288 zeroS
/-- One one-word per node. -/
def onesN : (⟨S524288, .f32⟩ : BufTy).Contents (Elt Ideal) := broadcastInDim S524288 ![] bcast_S_S524288 oneS

/-- The destination index as a column, the form the scatter reads it in. -/
def dstCol (a1 : (⟨S2x2097152, .i32⟩ : BufTy).Contents (Elt Ideal)) : (⟨S2621440x1, .i32⟩ : BufTy).Contents (Elt Ideal) :=
  broadcastInDim S2621440x1 ![0] bcast_S2621440_S2621440x1_0 (dstT a1)

/-- The in-degree: the zero word plus a one word for every edge whose destination names the node. -/
def degT (a1 : (⟨S2x2097152, .i32⟩ : BufTy).Contents (Elt Ideal)) : (⟨S524288, .f32⟩ : BufTy).Contents (Elt Ideal) :=
  Host.scatterAdd (F := Ideal) (φ := .f32) scatter_S524288_S2621440x1_S2621440_n_0_0_1 zerosN (dstCol a1) onesE

/-- Where the in-degree is positive. -/
def posT (a1 : (⟨S2x2097152, .i32⟩ : BufTy).Contents (Elt Ideal)) : (⟨S524288, .i1⟩ : BufTy).Contents (Elt Ideal) :=
  cmpf (F := Ideal) (φ := .f32) .ogt (degT a1) zerosN

/-- The in-degree clamped below at one. -/
def clampT (a1 : (⟨S2x2097152, .i32⟩ : BufTy).Contents (Elt Ideal)) : (⟨S524288, .f32⟩ : BufTy).Contents (Elt Ideal) :=
  maximumf (F := Ideal) (φ := .f32) (degT a1) onesN

/-- Its reciprocal square root. -/
def rsqrtT (a1 : (⟨S2x2097152, .i32⟩ : BufTy).Contents (Elt Ideal)) : (⟨S524288, .f32⟩ : BufTy).Contents (Elt Ideal) :=
  Host.rsqrt (F := Ideal) (φ := .f32) (clampT a1)

/-- The zero word per node, as the outlined selection builds it: the scalar passed through, then broadcast. -/
def elseN : (⟨S524288, .f32⟩ : BufTy).Contents (Elt Ideal) :=
  broadcastInDim S524288 ![] bcast_S_S524288 (id zeroS)

/-- The node's scale: the reciprocal square root of the clamped in-degree where the in-degree is positive, the zero
    word elsewhere. -/
def disT (a1 : (⟨S2x2097152, .i32⟩ : BufTy).Contents (Elt Ideal)) : (⟨S524288, .f32⟩ : BufTy).Contents (Elt Ideal) :=
  select (posT a1) (rsqrtT a1) elseN

/-! ## What the three stretches leave -/

section Stretches

variable (W : Valuation τ sig (Elt Ideal))

/-! ### The first stretch, from any contents -/

/-- The edge list is not written. -/
theorem stretch0_arg1 :
    StableHlo.after (hostOps0 (F := Ideal)) W (Proc.devRef .tc main_arg1) = W (Proc.devRef .tc main_arg1) := by
  after_results

/-- The source index. -/
theorem stretch0_src :
    StableHlo.after (hostOps0 (F := Ideal)) W (Proc.devRef .tc main_v3) = srcT (W (Proc.devRef .tc main_arg1)) := by
  after_results
  rfl

/-- The destination index. -/
theorem stretch0_dst :
    StableHlo.after (hostOps0 (F := Ideal)) W (Proc.devRef .tc main_v6) = dstT (W (Proc.devRef .tc main_arg1)) := by
  after_results
  rfl

/-- Where the in-degree is positive. -/
theorem stretch0_pos :
    StableHlo.after (hostOps0 (F := Ideal)) W (Proc.devRef .tc main_v12) = posT (W (Proc.devRef .tc main_arg1)) := by
  after_results
  rfl

/-- The reciprocal square root of the clamped in-degree. -/
theorem stretch0_rsqrt :
    StableHlo.after (hostOps0 (F := Ideal)) W (Proc.devRef .tc main_v15) = rsqrtT (W (Proc.devRef .tc main_arg1)) := by
  after_results
  rfl

/-- The zero word the selection falls back to. -/
theorem stretch0_zero :
    StableHlo.after (hostOps0 (F := Ideal)) W (Proc.devRef .tc main_cst_3) = zeroS := by
  after_results
  rfl

/-! ### The outlined selection, from any contents -/

theorem stretch1_arg1 :
    StableHlo.after (hostOps0_1 (F := Ideal)) W (Proc.devRef .tc main_arg1) = W (Proc.devRef .tc main_arg1) := by
  after_results

theorem stretch1_src :
    StableHlo.after (hostOps0_1 (F := Ideal)) W (Proc.devRef .tc main_v3) = W (Proc.devRef .tc main_v3) := by
  after_results

theorem stretch1_dst :
    StableHlo.after (hostOps0_1 (F := Ideal)) W (Proc.devRef .tc main_v6) = W (Proc.devRef .tc main_v6) := by
  after_results

/-- The selection reads the mask, the reciprocal square root and the zero word as the first stretch left them. -/
theorem stretch1_dis :
    StableHlo.after (hostOps0_1 (F := Ideal)) W (Proc.devRef .tc main_v16)
      = select (W (Proc.devRef .tc main_v12) : (⟨S524288, .i1⟩ : BufTy).Contents (Elt Ideal))
          (W (Proc.devRef .tc main_v15) : (⟨S524288, .f32⟩ : BufTy).Contents (Elt Ideal))
          (broadcastInDim S524288 ![] bcast_S_S524288
            (id (W (Proc.devRef .tc main_cst_3) : (⟨S_, .f32⟩ : BufTy).Contents (Elt Ideal)))) := by
  after_results
  rfl

/-! ### The reshape to a column, from any contents -/

theorem stretch2_src :
    StableHlo.after (hostOps0_2 (F := Ideal)) W (Proc.devRef .tc main_v3) = W (Proc.devRef .tc main_v3) := by
  after_results

theorem stretch2_dst :
    StableHlo.after (hostOps0_2 (F := Ideal)) W (Proc.devRef .tc main_v6) = W (Proc.devRef .tc main_v6) := by
  after_results

theorem stretch2_dis :
    StableHlo.after (hostOps0_2 (F := Ideal)) W (Proc.devRef .tc main_v16) = W (Proc.devRef .tc main_v16) := by
  after_results

/-- The scale as a column is the scale, reshaped. -/
theorem stretch2_col :
    StableHlo.after (hostOps0_2 (F := Ideal)) W (Proc.devRef .tc main_v17)
      = shapeCast S524288x1 (W (Proc.devRef .tc main_v16) : (⟨S524288, .f32⟩ : BufTy).Contents (Elt Ideal))
          shapeCasts_S524288_S524288x1 := by
  after_results
  rfl

end Stretches

/-! ## The three stretches composed -/

section Prefix

variable (Wv0 : Valuation τ sig (Elt Ideal))

/-- The source index at the first region's entry. -/
theorem prefix_src :
    StableHlo.after (hostOps0_2 (F := Ideal)) (StableHlo.after (hostOps0_1 (F := Ideal)) (StableHlo.after (hostOps0 (F := Ideal)) Wv0))
      (Proc.devRef .tc main_v3) = srcT (Wv0 (Proc.devRef .tc main_arg1)) :=
  (stretch2_src _).trans ((stretch1_src _).trans (stretch0_src Wv0))

/-- The destination index at the first region's entry. -/
theorem prefix_dst :
    StableHlo.after (hostOps0_2 (F := Ideal)) (StableHlo.after (hostOps0_1 (F := Ideal)) (StableHlo.after (hostOps0 (F := Ideal)) Wv0))
      (Proc.devRef .tc main_v6) = dstT (Wv0 (Proc.devRef .tc main_arg1)) :=
  (stretch2_dst _).trans ((stretch1_dst _).trans (stretch0_dst Wv0))

/-- The scale after the outlined selection. -/
theorem mid_dis :
    StableHlo.after (hostOps0_1 (F := Ideal)) (StableHlo.after (hostOps0 (F := Ideal)) Wv0) (Proc.devRef .tc main_v16)
      = disT (Wv0 (Proc.devRef .tc main_arg1)) := by
  refine (stretch1_dis _).trans ?_
  rw [stretch0_pos, stretch0_rsqrt, stretch0_zero]
  rfl

/-- The scale at the first region's entry. -/
theorem prefix_dis :
    StableHlo.after (hostOps0_2 (F := Ideal)) (StableHlo.after (hostOps0_1 (F := Ideal)) (StableHlo.after (hostOps0 (F := Ideal)) Wv0))
      (Proc.devRef .tc main_v16) = disT (Wv0 (Proc.devRef .tc main_arg1)) :=
  (stretch2_dis _).trans (mid_dis Wv0)

end Prefix

/-! ## The scale as a column -/

/-- A flat array reshaped to a column, read at a row, is the flat array there. -/
theorem col_shapeCast (x : (⟨S524288, .f32⟩ : BufTy).Contents (Elt Ideal)) (n : Fin 524288) :
    Spec.col (shapeCast S524288x1 x shapeCasts_S524288_S524288x1) n = Spec.a1 x n := by
  unfold Spec.col Spec.a1
  exact shapeCast_apply x shapeCasts_S524288_S524288x1 (ValueIdx.ix2 n 0) (ValueIdx.ix1 n)
    (by rw [Shape.rowMajor_val_two, Shape.rowMajor_val_one]; show n.val = n.val * 1 + 0; omega)

/-- The column the first region reads is the scale, row by row. -/
theorem prefix_col (Wv0 : Valuation τ sig (Elt Ideal)) (n : Fin 524288) :
    Spec.col (StableHlo.after (hostOps0_2 (F := Ideal)) (StableHlo.after (hostOps0_1 (F := Ideal))
        (StableHlo.after (hostOps0 (F := Ideal)) Wv0)) (Proc.devRef .tc main_v17)) n
      = Spec.a1 (disT (Wv0 (Proc.devRef .tc main_arg1))) n := by
  rw [stretch2_col, mid_dis]
  exact col_shapeCast _ n

/-! ## The scale is a non-negative real -/

/-- The one word is the real one. -/
theorem ofBits_one_f32 : Ideal.ofBits .f32 0x3F800000#32 = 1 := by
  simp [Ideal.ofBits, Ideal.ieee]
  rw [← EReal.coe_mul, ← EReal.coe_one]
  exact congrArg _ (by norm_num)

/-- The zero word plus one one-word per element of a finite set is the set's size, a real. -/
theorem count_real {ι : Type} (s : Finset ι) :
    Ideal.ofBits .f32 0x00000000#32 + ∑ _e ∈ s, Ideal.ofBits .f32 0x3F800000#32 = ((s.card : ℝ) : EReal) := by
  rw [Ideal.ofBits_zero_f32, ofBits_one_f32, zero_add, Finset.sum_const, nsmul_one]
  rfl

/-- The reciprocal square root of a count clamped below at one is a non-negative real. -/
theorem rsqrt_clamp (k : ℕ) : ∃ r : ℝ, 0 ≤ r ∧ Ideal.rsqrt (max ((k : ℝ) : EReal) 1) = (r : EReal) := by
  have hm : max ((k : ℝ) : EReal) 1 = ((max (k : ℝ) 1 : ℝ) : EReal) :=
    (EReal.coe_strictMono.monotone.map_max (a := (k : ℝ)) (b := 1)).symm
  have hpos : (0 : ℝ) < max (k : ℝ) 1 := lt_of_lt_of_le one_pos (le_max_right _ _)
  refine ⟨(Real.sqrt (max (k : ℝ) 1))⁻¹, inv_nonneg.mpr (Real.sqrt_nonneg _), ?_⟩
  rw [hm]
  show (if max (k : ℝ) 1 < 0 then (⊥ : EReal) else if max (k : ℝ) 1 = 0 then ⊤
    else ((Real.sqrt (max (k : ℝ) 1))⁻¹ : ℝ)) = _
  rw [if_neg (not_lt.mpr hpos.le), if_neg hpos.ne']

/-- Whichever way the selection goes, it returns a non-negative real. -/
theorem scale_nonneg (k : ℕ) (c : BitVec 1) :
    ∃ r : ℝ, 0 ≤ r ∧ Scalar.select c (Ideal.rsqrt (max ((k : ℝ) : EReal) 1)) (Ideal.ofBits .f32 0x00000000#32)
      = (r : EReal) := by
  unfold Scalar.select
  split
  · exact rsqrt_clamp k
  · exact ⟨0, le_rfl, Ideal.ofBits_zero_f32⟩

/-- The constant arrays at an index. -/
theorem zerosN_apply (i : S524288.Idx) : zerosN i = FloatOps.ofBits (F := Ideal) .f32 0x00000000#32 := rfl
theorem onesN_apply (i : S524288.Idx) : onesN i = FloatOps.ofBits (F := Ideal) .f32 0x3F800000#32 := rfl
theorem onesE_apply (i : S2621440.Idx) : onesE i = FloatOps.ofBits (F := Ideal) .f32 0x3F800000#32 := rfl
theorem elseN_apply (i : S524288.Idx) : elseN i = FloatOps.ofBits (F := Ideal) .f32 0x00000000#32 := rfl

/-- The in-degree of a node is the number of edges whose destination names it. -/
theorem deg_apply (a1 : (⟨S2x2097152, .i32⟩ : BufTy).Contents (Elt Ideal)) (n : Fin 524288)
    [DecidablePred fun e : Fin 2621440 => Cert.RowOps.scatterRow 524288 (dstCol a1 (ValueIdx.ix2 e 0)) = some n] :
    degT a1 (ValueIdx.ix1 n)
      = (((Finset.univ.filter fun e : Fin 2621440 =>
          Cert.RowOps.scatterRow 524288 (dstCol a1 (ValueIdx.ix2 e 0)) = some n).card : ℝ) : EReal) := by
  unfold degT
  refine (Cert.RowOps.scatterAdd_vec_apply scatter_S524288_S2621440x1_S2621440_n_0_0_1 rfl rfl rfl rfl
    zerosN (dstCol a1) onesE n).trans ?_
  generalize (Finset.univ.filter fun e : Fin 2621440 =>
    Cert.RowOps.scatterRow 524288 (dstCol a1 (ValueIdx.ix2 e 0)) = some n) = s
  rw [zerosN_apply]
  simp only [onesE_apply, Ideal.ofBits_def]
  exact count_real s

/-- The selection read at a node, for any four arrays. -/
theorem scale_apply (d z o e : FVec Ideal S524288 .f32) (i : S524288.Idx) :
    select (cmpf (F := Ideal) (φ := .f32) .ogt d z)
        (Host.rsqrt (F := Ideal) (φ := .f32) (maximumf (F := Ideal) (φ := .f32) d o)) e i
      = Scalar.select (FloatOps.cmpf (F := Ideal) (φ := .f32) .ogt (d i) (z i)) (Ideal.rsqrt (max (d i) (o i))) (e i) :=
  rfl

/-- THE SCALE IS A NON-NEGATIVE REAL at every node: the in-degree is a count, so its clamp at one is a real at least
    one, whose reciprocal square root is a non-negative real; the other branch of the selection is the zero word. -/
theorem dis_nonneg (a1 : (⟨S2x2097152, .i32⟩ : BufTy).Contents (Elt Ideal)) (n : Fin 524288) :
    ∃ r : ℝ, 0 ≤ r ∧ Spec.a1 (disT a1) n = (r : EReal) := by
  classical
  have hd := deg_apply a1 n
  generalize (Finset.univ.filter fun e : Fin 2621440 =>
    Cert.RowOps.scatterRow 524288 (dstCol a1 (ValueIdx.ix2 e 0)) = some n).card = k at hd
  unfold Spec.a1 disT posT rsqrtT clampT
  generalize degT a1 = d at hd ⊢
  rw [scale_apply, hd, zerosN_apply, onesN_apply, elseN_apply]
  simp only [Ideal.ofBits_def]
  rw [ofBits_one_f32]
  exact scale_nonneg k _

end Cert.KernelIdeal.HostPrefix

end
-- ==== Proof.RegionValsLib.lean ====
/-
  Reading the message-passing kernels' block arithmetic at an index.

  Each of the four node-wise kernels works on a block of 4096 rows: it multiplies a row by the node's own scale
  (a column broadcast along the row), adds a bias (a row broadcast down the block), clamps below at the zero word and
  multiplies by a small weight matrix. This module reads each of these block operations at a row and a column, and
  the whole payloads of the four kernels at a row and a column.
-/
import proofs.«171162_j59115929862199_2_alg».proof.Proof.Gen.KernelIdeal.Skeleton
import proofs.«171162_j59115929862199_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.RegionVals

open Idealize.ShloMosaic Idealize.ShloMosaic.ValueIdx
open Cert.KernelIdeal Cert.KernelIdeal.Gen

/-- The zero offsets of a rank-2 rectangle, however spelt. -/
theorem hz2 : (![0, 0] : Fin 2 → Nat) = fun _ => 0 := funext fun a => by fin_cases a <;> rfl
/-- The zero offset of a rank-1 rectangle. -/
theorem hz1 : (![0] : Fin 1 → Nat) = fun _ => 0 := funext fun a => by fin_cases a; rfl

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The finalising kernel's block at row `p`, column `q`: the aggregated row scaled by the node's factor, plus the bias,
    clamped below at the zero word. -/
theorem pay3_apply (x0 : Vec Ideal S4096x64 .f32) (x1 : Vec Ideal S4096x1 .f32) (x2 : Vec Ideal S64 .f32) (p : Fin 4096) (q : Fin 64) :
    k3_pay1 x0 x1 x2 (ix2 p q) = max (x0 (ix2 p q) * x1 (ix2 p 0) + x2 (ix1 q)) Spec.z0 := by
  unfold k3_pay1
  rw [shapeCast_self x0, shapeCast_self x1]
  show max (x0 (ix2 p q) * broadcastTo S4096x64 x1 broadcasts_S4096x1_S4096x64 (ix2 p q) + broadcastTo S4096x64 (shapeCast S1x64 x2 shapeCasts_S64_S1x64) broadcasts_S1x64_S4096x64 (ix2 p q)) (Ideal.ofBits .f32 0#32) = _
  rw [broadcastTo_a1_ab_apply, broadcastTo_1b_ab_apply, shapeCast_a_1a_apply]
  rfl

theorem lhs30_0 (i : S4096x64.Idx) (q : dot_S4096x30_S30x64_S4096x64_1_0_0_1_n_n.contr.Idx) :
    (dot_S4096x30_S30x64_S4096x64_1_0_0_1_n_n.lhsIdx i q 0).val = (i 0).val := by
  unfold DotDims.lhsIdx
  rw [dif_neg (show ¬(0 : Fin S4096x30.rank) ∈ dot_S4096x30_S30x64_S4096x64_1_0_0_1_n_n.lhsBatch by decide), dif_pos (show (0 : Fin S4096x30.rank) ∈ dot_S4096x30_S30x64_S4096x64_1_0_0_1_n_n.lhsNonContracting by decide)]
  rfl
theorem rhs30_1 (i : S4096x64.Idx) (q : dot_S4096x30_S30x64_S4096x64_1_0_0_1_n_n.contr.Idx) :
    (dot_S4096x30_S30x64_S4096x64_1_0_0_1_n_n.rhsIdx i q 1).val = (i 1).val := by
  unfold DotDims.rhsIdx
  rw [dif_neg (show ¬(1 : Fin S30x64.rank) ∈ dot_S4096x30_S30x64_S4096x64_1_0_0_1_n_n.rhsBatch by decide), dif_pos (show (1 : Fin S30x64.rank) ∈ dot_S4096x30_S30x64_S4096x64_1_0_0_1_n_n.rhsNonContracting by decide)]
  rfl

/-- A block product `[4096, 30] × [30, 64]` into the zero accumulator, read at row `p`, column `q`: the sum over the
    contracted axis of the operands' products. -/
theorem matmul30_apply (l : FVec Ideal S4096x30 .bf16) (r : FVec Ideal S30x64 .bf16) (p : Fin 4096) (q : Fin 64) :
    matmul dot_S4096x30_S30x64_S4096x64_1_0_0_1_n_n none l r (constant (F := Ideal) S4096x64 .f32 0x00000000#32) (ix2 p q)
      = ∑ k : Fin 30, l (ix2 p k) * r (ix2 k q) := by
  simp only [matmul]
  rw [Ideal.matmul_constant_zero_apply, ← Equiv.sum_comp (contrEquiv1 dot_S4096x30_S30x64_S4096x64_1_0_0_1_n_n 30 rfl rfl).symm]
  refine Finset.sum_congr rfl fun k _ => ?_
  have hk := contrEquiv1_symm_val dot_S4096x30_S30x64_S4096x64_1_0_0_1_n_n 30 rfl rfl k
  have el : dot_S4096x30_S30x64_S4096x64_1_0_0_1_n_n.lhsIdx (ix2 p q) ((contrEquiv1 dot_S4096x30_S30x64_S4096x64_1_0_0_1_n_n 30 rfl rfl).symm k) = ix2 p k := funext fun a => Fin.ext (by
    match a with
    | ⟨0, _⟩ => exact lhs30_0 _ _
    | ⟨1, _⟩ => exact (dot_S4096x30_S30x64_S4096x64_1_0_0_1_n_n.lhsIdx_val_of_single rfl _ _).trans hk)
  have er : dot_S4096x30_S30x64_S4096x64_1_0_0_1_n_n.rhsIdx (ix2 p q) ((contrEquiv1 dot_S4096x30_S30x64_S4096x64_1_0_0_1_n_n 30 rfl rfl).symm k) = ix2 k q := funext fun a => Fin.ext (by
    match a with
    | ⟨0, _⟩ => exact (dot_S4096x30_S30x64_S4096x64_1_0_0_1_n_n.rhsIdx_val_of_single rfl _ _).trans hk
    | ⟨1, _⟩ => exact rhs30_1 _ _)
  rw [el, er]

theorem lhs64_0 (i : S4096x64.Idx) (q : dot_S4096x64_S64x64_S4096x64_1_0_0_1_n_n.contr.Idx) :
    (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide), dif_pos (show (0 : Fin S4096x64.rank) ∈ dot_S4096x64_S64x64_S4096x64_1_0_0_1_n_n.lhsNonContracting by decide)]
  rfl
theorem rhs64_1 (i : S4096x64.Idx) (q : dot_S4096x64_S64x64_S4096x64_1_0_0_1_n_n.contr.Idx) :
    (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide), dif_pos (show (1 : Fin S64x64.rank) ∈ dot_S4096x64_S64x64_S4096x64_1_0_0_1_n_n.rhsNonContracting by decide)]
  rfl

/-- A block product `[4096, 64] × [64, 64]` into the zero accumulator, read at row `p`, column `q`: the sum over the
    contracted axis of the operands' products. -/
theorem matmul64_apply (l : FVec Ideal S4096x64 .bf16) (r : FVec Ideal S64x64 .bf16) (p : Fin 4096) (q : Fin 64) :
    matmul dot_S4096x64_S64x64_S4096x64_1_0_0_1_n_n none l r (constant (F := Ideal) S4096x64 .f32 0x00000000#32) (ix2 p q)
      = ∑ k : Fin 64, l (ix2 p k) * r (ix2 k q) := by
  simp only [matmul]
  rw [Ideal.matmul_constant_zero_apply, ← Equiv.sum_comp (contrEquiv1 dot_S4096x64_S64x64_S4096x64_1_0_0_1_n_n 64 rfl rfl).symm]
  refine Finset.sum_congr rfl fun k _ => ?_
  have hk := contrEquiv1_symm_val dot_S4096x64_S64x64_S4096x64_1_0_0_1_n_n 64 rfl rfl k
  have el : dot_S4096x64_S64x64_S4096x64_1_0_0_1_n_n.lhsIdx (ix2 p q) ((contrEquiv1 dot_S4096x64_S64x64_S4096x64_1_0_0_1_n_n 64 rfl rfl).symm k) = ix2 p k := funext fun a => Fin.ext (by
    match a with
    | ⟨0, _⟩ => exact lhs64_0 _ _
    | ⟨1, _⟩ => exact (dot_S4096x64_S64x64_S4096x64_1_0_0_1_n_n.lhsIdx_val_of_single rfl _ _).trans hk)
  have er : dot_S4096x64_S64x64_S4096x64_1_0_0_1_n_n.rhsIdx (ix2 p q) ((contrEquiv1 dot_S4096x64_S64x64_S4096x64_1_0_0_1_n_n 64 rfl rfl).symm k) = ix2 k q := funext fun a => Fin.ext (by
    match a with
    | ⟨0, _⟩ => exact (dot_S4096x64_S64x64_S4096x64_1_0_0_1_n_n.rhsIdx_val_of_single rfl _ _).trans hk
    | ⟨1, _⟩ => exact rhs64_1 _ _)
  rw [el, er]

/-- The first kernel's block at row `p`, column `q`: the row of `x · W` scaled by the node's factor. -/
theorem pay0_apply (x0 : Vec Ideal S4096x30 .f32) (x1 : Vec Ideal S30x64 .f32) (x2 : Vec Ideal S4096x1 .f32) (p : Fin 4096) (q : Fin 64) :
    k0_pay1 x0 x1 x2 (ix2 p q) = (∑ k : Fin 30, x0 (ix2 p k) * x1 (ix2 k q)) * x2 (ix2 p 0) := by
  unfold k0_pay1
  rw [shapeCast_self x2]
  show matmul dot_S4096x30_S30x64_S4096x64_1_0_0_1_n_n none (truncf .bf16 x0 bitsLt_bf16_f32) (truncf .bf16 x1 bitsLt_bf16_f32) (constant (F := Ideal) S4096x64 .f32 0x00000000#32) (ix2 p q)
      * broadcastTo S4096x64 x2 broadcasts_S4096x1_S4096x64 (ix2 p q) = _
  rw [matmul30_apply, broadcastTo_a1_ab_apply]
  rfl

/-- A fused kernel's block at row `p`, column `q`: the epilogue of the aggregated block (the finalising kernel's
    arithmetic), times the weight matrix, scaled by the node's factor. -/
theorem pay1_apply (v0 : Vec Ideal S4096x1 .f32) (v2 : Vec Ideal S4096x64 .f32) (v6 : Vec Ideal S64 .f32) (v13 : Vec Ideal S64x64 .f32) (p : Fin 4096) (q : Fin 64) :
    k1_pay1 v0 v2 v6 v13 (ix2 p q)
      = (∑ k : Fin 64, max (v2 (ix2 p k) * v0 (ix2 p 0) + v6 (ix1 k)) Spec.z0 * v13 (ix2 k q)) * v0 (ix2 p 0) := by
  show matmul dot_S4096x64_S64x64_S4096x64_1_0_0_1_n_n none (truncf .bf16 (k3_pay1 v2 v0 v6) bitsLt_bf16_f32) (truncf .bf16 v13 bitsLt_bf16_f32) (constant (F := Ideal) S4096x64 .f32 0x00000000#32) (ix2 p q)
      * broadcastTo S4096x64 (shapeCast S4096x1 v0 shapeCasts_S4096x1_S4096x1) broadcasts_S4096x1_S4096x64 (ix2 p q) = _
  rw [matmul64_apply, shapeCast_self v0, broadcastTo_a1_ab_apply]
  show (∑ k : Fin 64, k3_pay1 v2 v0 v6 (ix2 p k) * v13 (ix2 k q)) * v0 (ix2 p 0) = _
  simp only [pay3_apply]

/-- The second fused kernel is the same text. -/
theorem pay2_apply (v0 : Vec Ideal S4096x1 .f32) (v2 : Vec Ideal S4096x64 .f32) (v6 : Vec Ideal S64 .f32) (v13 : Vec Ideal S64x64 .f32) (p : Fin 4096) (q : Fin 64) :
    k2_pay1 v0 v2 v6 v13 (ix2 p q)
      = (∑ k : Fin 64, max (v2 (ix2 p k) * v0 (ix2 p 0) + v6 (ix1 k)) Spec.z0 * v13 (ix2 k q)) * v0 (ix2 p 0) :=
  pay1_apply v0 v2 v6 v13 p q

end Cert.KernelIdeal.RegionVals

end
-- ==== Proof.RegionVals0.lean ====
/-
  The first kernel's output array, read at a node and a feature.

  The kernel walks the 524288 nodes in 128 blocks of 4096 rows. At block `t` it reads rows `4096 t … 4096 t + 4095` of
  the node features and of the scale column and the whole weight matrix, and writes back the same rows of its output:
  every row of the output is written by exactly the block `n / 4096`. Entry `(n, j)` of the output is therefore
  row `n` of the features times column `j` of the weights, scaled by the node's own factor.
-/
import proofs.«171162_j59115929862199_2_alg».proof.Proof.Gen.KernelIdeal.Frame
import proofs.«171162_j59115929862199_2_alg».proof.Proof.RegionValsLib

noncomputable section

open scoped BigOperators

namespace Cert.KernelIdeal.RegionVals

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The block index maps over the grid: the three row-blocked windows sit at block row `t`, the weights at their one block. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Block `t` of the node features is their rows `4096 t + ·`. -/
theorem iblk0_0_apply (c : Dev nD) (t : Fin cfg0.N) (x : S4096x30.Idx) (n : Fin 524288) (k : Fin 30)
    (hn : n.val = t.val * 4096 + (x 0).val) (hk : k.val = (x 1).val) :
    (iblk0 V c 0 t : Vec Ideal S4096x30 .f32) x = Spec.a2 (V c main_arg0) n k := by
  obtain ⟨e0, e1, -⟩ := idx_facts0 t
  unfold iblk0
  rw [View.read_apply]
  show V c main_arg0 _ = V c main_arg0 _
  refine congrArg (V c main_arg0) (funext fun a => Fin.ext ?_)
  match a with
  | ⟨0, _⟩ => show win0_0.index t (0 : Fin 2) * 4096 + 1 * (x 0).val = n.val; rw [e0, hn]; omega
  | ⟨1, _⟩ => show win0_0.index t (1 : Fin 2) * 30 + 1 * (x 1).val = k.val; rw [e1, hk]; omega

/-- The weight window's one block is the whole matrix. -/
theorem iblk0_1_apply (c : Dev nD) (t : Fin cfg0.N) (x : S30x64.Idx) (k : Fin 30) (j : Fin 64)
    (hk : k.val = (x 0).val) (hj : j.val = (x 1).val) :
    (iblk0 V c 1 t : Vec Ideal S30x64 .f32) x = Spec.a2 (V c main_arg5) k j := by
  obtain ⟨-, -, e0, e1, -⟩ := idx_facts0 t
  unfold iblk0
  rw [View.read_apply]
  show V c main_arg5 _ = V c main_arg5 _
  refine congrArg (V c main_arg5) (funext fun a => Fin.ext ?_)
  match a with
  | ⟨0, _⟩ => show win0_1.index t (0 : Fin 2) * 30 + 1 * (x 0).val = k.val; rw [e0, hk]; omega
  | ⟨1, _⟩ => show win0_1.index t (1 : Fin 2) * 64 + 1 * (x 1).val = j.val; rw [e1, hj]; omega

/-- Block `t` of the scale column is its rows `4096 t + ·`. -/
theorem iblk0_2_apply (c : Dev nD) (t : Fin cfg0.N) (x : S4096x1.Idx) (n : Fin 524288)
    (hn : n.val = t.val * 4096 + (x 0).val) :
    (iblk0 V c 2 t : Vec Ideal S4096x1 .f32) x = Spec.col (V c main_v17) n := by
  obtain ⟨-, -, -, -, e0, e1, -⟩ := idx_facts0 t
  unfold iblk0
  rw [View.read_apply]
  show V c main_v17 _ = V c main_v17 _
  refine congrArg (V c main_v17) (funext fun a => Fin.ext ?_)
  match a with
  | ⟨0, _⟩ => show win0_2.index t (0 : Fin 2) * 4096 + 1 * (x 0).val = n.val; rw [e0, hn]; omega
  | ⟨1, _⟩ => show win0_2.index t (1 : Fin 2) * 1 + 1 * (x 1).val = 0; rw [e1]; have h1 : (x 1).val < 1 := (x 1).isLt; omega

/-- What the output array ends holding: the features times the weights, each row scaled by its node's factor. -/
def G0 (c : Dev nD) : S524288x64.Idx → EReal := fun i =>
  Spec.linScale (Spec.col (V c main_v17)) (Spec.a2 (V c main_arg0)) (Spec.a2 (V c main_arg5)) ⟨(i 0).val, idx2_lt0 i⟩ ⟨(i 1).val, idx2_lt1 i⟩

/-- What block `t` writes back is block `t` of that array. -/
theorem flushed0_eq (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3
  rw [View.canon_unit_zero hz2]
  simp only [View.ld_unit_zero (S := S4096x30) hz2, View.ld_unit_zero (S := S30x64) hz2, View.ld_unit_zero (S := S4096x1) hz2]
  obtain ⟨-, -, -, -, -, -, e0, e1⟩ := idx_facts0 t
  funext y
  obtain ⟨p, q, rfl⟩ : ∃ (p : Fin 4096) (q : Fin 64), y = ix2 p q := ⟨y 0, y 1, eq_ix2 y⟩
  show k0_pay1 (iblk0 V c 0 t) (iblk0 V c 1 t) (iblk0 V c 2 t) (ix2 p q) = G0 V c (((cfg0.win 3).blk t).view.emb (ix2 p q))
  refine (pay0_apply _ _ _ p q).trans ?_
  have hk0 : ((((cfg0.win 3).blk t).view.emb (ix2 p q)) 0).val = t.val * 4096 + p.val := by
    show win0_3.index t (0 : Fin 2) * 4096 + 1 * p.val = _; rw [e0]; omega
  have hk1 : ((((cfg0.win 3).blk t).view.emb (ix2 p q)) 1).val = q.val := by
    show win0_3.index t (1 : Fin 2) * 64 + 1 * q.val = _; rw [e1]; omega
  unfold G0 Spec.linScale Spec.mm
  refine congrArg₂ (· * ·) (Finset.sum_congr rfl fun k _ => congrArg₂ (· * ·) ?_ ?_) ?_
  · exact iblk0_0_apply V c t (ix2 p k) _ k hk0 rfl
  · exact iblk0_1_apply V c t (ix2 k q) k _ rfl hk1
  · exact iblk0_2_apply V c t (ix2 p 0) _ hk0

/-- An index of the output array lies in block `t` iff each coordinate lies in the block's range on its axis. -/
theorem mem_blk0 (t : Fin cfg0.N) (i : S524288x64.Idx) :
    i ∈ ((cfg0.win 3).blk t).view.set ↔ ∀ a : Fin 2, win0_3.index t a * S4096x64.size a ≤ (i a).val ∧ (i a).val < win0_3.index t a * S4096x64.size a + S4096x64.size a := by
  show i ∈ ((View.whole main_v18).slice (win0_3.rect t)).set ↔ _
  rw [View.set_slice_whole, Rect.mem_set_unit]
  exact Iff.rfl

/-- Every entry of the output array is written back: row `n` by block `n / 4096`. -/
theorem cover0 (i : S524288x64.Idx) :
    ∃ t : Fin cfg0.N, (cfg0.win 3).flush t = true ∧ i ∈ ((cfg0.win 3).blk t).view.set := by
  have hi0 : (i 0).val < 524288 := (i 0).isLt
  have hi1 : (i 1).val < 64 := (i 1).isLt
  have hN : cfg0.N = 128 := N_0
  have ht : (i 0).val / 4096 < cfg0.N := by rw [hN]; omega
  obtain ⟨-, -, -, -, -, -, e0, e1⟩ := idx_facts0 ⟨(i 0).val / 4096, ht⟩
  refine ⟨⟨(i 0).val / 4096, ht⟩, flush0_3 _, ?_⟩
  rw [mem_blk0]
  intro a
  match a with
  | ⟨0, _⟩ =>
    show win0_3.index ⟨(i 0).val / 4096, ht⟩ (0 : Fin 2) * 4096 ≤ (i 0).val ∧ (i 0).val < win0_3.index ⟨(i 0).val / 4096, ht⟩ (0 : Fin 2) * 4096 + 4096
    rw [e0]; show (i 0).val / 4096 * 4096 ≤ (i 0).val ∧ (i 0).val < (i 0).val / 4096 * 4096 + 4096; omega
  | ⟨1, _⟩ =>
    show win0_3.index ⟨(i 0).val / 4096, ht⟩ (1 : Fin 2) * 64 ≤ (i 1).val ∧ (i 1).val < win0_3.index ⟨(i 0).val / 4096, ht⟩ (1 : Fin 2) * 64 + 64
    rw [e1]; omega

/-- The output array after the region. -/
theorem final0 (c : Dev nD) : (dat0 V c).arrAt 3 cfg0.N = G0 V c :=
  (dat0 V c).arrAt_eq_of_cover 3 (G0 V c) (fun t _ => flushed0_eq V c t) cover0

/-- REGION 0: the output at node `n`, feature `j` is `(x · W)[n, j]` scaled by the node's factor. -/
theorem region0 (c : Dev nD) (n : Fin 524288) (j : Fin 64) :
    Spec.a2 ((dat0 (F := Ideal) V c).arrAt 3 cfg0.N) n j
      = Spec.linScale (Spec.col (V c main_v17)) (Spec.a2 (V c main_arg0)) (Spec.a2 (V c main_arg5)) n j := by
  rw [final0]; rfl

end Cert.KernelIdeal.RegionVals

end
-- ==== Proof.RegionVals1.lean ====
/-
  The first fused kernel's output array, read at a node and a feature.

  The kernel walks the 524288 nodes in 128 blocks of 4096 rows. At block `t` it reads rows `4096 t … 4096 t + 4095` of
  the aggregated array and of the scale column, the whole bias and the whole weight matrix, and writes back the same
  rows of its output: every row of the output is written by exactly the block `n / 4096`. Entry `(n, j)` of the output
  is therefore row `n` of the previous layer's epilogue — scale by the node's factor, add the bias, clamp below at the
  zero word — times column `j` of the weights, scaled by the node's own factor again.
-/
import proofs.«171162_j59115929862199_2_alg».proof.Proof.Gen.KernelIdeal.Frame
import proofs.«171162_j59115929862199_2_alg».proof.Proof.RegionValsLib

noncomputable section

open scoped BigOperators

namespace Cert.KernelIdeal.RegionVals

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The block index maps over the grid: the three row-blocked windows sit at block row `t`, the bias and the weights
    at their one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Block `t` of the aggregated array is its rows `4096 t + ·`. -/
theorem iblk1_0_apply (c : Dev nD) (t : Fin cfg1.N) (x : S4096x64.Idx) (n : Fin 524288) (k : Fin 64)
    (hn : n.val = t.val * 4096 + (x 0).val) (hk : k.val = (x 1).val) :
    (iblk1 V c 0 t : Vec Ideal S4096x64 .f32) x = Spec.a2 (V c main_v29) n k := by
  obtain ⟨e0, e1, -⟩ := idx_facts1 t
  unfold iblk1
  rw [View.read_apply]
  show V c main_v29 _ = V c main_v29 _
  refine congrArg (V c main_v29) (funext fun a => Fin.ext ?_)
  match a with
  | ⟨0, _⟩ => show win1_0.index t (0 : Fin 2) * 4096 + 1 * (x 0).val = n.val; rw [e0, hn]; omega
  | ⟨1, _⟩ => show win1_0.index t (1 : Fin 2) * 64 + 1 * (x 1).val = k.val; rw [e1, hk]; omega

/-- Block `t` of the scale column is its rows `4096 t + ·`. -/
theorem iblk1_1_apply (c : Dev nD) (t : Fin cfg1.N) (x : S4096x1.Idx) (n : Fin 524288)
    (hn : n.val = t.val * 4096 + (x 0).val) :
    (iblk1 V c 1 t : Vec Ideal S4096x1 .f32) x = Spec.col (V c main_v17) n := by
  obtain ⟨-, -, e0, e1, -⟩ := idx_facts1 t
  unfold iblk1
  rw [View.read_apply]
  show V c main_v17 _ = V c main_v17 _
  refine congrArg (V c main_v17) (funext fun a => Fin.ext ?_)
  match a with
  | ⟨0, _⟩ => show win1_1.index t (0 : Fin 2) * 4096 + 1 * (x 0).val = n.val; rw [e0, hn]; omega
  | ⟨1, _⟩ => show win1_1.index t (1 : Fin 2) * 1 + 1 * (x 1).val = 0; rw [e1]; have h1 : (x 1).val < 1 := (x 1).isLt; omega

/-- The bias window's one block is the whole bias. -/
theorem iblk1_2_apply (c : Dev nD) (t : Fin cfg1.N) (x : S64.Idx) (k : Fin 64) (hk : k.val = (x 0).val) :
    (iblk1 V c 2 t : Vec Ideal S64 .f32) x = Spec.a1 (V c main_arg6) k := by
  obtain ⟨-, -, -, -, e0, -⟩ := idx_facts1 t
  unfold iblk1
  rw [View.read_apply]
  show V c main_arg6 _ = V c main_arg6 _
  refine congrArg (V c main_arg6) (funext fun a => Fin.ext ?_)
  match a with
  | ⟨0, _⟩ => show win1_2.index t (0 : Fin 1) * 64 + 1 * (x 0).val = k.val; rw [e0, hk]; omega

/-- The weight window's one block is the whole matrix. -/
theorem iblk1_3_apply (c : Dev nD) (t : Fin cfg1.N) (x : S64x64.Idx) (k : Fin 64) (j : Fin 64)
    (hk : k.val = (x 0).val) (hj : j.val = (x 1).val) :
    (iblk1 V c 3 t : Vec Ideal S64x64 .f32) x = Spec.a2 (V c main_arg7) k j := by
  obtain ⟨-, -, -, -, -, e0, e1, -⟩ := idx_facts1 t
  unfold iblk1
  rw [View.read_apply]
  show V c main_arg7 _ = V c main_arg7 _
  refine congrArg (V c main_arg7) (funext fun a => Fin.ext ?_)
  match a with
  | ⟨0, _⟩ => show win1_3.index t (0 : Fin 2) * 64 + 1 * (x 0).val = k.val; rw [e0, hk]; omega
  | ⟨1, _⟩ => show win1_3.index t (1 : Fin 2) * 64 + 1 * (x 1).val = j.val; rw [e1, hj]; omega

/-- What the output array ends holding: the epilogue of the aggregated array times the weights, each row scaled by
    its node's factor. -/
def G1 (c : Dev nD) : S524288x64.Idx → EReal := fun i =>
  Spec.linScale (Spec.col (V c main_v17)) (Spec.epi (Spec.col (V c main_v17)) (Spec.a2 (V c main_v29)) (Spec.a1 (V c main_arg6))) (Spec.a2 (V c main_arg7)) ⟨(i 0).val, idx2_lt0 i⟩ ⟨(i 1).val, idx2_lt1 i⟩

/-- What block `t` writes back is block `t` of that array. -/
theorem flushed1_eq (c : Dev nD) (t : Fin cfg1.N) :
    (dat1 V c).flushed 4 t = ((cfg1.win 4).blk t).view.read (Elt Ideal) (G1 V c) := by
  show (cfg1.win 4).cut (grid1.coords t) ((dat1 V c).after 4 t) = _
  rw [after1_4]
  unfold out1_4
  rw [View.canon_unit_zero hz2]
  simp only [View.ld_unit_zero (S := S4096x64) hz2, View.ld_unit_zero (S := S4096x1) hz2, View.ld_unit_zero (S := S64) hz1, View.ld_unit_zero (S := S64x64) hz2]
  obtain ⟨-, -, -, -, -, -, -, e0, e1⟩ := idx_facts1 t
  funext y
  obtain ⟨p, q, rfl⟩ : ∃ (p : Fin 4096) (q : Fin 64), y = ix2 p q := ⟨y 0, y 1, eq_ix2 y⟩
  show k1_pay1 (iblk1 V c 1 t) (iblk1 V c 0 t) (iblk1 V c 2 t) (iblk1 V c 3 t) (ix2 p q) = G1 V c (((cfg1.win 4).blk t).view.emb (ix2 p q))
  refine (pay1_apply _ _ _ _ p q).trans ?_
  have hk0 : ((((cfg1.win 4).blk t).view.emb (ix2 p q)) 0).val = t.val * 4096 + p.val := by
    show win1_4.index t (0 : Fin 2) * 4096 + 1 * p.val = _; rw [e0]; omega
  have hk1 : ((((cfg1.win 4).blk t).view.emb (ix2 p q)) 1).val = q.val := by
    show win1_4.index t (1 : Fin 2) * 64 + 1 * q.val = _; rw [e1]; omega
  unfold G1 Spec.linScale Spec.mm Spec.epi
  refine congrArg₂ (· * ·) (Finset.sum_congr rfl fun k _ => congrArg₂ (· * ·)
    (congrArg₂ max (congrArg₂ (· + ·) (congrArg₂ (· * ·) ?_ ?_) ?_) rfl) ?_) ?_
  · exact iblk1_0_apply V c t (ix2 p k) _ k hk0 rfl
  · exact iblk1_1_apply V c t (ix2 p 0) _ hk0
  · exact iblk1_2_apply V c t (ix1 k) k rfl
  · exact iblk1_3_apply V c t (ix2 k q) k _ rfl hk1
  · exact iblk1_1_apply V c t (ix2 p 0) _ hk0

/-- An index of the output array lies in block `t` iff each coordinate lies in the block's range on its axis. -/
theorem mem_blk1 (t : Fin cfg1.N) (i : S524288x64.Idx) :
    i ∈ ((cfg1.win 4).blk t).view.set ↔ ∀ a : Fin 2, win1_4.index t a * S4096x64.size a ≤ (i a).val ∧ (i a).val < win1_4.index t a * S4096x64.size a + S4096x64.size a := by
  show i ∈ ((View.whole main_v30).slice (win1_4.rect t)).set ↔ _
  rw [View.set_slice_whole, Rect.mem_set_unit]
  exact Iff.rfl

/-- Every entry of the output array is written back: row `n` by block `n / 4096`. -/
theorem cover1 (i : S524288x64.Idx) :
    ∃ t : Fin cfg1.N, (cfg1.win 4).flush t = true ∧ i ∈ ((cfg1.win 4).blk t).view.set := by
  have hi0 : (i 0).val < 524288 := (i 0).isLt
  have hi1 : (i 1).val < 64 := (i 1).isLt
  have hN : cfg1.N = 128 := N_1
  have ht : (i 0).val / 4096 < cfg1.N := by rw [hN]; omega
  obtain ⟨-, -, -, -, -, -, -, e0, e1⟩ := idx_facts1 ⟨(i 0).val / 4096, ht⟩
  refine ⟨⟨(i 0).val / 4096, ht⟩, flush1_4 _, ?_⟩
  rw [mem_blk1]
  intro a
  match a with
  | ⟨0, _⟩ =>
    show win1_4.index ⟨(i 0).val / 4096, ht⟩ (0 : Fin 2) * 4096 ≤ (i 0).val ∧ (i 0).val < win1_4.index ⟨(i 0).val / 4096, ht⟩ (0 : Fin 2) * 4096 + 4096
    rw [e0]; show (i 0).val / 4096 * 4096 ≤ (i 0).val ∧ (i 0).val < (i 0).val / 4096 * 4096 + 4096; omega
  | ⟨1, _⟩ =>
    show win1_4.index ⟨(i 0).val / 4096, ht⟩ (1 : Fin 2) * 64 ≤ (i 1).val ∧ (i 1).val < win1_4.index ⟨(i 0).val / 4096, ht⟩ (1 : Fin 2) * 64 + 64
    rw [e1]; omega

/-- The output array after the region. -/
theorem final1 (c : Dev nD) : (dat1 V c).arrAt 4 cfg1.N = G1 V c :=
  (dat1 V c).arrAt_eq_of_cover 4 (G1 V c) (fun t _ => flushed1_eq V c t) cover1

/-- REGION 1: the output at node `n`, feature `j` is the epilogue's row `n` times the weights' column `j`, scaled by
    the node's factor. -/
theorem region1 (c : Dev nD) (n : Fin 524288) (j : Fin 64) :
    Spec.a2 ((dat1 (F := Ideal) V c).arrAt 4 cfg1.N) n j
      = Spec.linScale (Spec.col (V c main_v17)) (Spec.epi (Spec.col (V c main_v17)) (Spec.a2 (V c main_v29)) (Spec.a1 (V c main_arg6))) (Spec.a2 (V c main_arg7)) n j := by
  rw [final1]; rfl

end Cert.KernelIdeal.RegionVals

end
-- ==== Proof.RegionVals2.lean ====
/-
  The second fused kernel's output array, read at a node and a feature.

  The kernel walks the 524288 nodes in 128 blocks of 4096 rows. At block `t` it reads rows `4096 t … 4096 t + 4095` of
  the aggregated array and of the scale column, the whole bias and the whole weight matrix, and writes back the same
  rows of its output: every row of the output is written by exactly the block `n / 4096`. Entry `(n, j)` of the output
  is therefore row `n` of the previous layer's epilogue — scale by the node's factor, add the bias, clamp below at the
  zero word — times column `j` of the weights, scaled by the node's own factor again.
-/
import proofs.«171162_j59115929862199_2_alg».proof.Proof.Gen.KernelIdeal.Frame
import proofs.«171162_j59115929862199_2_alg».proof.Proof.RegionValsLib

noncomputable section

open scoped BigOperators

namespace Cert.KernelIdeal.RegionVals

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The block index maps over the grid: the three row-blocked windows sit at block row `t`, the bias and the weights
    at their one block. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 1) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Block `t` of the aggregated array is its rows `4096 t + ·`. -/
theorem iblk2_0_apply (c : Dev nD) (t : Fin cfg2.N) (x : S4096x64.Idx) (n : Fin 524288) (k : Fin 64)
    (hn : n.val = t.val * 4096 + (x 0).val) (hk : k.val = (x 1).val) :
    (iblk2 V c 0 t : Vec Ideal S4096x64 .f32) x = Spec.a2 (V c main_v41) n k := by
  obtain ⟨e0, e1, -⟩ := idx_facts2 t
  unfold iblk2
  rw [View.read_apply]
  show V c main_v41 _ = V c main_v41 _
  refine congrArg (V c main_v41) (funext fun a => Fin.ext ?_)
  match a with
  | ⟨0, _⟩ => show win2_0.index t (0 : Fin 2) * 4096 + 1 * (x 0).val = n.val; rw [e0, hn]; omega
  | ⟨1, _⟩ => show win2_0.index t (1 : Fin 2) * 64 + 1 * (x 1).val = k.val; rw [e1, hk]; omega

/-- Block `t` of the scale column is its rows `4096 t + ·`. -/
theorem iblk2_1_apply (c : Dev nD) (t : Fin cfg2.N) (x : S4096x1.Idx) (n : Fin 524288)
    (hn : n.val = t.val * 4096 + (x 0).val) :
    (iblk2 V c 1 t : Vec Ideal S4096x1 .f32) x = Spec.col (V c main_v17) n := by
  obtain ⟨-, -, e0, e1, -⟩ := idx_facts2 t
  unfold iblk2
  rw [View.read_apply]
  show V c main_v17 _ = V c main_v17 _
  refine congrArg (V c main_v17) (funext fun a => Fin.ext ?_)
  match a with
  | ⟨0, _⟩ => show win2_1.index t (0 : Fin 2) * 4096 + 1 * (x 0).val = n.val; rw [e0, hn]; omega
  | ⟨1, _⟩ => show win2_1.index t (1 : Fin 2) * 1 + 1 * (x 1).val = 0; rw [e1]; have h1 : (x 1).val < 1 := (x 1).isLt; omega

/-- The bias window's one block is the whole bias. -/
theorem iblk2_2_apply (c : Dev nD) (t : Fin cfg2.N) (x : S64.Idx) (k : Fin 64) (hk : k.val = (x 0).val) :
    (iblk2 V c 2 t : Vec Ideal S64 .f32) x = Spec.a1 (V c main_arg8) k := by
  obtain ⟨-, -, -, -, e0, -⟩ := idx_facts2 t
  unfold iblk2
  rw [View.read_apply]
  show V c main_arg8 _ = V c main_arg8 _
  refine congrArg (V c main_arg8) (funext fun a => Fin.ext ?_)
  match a with
  | ⟨0, _⟩ => show win2_2.index t (0 : Fin 1) * 64 + 1 * (x 0).val = k.val; rw [e0, hk]; omega

/-- The weight window's one block is the whole matrix. -/
theorem iblk2_3_apply (c : Dev nD) (t : Fin cfg2.N) (x : S64x64.Idx) (k : Fin 64) (j : Fin 64)
    (hk : k.val = (x 0).val) (hj : j.val = (x 1).val) :
    (iblk2 V c 3 t : Vec Ideal S64x64 .f32) x = Spec.a2 (V c main_arg9) k j := by
  obtain ⟨-, -, -, -, -, e0, e1, -⟩ := idx_facts2 t
  unfold iblk2
  rw [View.read_apply]
  show V c main_arg9 _ = V c main_arg9 _
  refine congrArg (V c main_arg9) (funext fun a => Fin.ext ?_)
  match a with
  | ⟨0, _⟩ => show win2_3.index t (0 : Fin 2) * 64 + 1 * (x 0).val = k.val; rw [e0, hk]; omega
  | ⟨1, _⟩ => show win2_3.index t (1 : Fin 2) * 64 + 1 * (x 1).val = j.val; rw [e1, hj]; omega

/-- What the output array ends holding: the epilogue of the aggregated array times the weights, each row scaled by
    its node's factor. -/
def G2 (c : Dev nD) : S524288x64.Idx → EReal := fun i =>
  Spec.linScale (Spec.col (V c main_v17)) (Spec.epi (Spec.col (V c main_v17)) (Spec.a2 (V c main_v41)) (Spec.a1 (V c main_arg8))) (Spec.a2 (V c main_arg9)) ⟨(i 0).val, idx2_lt0 i⟩ ⟨(i 1).val, idx2_lt1 i⟩

/-- What block `t` writes back is block `t` of that array. -/
theorem flushed2_eq (c : Dev nD) (t : Fin cfg2.N) :
    (dat2 V c).flushed 4 t = ((cfg2.win 4).blk t).view.read (Elt Ideal) (G2 V c) := by
  show (cfg2.win 4).cut (grid2.coords t) ((dat2 V c).after 4 t) = _
  rw [after2_4]
  unfold out2_4
  rw [View.canon_unit_zero hz2]
  simp only [View.ld_unit_zero (S := S4096x64) hz2, View.ld_unit_zero (S := S4096x1) hz2, View.ld_unit_zero (S := S64) hz1, View.ld_unit_zero (S := S64x64) hz2]
  obtain ⟨-, -, -, -, -, -, -, e0, e1⟩ := idx_facts2 t
  funext y
  obtain ⟨p, q, rfl⟩ : ∃ (p : Fin 4096) (q : Fin 64), y = ix2 p q := ⟨y 0, y 1, eq_ix2 y⟩
  show k2_pay1 (iblk2 V c 1 t) (iblk2 V c 0 t) (iblk2 V c 2 t) (iblk2 V c 3 t) (ix2 p q) = G2 V c (((cfg2.win 4).blk t).view.emb (ix2 p q))
  refine (pay2_apply _ _ _ _ p q).trans ?_
  have hk0 : ((((cfg2.win 4).blk t).view.emb (ix2 p q)) 0).val = t.val * 4096 + p.val := by
    show win2_4.index t (0 : Fin 2) * 4096 + 1 * p.val = _; rw [e0]; omega
  have hk1 : ((((cfg2.win 4).blk t).view.emb (ix2 p q)) 1).val = q.val := by
    show win2_4.index t (1 : Fin 2) * 64 + 1 * q.val = _; rw [e1]; omega
  unfold G2 Spec.linScale Spec.mm Spec.epi
  refine congrArg₂ (· * ·) (Finset.sum_congr rfl fun k _ => congrArg₂ (· * ·)
    (congrArg₂ max (congrArg₂ (· + ·) (congrArg₂ (· * ·) ?_ ?_) ?_) rfl) ?_) ?_
  · exact iblk2_0_apply V c t (ix2 p k) _ k hk0 rfl
  · exact iblk2_1_apply V c t (ix2 p 0) _ hk0
  · exact iblk2_2_apply V c t (ix1 k) k rfl
  · exact iblk2_3_apply V c t (ix2 k q) k _ rfl hk1
  · exact iblk2_1_apply V c t (ix2 p 0) _ hk0

/-- An index of the output array lies in block `t` iff each coordinate lies in the block's range on its axis. -/
theorem mem_blk2 (t : Fin cfg2.N) (i : S524288x64.Idx) :
    i ∈ ((cfg2.win 4).blk t).view.set ↔ ∀ a : Fin 2, win2_4.index t a * S4096x64.size a ≤ (i a).val ∧ (i a).val < win2_4.index t a * S4096x64.size a + S4096x64.size a := by
  show i ∈ ((View.whole main_v42).slice (win2_4.rect t)).set ↔ _
  rw [View.set_slice_whole, Rect.mem_set_unit]
  exact Iff.rfl

/-- Every entry of the output array is written back: row `n` by block `n / 4096`. -/
theorem cover2 (i : S524288x64.Idx) :
    ∃ t : Fin cfg2.N, (cfg2.win 4).flush t = true ∧ i ∈ ((cfg2.win 4).blk t).view.set := by
  have hi0 : (i 0).val < 524288 := (i 0).isLt
  have hi1 : (i 1).val < 64 := (i 1).isLt
  have hN : cfg2.N = 128 := N_2
  have ht : (i 0).val / 4096 < cfg2.N := by rw [hN]; omega
  obtain ⟨-, -, -, -, -, -, -, e0, e1⟩ := idx_facts2 ⟨(i 0).val / 4096, ht⟩
  refine ⟨⟨(i 0).val / 4096, ht⟩, flush2_4 _, ?_⟩
  rw [mem_blk2]
  intro a
  match a with
  | ⟨0, _⟩ =>
    show win2_4.index ⟨(i 0).val / 4096, ht⟩ (0 : Fin 2) * 4096 ≤ (i 0).val ∧ (i 0).val < win2_4.index ⟨(i 0).val / 4096, ht⟩ (0 : Fin 2) * 4096 + 4096
    rw [e0]; show (i 0).val / 4096 * 4096 ≤ (i 0).val ∧ (i 0).val < (i 0).val / 4096 * 4096 + 4096; omega
  | ⟨1, _⟩ =>
    show win2_4.index ⟨(i 0).val / 4096, ht⟩ (1 : Fin 2) * 64 ≤ (i 1).val ∧ (i 1).val < win2_4.index ⟨(i 0).val / 4096, ht⟩ (1 : Fin 2) * 64 + 64
    rw [e1]; omega

/-- The output array after the region. -/
theorem final2 (c : Dev nD) : (dat2 V c).arrAt 4 cfg2.N = G2 V c :=
  (dat2 V c).arrAt_eq_of_cover 4 (G2 V c) (fun t _ => flushed2_eq V c t) cover2

/-- REGION 2: the output at node `n`, feature `j` is the epilogue's row `n` times the weights' column `j`, scaled by
    the node's factor. -/
theorem region2 (c : Dev nD) (n : Fin 524288) (j : Fin 64) :
    Spec.a2 ((dat2 (F := Ideal) V c).arrAt 4 cfg2.N) n j
      = Spec.linScale (Spec.col (V c main_v17)) (Spec.epi (Spec.col (V c main_v17)) (Spec.a2 (V c main_v41)) (Spec.a1 (V c main_arg8))) (Spec.a2 (V c main_arg9)) n j := by
  rw [final2]; rfl

end Cert.KernelIdeal.RegionVals

end
-- ==== Proof.RegionVals3.lean ====
/-
  The finalising kernel's output array, read at a node and a feature.

  The kernel walks the 524288 nodes in 128 blocks of 4096 rows. At block `t` it reads rows `4096 t … 4096 t + 4095` of
  the aggregated array and of the scale column and the whole bias, and writes back the same rows of its output: every
  row of the output is written by exactly the block `n / 4096`. Entry `(n, j)` of the output is therefore the
  epilogue — scale by the node's factor, add the bias, clamp below at the zero word — of entry `(n, j)` of the input.
-/
import proofs.«171162_j59115929862199_2_alg».proof.Proof.Gen.KernelIdeal.Frame
import proofs.«171162_j59115929862199_2_alg».proof.Proof.RegionValsLib

noncomputable section

open scoped BigOperators

namespace Cert.KernelIdeal.RegionVals

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The block index maps over the grid: the three row-blocked windows sit at block row `t`, the bias at its one block. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

/-- Block `t` of the aggregated array is its rows `4096 t + ·`. -/
theorem iblk3_0_apply (c : Dev nD) (t : Fin cfg3.N) (x : S4096x64.Idx) (n : Fin 524288) (j : Fin 64)
    (hn : n.val = t.val * 4096 + (x 0).val) (hj : j.val = (x 1).val) :
    (iblk3 V c 0 t : Vec Ideal S4096x64 .f32) x = Spec.a2 (V c main_v53) n j := by
  obtain ⟨e0, e1, -⟩ := idx_facts3 t
  unfold iblk3
  rw [View.read_apply]
  show V c main_v53 _ = V c main_v53 _
  refine congrArg (V c main_v53) (funext fun a => Fin.ext ?_)
  match a with
  | ⟨0, _⟩ => show win3_0.index t (0 : Fin 2) * 4096 + 1 * (x 0).val = n.val; rw [e0, hn]; omega
  | ⟨1, _⟩ => show win3_0.index t (1 : Fin 2) * 64 + 1 * (x 1).val = j.val; rw [e1, hj]; omega

/-- Block `t` of the scale column is its rows `4096 t + ·`. -/
theorem iblk3_1_apply (c : Dev nD) (t : Fin cfg3.N) (x : S4096x1.Idx) (n : Fin 524288)
    (hn : n.val = t.val * 4096 + (x 0).val) :
    (iblk3 V c 1 t : Vec Ideal S4096x1 .f32) x = Spec.col (V c main_v17) n := by
  obtain ⟨-, -, e0, e1, -⟩ := idx_facts3 t
  unfold iblk3
  rw [View.read_apply]
  show V c main_v17 _ = V c main_v17 _
  refine congrArg (V c main_v17) (funext fun a => Fin.ext ?_)
  match a with
  | ⟨0, _⟩ => show win3_1.index t (0 : Fin 2) * 4096 + 1 * (x 0).val = n.val; rw [e0, hn]; omega
  | ⟨1, _⟩ => show win3_1.index t (1 : Fin 2) * 1 + 1 * (x 1).val = 0; rw [e1]; have h1 : (x 1).val < 1 := (x 1).isLt; omega

/-- The bias window's one block is the whole bias. -/
theorem iblk3_2_apply (c : Dev nD) (t : Fin cfg3.N) (x : S64.Idx) (j : Fin 64) (hj : j.val = (x 0).val) :
    (iblk3 V c 2 t : Vec Ideal S64 .f32) x = Spec.a1 (V c main_arg10) j := by
  obtain ⟨-, -, -, -, e0, -⟩ := idx_facts3 t
  unfold iblk3
  rw [View.read_apply]
  show V c main_arg10 _ = V c main_arg10 _
  refine congrArg (V c main_arg10) (funext fun a => Fin.ext ?_)
  match a with
  | ⟨0, _⟩ => show win3_2.index t (0 : Fin 1) * 64 + 1 * (x 0).val = j.val; rw [e0, hj]; omega

/-- What the output array ends holding: the epilogue of the aggregated array, entry by entry. -/
def G3 (c : Dev nD) : S524288x64.Idx → EReal := fun i =>
  Spec.epi (Spec.col (V c main_v17)) (Spec.a2 (V c main_v53)) (Spec.a1 (V c main_arg10)) ⟨(i 0).val, idx2_lt0 i⟩ ⟨(i 1).val, idx2_lt1 i⟩

/-- What block `t` writes back is block `t` of that array. -/
theorem flushed3_eq (c : Dev nD) (t : Fin cfg3.N) :
    (dat3 V c).flushed 3 t = ((cfg3.win 3).blk t).view.read (Elt Ideal) (G3 V c) := by
  show (cfg3.win 3).cut (grid3.coords t) ((dat3 V c).after 3 t) = _
  rw [after3_3]
  unfold out3_3
  rw [View.canon_unit_zero hz2]
  simp only [View.ld_unit_zero (S := S4096x64) hz2, View.ld_unit_zero (S := S4096x1) hz2, View.ld_unit_zero (S := S64) hz1]
  obtain ⟨-, -, -, -, -, e0, e1⟩ := idx_facts3 t
  funext y
  obtain ⟨p, q, rfl⟩ : ∃ (p : Fin 4096) (q : Fin 64), y = ix2 p q := ⟨y 0, y 1, eq_ix2 y⟩
  show k3_pay1 (iblk3 V c 0 t) (iblk3 V c 1 t) (iblk3 V c 2 t) (ix2 p q) = G3 V c (((cfg3.win 3).blk t).view.emb (ix2 p q))
  refine (pay3_apply _ _ _ p q).trans ?_
  have hk0 : ((((cfg3.win 3).blk t).view.emb (ix2 p q)) 0).val = t.val * 4096 + p.val := by
    show win3_3.index t (0 : Fin 2) * 4096 + 1 * p.val = _; rw [e0]; omega
  have hk1 : ((((cfg3.win 3).blk t).view.emb (ix2 p q)) 1).val = q.val := by
    show win3_3.index t (1 : Fin 2) * 64 + 1 * q.val = _; rw [e1]; omega
  unfold G3 Spec.epi
  refine congrArg₂ max (congrArg₂ (· + ·) (congrArg₂ (· * ·) ?_ ?_) ?_) rfl
  · exact iblk3_0_apply V c t (ix2 p q) _ _ hk0 hk1
  · exact iblk3_1_apply V c t (ix2 p 0) _ hk0
  · exact iblk3_2_apply V c t (ix1 q) _ hk1

/-- An index of the output array lies in block `t` iff each coordinate lies in the block's range on its axis. -/
theorem mem_blk3 (t : Fin cfg3.N) (i : S524288x64.Idx) :
    i ∈ ((cfg3.win 3).blk t).view.set ↔ ∀ a : Fin 2, win3_3.index t a * S4096x64.size a ≤ (i a).val ∧ (i a).val < win3_3.index t a * S4096x64.size a + S4096x64.size a := by
  show i ∈ ((View.whole main_v54).slice (win3_3.rect t)).set ↔ _
  rw [View.set_slice_whole, Rect.mem_set_unit]
  exact Iff.rfl

/-- Every entry of the output array is written back: row `n` by block `n / 4096`. -/
theorem cover3 (i : S524288x64.Idx) :
    ∃ t : Fin cfg3.N, (cfg3.win 3).flush t = true ∧ i ∈ ((cfg3.win 3).blk t).view.set := by
  have hi0 : (i 0).val < 524288 := (i 0).isLt
  have hi1 : (i 1).val < 64 := (i 1).isLt
  have hN : cfg3.N = 128 := N_3
  have ht : (i 0).val / 4096 < cfg3.N := by rw [hN]; omega
  obtain ⟨-, -, -, -, -, e0, e1⟩ := idx_facts3 ⟨(i 0).val / 4096, ht⟩
  refine ⟨⟨(i 0).val / 4096, ht⟩, flush3_3 _, ?_⟩
  rw [mem_blk3]
  intro a
  match a with
  | ⟨0, _⟩ =>
    show win3_3.index ⟨(i 0).val / 4096, ht⟩ (0 : Fin 2) * 4096 ≤ (i 0).val ∧ (i 0).val < win3_3.index ⟨(i 0).val / 4096, ht⟩ (0 : Fin 2) * 4096 + 4096
    rw [e0]; show (i 0).val / 4096 * 4096 ≤ (i 0).val ∧ (i 0).val < (i 0).val / 4096 * 4096 + 4096; omega
  | ⟨1, _⟩ =>
    show win3_3.index ⟨(i 0).val / 4096, ht⟩ (1 : Fin 2) * 64 ≤ (i 1).val ∧ (i 1).val < win3_3.index ⟨(i 0).val / 4096, ht⟩ (1 : Fin 2) * 64 + 64
    rw [e1]; omega

/-- The output array after the region. -/
theorem final3 (c : Dev nD) : (dat3 V c).arrAt 3 cfg3.N = G3 V c :=
  (dat3 V c).arrAt_eq_of_cover 3 (G3 V c) (fun t _ => flushed3_eq V c t) cover3

/-- REGION 3: the output at node `n`, feature `j` is the epilogue of the aggregated array there. -/
theorem region3 (c : Dev nD) (n : Fin 524288) (j : Fin 64) :
    Spec.a2 ((dat3 (F := Ideal) V c).arrAt 3 cfg3.N) n j
      = Spec.epi (Spec.col (V c main_v17)) (Spec.a2 (V c main_v53)) (Spec.a1 (V c main_arg10)) n j := by
  rw [final3]; rfl

end Cert.KernelIdeal.RegionVals

end
-- ==== Proof.Region4ValLib.lean ====
/-
  Index-level readings of the layout operations, lane sums and matrix products that the dense head's body is made of,
  at the extended reals: a keep-dims column cast, a column broadcast over the lanes, a sum over the lane axis, and a
  plain rows-by-columns product into a zero accumulator as a sum over the contracted coordinate.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Region4Val

open Idealize.ShloMosaic Idealize.ShloMosaic.ValueIdx

variable {α : Type}

/-- An `[a]` array cast to the column `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `b` lanes reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lane axis of an `[a, b]` array into the zero word reads, at row `r`, the sum of the row. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src ?_
  funext ax
  apply Fin.ext
  match ax with
  | ⟨0, _⟩ => rfl
  | ⟨1, _⟩ => rfl

/-- The same sum kept as a column `[a, 1]`. -/
theorem laneSumCol_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (hc : (⟨1, ![a]⟩ : Shape).ShapeCasts ⟨2, ![a, 1]⟩)
    (r : Fin a) (u : Fin 1) :
    shapeCast ⟨2, ![a, 1]⟩ (multiReduction .add [1] ⟨1, ![a]⟩ src 0x00000000#32 h hφ hacc) hc (ix2 r u)
      = ∑ k : Fin b, src (ix2 r k) :=
  (shapeCast_a_a1_apply _ hc r u).trans (laneSum_apply src h hφ hacc r)

/-- A rows-by-columns product `[m, k] · [k, n]` into the zero accumulator reads, at `(r, c)`, the sum over the
    contracted coordinate of the products of row `r` of the left operand with column `c` of the right one. -/
theorem matmul_plain_apply {m k n : ℕ} {φ₁ φ₂ : FTy} (D : DotDims ⟨2, ![m, k]⟩ ⟨2, ![k, n]⟩ ⟨2, ![m, n]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (lhs : FVec Ideal ⟨2, ![m, k]⟩ φ₁) (rhs : FVec Ideal ⟨2, ![k, n]⟩ φ₂)
    (r : Fin m) (c : Fin n) :
    FloatOps.matmul D prec lhs rhs (constant (F := Ideal) ⟨2, ![m, n]⟩ .f32 0x00000000#32) (ix2 r c)
      = ∑ q : Fin k, lhs (ix2 r q) * rhs (ix2 q c) := by
  obtain ⟨lc, rc, ln, rn, lb, rb, wf⟩ := D
  dsimp only at hlc hrc hln hrn hlb hrb
  subst hlc hrc hln hrn hlb hrb
  rw [Ideal.matmul_constant_zero_apply, ← Equiv.sum_comp (contrEquiv1 _ k rfl rfl).symm]
  refine Finset.sum_congr rfl fun q _ => ?_
  have hq := contrEquiv1_symm_val (⟨[1], [0], [0], [1], [], [], wf⟩ : DotDims ⟨2, ![m, k]⟩ ⟨2, ![k, n]⟩ ⟨2, ![m, n]⟩) k rfl rfl q
  have el : DotDims.lhsIdx (⟨[1], [0], [0], [1], [], [], wf⟩ : DotDims ⟨2, ![m, k]⟩ ⟨2, ![k, n]⟩ ⟨2, ![m, n]⟩) (ix2 r c)
      ((contrEquiv1 _ k rfl rfl).symm q) = ix2 r q := funext fun a => Fin.ext (by
    match a with
    | ⟨0, h0⟩ =>
      unfold DotDims.lhsIdx
      rw [dif_neg (fun hmem => absurd hmem List.not_mem_nil),
        dif_pos (show (⟨0, h0⟩ : Fin (⟨2, ![m, k]⟩ : Shape).rank) ∈ ([0] : List (Fin (⟨2, ![m, k]⟩ : Shape).rank)) from
          List.mem_singleton.mpr rfl)]
      rfl
    | ⟨1, _⟩ => exact (DotDims.lhsIdx_val_of_single _ rfl _ _).trans hq)
  have er : DotDims.rhsIdx (⟨[1], [0], [0], [1], [], [], wf⟩ : DotDims ⟨2, ![m, k]⟩ ⟨2, ![k, n]⟩ ⟨2, ![m, n]⟩) (ix2 r c)
      ((contrEquiv1 _ k rfl rfl).symm q) = ix2 q c := funext fun a => Fin.ext (by
    match a with
    | ⟨0, _⟩ => exact (DotDims.rhsIdx_val_of_single _ rfl _ _).trans hq
    | ⟨1, h1⟩ =>
      unfold DotDims.rhsIdx
      rw [dif_neg (fun hmem => absurd hmem List.not_mem_nil),
        dif_pos (show (⟨1, h1⟩ : Fin (⟨2, ![k, n]⟩ : Shape).rank) ∈ ([1] : List (Fin (⟨2, ![k, n]⟩ : Shape).rank)) from
          List.mem_singleton.mpr rfl)]
      rfl)
  rw [el, er]

end Cert.KernelIdeal.Region4Val

end
-- ==== Proof.Region4ValRow.lean ====
/-
  The dense head one row at a time. Every entry of the head's output depends on one row of the pooled features, of the
  protein features and of the fingerprint only: row `g` of each matrix product reads row `g` of its left operand, and the
  mean, the variance and the normalising factor are sums along that row. So the head is a function of three row vectors
  (and the shared weights), and the specification at graph `g` is that function of row `g` of its three inputs.
-/
import proofs.«171162_j59115929862199_2_alg».proof.Proof.Spec

noncomputable section

open scoped BigOperators

namespace Cert.KernelIdeal.Region4Val

open Idealize.ShloMosaic Cert.Spec

/-- One row through the drug branch: the row times the weight, plus the bias, clamped below at the zero word. -/
def rDrug (p : Fin 64 → EReal) (Wd : Fin 64 → Fin 128 → EReal) (bd : Fin 128 → EReal) (c : Fin 128) : EReal :=
  max ((∑ k : Fin 64, p k * Wd k c) + bd c) z0

/-- One row through the protein branch. -/
def rProt (q : Fin 979 → EReal) (Wp : Fin 979 → Fin 128 → EReal) (bp : Fin 128 → EReal) (c : Fin 128) : EReal :=
  max ((∑ k : Fin 979, q k * Wp k c) + bp c) z0

/-- The mean of the three row pieces: the three sums added left to right, over the total width. -/
def rMu (d pr : Fin 128 → EReal) (f : Fin 881 → EReal) : EReal :=
  Ideal.div ((∑ c : Fin 128, d c) + (∑ c : Fin 128, pr c) + (∑ c : Fin 881, f c)) c1137

/-- The variance about `mu`: the three sums of squared deviations added left to right, over the total width. -/
def rVar (d pr : Fin 128 → EReal) (f : Fin 881 → EReal) (mu : EReal) : EReal :=
  Ideal.div ((∑ c : Fin 128, (d c - mu) * (d c - mu)) + (∑ c : Fin 128, (pr c - mu) * (pr c - mu))
    + (∑ c : Fin 881, (f c - mu) * (f c - mu))) c1137

/-- The normalising factor. -/
def rInv (v : EReal) : EReal := Ideal.rsqrt (v + eps)

/-- The first dense layer on the normalised row, over the three weight pieces. -/
def rH1 (d pr : Fin 128 → EReal) (f : Fin 881 → EReal) (mu inv : EReal) (Fd Fp : Fin 128 → Fin 512 → EReal)
    (Ff : Fin 881 → Fin 512 → EReal) (b1 : Fin 512 → EReal) (c : Fin 512) : EReal :=
  max (((∑ k : Fin 128, (d k - mu) * inv * Fd k c) + (∑ k : Fin 128, (pr k - mu) * inv * Fp k c)
      + (∑ k : Fin 881, (f k - mu) * inv * Ff k c)) + b1 c) z0

/-- The two remaining dense layers on a row. -/
def rTail (h1 : Fin 512 → EReal) (W2 : Fin 512 → Fin 256 → EReal) (b2 : Fin 256 → EReal) (W3 : Fin 256 → Fin 1 → EReal)
    (b3 : Fin 1 → EReal) : EReal :=
  (∑ c : Fin 256, max ((∑ k : Fin 512, h1 k * W2 k c) + b2 c) z0 * W3 c 0) + b3 0

/-- The whole head on one row of each input. -/
def rHead (p : Fin 64 → EReal) (q : Fin 979 → EReal) (f : Fin 881 → EReal)
    (Wd : Fin 64 → Fin 128 → EReal) (bd : Fin 128 → EReal) (Wp : Fin 979 → Fin 128 → EReal) (bp : Fin 128 → EReal)
    (b1 : Fin 512 → EReal) (W2 : Fin 512 → Fin 256 → EReal) (b2 : Fin 256 → EReal) (W3 : Fin 256 → Fin 1 → EReal)
    (b3 : Fin 1 → EReal) (Fd Fp : Fin 128 → Fin 512 → EReal) (Ff : Fin 881 → Fin 512 → EReal) : EReal :=
  rTail (rH1 (rDrug p Wd bd) (rProt q Wp bp) f (rMu (rDrug p Wd bd) (rProt q Wp bp) f)
      (rInv (rVar (rDrug p Wd bd) (rProt q Wp bp) f (rMu (rDrug p Wd bd) (rProt q Wp bp) f))) Fd Fp Ff b1) W2 b2 W3 b3

/-- The specification's head at graph `g` is the row function of row `g` of its three inputs. -/
theorem headK_eq_rHead (P : Fin BB → Fin 64 → EReal) (px : Fin BB → Fin 979 → EReal) (fp : Fin BB → Fin 881 → EReal)
    (Wd : Fin 64 → Fin 128 → EReal) (bd : Fin 128 → EReal) (Wp : Fin 979 → Fin 128 → EReal) (bp : Fin 128 → EReal)
    (b1 : Fin 512 → EReal) (W2 : Fin 512 → Fin 256 → EReal) (b2 : Fin 256 → EReal) (W3 : Fin 256 → Fin 1 → EReal)
    (b3 : Fin 1 → EReal) (Fd Fp : Fin 128 → Fin 512 → EReal) (Ff : Fin 881 → Fin 512 → EReal) (g : Fin BB) :
    headK P px fp Wd bd Wp bp b1 W2 b2 W3 b3 Fd Fp Ff g
      = rHead (P g) (px g) (fp g) Wd bd Wp bp b1 W2 b2 W3 b3 Fd Fp Ff := rfl

end Cert.KernelIdeal.Region4Val

end
-- ==== Proof.Region4ValPayA.lean ====
/-
  The first half of the dense head's body on one block of 512 rows, entry by entry: the two input branches (a row of
  the block times the branch's weight, plus the bias, clamped below at zero), the mean of the three row pieces (three lane
  sums added left to right, over the total width), and the three pieces with the mean taken off.
-/
import proofs.«171162_j59115929862199_2_alg».proof.Proof.Gen.KernelIdeal.Skeleton
import proofs.«171162_j59115929862199_2_alg».proof.Proof.Region4ValLib
import proofs.«171162_j59115929862199_2_alg».proof.Proof.Region4ValRow

noncomputable section

open scoped BigOperators

namespace Cert.KernelIdeal.Region4Val

open Idealize.ShloMosaic Idealize.ShloMosaic.ValueIdx Cert.KernelIdeal Cert.KernelIdeal.Gen

/-- The drug branch of a block at `(r, c)`: row `r` of the pooled block through the branch. -/
theorem pay2_apply (x0 : Vec Ideal S512x64 .f32) (x3 : Vec Ideal S64x128 .f32) (x4 : Vec Ideal S128 .f32)
    (r : Fin 512) (c : Fin 128) :
    k4_pay2 (F := Ideal) x0 x3 x4 (ix2 r c) = rDrug (fun k => x0 (ix2 r k)) (Spec.a2 x3) (Spec.a1 x4) c := by
  unfold k4_pay2 rDrug
  simp only [shapeCast_self]
  rw [maximumf_apply, addf_apply, broadcast_apply]
  refine congrArg₂ max (congrArg₂ (· + ·) ?_ ?_) rfl
  · exact matmul_plain_apply dot_S512x64_S64x128_S512x128_1_0_0_1_n_n rfl rfl rfl rfl rfl rfl none _ _ r c
  · exact (broadcastTo_1b_ab_apply _ _ r c).trans (shapeCast_a_1a_apply x4 _ 0 c)

/-- The protein branch of a block at `(r, c)`. -/
theorem pay3_apply (x1 : Vec Ideal S512x979 .f32) (x5 : Vec Ideal S979x128 .f32) (x6 : Vec Ideal S128 .f32)
    (r : Fin 512) (c : Fin 128) :
    k4_pay3 (F := Ideal) x1 x5 x6 (ix2 r c) = rProt (fun k => x1 (ix2 r k)) (Spec.a2 x5) (Spec.a1 x6) c := by
  unfold k4_pay3 rProt
  simp only []
  rw [maximumf_apply, addf_apply, broadcast_apply]
  refine congrArg₂ max (congrArg₂ (· + ·) ?_ ?_) rfl
  · exact matmul_plain_apply dot_S512x979_S979x128_S512x128_1_0_0_1_n_n rfl rfl rfl rfl rfl rfl none _ _ r c
  · exact (broadcastTo_1b_ab_apply _ _ r c).trans (shapeCast_a_1a_apply x6 _ 0 c)

/-- The mean column of a block at row `r`: the mean of row `r` of the two branches and of the fingerprint block. -/
theorem pay4_apply (x0 : Vec Ideal S512x64 .f32) (x1 : Vec Ideal S512x979 .f32) (x2 : Vec Ideal S512x881 .f32)
    (x3 : Vec Ideal S64x128 .f32) (x4 : Vec Ideal S128 .f32) (x5 : Vec Ideal S979x128 .f32) (x6 : Vec Ideal S128 .f32)
    (r : Fin 512) (u : Fin 1) :
    k4_pay4 (F := Ideal) x0 x1 x2 x3 x4 x5 x6 (ix2 r u)
      = rMu (fun c => k4_pay2 (F := Ideal) x0 x3 x4 (ix2 r c)) (fun c => k4_pay3 (F := Ideal) x1 x5 x6 (ix2 r c))
          (fun c => x2 (ix2 r c)) := by
  unfold k4_pay4 rMu
  simp only []
  rw [divf_apply, addf_apply, addf_apply, broadcast_apply]
  refine congrArg₂ Ideal.div (congrArg₂ (· + ·) (congrArg₂ (· + ·) ?_ ?_) ?_) rfl
  · exact laneSumCol_apply _ _ _ _ _ r u
  · exact laneSumCol_apply _ _ _ _ _ r u
  · exact laneSumCol_apply _ _ _ _ _ r u

/-- The drug piece with the mean taken off. -/
theorem pay5_apply (x0 : Vec Ideal S512x64 .f32) (x1 : Vec Ideal S512x979 .f32) (x2 : Vec Ideal S512x881 .f32)
    (x3 : Vec Ideal S64x128 .f32) (x4 : Vec Ideal S128 .f32) (x5 : Vec Ideal S979x128 .f32) (x6 : Vec Ideal S128 .f32)
    (r : Fin 512) (c : Fin 128) :
    k4_pay5 (F := Ideal) x0 x1 x2 x3 x4 x5 x6 (ix2 r c)
      = k4_pay2 (F := Ideal) x0 x3 x4 (ix2 r c) - k4_pay4 (F := Ideal) x0 x1 x2 x3 x4 x5 x6 (ix2 r (0 : Fin 1)) := by
  unfold k4_pay5
  rw [subf_apply]
  exact congrArg (k4_pay2 (F := Ideal) x0 x3 x4 (ix2 r c) - ·) (broadcastTo_a1_ab_apply _ _ r c)

/-- The protein piece with the mean taken off. -/
theorem pay6_apply (x0 : Vec Ideal S512x64 .f32) (x1 : Vec Ideal S512x979 .f32) (x2 : Vec Ideal S512x881 .f32)
    (x3 : Vec Ideal S64x128 .f32) (x4 : Vec Ideal S128 .f32) (x5 : Vec Ideal S979x128 .f32) (x6 : Vec Ideal S128 .f32)
    (r : Fin 512) (c : Fin 128) :
    k4_pay6 (F := Ideal) x0 x1 x2 x3 x4 x5 x6 (ix2 r c)
      = k4_pay3 (F := Ideal) x1 x5 x6 (ix2 r c) - k4_pay4 (F := Ideal) x0 x1 x2 x3 x4 x5 x6 (ix2 r (0 : Fin 1)) := by
  unfold k4_pay6
  rw [subf_apply]
  exact congrArg (k4_pay3 (F := Ideal) x1 x5 x6 (ix2 r c) - ·) (broadcastTo_a1_ab_apply _ _ r c)

/-- The mean spread over the fingerprint's lanes. -/
theorem pay7_apply (x0 : Vec Ideal S512x64 .f32) (x1 : Vec Ideal S512x979 .f32) (x2 : Vec Ideal S512x881 .f32)
    (x3 : Vec Ideal S64x128 .f32) (x4 : Vec Ideal S128 .f32) (x5 : Vec Ideal S979x128 .f32) (x6 : Vec Ideal S128 .f32)
    (r : Fin 512) (c : Fin 881) :
    k4_pay7 (F := Ideal) x0 x1 x2 x3 x4 x5 x6 (ix2 r c)
      = k4_pay4 (F := Ideal) x0 x1 x2 x3 x4 x5 x6 (ix2 r (0 : Fin 1)) := by
  unfold k4_pay7
  exact broadcastTo_a1_ab_apply _ _ r c

end Cert.KernelIdeal.Region4Val

end
-- ==== Proof.Region4ValPayB.lean ====
/-
  The second half of the dense head's body on one block of 512 rows, entry by entry: the normalising factor of a row
  (the three lane sums of squared deviations added left to right, over the total width, plus the small constant, under
  the reciprocal square root), the first dense layer over the three weight pieces on the normalised pieces, and the two
  remaining dense layers.
-/
import proofs.«171162_j59115929862199_2_alg».proof.Proof.Gen.KernelIdeal.Skeleton
import proofs.«171162_j59115929862199_2_alg».proof.Proof.Region4ValLib
import proofs.«171162_j59115929862199_2_alg».proof.Proof.Region4ValRow

noncomputable section

open scoped BigOperators

namespace Cert.KernelIdeal.Region4Val

open Idealize.ShloMosaic Idealize.ShloMosaic.ValueIdx Cert.KernelIdeal Cert.KernelIdeal.Gen

/-- The normalising factor's column at row `r`, from the three centred pieces `A`, `B`, `C`. -/
theorem inv_apply (A B : FVec Ideal S512x128 .f32) (C : FVec Ideal S512x881 .f32) (r : Fin 512) (u : Fin 1) :
    rsqrt (addf (divf (addf (addf
        (shapeCast S512x1 (multiReduction .add [1] S512 (mulf A A) 0x00000000#32 Facts₀.reduces_S512x128_S512 (.inl rfl) rfl) Facts₀.shapeCasts_S512_S512x1)
        (shapeCast S512x1 (multiReduction .add [1] S512 (mulf B B) 0x00000000#32 Facts₀.reduces_S512x128_S512 (.inl rfl) rfl) Facts₀.shapeCasts_S512_S512x1))
        (shapeCast S512x1 (multiReduction .add [1] S512 (mulf C C) 0x00000000#32 Facts₀.reduces_S512x881_S512 (.inl rfl) rfl) Facts₀.shapeCasts_S512_S512x1))
        (broadcast S512x1 (Scalar.ofBits (F := Ideal) .f32 0x448E2000#32)))
        (broadcast S512x1 (Scalar.ofBits (F := Ideal) .f32 0x3727C5AC#32))) (ix2 r u)
      = rInv (Ideal.div ((∑ k : Fin 128, A (ix2 r k) * A (ix2 r k)) + (∑ k : Fin 128, B (ix2 r k) * B (ix2 r k))
          + (∑ k : Fin 881, C (ix2 r k) * C (ix2 r k))) Spec.c1137) := by
  unfold rInv
  show Ideal.rsqrt (Ideal.div (_ + _ + _) _ + _) = _
  refine congrArg Ideal.rsqrt (congrArg₂ (· + ·) (congrArg₂ Ideal.div (congrArg₂ (· + ·) (congrArg₂ (· + ·) ?_ ?_) ?_) rfl) rfl)
  · exact laneSumCol_apply _ _ _ _ _ r u
  · exact laneSumCol_apply _ _ _ _ _ r u
  · exact laneSumCol_apply _ _ _ _ _ r u

/-- The first dense layer before its clamp, at `(r, c)`: the three products of the normalised pieces of row `r` with
    the three weight pieces, added left to right, plus the bias. -/
theorem pay8_apply (v3 : Vec Ideal S512x881 .f32) (v35 v37 : FVec Ideal S512x128 .f32) (v38 : FVec Ideal S512x881 .f32)
    (v63 v68 : Vec Ideal S128x512 .f32) (v74 : Vec Ideal S881x512 .f32) (v79 : Vec Ideal S512 .f32)
    (r : Fin 512) (c : Fin 512) :
    k4_pay8 (F := Ideal) v3 v35 v37 v38 v63 v68 v74 v79 (ix2 r c)
      = ((∑ k : Fin 128, v35 (ix2 r k)
              * rInv (Ideal.div ((∑ k : Fin 128, v35 (ix2 r k) * v35 (ix2 r k)) + (∑ k : Fin 128, v37 (ix2 r k) * v37 (ix2 r k))
                  + (∑ k : Fin 881, (v3 (ix2 r k) - v38 (ix2 r k)) * (v3 (ix2 r k) - v38 (ix2 r k)))) Spec.c1137)
              * Spec.a2 v63 k c)
          + (∑ k : Fin 128, v37 (ix2 r k)
              * rInv (Ideal.div ((∑ k : Fin 128, v35 (ix2 r k) * v35 (ix2 r k)) + (∑ k : Fin 128, v37 (ix2 r k) * v37 (ix2 r k))
                  + (∑ k : Fin 881, (v3 (ix2 r k) - v38 (ix2 r k)) * (v3 (ix2 r k) - v38 (ix2 r k)))) Spec.c1137)
              * Spec.a2 v68 k c)
          + (∑ k : Fin 881, (v3 (ix2 r k) - v38 (ix2 r k))
              * rInv (Ideal.div ((∑ k : Fin 128, v35 (ix2 r k) * v35 (ix2 r k)) + (∑ k : Fin 128, v37 (ix2 r k) * v37 (ix2 r k))
                  + (∑ k : Fin 881, (v3 (ix2 r k) - v38 (ix2 r k)) * (v3 (ix2 r k) - v38 (ix2 r k)))) Spec.c1137)
              * Spec.a2 v74 k c))
        + Spec.a1 v79 c := by
  unfold k4_pay8
  simp only [shapeCast_self]
  rw [addf_apply, addf_apply, addf_apply]
  refine congrArg₂ (· + ·) (congrArg₂ (· + ·) (congrArg₂ (· + ·) ?_ ?_) ?_) ?_
  · refine (matmul_plain_apply dot_S512x128_S128x512_S512x512_1_0_0_1_n_n rfl rfl rfl rfl rfl rfl none _ _ r c).trans ?_
    refine Finset.sum_congr rfl fun q _ => congrArg (· * Spec.a2 v63 q c) ?_
    exact congrArg (v35 (ix2 r q) * ·) ((broadcastTo_a1_ab_apply _ _ r q).trans (inv_apply v35 v37 (subf v3 v38) r 0))
  · refine (matmul_plain_apply dot_S512x128_S128x512_S512x512_1_0_0_1_n_n rfl rfl rfl rfl rfl rfl none _ _ r c).trans ?_
    refine Finset.sum_congr rfl fun q _ => congrArg (· * Spec.a2 v68 q c) ?_
    exact congrArg (v37 (ix2 r q) * ·) ((broadcastTo_a1_ab_apply _ _ r q).trans (inv_apply v35 v37 (subf v3 v38) r 0))
  · refine (matmul_plain_apply dot_S512x881_S881x512_S512x512_1_0_0_1_n_n rfl rfl rfl rfl rfl rfl none _ _ r c).trans ?_
    refine Finset.sum_congr rfl fun q _ => congrArg (· * Spec.a2 v74 q c) ?_
    exact congrArg ((v3 (ix2 r q) - v38 (ix2 r q)) * ·) ((broadcastTo_a1_ab_apply _ _ r q).trans (inv_apply v35 v37 (subf v3 v38) r 0))
  · exact (broadcastTo_1b_ab_apply _ _ r c).trans (shapeCast_a_1a_apply v79 _ 0 c)

/-- The head's output column at row `r`: the two remaining dense layers on the clamped first layer's row. -/
theorem pay1_apply (v82 : FVec Ideal S512x512 .f32) (z : Ideal .f32) (v86 : Vec Ideal S512x256 .f32)
    (v89 : Vec Ideal S256 .f32) (v96 : Vec Ideal S256x1 .f32) (v99 : Vec Ideal S1 .f32) (r : Fin 512) :
    k4_pay1 (F := Ideal) v82 z v86 v89 v96 v99 (ix2 r (0 : Fin 1))
      = (∑ c : Fin 256, max ((∑ k : Fin 512, max (v82 (ix2 r k)) z * Spec.a2 v86 k c) + Spec.a1 v89 c) Spec.z0
            * Spec.a2 v96 c 0) + Spec.a1 v99 0 := by
  unfold k4_pay1
  rw [addf_apply]
  refine congrArg₂ (· + ·) ?_ ?_
  · refine (matmul_plain_apply dot_S512x256_S256x1_S512x1_1_0_0_1_n_n rfl rfl rfl rfl rfl rfl none _ _ r 0).trans ?_
    refine Finset.sum_congr rfl fun q _ => congrArg (· * Spec.a2 v96 q 0) ?_
    show max (_ + _) _ = _
    refine congrArg₂ max (congrArg₂ (· + ·) ?_ ?_) rfl
    · exact matmul_plain_apply dot_S512x512_S512x256_S512x256_1_0_0_1_n_n rfl rfl rfl rfl rfl rfl none _ _ r q
    · exact (broadcastTo_1b_ab_apply _ _ r q).trans (shapeCast_a_1a_apply v89 _ 0 q)
  · exact (broadcastTo_1b_ab_apply _ _ r 0).trans (shapeCast_a_1a_apply v99 _ 0 0)

end Cert.KernelIdeal.Region4Val

end
-- ==== Proof.Region4ValBlock.lean ====
/-
  What the dense head's body leaves in its output block, entry by entry: row `r` of the block is the head's row
  function of row `r` of the three input blocks and of the weights. The stages of the body are chained here: the two
  branches give the row pieces, the mean and the normalising factor are read off them, and the dense layers follow.
-/
import proofs.«171162_j59115929862199_2_alg».proof.Proof.Gen.KernelIdeal.Frame
import proofs.«171162_j59115929862199_2_alg».proof.Proof.Region4ValPayA
import proofs.«171162_j59115929862199_2_alg».proof.Proof.Region4ValPayB

noncomputable section

open scoped BigOperators

namespace Cert.KernelIdeal.Region4Val

open Idealize.ShloMosaic Idealize.ShloMosaic.ValueIdx Cert.KernelIdeal Cert.KernelIdeal.Gen

theorem hz2 : (![0, 0] : Fin 2 → Nat) = fun _ => 0 := funext fun a => by fin_cases a <;> rfl
theorem hz1 : (![0] : Fin 1 → Nat) = fun _ => 0 := funext fun a => by fin_cases a <;> rfl

/-- Row `r` of the output block is the head of row `r` of the input blocks. -/
theorem out4_15_apply (x0 : Vec Ideal S512x64 .f32) (x1 : Vec Ideal S512x979 .f32) (x2 : Vec Ideal S512x881 .f32)
    (x3 : Vec Ideal S64x128 .f32) (x4 : Vec Ideal S128 .f32) (x5 : Vec Ideal S979x128 .f32) (x6 : Vec Ideal S128 .f32)
    (x7 x8 : Vec Ideal S128x512 .f32) (x9 : Vec Ideal S881x512 .f32) (x10 : Vec Ideal S512 .f32)
    (x11 : Vec Ideal S512x256 .f32) (x12 : Vec Ideal S256 .f32) (x13 : Vec Ideal S256x1 .f32) (x14 : Vec Ideal S1 .f32)
    (r : Fin 512) :
    out4_15 (F := Ideal) x0 x1 x2 x3 x4 x5 x6 x7 x8 x9 x10 x11 x12 x13 x14 (ix2 r (0 : Fin 1))
      = rHead (fun k => x0 (ix2 r k)) (fun k => x1 (ix2 r k)) (fun k => x2 (ix2 r k)) (Spec.a2 x3) (Spec.a1 x4)
          (Spec.a2 x5) (Spec.a1 x6) (Spec.a1 x10) (Spec.a2 x11) (Spec.a1 x12) (Spec.a2 x13) (Spec.a1 x14)
          (Spec.a2 x7) (Spec.a2 x8) (Spec.a2 x9) := by
  unfold out4_15
  rw [View.canon_unit_zero hz2]
  simp only [View.ld_unit_zero (S := S512x64) hz2, View.ld_unit_zero (S := S512x979) hz2,
    View.ld_unit_zero (S := S512x881) hz2, View.ld_unit_zero (S := S64x128) hz2, View.ld_unit_zero (S := S128) hz1,
    View.ld_unit_zero (S := S979x128) hz2, View.ld_unit_zero (S := S128x512) hz2, View.ld_unit_zero (S := S881x512) hz2,
    View.ld_unit_zero (S := S512) hz1, View.ld_unit_zero (S := S512x256) hz2, View.ld_unit_zero (S := S256) hz1,
    View.ld_unit_zero (S := S256x1) hz2, View.ld_unit_zero (S := S1) hz1]
  have hd : (fun c => k4_pay2 (F := Ideal) x0 x3 x4 (ix2 r c)) = rDrug (fun k => x0 (ix2 r k)) (Spec.a2 x3) (Spec.a1 x4) :=
    funext fun c => pay2_apply x0 x3 x4 r c
  have hp : (fun c => k4_pay3 (F := Ideal) x1 x5 x6 (ix2 r c)) = rProt (fun k => x1 (ix2 r k)) (Spec.a2 x5) (Spec.a1 x6) :=
    funext fun c => pay3_apply x1 x5 x6 r c
  have hmu : k4_pay4 (F := Ideal) x0 x1 x2 x3 x4 x5 x6 (ix2 r (0 : Fin 1))
      = rMu (rDrug (fun k => x0 (ix2 r k)) (Spec.a2 x3) (Spec.a1 x4)) (rProt (fun k => x1 (ix2 r k)) (Spec.a2 x5) (Spec.a1 x6))
          (fun k => x2 (ix2 r k)) := by
    rw [pay4_apply, hd, hp]
  have h5 : ∀ k : Fin 128, k4_pay5 (F := Ideal) x0 x1 x2 x3 x4 x5 x6 (ix2 r k)
      = rDrug (fun k => x0 (ix2 r k)) (Spec.a2 x3) (Spec.a1 x4) k
        - rMu (rDrug (fun k => x0 (ix2 r k)) (Spec.a2 x3) (Spec.a1 x4)) (rProt (fun k => x1 (ix2 r k)) (Spec.a2 x5) (Spec.a1 x6))
            (fun k => x2 (ix2 r k)) := fun k => by
    rw [pay5_apply, pay2_apply, hmu]
  have h6 : ∀ k : Fin 128, k4_pay6 (F := Ideal) x0 x1 x2 x3 x4 x5 x6 (ix2 r k)
      = rProt (fun k => x1 (ix2 r k)) (Spec.a2 x5) (Spec.a1 x6) k
        - rMu (rDrug (fun k => x0 (ix2 r k)) (Spec.a2 x3) (Spec.a1 x4)) (rProt (fun k => x1 (ix2 r k)) (Spec.a2 x5) (Spec.a1 x6))
            (fun k => x2 (ix2 r k)) := fun k => by
    rw [pay6_apply, pay3_apply, hmu]
  have h7 : ∀ k : Fin 881, k4_pay7 (F := Ideal) x0 x1 x2 x3 x4 x5 x6 (ix2 r k)
      = rMu (rDrug (fun k => x0 (ix2 r k)) (Spec.a2 x3) (Spec.a1 x4)) (rProt (fun k => x1 (ix2 r k)) (Spec.a2 x5) (Spec.a1 x6))
          (fun k => x2 (ix2 r k)) := fun k => by
    rw [pay7_apply, hmu]
  refine (pay1_apply _ _ x11 x12 x13 x14 r).trans ?_
  unfold rHead rTail
  refine congrArg₂ (· + ·) (Finset.sum_congr rfl fun c _ => congrArg (· * Spec.a2 x13 c 0)
    (congrArg₂ max (congrArg₂ (· + ·) (Finset.sum_congr rfl fun k _ => congrArg (· * Spec.a2 x11 k c) ?_) rfl) rfl)) rfl
  rw [pay8_apply]
  simp only [h5, h6, h7]
  rfl

end Cert.KernelIdeal.Region4Val

end
-- ==== Proof.Region4ValArr.lean ====
/-
  From blocks to the array. The dense head runs on 32 grid points; point `t` reads rows `512 t … 512 t + 511` of the
  pooled features, of the protein features and of the fingerprint, reads every weight whole, and writes rows
  `512 t … 512 t + 511` of the output column. Each written row is the head's row function of the same row of the three
  inputs, so the output array, once every point has written back, holds at graph `g` the specification's head at `g`.
-/
import proofs.«171162_j59115929862199_2_alg».proof.Proof.Region4ValBlock
import Idealize.ShloMosaic.Lib.Pipeline.Value

set_option maxRecDepth 16384

noncomputable section

open scoped BigOperators

namespace Cert.KernelIdeal.Region4Val

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The index maps, decided over the grid -/

/-- The row-blocked windows (the three inputs and the output) sit at block `t` of the rows and block `0` of the lanes. -/
theorem idx_rows : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_15.index t (0 : Fin 2) = t.val ∧ win4_15.index t (1 : Fin 2) = 0 :=
  (by decide +kernel : ∀ t : Fin grid4.N, _)

/-- The weights' windows sit at block `0` at every point. -/
theorem idx_whole : ∀ t : Fin cfg4.N,
    win4_3.index t (0 : Fin 2) = 0 ∧ win4_3.index t (1 : Fin 2) = 0
    ∧ win4_4.index t (0 : Fin 1) = 0
    ∧ win4_5.index t (0 : Fin 2) = 0 ∧ win4_5.index t (1 : Fin 2) = 0
    ∧ win4_6.index t (0 : Fin 1) = 0
    ∧ win4_7.index t (0 : Fin 2) = 0 ∧ win4_7.index t (1 : Fin 2) = 0
    ∧ win4_8.index t (0 : Fin 2) = 0 ∧ win4_8.index t (1 : Fin 2) = 0
    ∧ win4_9.index t (0 : Fin 2) = 0 ∧ win4_9.index t (1 : Fin 2) = 0
    ∧ win4_10.index t (0 : Fin 1) = 0
    ∧ win4_11.index t (0 : Fin 2) = 0 ∧ win4_11.index t (1 : Fin 2) = 0
    ∧ win4_12.index t (0 : Fin 1) = 0
    ∧ win4_13.index t (0 : Fin 2) = 0 ∧ win4_13.index t (1 : Fin 2) = 0
    ∧ win4_14.index t (0 : Fin 1) = 0 :=
  (by decide +kernel : ∀ t : Fin grid4.N, _)

/-! ## Each window's block, read off its array -/

/-- Window 0's block at point `t` is rows `512 t …` of its array. -/
theorem iblk0_apply (c : Dev nD) (t : Fin cfg4.N) (r : Fin 512) (k : Fin 64) (g : Fin 16384)
    (hg : g.val = t.val * 512 + r.val) :
    (iblk4 (F := Ideal) V c 0 t : Vec Ideal S512x64 .f32) (ix2 r k) = (V c main_v66 : S16384x64.Idx → EReal) (ix2 g k) := by
  obtain ⟨e0, e1, -⟩ := idx_rows t
  unfold iblk4
  rw [View.read_apply]
  show V c main_v66 _ = V c main_v66 _
  refine congrArg _ (funext fun a => Fin.ext ?_)
  match a with
  | ⟨0, _⟩ => show win4_0.index t (0 : Fin 2) * 512 + 1 * r.val = g.val; omega
  | ⟨1, _⟩ => show win4_0.index t (1 : Fin 2) * 64 + 1 * k.val = k.val; omega

/-- Window 1's block at point `t` is rows `512 t …` of its array. -/
theorem iblk1_apply (c : Dev nD) (t : Fin cfg4.N) (r : Fin 512) (k : Fin 979) (g : Fin 16384)
    (hg : g.val = t.val * 512 + r.val) :
    (iblk4 (F := Ideal) V c 1 t : Vec Ideal S512x979 .f32) (ix2 r k) = (V c main_arg3 : S16384x979.Idx → EReal) (ix2 g k) := by
  obtain ⟨-, -, e0, e1, -⟩ := idx_rows t
  unfold iblk4
  rw [View.read_apply]
  show V c main_arg3 _ = V c main_arg3 _
  refine congrArg _ (funext fun a => Fin.ext ?_)
  match a with
  | ⟨0, _⟩ => show win4_1.index t (0 : Fin 2) * 512 + 1 * r.val = g.val; omega
  | ⟨1, _⟩ => show win4_1.index t (1 : Fin 2) * 979 + 1 * k.val = k.val; omega

/-- Window 2's block at point `t` is rows `512 t …` of its array. -/
theorem iblk2_apply (c : Dev nD) (t : Fin cfg4.N) (r : Fin 512) (k : Fin 881) (g : Fin 16384)
    (hg : g.val = t.val * 512 + r.val) :
    (iblk4 (F := Ideal) V c 2 t : Vec Ideal S512x881 .f32) (ix2 r k) = (V c main_arg4 : S16384x881.Idx → EReal) (ix2 g k) := by
  obtain ⟨-, -, -, -, e0, e1, -⟩ := idx_rows t
  unfold iblk4
  rw [View.read_apply]
  show V c main_arg4 _ = V c main_arg4 _
  refine congrArg _ (funext fun a => Fin.ext ?_)
  match a with
  | ⟨0, _⟩ => show win4_2.index t (0 : Fin 2) * 512 + 1 * r.val = g.val; omega
  | ⟨1, _⟩ => show win4_2.index t (1 : Fin 2) * 881 + 1 * k.val = k.val; omega

/-- Window 3's block is its whole array at every point. -/
theorem iblk3_eq (c : Dev nD) (t : Fin cfg4.N) :
    (iblk4 (F := Ideal) V c 3 t : Vec Ideal S64x128 .f32) = (V c main_arg11 : S64x128.Idx → EReal) := by
  obtain ⟨e0, e1, -, -, -, -, -, -, -, -, -, -, -, -, -, -, -, -, -⟩ := idx_whole t
  funext j
  unfold iblk4
  rw [View.read_apply]
  show V c main_arg11 _ = V c main_arg11 j
  refine congrArg _ (funext fun a => Fin.ext ?_)
  match a with
  | ⟨0, _⟩ => show win4_3.index t (0 : Fin 2) * 64 + 1 * (j 0).val = (j 0).val; omega
  | ⟨1, _⟩ => show win4_3.index t (1 : Fin 2) * 128 + 1 * (j 1).val = (j 1).val; omega

/-- Window 4's block is its whole array at every point. -/
theorem iblk4_eq (c : Dev nD) (t : Fin cfg4.N) :
    (iblk4 (F := Ideal) V c 4 t : Vec Ideal S128 .f32) = (V c main_arg12 : S128.Idx → EReal) := by
  obtain ⟨-, -, e0, -, -, -, -, -, -, -, -, -, -, -, -, -, -, -, -⟩ := idx_whole t
  funext j
  unfold iblk4
  rw [View.read_apply]
  show V c main_arg12 _ = V c main_arg12 j
  refine congrArg _ (funext fun a => Fin.ext ?_)
  match a with
  | ⟨0, _⟩ => show win4_4.index t (0 : Fin 1) * 128 + 1 * (j 0).val = (j 0).val; omega

/-- Window 5's block is its whole array at every point. -/
theorem iblk5_eq (c : Dev nD) (t : Fin cfg4.N) :
    (iblk4 (F := Ideal) V c 5 t : Vec Ideal S979x128 .f32) = (V c main_arg13 : S979x128.Idx → EReal) := by
  obtain ⟨-, -, -, e0, e1, -, -, -, -, -, -, -, -, -, -, -, -, -, -⟩ := idx_whole t
  funext j
  unfold iblk4
  rw [View.read_apply]
  show V c main_arg13 _ = V c main_arg13 j
  refine congrArg _ (funext fun a => Fin.ext ?_)
  match a with
  | ⟨0, _⟩ => show win4_5.index t (0 : Fin 2) * 979 + 1 * (j 0).val = (j 0).val; omega
  | ⟨1, _⟩ => show win4_5.index t (1 : Fin 2) * 128 + 1 * (j 1).val = (j 1).val; omega

/-- Window 6's block is its whole array at every point. -/
theorem iblk6_eq (c : Dev nD) (t : Fin cfg4.N) :
    (iblk4 (F := Ideal) V c 6 t : Vec Ideal S128 .f32) = (V c main_arg14 : S128.Idx → EReal) := by
  obtain ⟨-, -, -, -, -, e0, -, -, -, -, -, -, -, -, -, -, -, -, -⟩ := idx_whole t
  funext j
  unfold iblk4
  rw [View.read_apply]
  show V c main_arg14 _ = V c main_arg14 j
  refine congrArg _ (funext fun a => Fin.ext ?_)
  match a with
  | ⟨0, _⟩ => show win4_6.index t (0 : Fin 1) * 128 + 1 * (j 0).val = (j 0).val; omega

/-- Window 7's block is its whole array at every point. -/
theorem iblk7_eq (c : Dev nD) (t : Fin cfg4.N) :
    (iblk4 (F := Ideal) V c 7 t : Vec Ideal S128x512 .f32) = (V c main_v67 : S128x512.Idx → EReal) := by
  obtain ⟨-, -, -, -, -, -, e0, e1, -, -, -, -, -, -, -, -, -, -, -⟩ := idx_whole t
  funext j
  unfold iblk4
  rw [View.read_apply]
  show V c main_v67 _ = V c main_v67 j
  refine congrArg _ (funext fun a => Fin.ext ?_)
  match a with
  | ⟨0, _⟩ => show win4_7.index t (0 : Fin 2) * 128 + 1 * (j 0).val = (j 0).val; omega
  | ⟨1, _⟩ => show win4_7.index t (1 : Fin 2) * 512 + 1 * (j 1).val = (j 1).val; omega

/-- Window 8's block is its whole array at every point. -/
theorem iblk8_eq (c : Dev nD) (t : Fin cfg4.N) :
    (iblk4 (F := Ideal) V c 8 t : Vec Ideal S128x512 .f32) = (V c main_v68 : S128x512.Idx → EReal) := by
  obtain ⟨-, -, -, -, -, -, -, -, e0, e1, -, -, -, -, -, -, -, -, -⟩ := idx_whole t
  funext j
  unfold iblk4
  rw [View.read_apply]
  show V c main_v68 _ = V c main_v68 j
  refine congrArg _ (funext fun a => Fin.ext ?_)
  match a with
  | ⟨0, _⟩ => show win4_8.index t (0 : Fin 2) * 128 + 1 * (j 0).val = (j 0).val; omega
  | ⟨1, _⟩ => show win4_8.index t (1 : Fin 2) * 512 + 1 * (j 1).val = (j 1).val; omega

/-- Window 9's block is its whole array at every point. -/
theorem iblk9_eq (c : Dev nD) (t : Fin cfg4.N) :
    (iblk4 (F := Ideal) V c 9 t : Vec Ideal S881x512 .f32) = (V c main_v69 : S881x512.Idx → EReal) := by
  obtain ⟨-, -, -, -, -, -, -, -, -, -, e0, e1, -, -, -, -, -, -, -⟩ := idx_whole t
  funext j
  unfold iblk4
  rw [View.read_apply]
  show V c main_v69 _ = V c main_v69 j
  refine congrArg _ (funext fun a => Fin.ext ?_)
  match a with
  | ⟨0, _⟩ => show win4_9.index t (0 : Fin 2) * 881 + 1 * (j 0).val = (j 0).val; omega
  | ⟨1, _⟩ => show win4_9.index t (1 : Fin 2) * 512 + 1 * (j 1).val = (j 1).val; omega

/-- Window 10's block is its whole array at every point. -/
theorem iblk10_eq (c : Dev nD) (t : Fin cfg4.N) :
    (iblk4 (F := Ideal) V c 10 t : Vec Ideal S512 .f32) = (V c main_arg16 : S512.Idx → EReal) := by
  obtain ⟨-, -, -, -, -, -, -, -, -, -, -, -, e0, -, -, -, -, -, -⟩ := idx_whole t
  funext j
  unfold iblk4
  rw [View.read_apply]
  show V c main_arg16 _ = V c main_arg16 j
  refine congrArg _ (funext fun a => Fin.ext ?_)
  match a with
  | ⟨0, _⟩ => show win4_10.index t (0 : Fin 1) * 512 + 1 * (j 0).val = (j 0).val; omega

/-- Window 11's block is its whole array at every point. -/
theorem iblk11_eq (c : Dev nD) (t : Fin cfg4.N) :
    (iblk4 (F := Ideal) V c 11 t : Vec Ideal S512x256 .f32) = (V c main_arg17 : S512x256.Idx → EReal) := by
  obtain ⟨-, -, -, -, -, -, -, -, -, -, -, -, -, e0, e1, -, -, -, -⟩ := idx_whole t
  funext j
  unfold iblk4
  rw [View.read_apply]
  show V c main_arg17 _ = V c main_arg17 j
  refine congrArg _ (funext fun a => Fin.ext ?_)
  match a with
  | ⟨0, _⟩ => show win4_11.index t (0 : Fin 2) * 512 + 1 * (j 0).val = (j 0).val; omega
  | ⟨1, _⟩ => show win4_11.index t (1 : Fin 2) * 256 + 1 * (j 1).val = (j 1).val; omega

/-- Window 12's block is its whole array at every point. -/
theorem iblk12_eq (c : Dev nD) (t : Fin cfg4.N) :
    (iblk4 (F := Ideal) V c 12 t : Vec Ideal S256 .f32) = (V c main_arg18 : S256.Idx → EReal) := by
  obtain ⟨-, -, -, -, -, -, -, -, -, -, -, -, -, -, -, e0, -, -, -⟩ := idx_whole t
  funext j
  unfold iblk4
  rw [View.read_apply]
  show V c main_arg18 _ = V c main_arg18 j
  refine congrArg _ (funext fun a => Fin.ext ?_)
  match a with
  | ⟨0, _⟩ => show win4_12.index t (0 : Fin 1) * 256 + 1 * (j 0).val = (j 0).val; omega

/-- Window 13's block is its whole array at every point. -/
theorem iblk13_eq (c : Dev nD) (t : Fin cfg4.N) :
    (iblk4 (F := Ideal) V c 13 t : Vec Ideal S256x1 .f32) = (V c main_arg19 : S256x1.Idx → EReal) := by
  obtain ⟨-, -, -, -, -, -, -, -, -, -, -, -, -, -, -, -, e0, e1, -⟩ := idx_whole t
  funext j
  unfold iblk4
  rw [View.read_apply]
  show V c main_arg19 _ = V c main_arg19 j
  refine congrArg _ (funext fun a => Fin.ext ?_)
  match a with
  | ⟨0, _⟩ => show win4_13.index t (0 : Fin 2) * 256 + 1 * (j 0).val = (j 0).val; omega
  | ⟨1, _⟩ => show win4_13.index t (1 : Fin 2) * 1 + 1 * (j 1).val = (j 1).val; omega

/-- Window 14's block is its whole array at every point. -/
theorem iblk14_eq (c : Dev nD) (t : Fin cfg4.N) :
    (iblk4 (F := Ideal) V c 14 t : Vec Ideal S1 .f32) = (V c main_arg20 : S1.Idx → EReal) := by
  obtain ⟨-, -, -, -, -, -, -, -, -, -, -, -, -, -, -, -, -, -, e0⟩ := idx_whole t
  funext j
  unfold iblk4
  rw [View.read_apply]
  show V c main_arg20 _ = V c main_arg20 j
  refine congrArg _ (funext fun a => Fin.ext ?_)
  match a with
  | ⟨0, _⟩ => show win4_14.index t (0 : Fin 1) * 1 + 1 * (j 0).val = (j 0).val; omega

/-! ## The output array -/

/-- The head at graph `g`, from the arrays as the region finds them. -/
def headRow (c : Dev nD) (g : Fin 16384) : EReal :=
  rHead (Spec.a2 (V c main_v66) g) (Spec.a2 (V c main_arg3) g) (Spec.a2 (V c main_arg4) g)
    (Spec.a2 (V c main_arg11)) (Spec.a1 (V c main_arg12)) (Spec.a2 (V c main_arg13)) (Spec.a1 (V c main_arg14))
    (Spec.a1 (V c main_arg16)) (Spec.a2 (V c main_arg17)) (Spec.a1 (V c main_arg18)) (Spec.a2 (V c main_arg19))
    (Spec.a1 (V c main_arg20)) (Spec.a2 (V c main_v67)) (Spec.a2 (V c main_v68)) (Spec.a2 (V c main_v69))

/-- What the output column ends holding: at `(g, 0)` the head at `g`. -/
def G (c : Dev nD) : S16384x1.Idx → EReal := fun i => headRow V c ⟨(i 0).val, idx2_lt0 i⟩

theorem G_apply (c : Dev nD) (i : S16384x1.Idx) (g : Fin 16384) (hg : (i 0).val = g.val) : G V c i = headRow V c g := by
  unfold G
  exact congrArg (headRow V c) (Fin.ext hg)

/-- What point `t` writes back is block `t` of `G`. -/
theorem flushed_eq (c : Dev nD) (t : Fin cfg4.N) :
    (dat4 (F := Ideal) V c).flushed 15 t = ((cfg4.win 15).blk t).view.read (Elt Ideal) (G V c) := by
  have ht : t.val < 32 := lt_of_lt_of_eq t.isLt N_4
  show (cfg4.win 15).cut (grid4.coords t) ((dat4 (F := Ideal) V c).after 15 t) = _
  rw [after4_15]
  funext j
  obtain ⟨r, u, rfl⟩ : ∃ (r : Fin 512) (u : Fin 1), j = ix2 r u := ⟨j 0, j 1, eq_ix2 j⟩
  obtain rfl : u = 0 := Subsingleton.elim _ _
  have hr : r.val < 512 := r.isLt
  obtain ⟨-, -, -, -, -, -, e0, e1⟩ := idx_rows t
  rw [View.read_apply]
  show out4_15 (F := Ideal) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (ix2 r (0 : Fin 1)) = G V c (((cfg4.win 15).blk t).view.emb (ix2 r (0 : Fin 1)))
  refine (out4_15_apply (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) r).trans ?_
  refine Eq.trans ?_ (G_apply V c _ ⟨t.val * 512 + r.val, by omega⟩
    (show win4_15.index t (0 : Fin 2) * 512 + 1 * r.val = t.val * 512 + r.val by omega)).symm
  have h0 : (fun k => (iblk4 (F := Ideal) V c 0 t : Vec Ideal S512x64 .f32) (ix2 r k))
      = Spec.a2 (V c main_v66) ⟨t.val * 512 + r.val, by omega⟩ := funext fun k => iblk0_apply V c t r k _ rfl
  have h1 : (fun k => (iblk4 (F := Ideal) V c 1 t : Vec Ideal S512x979 .f32) (ix2 r k))
      = Spec.a2 (V c main_arg3) ⟨t.val * 512 + r.val, by omega⟩ := funext fun k => iblk1_apply V c t r k _ rfl
  have h2 : (fun k => (iblk4 (F := Ideal) V c 2 t : Vec Ideal S512x881 .f32) (ix2 r k))
      = Spec.a2 (V c main_arg4) ⟨t.val * 512 + r.val, by omega⟩ := funext fun k => iblk2_apply V c t r k _ rfl
  rw [h0, h1, h2, iblk3_eq V c t, iblk4_eq V c t, iblk5_eq V c t, iblk6_eq V c t, iblk7_eq V c t, iblk8_eq V c t, iblk9_eq V c t, iblk10_eq V c t, iblk11_eq V c t, iblk12_eq V c t, iblk13_eq V c t, iblk14_eq V c t]
  rfl

/-- An index of the output array is in point `t`'s block iff each coordinate is in the block's range on its axis. -/
theorem mem_blk (t : Fin cfg4.N) (i : S16384x1.Idx) :
    i ∈ ((cfg4.win 15).blk t).view.set ↔ ∀ a : Fin 2, win4_15.index t a * S512x1.size a ≤ (i a).val
      ∧ (i a).val < win4_15.index t a * S512x1.size a + S512x1.size a := by
  show i ∈ ((View.whole main_v70).slice (win4_15.rect t)).set ↔ _
  rw [View.set_slice_whole, Rect.mem_set_unit]
  exact Iff.rfl

/-- Every row of the output is written by the point that owns its row block. -/
theorem cover (i : S16384x1.Idx) :
    ∃ t : Fin cfg4.N, (cfg4.win 15).flush t = true ∧ i ∈ ((cfg4.win 15).blk t).view.set := by
  have hi0 : (i 0).val < 16384 := (i 0).isLt
  have hi1 : (i 1).val < 1 := (i 1).isLt
  have hN : cfg4.N = 32 := N_4
  obtain ⟨-, -, -, -, -, -, e0, e1⟩ := idx_rows ⟨(i 0).val / 512, by rw [hN]; omega⟩
  refine ⟨⟨(i 0).val / 512, by rw [hN]; omega⟩, flush4_15 _, ?_⟩
  rw [mem_blk]
  intro a
  match a with
  | ⟨0, _⟩ =>
    show win4_15.index ⟨(i 0).val / 512, _⟩ (0 : Fin 2) * 512 ≤ (i 0).val
      ∧ (i 0).val < win4_15.index ⟨(i 0).val / 512, _⟩ (0 : Fin 2) * 512 + 512
    rw [e0]
    show (i 0).val / 512 * 512 ≤ (i 0).val ∧ (i 0).val < (i 0).val / 512 * 512 + 512
    omega
  | ⟨1, _⟩ =>
    show win4_15.index ⟨(i 0).val / 512, _⟩ (1 : Fin 2) * 1 ≤ (i 1).val
      ∧ (i 1).val < win4_15.index ⟨(i 0).val / 512, _⟩ (1 : Fin 2) * 1 + 1
    rw [e1]
    omega

/-- The output array after the region. -/
theorem final (c : Dev nD) : (dat4 (F := Ideal) V c).arrAt 15 cfg4.N = G V c :=
  (dat4 (F := Ideal) V c).arrAt_eq_of_cover 15 (G V c) (fun t _ => flushed_eq V c t) cover

/-- The region's value: the output column at graph `g` is the specification's head at `g`. -/
theorem region4 (c : Dev nD) (g : Fin 16384) :
    Spec.a2 ((dat4 (F := Ideal) V c).arrAt 15 cfg4.N) g 0
      = Spec.headK (Spec.a2 (V c main_v66)) (Spec.a2 (V c main_arg3)) (Spec.a2 (V c main_arg4))
          (Spec.a2 (V c main_arg11)) (Spec.a1 (V c main_arg12)) (Spec.a2 (V c main_arg13)) (Spec.a1 (V c main_arg14))
          (Spec.a1 (V c main_arg16)) (Spec.a2 (V c main_arg17)) (Spec.a1 (V c main_arg18)) (Spec.a2 (V c main_arg19)) (Spec.a1 (V c main_arg20))
          (Spec.a2 (V c main_v67)) (Spec.a2 (V c main_v68)) (Spec.a2 (V c main_v69)) g := by
  rw [final V c, headK_eq_rHead]
  exact G_apply V c _ g rfl

end Cert.KernelIdeal.Region4Val

end
-- ==== Proof.KWalk.lean ====
/-
  The idealized kernel's result as the specification's separate-factor reading.

  The result buffer at the last segment boundary is region 4's output array; each region's output array is the
  specification's function of the region's entry contents; each host stretch between two regions is a gather of rows
  by the wrapped source index followed by a segment sum by the raw destination index, or the mean pool; the graph's
  index arrays and per-node scale are computed before region 0 and never written again, and the arguments of @main
  are never written: walking the boundaries back from the last to the launch memory composes these into the three
  message-passing layers, the pool and the dense head.
-/
import proofs.«171162_j59115929862199_2_alg».proof.Proof.KKeep
import proofs.«171162_j59115929862199_2_alg».proof.Proof.Spec
import proofs.«171162_j59115929862199_2_alg».proof.Proof.HostVals1
import proofs.«171162_j59115929862199_2_alg».proof.Proof.HostVals2
import proofs.«171162_j59115929862199_2_alg».proof.Proof.PoolVal
import proofs.«171162_j59115929862199_2_alg».proof.Proof.HostPrefix
import proofs.«171162_j59115929862199_2_alg».proof.Proof.RegionVals0
import proofs.«171162_j59115929862199_2_alg».proof.Proof.RegionVals1
import proofs.«171162_j59115929862199_2_alg».proof.Proof.RegionVals2
import proofs.«171162_j59115929862199_2_alg».proof.Proof.RegionVals3
import proofs.«171162_j59115929862199_2_alg».proof.Proof.Region4ValArr

set_option maxRecDepth 16384

noncomputable section

namespace Cert.KernelIdeal.KWalk

open Idealize.ShloMosaic Idealize.ShloMosaic.TcCoe Idealize.SL.Sem
open Cert.KernelIdeal Cert.KernelIdeal.Gen Cert.KernelIdeal.KKeep

variable (m : (ℓ : Loc nD τ sig) → Buf (Elt Ideal) ℓ) (ρ : Dev nD → PrngReg) (c : Dev nD)

/-! ## Buffers nothing writes: the launch contents at every boundary -/

/-- No host stretch writes `b` and no region outputs it. -/
structure Stable (b : Ref sig .tc) : Prop where
  h0 : b ∉ outs_h0
  h0a : b ∉ outs_h0a
  h0b : b ∉ outs_h0b
  h1 : b ∉ outs_h1
  h2 : b ∉ outs_h2
  h3 : b ∉ outs_h3
  h4 : b ∉ outs_h4
  r0 : b ≠ main_v18
  r1 : b ≠ main_v30
  r2 : b ≠ main_v42
  r3 : b ≠ main_v54

variable {b : Ref sig .tc}

theorem stable_W3 (hb : Stable b) : W3 m ρ c (Proc.devRef .tc b) = m ((c : Thread nD τ).loc b) :=
  (keep_h0b m ρ c b hb.h0b).trans ((keep_h0a m ρ c b hb.h0a).trans ((keep_h0 m ρ c b hb.h0).trans rfl))
theorem stable_W4 (hb : Stable b) : W4 m ρ c (Proc.devRef .tc b) = m ((c : Thread nD τ).loc b) :=
  (keep_r0 m ρ c b hb.r0).trans (stable_W3 m ρ c hb)
theorem stable_W5 (hb : Stable b) : W5 m ρ c (Proc.devRef .tc b) = m ((c : Thread nD τ).loc b) :=
  (keep_h1 m ρ c b hb.h1).trans (stable_W4 m ρ c hb)
theorem stable_W6 (hb : Stable b) : W6 m ρ c (Proc.devRef .tc b) = m ((c : Thread nD τ).loc b) :=
  (keep_r1 m ρ c b hb.r1).trans (stable_W5 m ρ c hb)
theorem stable_W7 (hb : Stable b) : W7 m ρ c (Proc.devRef .tc b) = m ((c : Thread nD τ).loc b) :=
  (keep_h2 m ρ c b hb.h2).trans (stable_W6 m ρ c hb)
theorem stable_W8 (hb : Stable b) : W8 m ρ c (Proc.devRef .tc b) = m ((c : Thread nD τ).loc b) :=
  (keep_r2 m ρ c b hb.r2).trans (stable_W7 m ρ c hb)
theorem stable_W9 (hb : Stable b) : W9 m ρ c (Proc.devRef .tc b) = m ((c : Thread nD τ).loc b) :=
  (keep_h3 m ρ c b hb.h3).trans (stable_W8 m ρ c hb)
theorem stable_W10 (hb : Stable b) : W10 m ρ c (Proc.devRef .tc b) = m ((c : Thread nD τ).loc b) :=
  (keep_r3 m ρ c b hb.r3).trans (stable_W9 m ρ c hb)
theorem stable_W11 (hb : Stable b) : W11 m ρ c (Proc.devRef .tc b) = m ((c : Thread nD τ).loc b) :=
  (keep_h4 m ρ c b hb.h4).trans (stable_W10 m ρ c hb)

/-- Every argument of @main is such a buffer. -/
macro "stable" : tactic => `(tactic| exact ⟨by decide, by decide, by decide, by decide, by decide, by decide, by decide, by decide, by decide, by decide, by decide⟩)

/-! ## Buffers written before region 0 and never again -/

/-- After region 0's entry no host stretch writes `b` and no region outputs it. -/
structure Late (b : Ref sig .tc) : Prop where
  h1 : b ∉ outs_h1
  h2 : b ∉ outs_h2
  h3 : b ∉ outs_h3
  r0 : b ≠ main_v18
  r1 : b ≠ main_v30
  r2 : b ≠ main_v42

theorem late_W4 (hb : Late b) : W4 m ρ c (Proc.devRef .tc b) = W3 m ρ c (Proc.devRef .tc b) := keep_r0 m ρ c b hb.r0
theorem late_W5 (hb : Late b) : W5 m ρ c (Proc.devRef .tc b) = W3 m ρ c (Proc.devRef .tc b) :=
  (keep_h1 m ρ c b hb.h1).trans (late_W4 m ρ c hb)
theorem late_W6 (hb : Late b) : W6 m ρ c (Proc.devRef .tc b) = W3 m ρ c (Proc.devRef .tc b) :=
  (keep_r1 m ρ c b hb.r1).trans (late_W5 m ρ c hb)
theorem late_W7 (hb : Late b) : W7 m ρ c (Proc.devRef .tc b) = W3 m ρ c (Proc.devRef .tc b) :=
  (keep_h2 m ρ c b hb.h2).trans (late_W6 m ρ c hb)
theorem late_W8 (hb : Late b) : W8 m ρ c (Proc.devRef .tc b) = W3 m ρ c (Proc.devRef .tc b) :=
  (keep_r2 m ρ c b hb.r2).trans (late_W7 m ρ c hb)
theorem late_W9 (hb : Late b) : W9 m ρ c (Proc.devRef .tc b) = W3 m ρ c (Proc.devRef .tc b) :=
  (keep_h3 m ρ c b hb.h3).trans (late_W8 m ρ c hb)

macro "late" : tactic => `(tactic| exact ⟨by decide, by decide, by decide, by decide, by decide, by decide⟩)

/-! ## The graph data and the arguments, as the specification takes them -/

/-- The contents of `edge_index` at launch. -/
abbrev E1 := m ((c : Thread nD τ).loc main_arg1)

abbrev SRC : Fin 2621440 → BitVec 32 := Spec.a1 (HostPrefix.srcT (E1 m c))
abbrev DST : Fin 2621440 → BitVec 32 := Spec.a1 (HostPrefix.dstT (E1 m c))
abbrev DIS : Fin 524288 → EReal := Spec.a1 (HostPrefix.disT (E1 m c))

theorem src_W3 : Spec.a1 (W3 m ρ c (Proc.devRef .tc main_v3)) = SRC m c :=
  congrArg Spec.a1 (HostPrefix.prefix_src (W0 m ρ c))
theorem dst_W3 : Spec.a1 (W3 m ρ c (Proc.devRef .tc main_v6)) = DST m c :=
  congrArg Spec.a1 (HostPrefix.prefix_dst (W0 m ρ c))
theorem dis_W3 : Spec.col (W3 m ρ c (Proc.devRef .tc main_v17)) = DIS m c :=
  funext fun n => HostPrefix.prefix_col (W0 m ρ c) n

/-! ## The five regions and the stretches between them -/

/-- Region 0 leaves the scaled linear map of the node features. -/
theorem hs1_eq : Spec.a2 (W4 m ρ c (Proc.devRef .tc main_v18))
    = Spec.linScale (DIS m c) (Spec.a2 (m ((c : Thread nD τ).loc main_arg0))) (Spec.a2 (m ((c : Thread nD τ).loc main_arg5))) := by
  funext n j
  refine ((congrArg (fun A => Spec.a2 A n j) (W4_arr m ρ c 3)).trans (RegionVals.region0 (V3 m ρ) c n j)).trans ?_
  rw [show Spec.col (V3 m ρ c main_v17) = DIS m c from dis_W3 m ρ c,
    show V3 m ρ c main_arg0 = m ((c : Thread nD τ).loc main_arg0) from stable_W3 m ρ c (by stable),
    show V3 m ρ c main_arg5 = m ((c : Thread nD τ).loc main_arg5) from stable_W3 m ρ c (by stable)]

/-- The first neighbourhood sum. -/
theorem agg1_eq : Spec.a2 (W5 m ρ c (Proc.devRef .tc main_v29))
    = Spec.agg (SRC m c) (DST m c) (Spec.a2 (W4 m ρ c (Proc.devRef .tc main_v18))) := by
  funext d j
  refine (HostVals.stretch1 (W4 m ρ c) d j).trans ?_
  rw [show Spec.a1 (W4 m ρ c (Proc.devRef .tc main_v3)) = SRC m c from
      (congrArg Spec.a1 (late_W4 m ρ c (by late))).trans (src_W3 m ρ c),
    show Spec.a1 (W4 m ρ c (Proc.devRef .tc main_v6)) = DST m c from
      (congrArg Spec.a1 (late_W4 m ρ c (by late))).trans (dst_W3 m ρ c)]

/-- Region 1 finishes layer 1 and starts layer 2. -/
theorem hs2_eq : Spec.a2 (W6 m ρ c (Proc.devRef .tc main_v30))
    = Spec.linScale (DIS m c) (Spec.epi (DIS m c) (Spec.a2 (W5 m ρ c (Proc.devRef .tc main_v29)))
        (Spec.a1 (m ((c : Thread nD τ).loc main_arg6)))) (Spec.a2 (m ((c : Thread nD τ).loc main_arg7))) := by
  funext n j
  refine ((congrArg (fun A => Spec.a2 A n j) (W6_arr m ρ c 4)).trans (RegionVals.region1 (V5 m ρ) c n j)).trans ?_
  rw [show Spec.col (V5 m ρ c main_v17) = DIS m c from
      (congrArg Spec.col (late_W5 m ρ c (by late))).trans (dis_W3 m ρ c),
    show V5 m ρ c main_arg6 = m ((c : Thread nD τ).loc main_arg6) from stable_W5 m ρ c (by stable),
    show V5 m ρ c main_arg7 = m ((c : Thread nD τ).loc main_arg7) from stable_W5 m ρ c (by stable)]

/-- The second neighbourhood sum. -/
theorem agg2_eq : Spec.a2 (W7 m ρ c (Proc.devRef .tc main_v41))
    = Spec.agg (SRC m c) (DST m c) (Spec.a2 (W6 m ρ c (Proc.devRef .tc main_v30))) := by
  funext d j
  refine (HostVals.stretch2 (W6 m ρ c) d j).trans ?_
  rw [show Spec.a1 (W6 m ρ c (Proc.devRef .tc main_v3)) = SRC m c from
      (congrArg Spec.a1 (late_W6 m ρ c (by late))).trans (src_W3 m ρ c),
    show Spec.a1 (W6 m ρ c (Proc.devRef .tc main_v6)) = DST m c from
      (congrArg Spec.a1 (late_W6 m ρ c (by late))).trans (dst_W3 m ρ c)]

/-- Region 2 finishes layer 2 and starts layer 3. -/
theorem hs3_eq : Spec.a2 (W8 m ρ c (Proc.devRef .tc main_v42))
    = Spec.linScale (DIS m c) (Spec.epi (DIS m c) (Spec.a2 (W7 m ρ c (Proc.devRef .tc main_v41)))
        (Spec.a1 (m ((c : Thread nD τ).loc main_arg8)))) (Spec.a2 (m ((c : Thread nD τ).loc main_arg9))) := by
  funext n j
  refine ((congrArg (fun A => Spec.a2 A n j) (W8_arr m ρ c 4)).trans (RegionVals.region2 (V7 m ρ) c n j)).trans ?_
  rw [show Spec.col (V7 m ρ c main_v17) = DIS m c from
      (congrArg Spec.col (late_W7 m ρ c (by late))).trans (dis_W3 m ρ c),
    show V7 m ρ c main_arg8 = m ((c : Thread nD τ).loc main_arg8) from stable_W7 m ρ c (by stable),
    show V7 m ρ c main_arg9 = m ((c : Thread nD τ).loc main_arg9) from stable_W7 m ρ c (by stable)]

/-- The third neighbourhood sum. -/
theorem agg3_eq : Spec.a2 (W9 m ρ c (Proc.devRef .tc main_v53))
    = Spec.agg (SRC m c) (DST m c) (Spec.a2 (W8 m ρ c (Proc.devRef .tc main_v42))) := by
  funext d j
  refine (HostVals.stretch3 (W8 m ρ c) d j).trans ?_
  rw [show Spec.a1 (W8 m ρ c (Proc.devRef .tc main_v3)) = SRC m c from
      (congrArg Spec.a1 (late_W8 m ρ c (by late))).trans (src_W3 m ρ c),
    show Spec.a1 (W8 m ρ c (Proc.devRef .tc main_v6)) = DST m c from
      (congrArg Spec.a1 (late_W8 m ρ c (by late))).trans (dst_W3 m ρ c)]

/-- Region 3 finishes layer 3. -/
theorem h3_eq : Spec.a2 (W10 m ρ c (Proc.devRef .tc main_v54))
    = Spec.epi (DIS m c) (Spec.a2 (W9 m ρ c (Proc.devRef .tc main_v53))) (Spec.a1 (m ((c : Thread nD τ).loc main_arg10))) := by
  funext n j
  refine ((congrArg (fun A => Spec.a2 A n j) (W10_arr m ρ c 3)).trans (RegionVals.region3 (V9 m ρ) c n j)).trans ?_
  rw [show Spec.col (V9 m ρ c main_v17) = DIS m c from
      (congrArg Spec.col (late_W9 m ρ c (by late))).trans (dis_W3 m ρ c),
    show V9 m ρ c main_arg10 = m ((c : Thread nD τ).loc main_arg10) from stable_W9 m ρ c (by stable)]

/-- The three layers together. -/
theorem gcn_eq : Spec.a2 (W10 m ρ c (Proc.devRef .tc main_v54))
    = Spec.gcnK (SRC m c) (DST m c) (DIS m c) (Spec.a2 (m ((c : Thread nD τ).loc main_arg0)))
        (Spec.a2 (m ((c : Thread nD τ).loc main_arg5))) (Spec.a1 (m ((c : Thread nD τ).loc main_arg6)))
        (Spec.a2 (m ((c : Thread nD τ).loc main_arg7))) (Spec.a1 (m ((c : Thread nD τ).loc main_arg8)))
        (Spec.a2 (m ((c : Thread nD τ).loc main_arg9))) (Spec.a1 (m ((c : Thread nD τ).loc main_arg10))) := by
  rw [h3_eq, agg3_eq, hs3_eq, agg2_eq, hs2_eq, agg1_eq, hs1_eq]
  rfl

/-- The mean pool. -/
theorem pooled_eq : Spec.a2 (W11 m ρ c (Proc.devRef .tc main_v66))
    = Spec.pool (Spec.a1 (m ((c : Thread nD τ).loc main_arg2))) (Spec.a2 (W10 m ρ c (Proc.devRef .tc main_v54))) := by
  funext g j
  refine (PoolVal.stretch4_pool (W10 m ρ c) g j).trans ?_
  rw [show W10 m ρ c (Proc.devRef .tc main_arg2) = m ((c : Thread nD τ).loc main_arg2) from stable_W10 m ρ c (by stable)]

set_option maxHeartbeats 4000000 in
/-- THE KERNEL'S VALUE: the result buffer at the last boundary is the specification's separate-factor reading. -/
theorem kernel_value (g : Fin 16384) :
    Spec.a2 (W12 m ρ c (Proc.devRef .tc main_v70)) g 0
      = Spec.outK (SRC m c) (DST m c) (DIS m c) (Spec.a1 (m ((c : Thread nD τ).loc main_arg2)))
          (Spec.a2 (m ((c : Thread nD τ).loc main_arg0))) (Spec.a2 (m ((c : Thread nD τ).loc main_arg5)))
          (Spec.a1 (m ((c : Thread nD τ).loc main_arg6))) (Spec.a2 (m ((c : Thread nD τ).loc main_arg7)))
          (Spec.a1 (m ((c : Thread nD τ).loc main_arg8))) (Spec.a2 (m ((c : Thread nD τ).loc main_arg9)))
          (Spec.a1 (m ((c : Thread nD τ).loc main_arg10)))
          (Spec.a2 (m ((c : Thread nD τ).loc main_arg3))) (Spec.a2 (m ((c : Thread nD τ).loc main_arg4)))
          (Spec.a2 (m ((c : Thread nD τ).loc main_arg11))) (Spec.a1 (m ((c : Thread nD τ).loc main_arg12)))
          (Spec.a2 (m ((c : Thread nD τ).loc main_arg13))) (Spec.a1 (m ((c : Thread nD τ).loc main_arg14)))
          (Spec.a2 (m ((c : Thread nD τ).loc main_arg15))) (Spec.a1 (m ((c : Thread nD τ).loc main_arg16)))
          (Spec.a2 (m ((c : Thread nD τ).loc main_arg17))) (Spec.a1 (m ((c : Thread nD τ).loc main_arg18)))
          (Spec.a2 (m ((c : Thread nD τ).loc main_arg19))) (Spec.a1 (m ((c : Thread nD τ).loc main_arg20))) g := by
  refine ((congrArg (fun A => Spec.a2 A g 0) (W12_arr m ρ c 15)).trans (Region4Val.region4 (V11 m ρ) c g)).trans ?_
  rw [show Spec.a2 (V11 m ρ c main_v66) = Spec.a2 (W11 m ρ c (Proc.devRef .tc main_v66)) from rfl,
    pooled_eq, gcn_eq,
    show Spec.a2 (V11 m ρ c main_v67) = Spec.F1d (Spec.a2 (W10 m ρ c (Proc.devRef .tc main_arg15))) from HostVals.stretch4_w1d (W10 m ρ c),
    show Spec.a2 (V11 m ρ c main_v68) = Spec.F1p (Spec.a2 (W10 m ρ c (Proc.devRef .tc main_arg15))) from HostVals.stretch4_w1p (W10 m ρ c),
    show Spec.a2 (V11 m ρ c main_v69) = Spec.F1f (Spec.a2 (W10 m ρ c (Proc.devRef .tc main_arg15))) from HostVals.stretch4_w1f (W10 m ρ c),
    show W10 m ρ c (Proc.devRef .tc main_arg15) = m ((c : Thread nD τ).loc main_arg15) from stable_W10 m ρ c (by stable),
    show V11 m ρ c main_arg3 = m ((c : Thread nD τ).loc main_arg3) from stable_W11 m ρ c (by stable),
    show V11 m ρ c main_arg4 = m ((c : Thread nD τ).loc main_arg4) from stable_W11 m ρ c (by stable),
    show V11 m ρ c main_arg11 = m ((c : Thread nD τ).loc main_arg11) from stable_W11 m ρ c (by stable),
    show V11 m ρ c main_arg12 = m ((c : Thread nD τ).loc main_arg12) from stable_W11 m ρ c (by stable),
    show V11 m ρ c main_arg13 = m ((c : Thread nD τ).loc main_arg13) from stable_W11 m ρ c (by stable),
    show V11 m ρ c main_arg14 = m ((c : Thread nD τ).loc main_arg14) from stable_W11 m ρ c (by stable),
    show V11 m ρ c main_arg16 = m ((c : Thread nD τ).loc main_arg16) from stable_W11 m ρ c (by stable),
    show V11 m ρ c main_arg17 = m ((c : Thread nD τ).loc main_arg17) from stable_W11 m ρ c (by stable),
    show V11 m ρ c main_arg18 = m ((c : Thread nD τ).loc main_arg18) from stable_W11 m ρ c (by stable),
    show V11 m ρ c main_arg19 = m ((c : Thread nD τ).loc main_arg19) from stable_W11 m ρ c (by stable),
    show V11 m ρ c main_arg20 = m ((c : Thread nD τ).loc main_arg20) from stable_W11 m ρ c (by stable)]
  rfl

end Cert.KernelIdeal.KWalk

end
-- ==== Proof.SpecLaws.lean ====
/-
  The laws that join the two readings of the specification.

  Multiplication by a non-negative real distributes over any sum of extended reals, so a factor common to every
  message of a neighbourhood may be applied after the sum. An update lands on row `n` only if its raw index, read
  signed, is `n`; such an index is not negative, is left alone by the wrap, and is clamped to itself: the row the
  gather by the wrapped index reads is `n` again. A sum over the concatenated axis of three row pieces is the sum
  of the three pieces' sums.
-/
import proofs.«171162_j59115929862199_2_alg».proof.Proof.Spec

noncomputable section

open scoped BigOperators

namespace Cert.Spec

open Idealize.ShloMosaic Cert.RowOps

/-- An index that names row `r` for a scatter names the same row for a gather after the wrap. -/
theorem grow_of_scatterRow {w : BitVec 32} {r : Fin NN} (h : scatterRow NN w = some r) : grow w = r := by
  have hw := (scatterRow_eq_some_iff w r).mp h
  have hlt := r.isLt
  have hns : w.slt 0#32 = false := by
    rw [BitVec.slt_eq_decide]
    have h0 : (0#32 : BitVec 32).toInt = 0 := by decide
    rw [h0]
    exact decide_eq_false (by omega)
  unfold grow wrap IntOp.cmpi
  simp only [hns]
  unfold Scalar.select
  rw [if_neg (by decide)]
  unfold gatherRow
  apply Fin.ext
  simp only
  omega

/-- A non-negative real factor goes inside a sum of extended reals. -/
theorem add_sum_mul {ι : Type} (s : Finset ι) (f : ι → EReal) {c : EReal} (hc : 0 ≤ c) (hct : c ≠ ⊤) (z : EReal) :
    (z + ∑ e ∈ s, f e) * c = z * c + ∑ e ∈ s, f e * c := by
  classical
  rw [EReal.right_distrib_of_nonneg_of_ne_top hc hct]
  congr 1
  induction s using Finset.induction_on with
  | empty => simp
  | insert a s ha ih =>
    rw [Finset.sum_insert ha, Finset.sum_insert ha, EReal.right_distrib_of_nonneg_of_ne_top hc hct, ih]

section Graph

variable (src dst : Fin EE → BitVec 32) (dis : Fin NN → EReal)

/-- THE LAYER LAW: with a non-negative real scale per node, applying the source's factor before the neighbourhood sum
    and the destination's after it is applying their product to each message. -/
theorem layer_eq (hdis : ∀ n, ∃ r : ℝ, 0 ≤ r ∧ dis n = (r : EReal)) {K : Nat} (X : Fin NN → Fin K → EReal)
    (W : Fin K → Fin 64 → EReal) (b : Fin 64 → EReal) :
    layerK src dst dis X W b = layerR src dst dis X W b := by
  funext n j
  obtain ⟨r, hr, hd⟩ := hdis n
  have hc : (0 : EReal) ≤ dis n := by rw [hd]; exact_mod_cast hr
  have hct : dis n ≠ ⊤ := by rw [hd]; exact EReal.coe_ne_top r
  have key : ∀ (s : Finset (Fin EE)) (a sc : Fin EE → EReal), (∀ e ∈ s, grow (dst e) = n) →
      (z0 + ∑ e ∈ s, a e * sc e) * dis n = z0 + ∑ e ∈ s, a e * (sc e * dis (grow (dst e))) := by
    intro s a sc hs
    rw [add_sum_mul _ _ hc hct, z0_eq, zero_mul]
    congr 1
    refine Finset.sum_congr rfl fun e he => ?_
    rw [hs e he, mul_assoc]
  unfold layerK layerR epi agg linScale seg
  exact congrArg (fun t => max (t + b j) z0)
    (key _ (fun e => mm X W (grow (src e)) j) (fun e => dis (grow (src e)))
      (fun e he => grow_of_scatterRow (Finset.mem_filter.mp he).2))

end Graph

/-! ## The concatenated axis -/

/-- A sum over the concatenated axis is the sum of the three pieces' sums. -/
theorem sum_split (f : Fin 1137 → EReal) :
    ∑ k : Fin 1137, f k
      = (∑ i : Fin 128, f ⟨i.val, by omega⟩) + (∑ i : Fin 128, f ⟨128 + i.val, by omega⟩)
        + (∑ i : Fin 881, f ⟨256 + i.val, by omega⟩) := by
  have h1 := Fin.sum_univ_add (M := EReal) (a := 256) (b := 881) f
  have h2 := Fin.sum_univ_add (M := EReal) (a := 128) (b := 128) (fun i : Fin 256 => f (Fin.castAdd 881 i))
  rw [h1, h2]
  rfl

theorem cat3_left (a b : Fin 128 → EReal) (c : Fin 881 → EReal) (i : Fin 128) :
    cat3 a b c ⟨i.val, by omega⟩ = a i := by
  unfold cat3
  rw [dif_pos i.isLt]

theorem cat3_mid (a b : Fin 128 → EReal) (c : Fin 881 → EReal) (i : Fin 128) :
    cat3 a b c ⟨128 + i.val, by omega⟩ = b i := by
  unfold cat3
  have hi := i.isLt
  rw [dif_neg (by simp only; omega), dif_pos (by simp only; omega)]
  exact congrArg b (Fin.ext (by simp only; omega))

theorem cat3_right (a b : Fin 128 → EReal) (c : Fin 881 → EReal) (i : Fin 881) :
    cat3 a b c ⟨256 + i.val, by omega⟩ = c i := by
  unfold cat3
  have hi := i.isLt
  rw [dif_neg (by simp only; omega), dif_neg (by simp only; omega)]
  exact congrArg c (Fin.ext (by simp only; omega))

/-- A sum of a function of the concatenated row, piece by piece. -/
theorem sum_cat3 (G : Fin 1137 → EReal → EReal) (a b : Fin 128 → EReal) (c : Fin 881 → EReal) :
    ∑ k : Fin 1137, G k (cat3 a b c k)
      = (∑ i : Fin 128, G ⟨i.val, by omega⟩ (a i)) + (∑ i : Fin 128, G ⟨128 + i.val, by omega⟩ (b i))
        + (∑ i : Fin 881, G ⟨256 + i.val, by omega⟩ (c i)) := by
  rw [sum_split]
  simp only [cat3_left, cat3_mid, cat3_right]

/-! ## The dense head -/

section Head

variable (P : Fin BB → Fin 64 → EReal) (px : Fin BB → Fin 979 → EReal) (fp : Fin BB → Fin 881 → EReal)
  (Wd : Fin 64 → Fin 128 → EReal) (bd : Fin 128 → EReal) (Wp : Fin 979 → Fin 128 → EReal) (bp : Fin 128 → EReal)
  (F1 : Fin 1137 → Fin 512 → EReal) (b1 : Fin 512 → EReal) (W2 : Fin 512 → Fin 256 → EReal) (b2 : Fin 256 → EReal)
  (W3 : Fin 256 → Fin 1 → EReal) (b3 : Fin 1 → EReal)

/-- The mean over the concatenated row is the mean from the three pieces' sums. -/
theorem muR_eq (g : Fin BB) : muR P px fp Wd bd Wp bp g = muK P px fp Wd bd Wp bp g := by
  unfold muR muK comb
  rw [sum_split]
  simp only [cat3_left, cat3_mid, cat3_right, z0_eq, zero_add]

/-- Likewise the variance. -/
theorem varR_eq (g : Fin BB) : varR P px fp Wd bd Wp bp g = varK P px fp Wd bd Wp bp g := by
  unfold varR varK
  rw [muR_eq]
  unfold comb
  rw [sum_split]
  simp only [cat3_left, cat3_mid, cat3_right, z0_eq, zero_add]

/-- The first dense layer over the concatenated row is the sum of the three pieces' products. -/
theorem h1R_eq (g : Fin BB) (c : Fin 512) :
    h1R P px fp Wd bd Wp bp F1 b1 g c = h1K P px fp Wd bd Wp bp b1 (F1d F1) (F1p F1) (F1f F1) g c := by
  unfold h1R h1K invR invK
  simp only [mm, varR_eq, muR_eq]
  unfold comb
  rw [sum_split]
  simp only [cat3_left, cat3_mid, cat3_right]
  rfl

/-- THE HEAD LAW: the two dense heads agree. -/
theorem head_eq (g : Fin BB) :
    headR P px fp Wd bd Wp bp F1 b1 W2 b2 W3 b3 g
      = headK P px fp Wd bd Wp bp b1 W2 b2 W3 b3 (F1d F1) (F1p F1) (F1f F1) g := by
  unfold headR headK
  rw [show h1R P px fp Wd bd Wp bp F1 b1 = h1K P px fp Wd bd Wp bp b1 (F1d F1) (F1p F1) (F1f F1) from
    funext fun g => funext fun c => h1R_eq P px fp Wd bd Wp bp F1 b1 g c]

end Head

/-! ## The whole programs -/

/-- THE TWO PROGRAMS AGREE when the per-node scale is a non-negative real. -/
theorem out_eq (src dst : Fin EE → BitVec 32) (dis : Fin NN → EReal) (batch : Fin NN → BitVec 32)
    (hdis : ∀ n, ∃ r : ℝ, 0 ≤ r ∧ dis n = (r : EReal))
    (x : Fin NN → Fin 30 → EReal) (W1 : Fin 30 → Fin 64 → EReal) (c1 : Fin 64 → EReal)
    (W2' : Fin 64 → Fin 64 → EReal) (c2 : Fin 64 → EReal) (W3' : Fin 64 → Fin 64 → EReal) (c3 : Fin 64 → EReal)
    (px : Fin BB → Fin 979 → EReal) (fp : Fin BB → Fin 881 → EReal)
    (Wd : Fin 64 → Fin 128 → EReal) (bd : Fin 128 → EReal) (Wp : Fin 979 → Fin 128 → EReal) (bp : Fin 128 → EReal)
    (F1 : Fin 1137 → Fin 512 → EReal) (b1 : Fin 512 → EReal) (W2 : Fin 512 → Fin 256 → EReal) (b2 : Fin 256 → EReal)
    (W3 : Fin 256 → Fin 1 → EReal) (b3 : Fin 1 → EReal) (g : Fin BB) :
    outK src dst dis batch x W1 c1 W2' c2 W3' c3 px fp Wd bd Wp bp F1 b1 W2 b2 W3 b3 g
      = outR src dst dis batch x W1 c1 W2' c2 W3' c3 px fp Wd bd Wp bp F1 b1 W2 b2 W3 b3 g := by
  unfold outK outR gcnK gcnR
  rw [layer_eq src dst dis hdis, layer_eq src dst dis hdis, layer_eq src dst dis hdis, head_eq]

end Cert.Spec

end
-- ==== Proof.LibVecGather.lean ====
/-
  Elements of a flat array moved by index. The StableHLO gather that takes single elements of a one-dimensional array,
  `x[idx]` for `x : [N]` and `idx : [E]` (carried as `[E, 1]`), read at one element: element `(e)` of the result is
  `x` at `idx[e]`, read as a signed integer and clamped into `[0, N − 1]`.

  Every statement is over abstract extents `N`, `E`; nothing here enumerates an index set.
-/
import Idealize.ShloMosaic.PureOps.Ideal
import Idealize.ShloMosaic.Lib.ValueIdx
import proofs.«171162_j59115929862199_2_alg».proof.Proof.LibRowOps

noncomputable section

namespace Cert.VecGather

open Idealize.ShloMosaic Idealize.ShloMosaic.ValueIdx Cert.RowOps

variable {α : Type}

/-- The dimension numbers of a gather of single elements: operand `[N]`, start indices `[E, 1]`, result `[E]`; the
    result has no offset axis, the operand's one axis is collapsed and is the one the start index names, slices have
    one element. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The one coordinate of the operand index that result index `(e)` reads: the clamped start index. -/
theorem vecGather_operandIdx_zero {N E : Nat} (hN : 0 < N)
    (wf : GatherDims.WF ⟨1, ![N]⟩ ⟨2, ![E, 1]⟩ ⟨1, ![E]⟩ [] [0] [] [0] [] 1 ![1])
    (idx : IVec ⟨2, ![E, 1]⟩ 32) (e : Fin E) :
    (vecGatherDims N E wf).operandIdx (ix1 e) idx 0 = gatherRow N hN (idx (ix2 e 0)) := by
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The gather of single elements at `(e)`, for the literal dimension numbers `vecGatherDims`. -/
theorem gather_vecDims_apply {N E : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ 32) (e : Fin E) :
    Host.gather (vecGatherDims N E wf) x idx (ix1 e) = x (ix1 (gatherRow N hN (idx (ix2 e 0)))) := by
  unfold Host.gather
  refine congrArg x ((eq_ix1 _).trans ?_)
  rw [vecGather_operandIdx_zero hN wf idx e]
  rfl

/-- THE GATHER OF SINGLE ELEMENTS READ AT `(e)`: for any dimension numbers `d` whose fields are those of a gather of
    single elements of a flat array (each hypothesis is `rfl` at a program's record), the result at `(e)` is the operand
    at `gatherRow N _ (idx[e])`: the start index read signed and clamped into `[0, N − 1]`. -/
theorem gather_vec_apply {N E : Nat} (hN : 0 < N)
    (d : GatherDims ⟨1, ![N]⟩ ⟨2, ![E, 1]⟩ ⟨1, ![E]⟩)
    (hod : d.offsetDims = []) (hcd : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![N]⟩ : Shape).Idx → α) (idx : IVec ⟨2, ![E, 1]⟩ 32) (e : Fin E) :
    Host.gather d x idx (ix1 e) = x (ix1 (gatherRow N hN (idx (ix2 e 0)))) := by
  obtain ⟨od, cd, ob, sb, sm, iv, ss, wf⟩ := d
  simp only at hod hcd hob hsb hsm hiv hss
  subst hod hcd hob hsb hsm hiv hss
  exact gather_vecDims_apply hN wf x idx e

end Cert.VecGather

end
-- ==== Proof.RefGcn1.lean ====
/-
  Message-passing layer 1 of the reference program, read element by element.

  The layer multiplies the node features by the weight matrix, gathers the product's rows by the wrapped source
  index of each edge, scales each gathered row by the product of the two per-node factors read at the wrapped source
  and the wrapped destination of the edge, sums the scaled rows into the row that the raw destination index names
  (an index that names no row contributes nothing), adds the bias along the columns and clamps below at zero.
  Each step is read at one element; the index arrays and the per-node factor stay opaque arrays throughout.
-/
import proofs.«171162_j59115929862199_2_alg».proof.Proof.RefReadP
import proofs.«171162_j59115929862199_2_alg».proof.Proof.Spec
import proofs.«171162_j59115929862199_2_alg».proof.Proof.LibRowOps
import proofs.«171162_j59115929862199_2_alg».proof.Proof.LibVecGather
import Idealize.ShloMosaic.Lib.ValueIdx
import Idealize.ShloMosaic.PureOps.Ideal.Laws

noncomputable section

open scoped BigOperators

namespace Cert.ReferenceIdeal.RefGcn.L1

open Cert.ReferenceIdeal Cert.ReferenceIdeal.Gen Idealize.ShloMosaic Idealize.ShloMosaic.ValueIdx Cert.RowOps

/-! ## The index columns -/

/-- The wrapped source index of edge `e`, in the column `[E, 1]` handed to the gather of the per-node factor: a negative word is
    shifted up by the number of nodes, any other word is kept. -/
theorem wrap_src (x1 : (⟨S2x2097152, .i32⟩ : BufTy).Contents (Elt Ideal)) (e : Fin 2621440) :
    ReadP.val_main_v23 (F := Ideal) x1 (ix2 e 0) = Spec.wrap (ReadP.val_main_v3 (F := Ideal) x1 (ix1 e)) := by
  rw [ReadP.val_main_v23_apply, ReadP.val_main_v22_apply, ReadP.val_main_v19_apply, ReadP.val_main_v21_apply, ReadP.val_main_v18_apply, ReadP.val_main_v20_apply,
    ReadP.val_main_c_apply, ReadP.val_main_c_4_apply]
  have hi : ReadP.idx_main_v23 (ix2 e (0 : Fin 1)) = ix1 e :=
    funext fun a => Fin.ext (by match a with | ⟨0, _⟩ => rfl)
  rw [hi]
  rfl

/-- The wrapped destination index of edge `e`, in the column `[E, 1]` handed to the gather of the per-node factor: a negative word is
    shifted up by the number of nodes, any other word is kept. -/
theorem wrap_dst (x1 : (⟨S2x2097152, .i32⟩ : BufTy).Contents (Elt Ideal)) (e : Fin 2621440) :
    ReadP.val_main_v30 (F := Ideal) x1 (ix2 e 0) = Spec.wrap (ReadP.val_main_v6 (F := Ideal) x1 (ix1 e)) := by
  rw [ReadP.val_main_v30_apply, ReadP.val_main_v29_apply, ReadP.val_main_v26_apply, ReadP.val_main_v28_apply, ReadP.val_main_v25_apply, ReadP.val_main_v27_apply,
    ReadP.val_main_c_5_apply, ReadP.val_main_c_6_apply]
  have hi : ReadP.idx_main_v30 (ix2 e (0 : Fin 1)) = ix1 e :=
    funext fun a => Fin.ext (by match a with | ⟨0, _⟩ => rfl)
  rw [hi]
  rfl

/-- The wrapped source index of edge `e`, in the column `[E, 1]` handed to the gather of rows: a negative word is
    shifted up by the number of nodes, any other word is kept. -/
theorem wrap_row (x1 : (⟨S2x2097152, .i32⟩ : BufTy).Contents (Elt Ideal)) (e : Fin 2621440) :
    ReadP.val_main_v38 (F := Ideal) x1 (ix2 e 0) = Spec.wrap (ReadP.val_main_v3 (F := Ideal) x1 (ix1 e)) := by
  rw [ReadP.val_main_v38_apply, ReadP.val_main_v37_apply, ReadP.val_main_v34_apply, ReadP.val_main_v36_apply, ReadP.val_main_v33_apply, ReadP.val_main_v35_apply,
    ReadP.val_main_c_7_apply, ReadP.val_main_c_8_apply]
  have hi : ReadP.idx_main_v38 (ix2 e (0 : Fin 1)) = ix1 e :=
    funext fun a => Fin.ext (by match a with | ⟨0, _⟩ => rfl)
  rw [hi]
  rfl

/-- The raw destination index of edge `e`, as the column the scatter is handed. -/
theorem raw_dst (x1 : (⟨S2x2097152, .i32⟩ : BufTy).Contents (Elt Ideal)) (e : Fin 2621440) :
    ReadP.val_main_v44 (F := Ideal) x1 (ix2 e 0) = ReadP.val_main_v6 (F := Ideal) x1 (ix1 e) := by
  rw [ReadP.val_main_v44_apply]
  have hi : ReadP.idx_main_v44 (ix2 e (0 : Fin 1)) = ix1 e :=
    funext fun a => Fin.ext (by match a with | ⟨0, _⟩ => rfl)
  rw [hi]

/-! ## The per-edge coefficient -/

/-- The per-node factor gathered at the wrapped source of edge `e`. -/
theorem dis_src (x1 : (⟨S2x2097152, .i32⟩ : BufTy).Contents (Elt Ideal)) (e : Fin 2621440) :
    ReadP.val_main_v24 (F := Ideal) x1 (ix1 e)
      = ReadP.val_main_v16 (F := Ideal) x1 (ix1 (Spec.grow (ReadP.val_main_v3 (F := Ideal) x1 (ix1 e)))) := by
  unfold ReadP.val_main_v24
  refine (Cert.VecGather.gather_vec_apply Spec.NN_pos gather_S524288_S2621440x1_S2621440_n_0_n_n_0_1_1
    rfl rfl rfl rfl rfl rfl rfl _ _ e).trans ?_
  exact congrArg (fun w => ReadP.val_main_v16 (F := Ideal) x1 (ix1 (gatherRow 524288 Spec.NN_pos w))) (wrap_src x1 e)

/-- The per-node factor gathered at the wrapped destination of edge `e`. -/
theorem dis_dst (x1 : (⟨S2x2097152, .i32⟩ : BufTy).Contents (Elt Ideal)) (e : Fin 2621440) :
    ReadP.val_main_v31 (F := Ideal) x1 (ix1 e)
      = ReadP.val_main_v16 (F := Ideal) x1 (ix1 (Spec.grow (ReadP.val_main_v6 (F := Ideal) x1 (ix1 e)))) := by
  unfold ReadP.val_main_v31
  refine (Cert.VecGather.gather_vec_apply Spec.NN_pos gather_S524288_S2621440x1_S2621440_n_0_n_n_0_1_1
    rfl rfl rfl rfl rfl rfl rfl _ _ e).trans ?_
  exact congrArg (fun w => ReadP.val_main_v16 (F := Ideal) x1 (ix1 (gatherRow 524288 Spec.NN_pos w))) (wrap_dst x1 e)

/-- The coefficient of edge `e`: the product of the two gathered factors. -/
theorem coef (x1 : (⟨S2x2097152, .i32⟩ : BufTy).Contents (Elt Ideal)) (e : Fin 2621440) :
    ReadP.val_main_v32 (F := Ideal) x1 (ix1 e)
      = (Spec.a1 (ReadP.val_main_v16 (F := Ideal) x1)) (Spec.grow ((Spec.a1 (ReadP.val_main_v3 (F := Ideal) x1)) e)) * (Spec.a1 (ReadP.val_main_v16 (F := Ideal) x1)) (Spec.grow ((Spec.a1 (ReadP.val_main_v6 (F := Ideal) x1)) e)) := by
  rw [ReadP.val_main_v32_apply, dis_src, dis_dst]
  rfl

/-- The coefficient spread along the columns: element `(e, j)` is the coefficient of edge `e`. -/
theorem coef_bcast (x1 : (⟨S2x2097152, .i32⟩ : BufTy).Contents (Elt Ideal)) (e : Fin 2621440) (j : Fin 64) :
    ReadP.val_main_v41 (F := Ideal) x1 (ix2 e j) = ReadP.val_main_v32 (F := Ideal) x1 (ix1 e) := by
  rw [ReadP.val_main_v41_apply, ReadP.val_main_v40_apply]
  have hi : ReadP.idx_main_v40 (ReadP.idx_main_v41 (ix2 e j)) = ix1 e :=
    funext fun a => Fin.ext (by match a with | ⟨0, _⟩ => rfl)
  rw [hi]

/-! ## The linear map and the messages -/

/-- The linear map at `(r, j)` is the matrix product of the layer's input and weight. -/
theorem lin (x0 : (⟨S524288x30, .f32⟩ : BufTy).Contents (Elt Ideal)) (x5 : (⟨S30x64, .f32⟩ : BufTy).Contents (Elt Ideal)) (r : Fin 524288) (j : Fin 64) :
    ReadP.val_main_v17 (F := Ideal) x0 x5 (ix2 r j) = Spec.mm (Spec.a2 x0) (Spec.a2 x5) r j := by
  rw [ReadP.val_main_v17_apply]
  unfold Spec.mm
  refine Finset.sum_congr rfl fun k _ => ?_
  have hl : ReadP.lidx_main_v17 (ix2 r j) k = ix2 r k :=
    funext fun a => Fin.ext (by match a with | ⟨0, _⟩ => rfl | ⟨1, _⟩ => rfl)
  have hr : ReadP.ridx_main_v17 (ix2 r j) k = ix2 k j :=
    funext fun a => Fin.ext (by match a with | ⟨0, _⟩ => rfl | ⟨1, _⟩ => rfl)
  rw [hl, hr]
  rfl

/-- The gathered row of edge `e`: the linear map's row at the wrapped source. -/
theorem rows (x0 : (⟨S524288x30, .f32⟩ : BufTy).Contents (Elt Ideal)) (x1 : (⟨S2x2097152, .i32⟩ : BufTy).Contents (Elt Ideal)) (x5 : (⟨S30x64, .f32⟩ : BufTy).Contents (Elt Ideal)) (e : Fin 2621440) (j : Fin 64) :
    ReadP.val_main_v39 (F := Ideal) x0 x1 x5 (ix2 e j)
      = ReadP.val_main_v17 (F := Ideal) x0 x5 (ix2 (Spec.grow (ReadP.val_main_v3 (F := Ideal) x1 (ix1 e))) j) := by
  unfold ReadP.val_main_v39
  refine (gather_rows_apply Spec.NN_pos gather_S524288x64_S2621440x1_S2621440x64_1_0_n_n_0_1_164
    rfl rfl rfl rfl rfl rfl rfl _ _ e j).trans ?_
  exact congrArg (fun w => ReadP.val_main_v17 (F := Ideal) x0 x5 (ix2 (gatherRow 524288 Spec.NN_pos w) j)) (wrap_row x1 e)

/-- The message of edge `e` at column `j`: the gathered row times the edge's coefficient. -/
theorem msg (x0 : (⟨S524288x30, .f32⟩ : BufTy).Contents (Elt Ideal)) (x1 : (⟨S2x2097152, .i32⟩ : BufTy).Contents (Elt Ideal)) (x5 : (⟨S30x64, .f32⟩ : BufTy).Contents (Elt Ideal)) (e : Fin 2621440) (j : Fin 64) :
    ReadP.val_main_v42 (F := Ideal) x0 x1 x5 (ix2 e j)
      = Spec.mm (Spec.a2 x0) (Spec.a2 x5) (Spec.grow ((Spec.a1 (ReadP.val_main_v3 (F := Ideal) x1)) e)) j
          * ((Spec.a1 (ReadP.val_main_v16 (F := Ideal) x1)) (Spec.grow ((Spec.a1 (ReadP.val_main_v3 (F := Ideal) x1)) e)) * (Spec.a1 (ReadP.val_main_v16 (F := Ideal) x1)) (Spec.grow ((Spec.a1 (ReadP.val_main_v6 (F := Ideal) x1)) e))) := by
  rw [ReadP.val_main_v42_apply, rows, coef_bcast, coef, lin]
  rfl

/-! ## The neighbourhood sum, the bias and the clamp -/

/-- The array the sum starts from is the zero word everywhere. -/
theorem zero_init (n : Fin 524288) (j : Fin 64) : ReadP.val_main_v43 (F := Ideal) (ix2 n j) = Spec.z0 := by
  rw [ReadP.val_main_v43_apply, ReadP.val_main_cst_9_apply]
  rfl

/-- The clamp's lower bound is the zero word everywhere. -/
theorem zero_clamp (n : Fin 524288) (j : Fin 64) : ReadP.val_main_call1_v0 (F := Ideal) (ix2 n j) = Spec.z0 := by
  rw [ReadP.val_main_call1_v0_apply, ReadP.val_main_call1_cst_apply]
  rfl

/-- The bias spread along the rows: element `(n, j)` is the bias at `j`. -/
theorem bias (x6 : (⟨S64, .f32⟩ : BufTy).Contents (Elt Ideal)) (n : Fin 524288) (j : Fin 64) :
    ReadP.val_main_v47 (F := Ideal) x6 (ix2 n j) = x6 (ix1 j) := by
  rw [ReadP.val_main_v47_apply, ReadP.val_main_v46_apply]
  have hi : ReadP.idx_main_v46 (ReadP.idx_main_v47 (ix2 n j)) = ix1 j :=
    funext fun a => Fin.ext (by match a with | ⟨0, _⟩ => rfl)
  rw [hi]

/-- The neighbourhood sum at `(n, j)`: the zero word plus the messages of the edges whose raw destination is `n`. -/
theorem nbr_sum (x0 : (⟨S524288x30, .f32⟩ : BufTy).Contents (Elt Ideal)) (x1 : (⟨S2x2097152, .i32⟩ : BufTy).Contents (Elt Ideal)) (x5 : (⟨S30x64, .f32⟩ : BufTy).Contents (Elt Ideal)) (n : Fin 524288) (j : Fin 64) :
    ReadP.val_main_v45 (F := Ideal) x0 x1 x5 (ix2 n j)
      = Spec.seg (Spec.a1 (ReadP.val_main_v6 (F := Ideal) x1)) (fun e j => Spec.mm (Spec.a2 x0) (Spec.a2 x5) (Spec.grow ((Spec.a1 (ReadP.val_main_v3 (F := Ideal) x1)) e)) j * ((Spec.a1 (ReadP.val_main_v16 (F := Ideal) x1)) (Spec.grow ((Spec.a1 (ReadP.val_main_v3 (F := Ideal) x1)) e)) * (Spec.a1 (ReadP.val_main_v16 (F := Ideal) x1)) (Spec.grow ((Spec.a1 (ReadP.val_main_v6 (F := Ideal) x1)) e)))) n j := by
  unfold ReadP.val_main_v45
  refine (scatterAdd_rows_apply scatter_S524288x64_S2621440x1_S2621440x64_1_0_0_1 rfl rfl rfl rfl
    _ _ _ n j).trans ?_
  unfold Spec.seg
  rw [zero_init]
  refine congrArg (fun s => Spec.z0 + s) ?_
  refine Finset.sum_congr (Finset.filter_congr fun e _ =>
    Iff.of_eq (congrArg (fun w => scatterRow 524288 w = some n) (raw_dst x1 e))) fun e _ => ?_
  exact msg x0 x1 x5 e j

/-- The layer at `(n, j)`. -/
theorem layer_apply (x0 : (⟨S524288x30, .f32⟩ : BufTy).Contents (Elt Ideal)) (x1 : (⟨S2x2097152, .i32⟩ : BufTy).Contents (Elt Ideal)) (x5 : (⟨S30x64, .f32⟩ : BufTy).Contents (Elt Ideal)) (x6 : (⟨S64, .f32⟩ : BufTy).Contents (Elt Ideal)) (n : Fin 524288) (j : Fin 64) :
    ReadP.val_main_v49 (F := Ideal) x0 x1 x5 x6 (ix2 n j)
      = Spec.layerR (Spec.a1 (ReadP.val_main_v3 (F := Ideal) x1)) (Spec.a1 (ReadP.val_main_v6 (F := Ideal) x1)) (Spec.a1 (ReadP.val_main_v16 (F := Ideal) x1)) (Spec.a2 x0) (Spec.a2 x5) (Spec.a1 x6) n j := by
  rw [ReadP.val_main_v49_apply, ReadP.val_main_v48_apply, zero_clamp, bias, nbr_sum]
  rfl

/-- The layer as a function of the node and the column. -/
theorem layer (x0 : (⟨S524288x30, .f32⟩ : BufTy).Contents (Elt Ideal)) (x1 : (⟨S2x2097152, .i32⟩ : BufTy).Contents (Elt Ideal)) (x5 : (⟨S30x64, .f32⟩ : BufTy).Contents (Elt Ideal)) (x6 : (⟨S64, .f32⟩ : BufTy).Contents (Elt Ideal)) :
    Spec.a2 (ReadP.val_main_v49 (F := Ideal) x0 x1 x5 x6)
      = Spec.layerR (Spec.a1 (ReadP.val_main_v3 (F := Ideal) x1)) (Spec.a1 (ReadP.val_main_v6 (F := Ideal) x1)) (Spec.a1 (ReadP.val_main_v16 (F := Ideal) x1)) (Spec.a2 x0) (Spec.a2 x5) (Spec.a1 x6) :=
  funext fun n => funext fun j => layer_apply x0 x1 x5 x6 n j

end Cert.ReferenceIdeal.RefGcn.L1

end
-- ==== Proof.RefGcn2.lean ====
/-
  Message-passing layer 2 of the reference program, read element by element.

  The layer multiplies the node features by the weight matrix, gathers the product's rows by the wrapped source
  index of each edge, scales each gathered row by the product of the two per-node factors read at the wrapped source
  and the wrapped destination of the edge, sums the scaled rows into the row that the raw destination index names
  (an index that names no row contributes nothing), adds the bias along the columns and clamps below at zero.
  Each step is read at one element; the index arrays and the per-node factor stay opaque arrays throughout.
-/
import proofs.«171162_j59115929862199_2_alg».proof.Proof.RefReadP
import proofs.«171162_j59115929862199_2_alg».proof.Proof.Spec
import proofs.«171162_j59115929862199_2_alg».proof.Proof.LibRowOps
import proofs.«171162_j59115929862199_2_alg».proof.Proof.LibVecGather
import Idealize.ShloMosaic.Lib.ValueIdx
import Idealize.ShloMosaic.PureOps.Ideal.Laws

noncomputable section

open scoped BigOperators

namespace Cert.ReferenceIdeal.RefGcn.L2

open Cert.ReferenceIdeal Cert.ReferenceIdeal.Gen Idealize.ShloMosaic Idealize.ShloMosaic.ValueIdx Cert.RowOps

/-! ## The index columns -/

/-- The wrapped source index of edge `e`, in the column `[E, 1]` handed to the gather of the per-node factor: a negative word is
    shifted up by the number of nodes, any other word is kept. -/
theorem wrap_src (x1 : (⟨S2x2097152, .i32⟩ : BufTy).Contents (Elt Ideal)) (e : Fin 2621440) :
    ReadP.val_main_v56 (F := Ideal) x1 (ix2 e 0) = Spec.wrap (ReadP.val_main_v3 (F := Ideal) x1 (ix1 e)) := by
  rw [ReadP.val_main_v56_apply, ReadP.val_main_v55_apply, ReadP.val_main_v52_apply, ReadP.val_main_v54_apply, ReadP.val_main_v51_apply, ReadP.val_main_v53_apply,
    ReadP.val_main_c_10_apply, ReadP.val_main_c_11_apply]
  have hi : ReadP.idx_main_v56 (ix2 e (0 : Fin 1)) = ix1 e :=
    funext fun a => Fin.ext (by match a with | ⟨0, _⟩ => rfl)
  rw [hi]
  rfl

/-- The wrapped destination index of edge `e`, in the column `[E, 1]` handed to the gather of the per-node factor: a negative word is
    shifted up by the number of nodes, any other word is kept. -/
theorem wrap_dst (x1 : (⟨S2x2097152, .i32⟩ : BufTy).Contents (Elt Ideal)) (e : Fin 2621440) :
    ReadP.val_main_v63 (F := Ideal) x1 (ix2 e 0) = Spec.wrap (ReadP.val_main_v6 (F := Ideal) x1 (ix1 e)) := by
  rw [ReadP.val_main_v63_apply, ReadP.val_main_v62_apply, ReadP.val_main_v59_apply, ReadP.val_main_v61_apply, ReadP.val_main_v58_apply, ReadP.val_main_v60_apply,
    ReadP.val_main_c_12_apply, ReadP.val_main_c_13_apply]
  have hi : ReadP.idx_main_v63 (ix2 e (0 : Fin 1)) = ix1 e :=
    funext fun a => Fin.ext (by match a with | ⟨0, _⟩ => rfl)
  rw [hi]
  rfl

/-- The wrapped source index of edge `e`, in the column `[E, 1]` handed to the gather of rows: a negative word is
    shifted up by the number of nodes, any other word is kept. -/
theorem wrap_row (x1 : (⟨S2x2097152, .i32⟩ : BufTy).Contents (Elt Ideal)) (e : Fin 2621440) :
    ReadP.val_main_v71 (F := Ideal) x1 (ix2 e 0) = Spec.wrap (ReadP.val_main_v3 (F := Ideal) x1 (ix1 e)) := by
  rw [ReadP.val_main_v71_apply, ReadP.val_main_v70_apply, ReadP.val_main_v67_apply, ReadP.val_main_v69_apply, ReadP.val_main_v66_apply, ReadP.val_main_v68_apply,
    ReadP.val_main_c_14_apply, ReadP.val_main_c_15_apply]
  have hi : ReadP.idx_main_v71 (ix2 e (0 : Fin 1)) = ix1 e :=
    funext fun a => Fin.ext (by match a with | ⟨0, _⟩ => rfl)
  rw [hi]
  rfl

/-- The raw destination index of edge `e`, as the column the scatter is handed. -/
theorem raw_dst (x1 : (⟨S2x2097152, .i32⟩ : BufTy).Contents (Elt Ideal)) (e : Fin 2621440) :
    ReadP.val_main_v77 (F := Ideal) x1 (ix2 e 0) = ReadP.val_main_v6 (F := Ideal) x1 (ix1 e) := by
  rw [ReadP.val_main_v77_apply]
  have hi : ReadP.idx_main_v77 (ix2 e (0 : Fin 1)) = ix1 e :=
    funext fun a => Fin.ext (by match a with | ⟨0, _⟩ => rfl)
  rw [hi]

/-! ## The per-edge coefficient -/

/-- The per-node factor gathered at the wrapped source of edge `e`. -/
theorem dis_src (x1 : (⟨S2x2097152, .i32⟩ : BufTy).Contents (Elt Ideal)) (e : Fin 2621440) :
    ReadP.val_main_v57 (F := Ideal) x1 (ix1 e)
      = ReadP.val_main_v16 (F := Ideal) x1 (ix1 (Spec.grow (ReadP.val_main_v3 (F := Ideal) x1 (ix1 e)))) := by
  unfold ReadP.val_main_v57
  refine (Cert.VecGather.gather_vec_apply Spec.NN_pos gather_S524288_S2621440x1_S2621440_n_0_n_n_0_1_1
    rfl rfl rfl rfl rfl rfl rfl _ _ e).trans ?_
  exact congrArg (fun w => ReadP.val_main_v16 (F := Ideal) x1 (ix1 (gatherRow 524288 Spec.NN_pos w))) (wrap_src x1 e)

/-- The per-node factor gathered at the wrapped destination of edge `e`. -/
theorem dis_dst (x1 : (⟨S2x2097152, .i32⟩ : BufTy).Contents (Elt Ideal)) (e : Fin 2621440) :
    ReadP.val_main_v64 (F := Ideal) x1 (ix1 e)
      = ReadP.val_main_v16 (F := Ideal) x1 (ix1 (Spec.grow (ReadP.val_main_v6 (F := Ideal) x1 (ix1 e)))) := by
  unfold ReadP.val_main_v64
  refine (Cert.VecGather.gather_vec_apply Spec.NN_pos gather_S524288_S2621440x1_S2621440_n_0_n_n_0_1_1
    rfl rfl rfl rfl rfl rfl rfl _ _ e).trans ?_
  exact congrArg (fun w => ReadP.val_main_v16 (F := Ideal) x1 (ix1 (gatherRow 524288 Spec.NN_pos w))) (wrap_dst x1 e)

/-- The coefficient of edge `e`: the product of the two gathered factors. -/
theorem coef (x1 : (⟨S2x2097152, .i32⟩ : BufTy).Contents (Elt Ideal)) (e : Fin 2621440) :
    ReadP.val_main_v65 (F := Ideal) x1 (ix1 e)
      = (Spec.a1 (ReadP.val_main_v16 (F := Ideal) x1)) (Spec.grow ((Spec.a1 (ReadP.val_main_v3 (F := Ideal) x1)) e)) * (Spec.a1 (ReadP.val_main_v16 (F := Ideal) x1)) (Spec.grow ((Spec.a1 (ReadP.val_main_v6 (F := Ideal) x1)) e)) := by
  rw [ReadP.val_main_v65_apply, dis_src, dis_dst]
  rfl

/-- The coefficient spread along the columns: element `(e, j)` is the coefficient of edge `e`. -/
theorem coef_bcast (x1 : (⟨S2x2097152, .i32⟩ : BufTy).Contents (Elt Ideal)) (e : Fin 2621440) (j : Fin 64) :
    ReadP.val_main_v74 (F := Ideal) x1 (ix2 e j) = ReadP.val_main_v65 (F := Ideal) x1 (ix1 e) := by
  rw [ReadP.val_main_v74_apply, ReadP.val_main_v73_apply]
  have hi : ReadP.idx_main_v73 (ReadP.idx_main_v74 (ix2 e j)) = ix1 e :=
    funext fun a => Fin.ext (by match a with | ⟨0, _⟩ => rfl)
  rw [hi]

/-! ## The linear map and the messages -/

/-- The linear map at `(r, j)` is the matrix product of the layer's input and weight. -/
theorem lin (x0 : (⟨S524288x30, .f32⟩ : BufTy).Contents (Elt Ideal)) (x1 : (⟨S2x2097152, .i32⟩ : BufTy).Contents (Elt Ideal)) (x5 : (⟨S30x64, .f32⟩ : BufTy).Contents (Elt Ideal)) (x6 : (⟨S64, .f32⟩ : BufTy).Contents (Elt Ideal)) (x7 : (⟨S64x64, .f32⟩ : BufTy).Contents (Elt Ideal)) (r : Fin 524288) (j : Fin 64) :
    ReadP.val_main_v50 (F := Ideal) x0 x1 x5 x6 x7 (ix2 r j) = Spec.mm (Spec.a2 (ReadP.val_main_v49 (F := Ideal) x0 x1 x5 x6)) (Spec.a2 x7) r j := by
  rw [ReadP.val_main_v50_apply]
  unfold Spec.mm
  refine Finset.sum_congr rfl fun k _ => ?_
  have hl : ReadP.lidx_main_v50 (ix2 r j) k = ix2 r k :=
    funext fun a => Fin.ext (by match a with | ⟨0, _⟩ => rfl | ⟨1, _⟩ => rfl)
  have hr : ReadP.ridx_main_v50 (ix2 r j) k = ix2 k j :=
    funext fun a => Fin.ext (by match a with | ⟨0, _⟩ => rfl | ⟨1, _⟩ => rfl)
  rw [hl, hr]
  rfl

/-- The gathered row of edge `e`: the linear map's row at the wrapped source. -/
theorem rows (x0 : (⟨S524288x30, .f32⟩ : BufTy).Contents (Elt Ideal)) (x1 : (⟨S2x2097152, .i32⟩ : BufTy).Contents (Elt Ideal)) (x5 : (⟨S30x64, .f32⟩ : BufTy).Contents (Elt Ideal)) (x6 : (⟨S64, .f32⟩ : BufTy).Contents (Elt Ideal)) (x7 : (⟨S64x64, .f32⟩ : BufTy).Contents (Elt Ideal)) (e : Fin 2621440) (j : Fin 64) :
    ReadP.val_main_v72 (F := Ideal) x0 x1 x5 x6 x7 (ix2 e j)
      = ReadP.val_main_v50 (F := Ideal) x0 x1 x5 x6 x7 (ix2 (Spec.grow (ReadP.val_main_v3 (F := Ideal) x1 (ix1 e))) j) := by
  unfold ReadP.val_main_v72
  refine (gather_rows_apply Spec.NN_pos gather_S524288x64_S2621440x1_S2621440x64_1_0_n_n_0_1_164
    rfl rfl rfl rfl rfl rfl rfl _ _ e j).trans ?_
  exact congrArg (fun w => ReadP.val_main_v50 (F := Ideal) x0 x1 x5 x6 x7 (ix2 (gatherRow 524288 Spec.NN_pos w) j)) (wrap_row x1 e)

/-- The message of edge `e` at column `j`: the gathered row times the edge's coefficient. -/
theorem msg (x0 : (⟨S524288x30, .f32⟩ : BufTy).Contents (Elt Ideal)) (x1 : (⟨S2x2097152, .i32⟩ : BufTy).Contents (Elt Ideal)) (x5 : (⟨S30x64, .f32⟩ : BufTy).Contents (Elt Ideal)) (x6 : (⟨S64, .f32⟩ : BufTy).Contents (Elt Ideal)) (x7 : (⟨S64x64, .f32⟩ : BufTy).Contents (Elt Ideal)) (e : Fin 2621440) (j : Fin 64) :
    ReadP.val_main_v75 (F := Ideal) x0 x1 x5 x6 x7 (ix2 e j)
      = Spec.mm (Spec.a2 (ReadP.val_main_v49 (F := Ideal) x0 x1 x5 x6)) (Spec.a2 x7) (Spec.grow ((Spec.a1 (ReadP.val_main_v3 (F := Ideal) x1)) e)) j
          * ((Spec.a1 (ReadP.val_main_v16 (F := Ideal) x1)) (Spec.grow ((Spec.a1 (ReadP.val_main_v3 (F := Ideal) x1)) e)) * (Spec.a1 (ReadP.val_main_v16 (F := Ideal) x1)) (Spec.grow ((Spec.a1 (ReadP.val_main_v6 (F := Ideal) x1)) e))) := by
  rw [ReadP.val_main_v75_apply, rows, coef_bcast, coef, lin]
  rfl

/-! ## The neighbourhood sum, the bias and the clamp -/

/-- The array the sum starts from is the zero word everywhere. -/
theorem zero_init (n : Fin 524288) (j : Fin 64) : ReadP.val_main_v76 (F := Ideal) (ix2 n j) = Spec.z0 := by
  rw [ReadP.val_main_v76_apply, ReadP.val_main_cst_16_apply]
  rfl

/-- The clamp's lower bound is the zero word everywhere. -/
theorem zero_clamp (n : Fin 524288) (j : Fin 64) : ReadP.val_main_call2_v0 (F := Ideal) (ix2 n j) = Spec.z0 := by
  rw [ReadP.val_main_call2_v0_apply, ReadP.val_main_call2_cst_apply]
  rfl

/-- The bias spread along the rows: element `(n, j)` is the bias at `j`. -/
theorem bias (x8 : (⟨S64, .f32⟩ : BufTy).Contents (Elt Ideal)) (n : Fin 524288) (j : Fin 64) :
    ReadP.val_main_v80 (F := Ideal) x8 (ix2 n j) = x8 (ix1 j) := by
  rw [ReadP.val_main_v80_apply, ReadP.val_main_v79_apply]
  have hi : ReadP.idx_main_v79 (ReadP.idx_main_v80 (ix2 n j)) = ix1 j :=
    funext fun a => Fin.ext (by match a with | ⟨0, _⟩ => rfl)
  rw [hi]

/-- The neighbourhood sum at `(n, j)`: the zero word plus the messages of the edges whose raw destination is `n`. -/
theorem nbr_sum (x0 : (⟨S524288x30, .f32⟩ : BufTy).Contents (Elt Ideal)) (x1 : (⟨S2x2097152, .i32⟩ : BufTy).Contents (Elt Ideal)) (x5 : (⟨S30x64, .f32⟩ : BufTy).Contents (Elt Ideal)) (x6 : (⟨S64, .f32⟩ : BufTy).Contents (Elt Ideal)) (x7 : (⟨S64x64, .f32⟩ : BufTy).Contents (Elt Ideal)) (n : Fin 524288) (j : Fin 64) :
    ReadP.val_main_v78 (F := Ideal) x0 x1 x5 x6 x7 (ix2 n j)
      = Spec.seg (Spec.a1 (ReadP.val_main_v6 (F := Ideal) x1)) (fun e j => Spec.mm (Spec.a2 (ReadP.val_main_v49 (F := Ideal) x0 x1 x5 x6)) (Spec.a2 x7) (Spec.grow ((Spec.a1 (ReadP.val_main_v3 (F := Ideal) x1)) e)) j * ((Spec.a1 (ReadP.val_main_v16 (F := Ideal) x1)) (Spec.grow ((Spec.a1 (ReadP.val_main_v3 (F := Ideal) x1)) e)) * (Spec.a1 (ReadP.val_main_v16 (F := Ideal) x1)) (Spec.grow ((Spec.a1 (ReadP.val_main_v6 (F := Ideal) x1)) e)))) n j := by
  unfold ReadP.val_main_v78
  refine (scatterAdd_rows_apply scatter_S524288x64_S2621440x1_S2621440x64_1_0_0_1 rfl rfl rfl rfl
    _ _ _ n j).trans ?_
  unfold Spec.seg
  rw [zero_init]
  refine congrArg (fun s => Spec.z0 + s) ?_
  refine Finset.sum_congr (Finset.filter_congr fun e _ =>
    Iff.of_eq (congrArg (fun w => scatterRow 524288 w = some n) (raw_dst x1 e))) fun e _ => ?_
  exact msg x0 x1 x5 x6 x7 e j

/-- The layer at `(n, j)`. -/
theorem layer_apply (x0 : (⟨S524288x30, .f32⟩ : BufTy).Contents (Elt Ideal)) (x1 : (⟨S2x2097152, .i32⟩ : BufTy).Contents (Elt Ideal)) (x5 : (⟨S30x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (n : Fin 524288) (j : Fin 64) :
    ReadP.val_main_v82 (F := Ideal) x0 x1 x5 x6 x7 x8 (ix2 n j)
      = Spec.layerR (Spec.a1 (ReadP.val_main_v3 (F := Ideal) x1)) (Spec.a1 (ReadP.val_main_v6 (F := Ideal) x1)) (Spec.a1 (ReadP.val_main_v16 (F := Ideal) x1)) (Spec.a2 (ReadP.val_main_v49 (F := Ideal) x0 x1 x5 x6)) (Spec.a2 x7) (Spec.a1 x8) n j := by
  rw [ReadP.val_main_v82_apply, ReadP.val_main_v81_apply, zero_clamp, bias, nbr_sum]
  rfl

/-- The layer as a function of the node and the column. -/
theorem layer (x0 : (⟨S524288x30, .f32⟩ : BufTy).Contents (Elt Ideal)) (x1 : (⟨S2x2097152, .i32⟩ : BufTy).Contents (Elt Ideal)) (x5 : (⟨S30x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) :
    Spec.a2 (ReadP.val_main_v82 (F := Ideal) x0 x1 x5 x6 x7 x8)
      = Spec.layerR (Spec.a1 (ReadP.val_main_v3 (F := Ideal) x1)) (Spec.a1 (ReadP.val_main_v6 (F := Ideal) x1)) (Spec.a1 (ReadP.val_main_v16 (F := Ideal) x1)) (Spec.a2 (ReadP.val_main_v49 (F := Ideal) x0 x1 x5 x6)) (Spec.a2 x7) (Spec.a1 x8) :=
  funext fun n => funext fun j => layer_apply x0 x1 x5 x6 x7 x8 n j

end Cert.ReferenceIdeal.RefGcn.L2

end
-- ==== Proof.RefGcn3.lean ====
/-
  Message-passing layer 3 of the reference program, read element by element.

  The layer multiplies the node features by the weight matrix, gathers the product's rows by the wrapped source
  index of each edge, scales each gathered row by the product of the two per-node factors read at the wrapped source
  and the wrapped destination of the edge, sums the scaled rows into the row that the raw destination index names
  (an index that names no row contributes nothing), adds the bias along the columns and clamps below at zero.
  Each step is read at one element; the index arrays and the per-node factor stay opaque arrays throughout.
-/
import proofs.«171162_j59115929862199_2_alg».proof.Proof.RefReadP
import proofs.«171162_j59115929862199_2_alg».proof.Proof.Spec
import proofs.«171162_j59115929862199_2_alg».proof.Proof.LibRowOps
import proofs.«171162_j59115929862199_2_alg».proof.Proof.LibVecGather
import Idealize.ShloMosaic.Lib.ValueIdx
import Idealize.ShloMosaic.PureOps.Ideal.Laws

noncomputable section

open scoped BigOperators

namespace Cert.ReferenceIdeal.RefGcn.L3

open Cert.ReferenceIdeal Cert.ReferenceIdeal.Gen Idealize.ShloMosaic Idealize.ShloMosaic.ValueIdx Cert.RowOps

/-! ## The index columns -/

/-- The wrapped source index of edge `e`, in the column `[E, 1]` handed to the gather of the per-node factor: a negative word is
    shifted up by the number of nodes, any other word is kept. -/
theorem wrap_src (x1 : (⟨S2x2097152, .i32⟩ : BufTy).Contents (Elt Ideal)) (e : Fin 2621440) :
    ReadP.val_main_v89 (F := Ideal) x1 (ix2 e 0) = Spec.wrap (ReadP.val_main_v3 (F := Ideal) x1 (ix1 e)) := by
  rw [ReadP.val_main_v89_apply, ReadP.val_main_v88_apply, ReadP.val_main_v85_apply, ReadP.val_main_v87_apply, ReadP.val_main_v84_apply, ReadP.val_main_v86_apply,
    ReadP.val_main_c_17_apply, ReadP.val_main_c_18_apply]
  have hi : ReadP.idx_main_v89 (ix2 e (0 : Fin 1)) = ix1 e :=
    funext fun a => Fin.ext (by match a with | ⟨0, _⟩ => rfl)
  rw [hi]
  rfl

/-- The wrapped destination index of edge `e`, in the column `[E, 1]` handed to the gather of the per-node factor: a negative word is
    shifted up by the number of nodes, any other word is kept. -/
theorem wrap_dst (x1 : (⟨S2x2097152, .i32⟩ : BufTy).Contents (Elt Ideal)) (e : Fin 2621440) :
    ReadP.val_main_v96 (F := Ideal) x1 (ix2 e 0) = Spec.wrap (ReadP.val_main_v6 (F := Ideal) x1 (ix1 e)) := by
  rw [ReadP.val_main_v96_apply, ReadP.val_main_v95_apply, ReadP.val_main_v92_apply, ReadP.val_main_v94_apply, ReadP.val_main_v91_apply, ReadP.val_main_v93_apply,
    ReadP.val_main_c_19_apply, ReadP.val_main_c_20_apply]
  have hi : ReadP.idx_main_v96 (ix2 e (0 : Fin 1)) = ix1 e :=
    funext fun a => Fin.ext (by match a with | ⟨0, _⟩ => rfl)
  rw [hi]
  rfl

/-- The wrapped source index of edge `e`, in the column `[E, 1]` handed to the gather of rows: a negative word is
    shifted up by the number of nodes, any other word is kept. -/
theorem wrap_row (x1 : (⟨S2x2097152, .i32⟩ : BufTy).Contents (Elt Ideal)) (e : Fin 2621440) :
    ReadP.val_main_v104 (F := Ideal) x1 (ix2 e 0) = Spec.wrap (ReadP.val_main_v3 (F := Ideal) x1 (ix1 e)) := by
  rw [ReadP.val_main_v104_apply, ReadP.val_main_v103_apply, ReadP.val_main_v100_apply, ReadP.val_main_v102_apply, ReadP.val_main_v99_apply, ReadP.val_main_v101_apply,
    ReadP.val_main_c_21_apply, ReadP.val_main_c_22_apply]
  have hi : ReadP.idx_main_v104 (ix2 e (0 : Fin 1)) = ix1 e :=
    funext fun a => Fin.ext (by match a with | ⟨0, _⟩ => rfl)
  rw [hi]
  rfl

/-- The raw destination index of edge `e`, as the column the scatter is handed. -/
theorem raw_dst (x1 : (⟨S2x2097152, .i32⟩ : BufTy).Contents (Elt Ideal)) (e : Fin 2621440) :
    ReadP.val_main_v110 (F := Ideal) x1 (ix2 e 0) = ReadP.val_main_v6 (F := Ideal) x1 (ix1 e) := by
  rw [ReadP.val_main_v110_apply]
  have hi : ReadP.idx_main_v110 (ix2 e (0 : Fin 1)) = ix1 e :=
    funext fun a => Fin.ext (by match a with | ⟨0, _⟩ => rfl)
  rw [hi]

/-! ## The per-edge coefficient -/

/-- The per-node factor gathered at the wrapped source of edge `e`. -/
theorem dis_src (x1 : (⟨S2x2097152, .i32⟩ : BufTy).Contents (Elt Ideal)) (e : Fin 2621440) :
    ReadP.val_main_v90 (F := Ideal) x1 (ix1 e)
      = ReadP.val_main_v16 (F := Ideal) x1 (ix1 (Spec.grow (ReadP.val_main_v3 (F := Ideal) x1 (ix1 e)))) := by
  unfold ReadP.val_main_v90
  refine (Cert.VecGather.gather_vec_apply Spec.NN_pos gather_S524288_S2621440x1_S2621440_n_0_n_n_0_1_1
    rfl rfl rfl rfl rfl rfl rfl _ _ e).trans ?_
  exact congrArg (fun w => ReadP.val_main_v16 (F := Ideal) x1 (ix1 (gatherRow 524288 Spec.NN_pos w))) (wrap_src x1 e)

/-- The per-node factor gathered at the wrapped destination of edge `e`. -/
theorem dis_dst (x1 : (⟨S2x2097152, .i32⟩ : BufTy).Contents (Elt Ideal)) (e : Fin 2621440) :
    ReadP.val_main_v97 (F := Ideal) x1 (ix1 e)
      = ReadP.val_main_v16 (F := Ideal) x1 (ix1 (Spec.grow (ReadP.val_main_v6 (F := Ideal) x1 (ix1 e)))) := by
  unfold ReadP.val_main_v97
  refine (Cert.VecGather.gather_vec_apply Spec.NN_pos gather_S524288_S2621440x1_S2621440_n_0_n_n_0_1_1
    rfl rfl rfl rfl rfl rfl rfl _ _ e).trans ?_
  exact congrArg (fun w => ReadP.val_main_v16 (F := Ideal) x1 (ix1 (gatherRow 524288 Spec.NN_pos w))) (wrap_dst x1 e)

/-- The coefficient of edge `e`: the product of the two gathered factors. -/
theorem coef (x1 : (⟨S2x2097152, .i32⟩ : BufTy).Contents (Elt Ideal)) (e : Fin 2621440) :
    ReadP.val_main_v98 (F := Ideal) x1 (ix1 e)
      = (Spec.a1 (ReadP.val_main_v16 (F := Ideal) x1)) (Spec.grow ((Spec.a1 (ReadP.val_main_v3 (F := Ideal) x1)) e)) * (Spec.a1 (ReadP.val_main_v16 (F := Ideal) x1)) (Spec.grow ((Spec.a1 (ReadP.val_main_v6 (F := Ideal) x1)) e)) := by
  rw [ReadP.val_main_v98_apply, dis_src, dis_dst]
  rfl

/-- The coefficient spread along the columns: element `(e, j)` is the coefficient of edge `e`. -/
theorem coef_bcast (x1 : (⟨S2x2097152, .i32⟩ : BufTy).Contents (Elt Ideal)) (e : Fin 2621440) (j : Fin 64) :
    ReadP.val_main_v107 (F := Ideal) x1 (ix2 e j) = ReadP.val_main_v98 (F := Ideal) x1 (ix1 e) := by
  rw [ReadP.val_main_v107_apply, ReadP.val_main_v106_apply]
  have hi : ReadP.idx_main_v106 (ReadP.idx_main_v107 (ix2 e j)) = ix1 e :=
    funext fun a => Fin.ext (by match a with | ⟨0, _⟩ => rfl)
  rw [hi]

/-! ## The linear map and the messages -/

/-- The linear map at `(r, j)` is the matrix product of the layer's input and weight. -/
theorem lin (x0 : (⟨S524288x30, .f32⟩ : BufTy).Contents (Elt Ideal)) (x1 : (⟨S2x2097152, .i32⟩ : BufTy).Contents (Elt Ideal)) (x5 : (⟨S30x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (r : Fin 524288) (j : Fin 64) :
    ReadP.val_main_v83 (F := Ideal) x0 x1 x5 x6 x7 x8 x9 (ix2 r j) = Spec.mm (Spec.a2 (ReadP.val_main_v82 (F := Ideal) x0 x1 x5 x6 x7 x8)) (Spec.a2 x9) r j := by
  rw [ReadP.val_main_v83_apply]
  unfold Spec.mm
  refine Finset.sum_congr rfl fun k _ => ?_
  have hl : ReadP.lidx_main_v83 (ix2 r j) k = ix2 r k :=
    funext fun a => Fin.ext (by match a with | ⟨0, _⟩ => rfl | ⟨1, _⟩ => rfl)
  have hr : ReadP.ridx_main_v83 (ix2 r j) k = ix2 k j :=
    funext fun a => Fin.ext (by match a with | ⟨0, _⟩ => rfl | ⟨1, _⟩ => rfl)
  rw [hl, hr]
  rfl

/-- The gathered row of edge `e`: the linear map's row at the wrapped source. -/
theorem rows (x0 : (⟨S524288x30, .f32⟩ : BufTy).Contents (Elt Ideal)) (x1 : (⟨S2x2097152, .i32⟩ : BufTy).Contents (Elt Ideal)) (x5 : (⟨S30x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (e : Fin 2621440) (j : Fin 64) :
    ReadP.val_main_v105 (F := Ideal) x0 x1 x5 x6 x7 x8 x9 (ix2 e j)
      = ReadP.val_main_v83 (F := Ideal) x0 x1 x5 x6 x7 x8 x9 (ix2 (Spec.grow (ReadP.val_main_v3 (F := Ideal) x1 (ix1 e))) j) := by
  unfold ReadP.val_main_v105
  refine (gather_rows_apply Spec.NN_pos gather_S524288x64_S2621440x1_S2621440x64_1_0_n_n_0_1_164
    rfl rfl rfl rfl rfl rfl rfl _ _ e j).trans ?_
  exact congrArg (fun w => ReadP.val_main_v83 (F := Ideal) x0 x1 x5 x6 x7 x8 x9 (ix2 (gatherRow 524288 Spec.NN_pos w) j)) (wrap_row x1 e)

/-- The message of edge `e` at column `j`: the gathered row times the edge's coefficient. -/
theorem msg (x0 : (⟨S524288x30, .f32⟩ : BufTy).Contents (Elt Ideal)) (x1 : (⟨S2x2097152, .i32⟩ : BufTy).Contents (Elt Ideal)) (x5 : (⟨S30x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (e : Fin 2621440) (j : Fin 64) :
    ReadP.val_main_v108 (F := Ideal) x0 x1 x5 x6 x7 x8 x9 (ix2 e j)
      = Spec.mm (Spec.a2 (ReadP.val_main_v82 (F := Ideal) x0 x1 x5 x6 x7 x8)) (Spec.a2 x9) (Spec.grow ((Spec.a1 (ReadP.val_main_v3 (F := Ideal) x1)) e)) j
          * ((Spec.a1 (ReadP.val_main_v16 (F := Ideal) x1)) (Spec.grow ((Spec.a1 (ReadP.val_main_v3 (F := Ideal) x1)) e)) * (Spec.a1 (ReadP.val_main_v16 (F := Ideal) x1)) (Spec.grow ((Spec.a1 (ReadP.val_main_v6 (F := Ideal) x1)) e))) := by
  rw [ReadP.val_main_v108_apply, rows, coef_bcast, coef, lin]
  rfl

/-! ## The neighbourhood sum, the bias and the clamp -/

/-- The array the sum starts from is the zero word everywhere. -/
theorem zero_init (n : Fin 524288) (j : Fin 64) : ReadP.val_main_v109 (F := Ideal) (ix2 n j) = Spec.z0 := by
  rw [ReadP.val_main_v109_apply, ReadP.val_main_cst_23_apply]
  rfl

/-- The clamp's lower bound is the zero word everywhere. -/
theorem zero_clamp (n : Fin 524288) (j : Fin 64) : ReadP.val_main_call3_v0 (F := Ideal) (ix2 n j) = Spec.z0 := by
  rw [ReadP.val_main_call3_v0_apply, ReadP.val_main_call3_cst_apply]
  rfl

/-- The bias spread along the rows: element `(n, j)` is the bias at `j`. -/
theorem bias (x10 : (⟨S64, .f32⟩ : BufTy).Contents (Elt Ideal)) (n : Fin 524288) (j : Fin 64) :
    ReadP.val_main_v113 (F := Ideal) x10 (ix2 n j) = x10 (ix1 j) := by
  rw [ReadP.val_main_v113_apply, ReadP.val_main_v112_apply]
  have hi : ReadP.idx_main_v112 (ReadP.idx_main_v113 (ix2 n j)) = ix1 j :=
    funext fun a => Fin.ext (by match a with | ⟨0, _⟩ => rfl)
  rw [hi]

/-- The neighbourhood sum at `(n, j)`: the zero word plus the messages of the edges whose raw destination is `n`. -/
theorem nbr_sum (x0 : (⟨S524288x30, .f32⟩ : BufTy).Contents (Elt Ideal)) (x1 : (⟨S2x2097152, .i32⟩ : BufTy).Contents (Elt Ideal)) (x5 : (⟨S30x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (n : Fin 524288) (j : Fin 64) :
    ReadP.val_main_v111 (F := Ideal) x0 x1 x5 x6 x7 x8 x9 (ix2 n j)
      = Spec.seg (Spec.a1 (ReadP.val_main_v6 (F := Ideal) x1)) (fun e j => Spec.mm (Spec.a2 (ReadP.val_main_v82 (F := Ideal) x0 x1 x5 x6 x7 x8)) (Spec.a2 x9) (Spec.grow ((Spec.a1 (ReadP.val_main_v3 (F := Ideal) x1)) e)) j * ((Spec.a1 (ReadP.val_main_v16 (F := Ideal) x1)) (Spec.grow ((Spec.a1 (ReadP.val_main_v3 (F := Ideal) x1)) e)) * (Spec.a1 (ReadP.val_main_v16 (F := Ideal) x1)) (Spec.grow ((Spec.a1 (ReadP.val_main_v6 (F := Ideal) x1)) e)))) n j := by
  unfold ReadP.val_main_v111
  refine (scatterAdd_rows_apply scatter_S524288x64_S2621440x1_S2621440x64_1_0_0_1 rfl rfl rfl rfl
    _ _ _ n j).trans ?_
  unfold Spec.seg
  rw [zero_init]
  refine congrArg (fun s => Spec.z0 + s) ?_
  refine Finset.sum_congr (Finset.filter_congr fun e _ =>
    Iff.of_eq (congrArg (fun w => scatterRow 524288 w = some n) (raw_dst x1 e))) fun e _ => ?_
  exact msg x0 x1 x5 x6 x7 x8 x9 e j

/-- The layer at `(n, j)`. -/
theorem layer_apply (x0 : (⟨S524288x30, .f32⟩ : BufTy).Contents (Elt Ideal)) (x1 : (⟨S2x2097152, .i32⟩ : BufTy).Contents (Elt Ideal)) (x5 : (⟨S30x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (n : Fin 524288) (j : Fin 64) :
    ReadP.val_main_v115 (F := Ideal) x0 x1 x5 x6 x7 x8 x9 x10 (ix2 n j)
      = Spec.layerR (Spec.a1 (ReadP.val_main_v3 (F := Ideal) x1)) (Spec.a1 (ReadP.val_main_v6 (F := Ideal) x1)) (Spec.a1 (ReadP.val_main_v16 (F := Ideal) x1)) (Spec.a2 (ReadP.val_main_v82 (F := Ideal) x0 x1 x5 x6 x7 x8)) (Spec.a2 x9) (Spec.a1 x10) n j := by
  rw [ReadP.val_main_v115_apply, ReadP.val_main_v114_apply, zero_clamp, bias, nbr_sum]
  rfl

/-- The layer as a function of the node and the column. -/
theorem layer (x0 : (⟨S524288x30, .f32⟩ : BufTy).Contents (Elt Ideal)) (x1 : (⟨S2x2097152, .i32⟩ : BufTy).Contents (Elt Ideal)) (x5 : (⟨S30x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) :
    Spec.a2 (ReadP.val_main_v115 (F := Ideal) x0 x1 x5 x6 x7 x8 x9 x10)
      = Spec.layerR (Spec.a1 (ReadP.val_main_v3 (F := Ideal) x1)) (Spec.a1 (ReadP.val_main_v6 (F := Ideal) x1)) (Spec.a1 (ReadP.val_main_v16 (F := Ideal) x1)) (Spec.a2 (ReadP.val_main_v82 (F := Ideal) x0 x1 x5 x6 x7 x8)) (Spec.a2 x9) (Spec.a1 x10) :=
  funext fun n => funext fun j => layer_apply x0 x1 x5 x6 x7 x8 x9 x10 n j

end Cert.ReferenceIdeal.RefGcn.L3

end
-- ==== Proof.RefGcn.lean ====
/-
  The three message-passing layers of the reference program compose to the specification's three-layer network
  with the product of the two per-node factors applied to each message: each layer reads the previous layer's
  output as its node features, with the same index arrays and the same per-node factor.
-/
import proofs.«171162_j59115929862199_2_alg».proof.Proof.RefGcn1
import proofs.«171162_j59115929862199_2_alg».proof.Proof.RefGcn2
import proofs.«171162_j59115929862199_2_alg».proof.Proof.RefGcn3

noncomputable section

namespace Cert.ReferenceIdeal.RefGcn

open Cert.ReferenceIdeal Idealize.ShloMosaic

/-- The third layer's output is the three-layer network of the specification. -/
theorem ref_gcn (x0 : (⟨S524288x30, .f32⟩ : BufTy).Contents (Elt Ideal)) (x1 : (⟨S2x2097152, .i32⟩ : BufTy).Contents (Elt Ideal)) (x5 : (⟨S30x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) :
    Spec.a2 (ReadP.val_main_v115 (F := Ideal) x0 x1 x5 x6 x7 x8 x9 x10)
      = Spec.gcnR (Spec.a1 (ReadP.val_main_v3 (F := Ideal) x1)) (Spec.a1 (ReadP.val_main_v6 (F := Ideal) x1)) (Spec.a1 (ReadP.val_main_v16 (F := Ideal) x1))
          (Spec.a2 x0) (Spec.a2 x5) (Spec.a1 x6) (Spec.a2 x7) (Spec.a1 x8) (Spec.a2 x9) (Spec.a1 x10) := by
  unfold Spec.gcnR
  rw [L3.layer, L2.layer, L1.layer]

end Cert.ReferenceIdeal.RefGcn

end
-- ==== Proof.RefHeadPool.lean ====
/-
  The reference's mean pool, read at an index.

  The pooled array is a segment sum of node rows over the batch index, divided by the number of nodes each
  graph receives, the count clamped below at one. Both scatters start from the zero word; the count's updates are
  all the one word.
-/
import proofs.«171162_j59115929862199_2_alg».proof.Proof.RefReadP
import proofs.«171162_j59115929862199_2_alg».proof.Proof.Spec
import proofs.«171162_j59115929862199_2_alg».proof.Proof.LibRowOps

noncomputable section

open scoped BigOperators

namespace Cert.ReferenceIdeal.RefHead

open Cert.ReferenceIdeal Cert.ReferenceIdeal.Gen Idealize.ShloMosaic Idealize.ShloMosaic.ValueIdx

variable (x0 : (⟨S524288x30, .f32⟩ : BufTy).Contents (Elt Ideal))
variable (x1 : (⟨S2x2097152, .i32⟩ : BufTy).Contents (Elt Ideal))
variable (x2 : (⟨S524288, .i32⟩ : BufTy).Contents (Elt Ideal))
variable (x3 : (⟨S16384x979, .f32⟩ : BufTy).Contents (Elt Ideal))
variable (x4 : (⟨S16384x881, .f32⟩ : BufTy).Contents (Elt Ideal))
variable (x5 : (⟨S30x64, .f32⟩ : BufTy).Contents (Elt Ideal))
variable (x6 : (⟨S64, .f32⟩ : BufTy).Contents (Elt Ideal))
variable (x7 : (⟨S64x64, .f32⟩ : BufTy).Contents (Elt Ideal))
variable (x8 : (⟨S64, .f32⟩ : BufTy).Contents (Elt Ideal))
variable (x9 : (⟨S64x64, .f32⟩ : BufTy).Contents (Elt Ideal))
variable (x10 : (⟨S64, .f32⟩ : BufTy).Contents (Elt Ideal))
variable (x11 : (⟨S64x128, .f32⟩ : BufTy).Contents (Elt Ideal))
variable (x12 : (⟨S128, .f32⟩ : BufTy).Contents (Elt Ideal))
variable (x13 : (⟨S979x128, .f32⟩ : BufTy).Contents (Elt Ideal))
variable (x14 : (⟨S128, .f32⟩ : BufTy).Contents (Elt Ideal))
variable (x15 : (⟨S1137x512, .f32⟩ : BufTy).Contents (Elt Ideal))
variable (x16 : (⟨S512, .f32⟩ : BufTy).Contents (Elt Ideal))
variable (x17 : (⟨S512x256, .f32⟩ : BufTy).Contents (Elt Ideal))
variable (x18 : (⟨S256, .f32⟩ : BufTy).Contents (Elt Ideal))
variable (x19 : (⟨S256x1, .f32⟩ : BufTy).Contents (Elt Ideal))
variable (x20 : (⟨S1, .f32⟩ : BufTy).Contents (Elt Ideal))

local notation "V115" => ReadP.val_main_v115 (F := Ideal) x0 x1 x5 x6 x7 x8 x9 x10
local notation "V127" => ReadP.val_main_v127 (F := Ideal) x0 x1 x2 x5 x6 x7 x8 x9 x10
local notation "V132" => ReadP.val_main_v132 (F := Ideal) x0 x1 x2 x5 x6 x7 x8 x9 x10 x11 x12
local notation "V137" => ReadP.val_main_v137 (F := Ideal) x3 x13 x14
local notation "V138" => ReadP.val_main_v138 (F := Ideal) x0 x1 x2 x3 x4 x5 x6 x7 x8 x9 x10 x11 x12 x13 x14
local notation "V142" => ReadP.val_main_v142 (F := Ideal) x0 x1 x2 x3 x4 x5 x6 x7 x8 x9 x10 x11 x12 x13 x14
local notation "V149" => ReadP.val_main_v149 (F := Ideal) x0 x1 x2 x3 x4 x5 x6 x7 x8 x9 x10 x11 x12 x13 x14
local notation "V154" => ReadP.val_main_v154 (F := Ideal) x0 x1 x2 x3 x4 x5 x6 x7 x8 x9 x10 x11 x12 x13 x14
local notation "V156" => ReadP.val_main_v156 (F := Ideal) x0 x1 x2 x3 x4 x5 x6 x7 x8 x9 x10 x11 x12 x13 x14
local notation "V161" => ReadP.val_main_v161 (F := Ideal) x0 x1 x2 x3 x4 x5 x6 x7 x8 x9 x10 x11 x12 x13 x14 x15 x16
local notation "V170" => ReadP.val_main_v170 (F := Ideal) x0 x1 x2 x3 x4 x5 x6 x7 x8 x9 x10 x11 x12 x13 x14 x15 x16 x17 x18 x19 x20

/-- The segment sum of the node rows, at graph `g`, column `j`. -/
theorem seg_apply (g : Fin 16384) (j : Fin 64) :
    ReadP.val_main_v118 (F := Ideal) x0 x1 x2 x5 x6 x7 x8 x9 x10 (ix2 g j)
      = Spec.seg (Spec.a1 x2) (Spec.a2 V115) g j := by
  unfold ReadP.val_main_v118
  generalize V115 = H
  refine (Cert.RowOps.scatterAdd_rows_apply (N := 16384) (E := 524288) (W := 64) _ rfl rfl rfl rfl _ _ _ g j).trans ?_
  have hidx : ∀ e : Fin 524288, ReadP.val_main_v117 (F := Ideal) x2 (ix2 e 0) = Spec.a1 x2 e := fun e => by
    rw [ReadP.val_main_v117_apply]
    exact congrArg x2 (funext fun a => Fin.ext (by match a with | ⟨0, _⟩ => rfl))
  have hz : ReadP.val_main_v116 (F := Ideal) (ix2 g j) = Spec.z0 := by
    rw [ReadP.val_main_v116_apply, ReadP.val_main_cst_24_apply]; rfl
  simp only [hidx, hz]
  rfl

/-- The number of nodes graph `g` receives, clamped below at one. -/
theorem cnt_apply (g : Fin 16384) (j : Fin 64) :
    ReadP.val_main_v126 (F := Ideal) x2 (ix2 g j) = max (Spec.cnt (Spec.a1 x2) g) Spec.o1 := by
  rw [ReadP.val_main_v126_apply, ReadP.val_main_v125_apply, ReadP.val_main_v124_apply, ReadP.val_main_v123_apply,
    ReadP.val_main_cst_27_apply]
  have ei : ReadP.idx_main_v125 (ReadP.idx_main_v126 (ix2 g j)) = ix1 g :=
    funext fun a => Fin.ext (by match a with | ⟨0, _⟩ => rfl)
  rw [ei]
  have hs : ReadP.val_main_v122 (F := Ideal) x2 (ix1 g) = Spec.cnt (Spec.a1 x2) g := by
    unfold ReadP.val_main_v122
    refine (Cert.RowOps.scatterAdd_vec_apply (N := 16384) (E := 524288) _ rfl rfl rfl rfl _ _ _ g).trans ?_
    have hidx : ∀ e : Fin 524288, ReadP.val_main_v121 (F := Ideal) x2 (ix2 e 0) = Spec.a1 x2 e := fun e => by
      rw [ReadP.val_main_v121_apply]
      exact congrArg x2 (funext fun a => Fin.ext (by match a with | ⟨0, _⟩ => rfl))
    have hz : ReadP.val_main_v120 (F := Ideal) (ix1 g) = Spec.z0 := by
      rw [ReadP.val_main_v120_apply, ReadP.val_main_cst_26_apply]; rfl
    have ho : ∀ e : Fin 524288, ReadP.val_main_v119 (F := Ideal) (ix1 e) = Spec.o1 := fun e => by
      rw [ReadP.val_main_v119_apply, ReadP.val_main_cst_25_apply]; rfl
    simp only [hidx, hz, ho]
    rfl
  rw [hs]
  rfl

/-- The pooled array is the per-graph mean of the node rows. -/
theorem pooled_apply (g : Fin 16384) (j : Fin 64) :
    V127 (ix2 g j) = Spec.pool (Spec.a1 x2) (Spec.a2 V115) g j := by
  rw [ReadP.val_main_v127_apply, seg_apply, cnt_apply]
  rfl

theorem pooled : Spec.a2 V127 = Spec.pool (Spec.a1 x2) (Spec.a2 V115) :=
  funext fun g => funext fun j => pooled_apply x0 x1 x2 x5 x6 x7 x8 x9 x10 g j

end Cert.ReferenceIdeal.RefHead

end
-- ==== Proof.RefHeadComb.lean ====
/-
  The two dense embeddings and their concatenation with the fingerprint, read at an index.

  Each embedding is a matrix product plus a bias, clamped below at the zero word. The concatenated row takes its
  first 128 columns from the first embedding, the next 128 from the second, and the last 881 from the fingerprint.
-/
import proofs.«171162_j59115929862199_2_alg».proof.Proof.RefReadP
import proofs.«171162_j59115929862199_2_alg».proof.Proof.Spec

noncomputable section

open scoped BigOperators

namespace Cert.ReferenceIdeal.RefHead

open Cert.ReferenceIdeal Cert.ReferenceIdeal.Gen Idealize.ShloMosaic Idealize.ShloMosaic.ValueIdx

variable (x0 : (⟨S524288x30, .f32⟩ : BufTy).Contents (Elt Ideal))
variable (x1 : (⟨S2x2097152, .i32⟩ : BufTy).Contents (Elt Ideal))
variable (x2 : (⟨S524288, .i32⟩ : BufTy).Contents (Elt Ideal))
variable (x3 : (⟨S16384x979, .f32⟩ : BufTy).Contents (Elt Ideal))
variable (x4 : (⟨S16384x881, .f32⟩ : BufTy).Contents (Elt Ideal))
variable (x5 : (⟨S30x64, .f32⟩ : BufTy).Contents (Elt Ideal))
variable (x6 : (⟨S64, .f32⟩ : BufTy).Contents (Elt Ideal))
variable (x7 : (⟨S64x64, .f32⟩ : BufTy).Contents (Elt Ideal))
variable (x8 : (⟨S64, .f32⟩ : BufTy).Contents (Elt Ideal))
variable (x9 : (⟨S64x64, .f32⟩ : BufTy).Contents (Elt Ideal))
variable (x10 : (⟨S64, .f32⟩ : BufTy).Contents (Elt Ideal))
variable (x11 : (⟨S64x128, .f32⟩ : BufTy).Contents (Elt Ideal))
variable (x12 : (⟨S128, .f32⟩ : BufTy).Contents (Elt Ideal))
variable (x13 : (⟨S979x128, .f32⟩ : BufTy).Contents (Elt Ideal))
variable (x14 : (⟨S128, .f32⟩ : BufTy).Contents (Elt Ideal))
variable (x15 : (⟨S1137x512, .f32⟩ : BufTy).Contents (Elt Ideal))
variable (x16 : (⟨S512, .f32⟩ : BufTy).Contents (Elt Ideal))
variable (x17 : (⟨S512x256, .f32⟩ : BufTy).Contents (Elt Ideal))
variable (x18 : (⟨S256, .f32⟩ : BufTy).Contents (Elt Ideal))
variable (x19 : (⟨S256x1, .f32⟩ : BufTy).Contents (Elt Ideal))
variable (x20 : (⟨S1, .f32⟩ : BufTy).Contents (Elt Ideal))

local notation "V115" => ReadP.val_main_v115 (F := Ideal) x0 x1 x5 x6 x7 x8 x9 x10
local notation "V127" => ReadP.val_main_v127 (F := Ideal) x0 x1 x2 x5 x6 x7 x8 x9 x10
local notation "V132" => ReadP.val_main_v132 (F := Ideal) x0 x1 x2 x5 x6 x7 x8 x9 x10 x11 x12
local notation "V137" => ReadP.val_main_v137 (F := Ideal) x3 x13 x14
local notation "V138" => ReadP.val_main_v138 (F := Ideal) x0 x1 x2 x3 x4 x5 x6 x7 x8 x9 x10 x11 x12 x13 x14
local notation "V142" => ReadP.val_main_v142 (F := Ideal) x0 x1 x2 x3 x4 x5 x6 x7 x8 x9 x10 x11 x12 x13 x14
local notation "V149" => ReadP.val_main_v149 (F := Ideal) x0 x1 x2 x3 x4 x5 x6 x7 x8 x9 x10 x11 x12 x13 x14
local notation "V154" => ReadP.val_main_v154 (F := Ideal) x0 x1 x2 x3 x4 x5 x6 x7 x8 x9 x10 x11 x12 x13 x14
local notation "V156" => ReadP.val_main_v156 (F := Ideal) x0 x1 x2 x3 x4 x5 x6 x7 x8 x9 x10 x11 x12 x13 x14
local notation "V161" => ReadP.val_main_v161 (F := Ideal) x0 x1 x2 x3 x4 x5 x6 x7 x8 x9 x10 x11 x12 x13 x14 x15 x16
local notation "V170" => ReadP.val_main_v170 (F := Ideal) x0 x1 x2 x3 x4 x5 x6 x7 x8 x9 x10 x11 x12 x13 x14 x15 x16 x17 x18 x19 x20

/-- The embedding of the pooled rows. -/
theorem drug_apply (g : Fin 16384) (c : Fin 128) :
    V132 (ix2 g c) = Spec.drug (Spec.a2 V127) (Spec.a2 x11) (Spec.a1 x12) g c := by
  rw [ReadP.val_main_v132_apply, ReadP.val_main_v131_apply, ReadP.val_main_v128_apply, ReadP.val_main_v130_apply,
    ReadP.val_main_v129_apply, ReadP.val_main_call4_v0_apply, ReadP.val_main_call4_cst_apply]
  generalize V127 = Q
  have e1 : ∀ k : Fin 64, ReadP.lidx_main_v128 (ix2 g c) k = ix2 g k := fun k =>
    funext fun a => Fin.ext (by match a with | ⟨0, _⟩ => rfl | ⟨1, _⟩ => rfl)
  have e2 : ∀ k : Fin 64, ReadP.ridx_main_v128 (ix2 g c) k = ix2 k c := fun k =>
    funext fun a => Fin.ext (by match a with | ⟨0, _⟩ => rfl | ⟨1, _⟩ => rfl)
  have e3 : ReadP.idx_main_v129 (ReadP.idx_main_v130 (ix2 g c)) = ix1 c :=
    funext fun a => Fin.ext (by match a with | ⟨0, _⟩ => rfl)
  simp only [e1, e2, e3]
  rfl

/-- The embedding of the second feature block. -/
theorem prot_apply (g : Fin 16384) (c : Fin 128) :
    V137 (ix2 g c) = Spec.prot (Spec.a2 x3) (Spec.a2 x13) (Spec.a1 x14) g c := by
  rw [ReadP.val_main_v137_apply, ReadP.val_main_v136_apply, ReadP.val_main_v133_apply, ReadP.val_main_v135_apply,
    ReadP.val_main_v134_apply, ReadP.val_main_call5_v0_apply, ReadP.val_main_call5_cst_apply]
  have e1 : ∀ k : Fin 979, ReadP.lidx_main_v133 (ix2 g c) k = ix2 g k := fun k =>
    funext fun a => Fin.ext (by match a with | ⟨0, _⟩ => rfl | ⟨1, _⟩ => rfl)
  have e2 : ∀ k : Fin 979, ReadP.ridx_main_v133 (ix2 g c) k = ix2 k c := fun k =>
    funext fun a => Fin.ext (by match a with | ⟨0, _⟩ => rfl | ⟨1, _⟩ => rfl)
  have e3 : ReadP.idx_main_v134 (ReadP.idx_main_v135 (ix2 g c)) = ix1 c :=
    funext fun a => Fin.ext (by match a with | ⟨0, _⟩ => rfl)
  simp only [e1, e2, e3]
  rfl

/-- The concatenated row at column `k`: the piece `k` falls in, at `k` less the extents before it. -/
theorem comb_apply (g : Fin 16384) (k : Fin 1137) :
    V138 (ix2 g k) = Spec.comb (Spec.a2 V127) (Spec.a2 x3) (Spec.a2 x4) (Spec.a2 x11) (Spec.a1 x12) (Spec.a2 x13)
      (Spec.a1 x14) g k := by
  unfold ReadP.val_main_v138 Spec.comb Spec.cat3
  have hd := drug_apply x0 x1 x2 x5 x6 x7 x8 x9 x10 x11 x12 g
  have hp := prot_apply x3 x13 x14 g
  generalize V132 = D at hd ⊢
  generalize V137 = R at hp ⊢
  by_cases h1 : k.val < 128
  · rw [dif_pos h1, ← hd]
    exact concatenate_apply_piece (1 : Fin 2) [⟨S16384x128, D⟩, ⟨S16384x128, R⟩, ⟨S16384x881, x4⟩] _ (ix2 g k) 0 (by show 0 < 3; decide) S16384x128 D rfl rfl 0 rfl
      (ix2 g ⟨k.val, h1⟩)
      (fun b hb => by match b with | ⟨0, _⟩ => rfl | ⟨1, _⟩ => exact absurd rfl hb)
      (by show 0 + k.val = k.val; omega)
  · rw [dif_neg h1]
    by_cases h2 : k.val < 256
    · rw [dif_pos h2, ← hp]
      exact concatenate_apply_piece (1 : Fin 2) [⟨S16384x128, D⟩, ⟨S16384x128, R⟩, ⟨S16384x881, x4⟩] _ (ix2 g k) 1 (by show 1 < 3; decide) S16384x128 R rfl rfl 128 rfl
        (ix2 g ⟨k.val - 128, by omega⟩)
        (fun b hb => by match b with | ⟨0, _⟩ => rfl | ⟨1, _⟩ => exact absurd rfl hb)
        (by show 128 + (k.val - 128) = k.val; omega)
    · rw [dif_neg h2]
      exact concatenate_apply_piece (1 : Fin 2) [⟨S16384x128, D⟩, ⟨S16384x128, R⟩, ⟨S16384x881, x4⟩] _ (ix2 g k) 2 (by show 2 < 3; decide) S16384x881 x4 rfl rfl 256 rfl
        (ix2 g ⟨k.val - 256, by have := k.isLt; omega⟩)
        (fun b hb => by match b with | ⟨0, _⟩ => rfl | ⟨1, _⟩ => exact absurd rfl hb)
        (by show 256 + (k.val - 256) = k.val; omega)

end Cert.ReferenceIdeal.RefHead

end
-- ==== Proof.RefHeadNorm.lean ====
/-
  The row normalisation of the concatenated array, read at an index.

  The mean is the zero word plus the sum of the row, divided by the row's length; the variance is the same of the
  squared deviations; each entry less the mean is scaled by the inverse square root of the variance plus a small
  word. Everything is stated for whatever the concatenated array is, given as a function of its two coordinates.
-/
import proofs.«171162_j59115929862199_2_alg».proof.Proof.RefReadP
import proofs.«171162_j59115929862199_2_alg».proof.Proof.Spec

noncomputable section

open scoped BigOperators

namespace Cert.ReferenceIdeal.RefHead

open Cert.ReferenceIdeal Cert.ReferenceIdeal.Gen Idealize.ShloMosaic Idealize.ShloMosaic.ValueIdx

variable (x0 : (⟨S524288x30, .f32⟩ : BufTy).Contents (Elt Ideal))
variable (x1 : (⟨S2x2097152, .i32⟩ : BufTy).Contents (Elt Ideal))
variable (x2 : (⟨S524288, .i32⟩ : BufTy).Contents (Elt Ideal))
variable (x3 : (⟨S16384x979, .f32⟩ : BufTy).Contents (Elt Ideal))
variable (x4 : (⟨S16384x881, .f32⟩ : BufTy).Contents (Elt Ideal))
variable (x5 : (⟨S30x64, .f32⟩ : BufTy).Contents (Elt Ideal))
variable (x6 : (⟨S64, .f32⟩ : BufTy).Contents (Elt Ideal))
variable (x7 : (⟨S64x64, .f32⟩ : BufTy).Contents (Elt Ideal))
variable (x8 : (⟨S64, .f32⟩ : BufTy).Contents (Elt Ideal))
variable (x9 : (⟨S64x64, .f32⟩ : BufTy).Contents (Elt Ideal))
variable (x10 : (⟨S64, .f32⟩ : BufTy).Contents (Elt Ideal))
variable (x11 : (⟨S64x128, .f32⟩ : BufTy).Contents (Elt Ideal))
variable (x12 : (⟨S128, .f32⟩ : BufTy).Contents (Elt Ideal))
variable (x13 : (⟨S979x128, .f32⟩ : BufTy).Contents (Elt Ideal))
variable (x14 : (⟨S128, .f32⟩ : BufTy).Contents (Elt Ideal))
variable (x15 : (⟨S1137x512, .f32⟩ : BufTy).Contents (Elt Ideal))
variable (x16 : (⟨S512, .f32⟩ : BufTy).Contents (Elt Ideal))
variable (x17 : (⟨S512x256, .f32⟩ : BufTy).Contents (Elt Ideal))
variable (x18 : (⟨S256, .f32⟩ : BufTy).Contents (Elt Ideal))
variable (x19 : (⟨S256x1, .f32⟩ : BufTy).Contents (Elt Ideal))
variable (x20 : (⟨S1, .f32⟩ : BufTy).Contents (Elt Ideal))

local notation "V115" => ReadP.val_main_v115 (F := Ideal) x0 x1 x5 x6 x7 x8 x9 x10
local notation "V127" => ReadP.val_main_v127 (F := Ideal) x0 x1 x2 x5 x6 x7 x8 x9 x10
local notation "V132" => ReadP.val_main_v132 (F := Ideal) x0 x1 x2 x5 x6 x7 x8 x9 x10 x11 x12
local notation "V137" => ReadP.val_main_v137 (F := Ideal) x3 x13 x14
local notation "V138" => ReadP.val_main_v138 (F := Ideal) x0 x1 x2 x3 x4 x5 x6 x7 x8 x9 x10 x11 x12 x13 x14
local notation "V142" => ReadP.val_main_v142 (F := Ideal) x0 x1 x2 x3 x4 x5 x6 x7 x8 x9 x10 x11 x12 x13 x14
local notation "V149" => ReadP.val_main_v149 (F := Ideal) x0 x1 x2 x3 x4 x5 x6 x7 x8 x9 x10 x11 x12 x13 x14
local notation "V154" => ReadP.val_main_v154 (F := Ideal) x0 x1 x2 x3 x4 x5 x6 x7 x8 x9 x10 x11 x12 x13 x14
local notation "V156" => ReadP.val_main_v156 (F := Ideal) x0 x1 x2 x3 x4 x5 x6 x7 x8 x9 x10 x11 x12 x13 x14
local notation "V161" => ReadP.val_main_v161 (F := Ideal) x0 x1 x2 x3 x4 x5 x6 x7 x8 x9 x10 x11 x12 x13 x14 x15 x16
local notation "V170" => ReadP.val_main_v170 (F := Ideal) x0 x1 x2 x3 x4 x5 x6 x7 x8 x9 x10 x11 x12 x13 x14 x15 x16 x17 x18 x19 x20

variable (P : Fin 16384 → Fin 64 → EReal) (px : Fin 16384 → Fin 979 → EReal) (fp : Fin 16384 → Fin 881 → EReal)
  (Wd : Fin 64 → Fin 128 → EReal) (bd : Fin 128 → EReal) (Wp : Fin 979 → Fin 128 → EReal) (bp : Fin 128 → EReal)

local notation "COMB" => Spec.comb P px fp Wd bd Wp bp
local notation "MU" => Spec.muR P px fp Wd bd Wp bp
local notation "VAR" => Spec.varR P px fp Wd bd Wp bp
local notation "INV" => Spec.invR P px fp Wd bd Wp bp

/-- The row mean. -/
theorem mu_apply (hc : ∀ (g : Fin 16384) (k : Fin 1137), V138 (ix2 g k) = COMB g k)
    (g : Fin 16384) : V142 (ix2 g 0) = MU g := by
  rw [ReadP.val_main_v142_apply, ReadP.val_main_v140_apply, ReadP.val_main_v139_apply, ReadP.val_main_v141_apply,
    ReadP.val_main_cst_29_apply, ReadP.val_main_cst_28_apply]
  have e1 : ∀ k : Fin 1137, ReadP.idx_main_v139 (ReadP.idx_main_v140 (ix2 g 0)) k = ix2 g k := fun k =>
    funext fun a => Fin.ext (by match a with | ⟨0, _⟩ => rfl | ⟨1, _⟩ => rfl)
  simp only [e1, hc]
  rfl

/-- The row variance. -/
theorem var_apply (hc : ∀ (g : Fin 16384) (k : Fin 1137), V138 (ix2 g k) = COMB g k)
    (g : Fin 16384) : V149 (ix2 g 0) = VAR g := by
  rw [ReadP.val_main_v149_apply, ReadP.val_main_v147_apply, ReadP.val_main_v146_apply, ReadP.val_main_v148_apply,
    ReadP.val_main_cst_31_apply, ReadP.val_main_cst_30_apply]
  have e1 : ∀ k : Fin 1137, ReadP.idx_main_v146 (ReadP.idx_main_v147 (ix2 g 0)) k = ix2 g k := fun k =>
    funext fun a => Fin.ext (by match a with | ⟨0, _⟩ => rfl | ⟨1, _⟩ => rfl)
  have h145 : ∀ k : Fin 1137, ReadP.val_main_v145 (F := Ideal) x0 x1 x2 x3 x4 x5 x6 x7 x8 x9 x10 x11 x12 x13 x14 (ix2 g k)
      = (COMB g k - MU g) * (COMB g k - MU g) := fun k => by
    have e2 : ReadP.idx_main_v143 (ix2 g k) = ix2 g 0 :=
      funext fun a => Fin.ext (by match a with | ⟨0, _⟩ => rfl | ⟨1, _⟩ => rfl)
    rw [ReadP.val_main_v145_apply, ReadP.val_main_v144_apply, ReadP.val_main_v143_apply, e2,
      mu_apply x0 x1 x2 x3 x4 x5 x6 x7 x8 x9 x10 x11 x12 x13 x14 P px fp Wd bd Wp bp hc g, hc]
    rfl
  simp only [e1, h145]
  rfl

/-- The normalised entry. -/
theorem norm_apply (hc : ∀ (g : Fin 16384) (k : Fin 1137), V138 (ix2 g k) = COMB g k)
    (g : Fin 16384) (k : Fin 1137) : V156 (ix2 g k) = (COMB g k - MU g) * INV g := by
  have e150 : ReadP.idx_main_v150 (ix2 g k) = ix2 g 0 :=
    funext fun a => Fin.ext (by match a with | ⟨0, _⟩ => rfl | ⟨1, _⟩ => rfl)
  have e155 : ReadP.idx_main_v155 (ix2 g k) = ix2 g 0 :=
    funext fun a => Fin.ext (by match a with | ⟨0, _⟩ => rfl | ⟨1, _⟩ => rfl)
  rw [ReadP.val_main_v156_apply, ReadP.val_main_v151_apply, ReadP.val_main_v150_apply, ReadP.val_main_v155_apply,
    ReadP.val_main_v154_apply, ReadP.val_main_v153_apply, ReadP.val_main_v152_apply, ReadP.val_main_cst_32_apply,
    e150, e155, hc, mu_apply x0 x1 x2 x3 x4 x5 x6 x7 x8 x9 x10 x11 x12 x13 x14 P px fp Wd bd Wp bp hc g, var_apply x0 x1 x2 x3 x4 x5 x6 x7 x8 x9 x10 x11 x12 x13 x14 P px fp Wd bd Wp bp hc g]
  rfl

end Cert.ReferenceIdeal.RefHead

end
-- ==== Proof.RefHeadTail.lean ====
/-
  The three dense layers after the normalisation, read at an index.

  The first multiplies the normalised row by the whole first weight, adds a bias and clamps below at the zero
  word; the second does the same with its own weight; the last is a matrix product into one column plus a bias.
  Each is stated for whatever its input array is, given as a function of its two coordinates.
-/
import proofs.«171162_j59115929862199_2_alg».proof.Proof.RefReadP
import proofs.«171162_j59115929862199_2_alg».proof.Proof.Spec

noncomputable section

open scoped BigOperators

namespace Cert.ReferenceIdeal.RefHead

open Cert.ReferenceIdeal Cert.ReferenceIdeal.Gen Idealize.ShloMosaic Idealize.ShloMosaic.ValueIdx

variable (x0 : (⟨S524288x30, .f32⟩ : BufTy).Contents (Elt Ideal))
variable (x1 : (⟨S2x2097152, .i32⟩ : BufTy).Contents (Elt Ideal))
variable (x2 : (⟨S524288, .i32⟩ : BufTy).Contents (Elt Ideal))
variable (x3 : (⟨S16384x979, .f32⟩ : BufTy).Contents (Elt Ideal))
variable (x4 : (⟨S16384x881, .f32⟩ : BufTy).Contents (Elt Ideal))
variable (x5 : (⟨S30x64, .f32⟩ : BufTy).Contents (Elt Ideal))
variable (x6 : (⟨S64, .f32⟩ : BufTy).Contents (Elt Ideal))
variable (x7 : (⟨S64x64, .f32⟩ : BufTy).Contents (Elt Ideal))
variable (x8 : (⟨S64, .f32⟩ : BufTy).Contents (Elt Ideal))
variable (x9 : (⟨S64x64, .f32⟩ : BufTy).Contents (Elt Ideal))
variable (x10 : (⟨S64, .f32⟩ : BufTy).Contents (Elt Ideal))
variable (x11 : (⟨S64x128, .f32⟩ : BufTy).Contents (Elt Ideal))
variable (x12 : (⟨S128, .f32⟩ : BufTy).Contents (Elt Ideal))
variable (x13 : (⟨S979x128, .f32⟩ : BufTy).Contents (Elt Ideal))
variable (x14 : (⟨S128, .f32⟩ : BufTy).Contents (Elt Ideal))
variable (x15 : (⟨S1137x512, .f32⟩ : BufTy).Contents (Elt Ideal))
variable (x16 : (⟨S512, .f32⟩ : BufTy).Contents (Elt Ideal))
variable (x17 : (⟨S512x256, .f32⟩ : BufTy).Contents (Elt Ideal))
variable (x18 : (⟨S256, .f32⟩ : BufTy).Contents (Elt Ideal))
variable (x19 : (⟨S256x1, .f32⟩ : BufTy).Contents (Elt Ideal))
variable (x20 : (⟨S1, .f32⟩ : BufTy).Contents (Elt Ideal))

local notation "V115" => ReadP.val_main_v115 (F := Ideal) x0 x1 x5 x6 x7 x8 x9 x10
local notation "V127" => ReadP.val_main_v127 (F := Ideal) x0 x1 x2 x5 x6 x7 x8 x9 x10
local notation "V132" => ReadP.val_main_v132 (F := Ideal) x0 x1 x2 x5 x6 x7 x8 x9 x10 x11 x12
local notation "V137" => ReadP.val_main_v137 (F := Ideal) x3 x13 x14
local notation "V138" => ReadP.val_main_v138 (F := Ideal) x0 x1 x2 x3 x4 x5 x6 x7 x8 x9 x10 x11 x12 x13 x14
local notation "V142" => ReadP.val_main_v142 (F := Ideal) x0 x1 x2 x3 x4 x5 x6 x7 x8 x9 x10 x11 x12 x13 x14
local notation "V149" => ReadP.val_main_v149 (F := Ideal) x0 x1 x2 x3 x4 x5 x6 x7 x8 x9 x10 x11 x12 x13 x14
local notation "V154" => ReadP.val_main_v154 (F := Ideal) x0 x1 x2 x3 x4 x5 x6 x7 x8 x9 x10 x11 x12 x13 x14
local notation "V156" => ReadP.val_main_v156 (F := Ideal) x0 x1 x2 x3 x4 x5 x6 x7 x8 x9 x10 x11 x12 x13 x14
local notation "V161" => ReadP.val_main_v161 (F := Ideal) x0 x1 x2 x3 x4 x5 x6 x7 x8 x9 x10 x11 x12 x13 x14 x15 x16
local notation "V170" => ReadP.val_main_v170 (F := Ideal) x0 x1 x2 x3 x4 x5 x6 x7 x8 x9 x10 x11 x12 x13 x14 x15 x16 x17 x18 x19 x20

variable (P : Fin 16384 → Fin 64 → EReal) (px : Fin 16384 → Fin 979 → EReal) (fp : Fin 16384 → Fin 881 → EReal)
  (Wd : Fin 64 → Fin 128 → EReal) (bd : Fin 128 → EReal) (Wp : Fin 979 → Fin 128 → EReal) (bp : Fin 128 → EReal)

local notation "COMB" => Spec.comb P px fp Wd bd Wp bp
local notation "MU" => Spec.muR P px fp Wd bd Wp bp
local notation "VAR" => Spec.varR P px fp Wd bd Wp bp
local notation "INV" => Spec.invR P px fp Wd bd Wp bp

/-- The first dense layer over the normalised row. -/
theorem h1_apply
    (hn : ∀ (g : Fin 16384) (k : Fin 1137), V156 (ix2 g k) = (COMB g k - MU g) * INV g)
    (g : Fin 16384) (c : Fin 512) :
    V161 (ix2 g c) = Spec.h1R P px fp Wd bd Wp bp (Spec.a2 x15) (Spec.a1 x16) g c := by
  rw [ReadP.val_main_v161_apply, ReadP.val_main_v160_apply, ReadP.val_main_v157_apply, ReadP.val_main_v159_apply,
    ReadP.val_main_v158_apply, ReadP.val_main_call6_v0_apply, ReadP.val_main_call6_cst_apply]
  have e1 : ∀ k : Fin 1137, ReadP.lidx_main_v157 (ix2 g c) k = ix2 g k := fun k =>
    funext fun a => Fin.ext (by match a with | ⟨0, _⟩ => rfl | ⟨1, _⟩ => rfl)
  have e2 : ∀ k : Fin 1137, ReadP.ridx_main_v157 (ix2 g c) k = ix2 k c := fun k =>
    funext fun a => Fin.ext (by match a with | ⟨0, _⟩ => rfl | ⟨1, _⟩ => rfl)
  have e3 : ReadP.idx_main_v158 (ReadP.idx_main_v159 (ix2 g c)) = ix1 c :=
    funext fun a => Fin.ext (by match a with | ⟨0, _⟩ => rfl)
  simp only [e1, e2, e3, hn]
  rfl

/-- The second dense layer and the output column over the first layer's output. -/
theorem tail_apply (h1 : Fin 16384 → Fin 512 → EReal)
    (hh : ∀ (g : Fin 16384) (c : Fin 512), V161 (ix2 g c) = h1 g c) (g : Fin 16384) :
    V170 (ix2 g 0) = Spec.tail (Spec.a2 x17) (Spec.a1 x18) (Spec.a2 x19) (Spec.a1 x20) h1 g := by
  have h166 : ∀ c : Fin 256, ReadP.val_main_v166 (F := Ideal) x0 x1 x2 x3 x4 x5 x6 x7 x8 x9 x10 x11 x12 x13 x14 x15 x16 x17 x18 (ix2 g c)
      = max (Spec.mm h1 (Spec.a2 x17) g c + Spec.a1 x18 c) Spec.z0 := fun c => by
    rw [ReadP.val_main_v166_apply, ReadP.val_main_v165_apply, ReadP.val_main_v162_apply, ReadP.val_main_v164_apply,
      ReadP.val_main_v163_apply, ReadP.val_main_call7_v0_apply, ReadP.val_main_call7_cst_apply]
    have e1 : ∀ k : Fin 512, ReadP.lidx_main_v162 (ix2 g c) k = ix2 g k := fun k =>
      funext fun a => Fin.ext (by match a with | ⟨0, _⟩ => rfl | ⟨1, _⟩ => rfl)
    have e2 : ∀ k : Fin 512, ReadP.ridx_main_v162 (ix2 g c) k = ix2 k c := fun k =>
      funext fun a => Fin.ext (by match a with | ⟨0, _⟩ => rfl | ⟨1, _⟩ => rfl)
    have e3 : ReadP.idx_main_v163 (ReadP.idx_main_v164 (ix2 g c)) = ix1 c :=
      funext fun a => Fin.ext (by match a with | ⟨0, _⟩ => rfl)
    simp only [e1, e2, e3, hh]
    rfl
  rw [ReadP.val_main_v170_apply, ReadP.val_main_v167_apply, ReadP.val_main_v169_apply, ReadP.val_main_v168_apply]
  have e1 : ∀ k : Fin 256, ReadP.lidx_main_v167 (ix2 g 0) k = ix2 g k := fun k =>
    funext fun a => Fin.ext (by match a with | ⟨0, _⟩ => rfl | ⟨1, _⟩ => rfl)
  have e2 : ∀ k : Fin 256, ReadP.ridx_main_v167 (ix2 g 0) k = ix2 k 0 := fun k =>
    funext fun a => Fin.ext (by match a with | ⟨0, _⟩ => rfl | ⟨1, _⟩ => rfl)
  have e3 : ReadP.idx_main_v168 (ReadP.idx_main_v169 (ix2 g 0)) = ix1 0 :=
    funext fun a => Fin.ext (by match a with | ⟨0, _⟩ => rfl)
  simp only [e1, e2, e3, h166]
  rfl

end Cert.ReferenceIdeal.RefHead

end
-- ==== Proof.RefHead.lean ====
/-
  The reference's mean pool and dense head, as the specification's concatenated head over the pooled rows.

  The pooled array, the two embeddings and their concatenation with the fingerprint, the row normalisation and the
  three dense layers are each read at an index in their own modules; here they are composed. The node rows the pool
  reads are carried as one opaque array.
-/
import proofs.«171162_j59115929862199_2_alg».proof.Proof.RefHeadPool
import proofs.«171162_j59115929862199_2_alg».proof.Proof.RefHeadComb
import proofs.«171162_j59115929862199_2_alg».proof.Proof.RefHeadNorm
import proofs.«171162_j59115929862199_2_alg».proof.Proof.RefHeadTail

noncomputable section

open scoped BigOperators

namespace Cert.ReferenceIdeal.RefHead

open Cert.ReferenceIdeal Cert.ReferenceIdeal.Gen Idealize.ShloMosaic Idealize.ShloMosaic.ValueIdx

variable (x0 : (⟨S524288x30, .f32⟩ : BufTy).Contents (Elt Ideal))
variable (x1 : (⟨S2x2097152, .i32⟩ : BufTy).Contents (Elt Ideal))
variable (x2 : (⟨S524288, .i32⟩ : BufTy).Contents (Elt Ideal))
variable (x3 : (⟨S16384x979, .f32⟩ : BufTy).Contents (Elt Ideal))
variable (x4 : (⟨S16384x881, .f32⟩ : BufTy).Contents (Elt Ideal))
variable (x5 : (⟨S30x64, .f32⟩ : BufTy).Contents (Elt Ideal))
variable (x6 : (⟨S64, .f32⟩ : BufTy).Contents (Elt Ideal))
variable (x7 : (⟨S64x64, .f32⟩ : BufTy).Contents (Elt Ideal))
variable (x8 : (⟨S64, .f32⟩ : BufTy).Contents (Elt Ideal))
variable (x9 : (⟨S64x64, .f32⟩ : BufTy).Contents (Elt Ideal))
variable (x10 : (⟨S64, .f32⟩ : BufTy).Contents (Elt Ideal))
variable (x11 : (⟨S64x128, .f32⟩ : BufTy).Contents (Elt Ideal))
variable (x12 : (⟨S128, .f32⟩ : BufTy).Contents (Elt Ideal))
variable (x13 : (⟨S979x128, .f32⟩ : BufTy).Contents (Elt Ideal))
variable (x14 : (⟨S128, .f32⟩ : BufTy).Contents (Elt Ideal))
variable (x15 : (⟨S1137x512, .f32⟩ : BufTy).Contents (Elt Ideal))
variable (x16 : (⟨S512, .f32⟩ : BufTy).Contents (Elt Ideal))
variable (x17 : (⟨S512x256, .f32⟩ : BufTy).Contents (Elt Ideal))
variable (x18 : (⟨S256, .f32⟩ : BufTy).Contents (Elt Ideal))
variable (x19 : (⟨S256x1, .f32⟩ : BufTy).Contents (Elt Ideal))
variable (x20 : (⟨S1, .f32⟩ : BufTy).Contents (Elt Ideal))

local notation "V115" => ReadP.val_main_v115 (F := Ideal) x0 x1 x5 x6 x7 x8 x9 x10
local notation "V127" => ReadP.val_main_v127 (F := Ideal) x0 x1 x2 x5 x6 x7 x8 x9 x10
local notation "V132" => ReadP.val_main_v132 (F := Ideal) x0 x1 x2 x5 x6 x7 x8 x9 x10 x11 x12
local notation "V137" => ReadP.val_main_v137 (F := Ideal) x3 x13 x14
local notation "V138" => ReadP.val_main_v138 (F := Ideal) x0 x1 x2 x3 x4 x5 x6 x7 x8 x9 x10 x11 x12 x13 x14
local notation "V142" => ReadP.val_main_v142 (F := Ideal) x0 x1 x2 x3 x4 x5 x6 x7 x8 x9 x10 x11 x12 x13 x14
local notation "V149" => ReadP.val_main_v149 (F := Ideal) x0 x1 x2 x3 x4 x5 x6 x7 x8 x9 x10 x11 x12 x13 x14
local notation "V154" => ReadP.val_main_v154 (F := Ideal) x0 x1 x2 x3 x4 x5 x6 x7 x8 x9 x10 x11 x12 x13 x14
local notation "V156" => ReadP.val_main_v156 (F := Ideal) x0 x1 x2 x3 x4 x5 x6 x7 x8 x9 x10 x11 x12 x13 x14
local notation "V161" => ReadP.val_main_v161 (F := Ideal) x0 x1 x2 x3 x4 x5 x6 x7 x8 x9 x10 x11 x12 x13 x14 x15 x16
local notation "V170" => ReadP.val_main_v170 (F := Ideal) x0 x1 x2 x3 x4 x5 x6 x7 x8 x9 x10 x11 x12 x13 x14 x15 x16 x17 x18 x19 x20

theorem ref_head (g : Fin 16384) :
    Spec.a2 V170 g 0
      = Spec.headR (Spec.pool (Spec.a1 x2) (Spec.a2 V115))
          (Spec.a2 x3) (Spec.a2 x4) (Spec.a2 x11) (Spec.a1 x12) (Spec.a2 x13) (Spec.a1 x14) (Spec.a2 x15) (Spec.a1 x16)
          (Spec.a2 x17) (Spec.a1 x18) (Spec.a2 x19) (Spec.a1 x20) g := by
  have hc : ∀ (g : Fin 16384) (k : Fin 1137), V138 (ix2 g k)
      = Spec.comb (Spec.pool (Spec.a1 x2) (Spec.a2 V115)) (Spec.a2 x3) (Spec.a2 x4) (Spec.a2 x11) (Spec.a1 x12)
          (Spec.a2 x13) (Spec.a1 x14) g k := by
    intro g k
    rw [← pooled x0 x1 x2 x5 x6 x7 x8 x9 x10]
    exact comb_apply x0 x1 x2 x3 x4 x5 x6 x7 x8 x9 x10 x11 x12 x13 x14 g k
  have hn := norm_apply x0 x1 x2 x3 x4 x5 x6 x7 x8 x9 x10 x11 x12 x13 x14 _ _ _ _ _ _ _ hc
  have hh := h1_apply x0 x1 x2 x3 x4 x5 x6 x7 x8 x9 x10 x11 x12 x13 x14 x15 x16 _ _ _ _ _ _ _ hn
  have ht := tail_apply x0 x1 x2 x3 x4 x5 x6 x7 x8 x9 x10 x11 x12 x13 x14 x15 x16 x17 x18 x19 x20 _ hh g
  unfold Spec.headR
  exact ht

end Cert.ReferenceIdeal.RefHead

end
-- ==== Proof.HostPrefixRef.lean ====
/-
  The two programs compute the edge indices and the node scale by the same operations.

  The program with the kernels and the program without print the same operations, in the same order, for the source
  index, the destination index and the scale; the two texts name their shapes and dimension records separately, and
  the records are equal field by field. So each of the three arrays, as a function of the edge list, is the same
  function in both.
-/
import proofs.«171162_j59115929862199_2_alg».proof.Proof.HostPrefix
import proofs.«171162_j59115929862199_2_alg».proof.Proof.RefReadP

noncomputable section

namespace Cert.KernelIdeal.HostPrefix

open Cert.KernelIdeal Cert.KernelIdeal.Gen Idealize.ShloMosaic

/-- The source index is the same function of the edge list in both programs. -/
theorem srcT_eq_ref (a1 : (⟨S2x2097152, .i32⟩ : BufTy).Contents (Elt Ideal)) :
    srcT a1 = Cert.ReferenceIdeal.ReadP.val_main_v3 (F := Ideal) a1 := by
  unfold srcT srcRow srcSlice nodeIds
  unfold Cert.ReferenceIdeal.ReadP.val_main_v3 Cert.ReferenceIdeal.ReadP.val_main_v2
    Cert.ReferenceIdeal.ReadP.val_main_v1 Cert.ReferenceIdeal.ReadP.val_main_v0
  rfl

/-- The destination index is the same function of the edge list in both programs. -/
theorem dstT_eq_ref (a1 : (⟨S2x2097152, .i32⟩ : BufTy).Contents (Elt Ideal)) :
    dstT a1 = Cert.ReferenceIdeal.ReadP.val_main_v6 (F := Ideal) a1 := by
  unfold dstT dstRow dstSlice nodeIds
  unfold Cert.ReferenceIdeal.ReadP.val_main_v6 Cert.ReferenceIdeal.ReadP.val_main_v5
    Cert.ReferenceIdeal.ReadP.val_main_v4 Cert.ReferenceIdeal.ReadP.val_main_v0
  rfl

/-- The destination index as a column is the same in both programs. -/
theorem dstCol_eq_ref (a1 : (⟨S2x2097152, .i32⟩ : BufTy).Contents (Elt Ideal)) :
    dstCol a1 = Cert.ReferenceIdeal.ReadP.val_main_v9 (F := Ideal) a1 := by
  unfold dstCol Cert.ReferenceIdeal.ReadP.val_main_v9
  rw [dstT_eq_ref]

/-- The in-degree is the same in both programs. -/
theorem degT_eq_ref (a1 : (⟨S2x2097152, .i32⟩ : BufTy).Contents (Elt Ideal)) :
    degT a1 = Cert.ReferenceIdeal.ReadP.val_main_v10 (F := Ideal) a1 := by
  unfold degT Cert.ReferenceIdeal.ReadP.val_main_v10
  rw [dstCol_eq_ref]
  generalize Cert.ReferenceIdeal.ReadP.val_main_v9 (F := Ideal) a1 = idx
  unfold zerosN onesE zeroS oneS Cert.ReferenceIdeal.ReadP.val_main_v8 Cert.ReferenceIdeal.ReadP.val_main_v7
    Cert.ReferenceIdeal.ReadP.val_main_cst_0 Cert.ReferenceIdeal.ReadP.val_main_cst
  rfl

/-- The scale is the same function of the edge list in both programs. -/
theorem disT_eq_ref (a1 : (⟨S2x2097152, .i32⟩ : BufTy).Contents (Elt Ideal)) :
    disT a1 = Cert.ReferenceIdeal.ReadP.val_main_v16 (F := Ideal) a1 := by
  unfold disT posT rsqrtT clampT
  unfold Cert.ReferenceIdeal.ReadP.val_main_v16 Cert.ReferenceIdeal.ReadP.val_main_v12
    Cert.ReferenceIdeal.ReadP.val_main_v15 Cert.ReferenceIdeal.ReadP.val_main_v14
  rw [degT_eq_ref]
  generalize Cert.ReferenceIdeal.ReadP.val_main_v10 (F := Ideal) a1 = d
  unfold elseN zerosN onesN zeroS oneS Cert.ReferenceIdeal.ReadP.val_main_call0_v1
    Cert.ReferenceIdeal.ReadP.val_main_call0_v0 Cert.ReferenceIdeal.ReadP.val_main_cst_3
    Cert.ReferenceIdeal.ReadP.val_main_v11 Cert.ReferenceIdeal.ReadP.val_main_cst_1
    Cert.ReferenceIdeal.ReadP.val_main_v13 Cert.ReferenceIdeal.ReadP.val_main_cst_2
  rfl

end Cert.KernelIdeal.HostPrefix

end
-- ==== Proof.Bridge.lean ====
/-
  The two programs' results are equal.

  The reference's result, read element by element, is the specification with the product of the two per-node factors
  applied to each message and the dense head summed over the concatenated axis; the idealized kernel's is the
  specification with the factors applied separately and the head summed piece by piece; the graph's index arrays and
  the per-node scale are the same terms of `edge_index` in both programs, the scale is a non-negative real, and the
  specification's two readings then agree.
-/
import proofs.«171162_j59115929862199_2_alg».proof.Proof.KWalk
import proofs.«171162_j59115929862199_2_alg».proof.Proof.SpecLaws
import proofs.«171162_j59115929862199_2_alg».proof.Proof.RefGcn
import proofs.«171162_j59115929862199_2_alg».proof.Proof.RefHead
import proofs.«171162_j59115929862199_2_alg».proof.Proof.HostPrefixRef
import proofs.«171162_j59115929862199_2_alg».proof.Proof.RefReadP

set_option maxRecDepth 16384

noncomputable section

namespace Cert.Bridge

open Idealize.ShloMosaic Idealize.ShloMosaic.TcCoe Idealize.SL.Sem

/-- THE REFERENCE'S VALUE: its result is the specification's per-message reading of the arguments. -/
theorem ref_value (m' : (ℓ : Loc Cert.ReferenceIdeal.nD Cert.ReferenceIdeal.τ Cert.ReferenceIdeal.sig) → Buf (Elt Ideal) ℓ) (c : Dev Cert.ReferenceIdeal.nD) (g : Fin 16384) :
    Spec.a2 (Cert.ReferenceIdeal.ValueP.res_main_v170 (F := Ideal) m' c) g 0
      = Spec.outR (Spec.a1 (Cert.ReferenceIdeal.ReadP.val_main_v3 (F := Ideal) (m' ((c.tc : Thread Cert.ReferenceIdeal.nD Cert.ReferenceIdeal.τ).loc Cert.ReferenceIdeal.main_arg1)))) (Spec.a1 (Cert.ReferenceIdeal.ReadP.val_main_v6 (F := Ideal) (m' ((c.tc : Thread Cert.ReferenceIdeal.nD Cert.ReferenceIdeal.τ).loc Cert.ReferenceIdeal.main_arg1))))
          (Spec.a1 (Cert.ReferenceIdeal.ReadP.val_main_v16 (F := Ideal) (m' ((c.tc : Thread Cert.ReferenceIdeal.nD Cert.ReferenceIdeal.τ).loc Cert.ReferenceIdeal.main_arg1)))) (Spec.a1 (m' ((c.tc : Thread Cert.ReferenceIdeal.nD Cert.ReferenceIdeal.τ).loc Cert.ReferenceIdeal.main_arg2)))
          (Spec.a2 (m' ((c.tc : Thread Cert.ReferenceIdeal.nD Cert.ReferenceIdeal.τ).loc Cert.ReferenceIdeal.main_arg0))) (Spec.a2 (m' ((c.tc : Thread Cert.ReferenceIdeal.nD Cert.ReferenceIdeal.τ).loc Cert.ReferenceIdeal.main_arg5))) (Spec.a1 (m' ((c.tc : Thread Cert.ReferenceIdeal.nD Cert.ReferenceIdeal.τ).loc Cert.ReferenceIdeal.main_arg6))) (Spec.a2 (m' ((c.tc : Thread Cert.ReferenceIdeal.nD Cert.ReferenceIdeal.τ).loc Cert.ReferenceIdeal.main_arg7))) (Spec.a1 (m' ((c.tc : Thread Cert.ReferenceIdeal.nD Cert.ReferenceIdeal.τ).loc Cert.ReferenceIdeal.main_arg8))) (Spec.a2 (m' ((c.tc : Thread Cert.ReferenceIdeal.nD Cert.ReferenceIdeal.τ).loc Cert.ReferenceIdeal.main_arg9))) (Spec.a1 (m' ((c.tc : Thread Cert.ReferenceIdeal.nD Cert.ReferenceIdeal.τ).loc Cert.ReferenceIdeal.main_arg10)))
          (Spec.a2 (m' ((c.tc : Thread Cert.ReferenceIdeal.nD Cert.ReferenceIdeal.τ).loc Cert.ReferenceIdeal.main_arg3))) (Spec.a2 (m' ((c.tc : Thread Cert.ReferenceIdeal.nD Cert.ReferenceIdeal.τ).loc Cert.ReferenceIdeal.main_arg4))) (Spec.a2 (m' ((c.tc : Thread Cert.ReferenceIdeal.nD Cert.ReferenceIdeal.τ).loc Cert.ReferenceIdeal.main_arg11))) (Spec.a1 (m' ((c.tc : Thread Cert.ReferenceIdeal.nD Cert.ReferenceIdeal.τ).loc Cert.ReferenceIdeal.main_arg12))) (Spec.a2 (m' ((c.tc : Thread Cert.ReferenceIdeal.nD Cert.ReferenceIdeal.τ).loc Cert.ReferenceIdeal.main_arg13))) (Spec.a1 (m' ((c.tc : Thread Cert.ReferenceIdeal.nD Cert.ReferenceIdeal.τ).loc Cert.ReferenceIdeal.main_arg14)))
          (Spec.a2 (m' ((c.tc : Thread Cert.ReferenceIdeal.nD Cert.ReferenceIdeal.τ).loc Cert.ReferenceIdeal.main_arg15))) (Spec.a1 (m' ((c.tc : Thread Cert.ReferenceIdeal.nD Cert.ReferenceIdeal.τ).loc Cert.ReferenceIdeal.main_arg16))) (Spec.a2 (m' ((c.tc : Thread Cert.ReferenceIdeal.nD Cert.ReferenceIdeal.τ).loc Cert.ReferenceIdeal.main_arg17))) (Spec.a1 (m' ((c.tc : Thread Cert.ReferenceIdeal.nD Cert.ReferenceIdeal.τ).loc Cert.ReferenceIdeal.main_arg18))) (Spec.a2 (m' ((c.tc : Thread Cert.ReferenceIdeal.nD Cert.ReferenceIdeal.τ).loc Cert.ReferenceIdeal.main_arg19))) (Spec.a1 (m' ((c.tc : Thread Cert.ReferenceIdeal.nD Cert.ReferenceIdeal.τ).loc Cert.ReferenceIdeal.main_arg20))) g := by
  rw [Cert.ReferenceIdeal.ReadP.val_main_v170_eq, Cert.ReferenceIdeal.RefHead.ref_head, Cert.ReferenceIdeal.RefGcn.ref_gcn]
  rfl

/-- THE TWO RESULTS ARE EQUAL, element by element, from memories that agree on the arguments. -/
theorem values_agree (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0)))
    (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1)))
    (h2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2)))
    (h3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3)))
    (h4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4)))
    (h5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5)))
    (h6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6)))
    (h7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7)))
    (h8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8)))
    (h9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9)))
    (h10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10)))
    (h11 : (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11)))
    (h12 : (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12)))
    (h13 : (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13)))
    (h14 : (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14)))
    (h15 : (m' ((c.tc : Thread Cert.ReferenceIdeal.nD Cert.ReferenceIdeal.τ).loc Cert.ReferenceIdeal.main_arg15)) = (m ((c.tc : Thread Cert.KernelIdeal.nD Cert.KernelIdeal.τ).loc Cert.KernelIdeal.main_arg15)))
    (h16 : (m' ((c.tc : Thread Cert.ReferenceIdeal.nD Cert.ReferenceIdeal.τ).loc Cert.ReferenceIdeal.main_arg16)) = (m ((c.tc : Thread Cert.KernelIdeal.nD Cert.KernelIdeal.τ).loc Cert.KernelIdeal.main_arg16)))
    (h17 : (m' ((c.tc : Thread Cert.ReferenceIdeal.nD Cert.ReferenceIdeal.τ).loc Cert.ReferenceIdeal.main_arg17)) = (m ((c.tc : Thread Cert.KernelIdeal.nD Cert.KernelIdeal.τ).loc Cert.KernelIdeal.main_arg17)))
    (h18 : (m' ((c.tc : Thread Cert.ReferenceIdeal.nD Cert.ReferenceIdeal.τ).loc Cert.ReferenceIdeal.main_arg18)) = (m ((c.tc : Thread Cert.KernelIdeal.nD Cert.KernelIdeal.τ).loc Cert.KernelIdeal.main_arg18)))
    (h19 : (m' ((c.tc : Thread Cert.ReferenceIdeal.nD Cert.ReferenceIdeal.τ).loc Cert.ReferenceIdeal.main_arg19)) = (m ((c.tc : Thread Cert.KernelIdeal.nD Cert.KernelIdeal.τ).loc Cert.KernelIdeal.main_arg19)))
    (h20 : (m' ((c.tc : Thread Cert.ReferenceIdeal.nD Cert.ReferenceIdeal.τ).loc Cert.ReferenceIdeal.main_arg20)) = (m ((c.tc : Thread Cert.KernelIdeal.nD Cert.KernelIdeal.τ).loc Cert.KernelIdeal.main_arg20))) :
    Cert.ReferenceIdeal.ValueP.res_main_v170 (F := Ideal) m' c = Cert.KernelIdeal.Gen.W12 (F := Ideal) m ρ c (Proc.devRef .tc Cert.KernelIdeal.main_v70) := by
  funext i
  obtain ⟨g, z, rfl⟩ : ∃ (g : Fin 16384) (z : Fin 1), i = ValueIdx.ix2 g z := ⟨i 0, i 1, ValueIdx.eq_ix2 i⟩
  obtain rfl : z = 0 := Subsingleton.elim _ _
  show Spec.a2 (Cert.ReferenceIdeal.ValueP.res_main_v170 (F := Ideal) m' c) g 0 = Spec.a2 (Cert.KernelIdeal.Gen.W12 (F := Ideal) m ρ c (Proc.devRef .tc Cert.KernelIdeal.main_v70)) g 0
  rw [ref_value m' c g, Cert.KernelIdeal.KWalk.kernel_value m ρ c g,
    Spec.out_eq _ _ _ _ (fun n => Cert.KernelIdeal.HostPrefix.dis_nonneg _ n)]
  rw [h0, h1, h2, h3, h4, h5, h6, h7, h8, h9, h10, h11, h12, h13, h14, h15, h16, h17, h18, h19, h20]
  rw [← Cert.KernelIdeal.HostPrefix.srcT_eq_ref, ← Cert.KernelIdeal.HostPrefix.dstT_eq_ref, ← Cert.KernelIdeal.HostPrefix.disT_eq_ref]

end Cert.Bridge

end
-- ==== Proof.lean ====
/-
  The certificate's claims, assembled.

  The three frames: each kernel program's frame is its generated frame certificate; the reference has no kernel, and
  its frame is its run with the result dropped. The idealization rewrote nothing, so `preserves` is trivial.
  The algebraic claim: the idealized kernel ends with its result buffer at the last segment boundary's contents
  (the run of its twelve segments), the reference with its result at its operations' composed term; read element by
  element the first is the specification with the two per-node factors of the symmetric normalisation applied
  separately and the dense head summed piece by piece, the second the specification with their product applied per
  message and the head summed over the concatenated axis, and the two specifications agree because the per-node
  factor — the inverse square root of a count clamped below at one, or zero — is a non-negative real. No finiteness
  of the inputs is used.
-/
import proofs.«171162_j59115929862199_2_alg».proof.Defs
import proofs.«171162_j59115929862199_2_alg».proof.Proof.Gen.Kernel
import proofs.«171162_j59115929862199_2_alg».proof.Proof.Gen.Kernel.Skeleton
import proofs.«171162_j59115929862199_2_alg».proof.Proof.Gen.Kernel.Launch
import proofs.«171162_j59115929862199_2_alg».proof.Proof.Gen.Kernel.Points
import proofs.«171162_j59115929862199_2_alg».proof.Proof.Gen.Kernel.Frame
import proofs.«171162_j59115929862199_2_alg».proof.Proof.Gen.KernelIdeal
import proofs.«171162_j59115929862199_2_alg».proof.Proof.Gen.KernelIdeal.Skeleton
import proofs.«171162_j59115929862199_2_alg».proof.Proof.Gen.KernelIdeal.Launch
import proofs.«171162_j59115929862199_2_alg».proof.Proof.Gen.KernelIdeal.Points
import proofs.«171162_j59115929862199_2_alg».proof.Proof.Gen.KernelIdeal.Frame
import proofs.«171162_j59115929862199_2_alg».proof.Proof.Gen.ReferenceIdeal
import proofs.«171162_j59115929862199_2_alg».proof.Proof.Gen.Pre_finite_inputs
import proofs.«171162_j59115929862199_2_alg».proof.Proof.RefRunP
import proofs.«171162_j59115929862199_2_alg».proof.Proof.KRun
import proofs.«171162_j59115929862199_2_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.ValueP.run (F := Ideal) m ρ),
  trivial,
  fun m ρ m' ρ' _ hagree =>
    ⟨fun c => Cert.KernelIdeal.Gen.W12 (F := Ideal) m ρ c (Proc.devRef .tc Cert.KernelIdeal.main_v70),
      Cert.KernelIdeal.KRun.run_value (F := Ideal) m ρ,
      (θ_run Cert.ReferenceIdeal.defs _ _).mono
        (fun _ h c => ⟨(h c).1.trans (Cert.Bridge.values_agree m ρ m' c
            (hagree c).1 (hagree c).2.1 (hagree c).2.2.1 (hagree c).2.2.2.1 (hagree c).2.2.2.2.1 (hagree c).2.2.2.2.2.1
            (hagree c).2.2.2.2.2.2.1 (hagree c).2.2.2.2.2.2.2.1 (hagree c).2.2.2.2.2.2.2.2.1 (hagree c).2.2.2.2.2.2.2.2.2.1
            (hagree c).2.2.2.2.2.2.2.2.2.2.1 (hagree c).2.2.2.2.2.2.2.2.2.2.2.1 (hagree c).2.2.2.2.2.2.2.2.2.2.2.2.1
            (hagree c).2.2.2.2.2.2.2.2.2.2.2.2.2.1 (hagree c).2.2.2.2.2.2.2.2.2.2.2.2.2.2.1 (hagree c).2.2.2.2.2.2.2.2.2.2.2.2.2.2.2.1
            (hagree c).2.2.2.2.2.2.2.2.2.2.2.2.2.2.2.2.1 (hagree c).2.2.2.2.2.2.2.2.2.2.2.2.2.2.2.2.2.1
            (hagree c).2.2.2.2.2.2.2.2.2.2.2.2.2.2.2.2.2.2.1 (hagree c).2.2.2.2.2.2.2.2.2.2.2.2.2.2.2.2.2.2.2.1
            (hagree c).2.2.2.2.2.2.2.2.2.2.2.2.2.2.2.2.2.2.2.2), (h c).2⟩)
        (Cert.ReferenceIdeal.ValueP.run (F := Ideal) m' ρ')⟩⟩

end Cert.Proof

end
